-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S115200x1 : Shape := ⟨2, ![115200, 1]⟩
abbrev S2x921600 : Shape := ⟨2, ![2, 921600]⟩
abbrev S115200 : Shape := ⟨1, ![115200]⟩
abbrev S1x256 : Shape := ⟨2, ![1, 256]⟩
abbrev S256 : Shape := ⟨1, ![256]⟩
abbrev S256x256 : Shape := ⟨2, ![256, 256]⟩
abbrev S769x512 : Shape := ⟨2, ![769, 512]⟩
abbrev S512 : Shape := ⟨1, ![512]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S115200x1 : S_.BroadcastsInDim S115200x1 (![] : Fin 0 → Fin S115200x1.rank)
  reducesTo_S115200x1_S_d0_1 : S115200x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S769x512 : S_.BroadcastsInDim S769x512 (![] : Fin 0 → Fin S769x512.rank)
  reducesTo_S769x512_S_d0_1 : S769x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S1 .f32) (main_arg21 : FVec F S256x1 .f32) (main_arg22 : FVec F S1 .f32) (main_v83 : IVec S_ 1) (main_v84 : FVec F S256x1 .f32) (main_cst_32 : FVec F S_ .f32) : IVec S_ 1 :=
  let main_v85 : FVec F S256x1 .f32 := broadcastInDim S256x1 ![] bcast_S_S256x1 main_cst_32
  let main_v86 : IVec S256x1 1 := cmpf .olt main_v84 main_v85
  let main_c_33 : IVec S_ 1 := constantI S_ 1 1#1
  let main_v87 : IVec S_ 1 := (fun x v => Host.reduce IntOp.andi x v reducesTo_S256x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S256x1 .f32 := Host.absf main_arg21
  let main_cst_36 : FVec F S_ .f32 := constant S_ .f32 0x7F800000#32
  let main_v95 : FVec F S256x1 .f32 := broadcastInDim S256x1 ![] bcast_S_S256x1 main_cst_36
  let main_v96 : IVec S256x1 1 := cmpf .olt main_v94 main_v95
  let main_c_37 : IVec S_ 1 := constantI S_ 1 1#1
  let main_v97 : IVec S_ 1 := (fun x v => Host.reduce IntOp.andi x v reducesTo_S256x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg16 : FVec F S512 .f32) (main_arg17 : FVec F S256 .f32) (main_arg18 : FVec F S256 .f32) (main_arg19 : FVec F S256x1 .f32) (main_arg20 : FVec F S1 .f32) (main_arg21 : FVec F S256x1 .f32) (main_arg22 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x1 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S512x256 .f32) (main_arg14 : FVec F S256 .f32) (main_arg15 : FVec F S512 .f32) (main_arg16 : FVec F S512 .f32) (main_arg17 : FVec F S256 .f32) (main_arg18 : FVec F S256 .f32) (main_arg19 : FVec F S256x1 .f32) (main_arg20 : FVec F S1 .f32) (main_arg21 : FVec F S256x1 .f32) (main_arg22 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x256 .f32 := Host.absf main_arg13
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S512 .f32 := Host.absf main_arg15
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg16 main_arg17 main_arg18 main_arg19 main_arg20 main_arg21 main_arg22 main_v63 main_v67

def fn_part2 {F : FTy → Type} [FloatOps F] (main_arg9 : FVec F S256 .f32) (main_arg10 : FVec F S256 .f32) (main_arg11 : FVec F S769x512 .f32) (main_arg12 : FVec F S512 .f32) (main_arg13 : FVec F S512x256 .f32) (main_arg14 : FVec F S256 .f32) (main_arg15 : FVec F S512 .f32) (main_arg16 : FVec F S512 .f32) (main_arg17 : FVec F S256 .f32) (main_arg18 : FVec F S256 .f32) (main_arg19 : FVec F S256x1 .f32) (main_arg20 : FVec F S1 .f32) (main_arg21 : FVec F S256x1 .f32) (main_arg22 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S769x512 .f32 := Host.absf main_arg11
  let main_cst_16 : FVec F S_ .f32 := constant S_ .f32 0x7F800000#32
  let main_v45 : FVec F S769x512 .f32 := broadcastInDim S769x512 ![] bcast_S_S769x512 main_cst_16
  let main_v46 : IVec S769x512 1 := cmpf .olt main_v44 main_v45
  let main_c_17 : IVec S_ 1 := constantI S_ 1 1#1
  let main_v47 : IVec S_ 1 := (fun x v => Host.reduce IntOp.andi x v reducesTo_S769x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S769x512 .f32) (main_arg12 : FVec F S512 .f32) (main_arg13 : FVec F S512x256 .f32) (main_arg14 : FVec F S256 .f32) (main_arg15 : FVec F S512 .f32) (main_arg16 : FVec F S512 .f32) (main_arg17 : FVec F S256 .f32) (main_arg18 : FVec F S256 .f32) (main_arg19 : FVec F S256x1 .f32) (main_arg20 : FVec F S1 .f32) (main_arg21 : FVec F S256x1 .f32) (main_arg22 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S115200x1 .f32) (main_arg1 : IVec S2x921600 32) (main_arg2 : IVec S115200 32) (main_arg3 : FVec F S1x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S769x512 .f32) (main_arg12 : FVec F S512 .f32) (main_arg13 : FVec F S512x256 .f32) (main_arg14 : FVec F S256 .f32) (main_arg15 : FVec F S512 .f32) (main_arg16 : FVec F S512 .f32) (main_arg17 : FVec F S256 .f32) (main_arg18 : FVec F S256 .f32) (main_arg19 : FVec F S256x1 .f32) (main_arg20 : FVec F S1 .f32) (main_arg21 : FVec F S256x1 .f32) (main_arg22 : FVec F S1 .f32) : IVec S_ 1 :=
  let main_v0 : FVec F S115200x1 .f32 := Host.absf main_arg0
  let main_cst : FVec F S_ .f32 := constant S_ .f32 0x7F800000#32
  let main_v1 : FVec F S115200x1 .f32 := broadcastInDim S115200x1 ![] bcast_S_S115200x1 main_cst
  let main_v2 : IVec S115200x1 1 := cmpf .olt main_v0 main_v1
  let main_c : IVec S_ 1 := constantI S_ 1 1#1
  let main_v3 : IVec S_ 1 := (fun x v => Host.reduce IntOp.andi x v reducesTo_S115200x1_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S115200x1 : Shape := ⟨2, ![115200, 1]⟩
abbrev S2x921600 : Shape := ⟨2, ![2, 921600]⟩
abbrev S115200 : Shape := ⟨1, ![115200]⟩
abbrev S1x256 : Shape := ⟨2, ![1, 256]⟩
abbrev S256 : Shape := ⟨1, ![256]⟩
abbrev S256x256 : Shape := ⟨2, ![256, 256]⟩
abbrev S769x512 : Shape := ⟨2, ![769, 512]⟩
abbrev S512 : Shape := ⟨1, ![512]⟩
abbrev S512x256 : Shape := ⟨2, ![512, 256]⟩
abbrev S256x1 : Shape := ⟨2, ![256, 1]⟩
abbrev S1 : Shape := ⟨1, ![1]⟩
abbrev S1x921600 : Shape := ⟨2, ![1, 921600]⟩
abbrev S921600 : Shape := ⟨1, ![921600]⟩
abbrev S_ : Shape := ⟨0, ![]⟩
abbrev S921600x1 : Shape := ⟨2, ![921600, 1]⟩
abbrev S115200x256 : Shape := ⟨2, ![115200, 256]⟩
abbrev S1152x1 : Shape := ⟨2, ![1152, 1]⟩
abbrev S1152x256 : Shape := ⟨2, ![1152, 256]⟩
abbrev S1152 : Shape := ⟨1, ![1152]⟩
abbrev S921600x256 : Shape := ⟨2, ![921600, 256]⟩
abbrev S1x512 : Shape := ⟨2, ![1, 512]⟩
abbrev S256x512 : Shape := ⟨2, ![256, 512]⟩
abbrev S115200x512 : Shape := ⟨2, ![115200, 512]⟩
abbrev S1152x512 : Shape := ⟨2, ![1152, 512]⟩
abbrev S1x1 : Shape := ⟨2, ![1, 1]⟩
abbrev S512x1 : Shape := ⟨2, ![512, 1]⟩

abbrev nBuf : Space → Nat
  | .hbm => 146
  | .vmem => 81
  | .smem => 0
  | _ => 0

abbrev hbmTy0_0 (i : Nat) : BufTy := match i % 128 with
  | 0 => ⟨S115200x1, .f32⟩
  | 1 => ⟨S2x921600, .i32⟩
  | 2 => ⟨S115200, .i32⟩
  | 3 => ⟨S1x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S769x512, .f32⟩
  | 12 => ⟨S512, .f32⟩
  | 13 => ⟨S512x256, .f32⟩
  | 14 => ⟨S256, .f32⟩
  | 15 => ⟨S512, .f32⟩
  | 16 => ⟨S512, .f32⟩
  | 17 => ⟨S256, .f32⟩
  | 18 => ⟨S256, .f32⟩
  | 19 => ⟨S256x1, .f32⟩
  | 20 => ⟨S1, .f32⟩
  | 21 => ⟨S256x1, .f32⟩
  | 22 => ⟨S1, .f32⟩
  | 23 => ⟨S1x921600, .i32⟩
  | 24 => ⟨S921600, .i32⟩
  | 25 => ⟨S1x921600, .i32⟩
  | 26 => ⟨S921600, .i32⟩
  | 27 => ⟨S_, .i32⟩
  | 28 => ⟨S921600, .i32⟩
  | 29 => ⟨S921600, .i1⟩
  | 30 => ⟨S_, .i32⟩
  | 31 => ⟨S921600, .i32⟩
  | 32 => ⟨S921600, .i32⟩
  | 33 => ⟨S921600, .i32⟩
  | 34 => ⟨S921600x1, .i32⟩
  | 35 => ⟨S921600x1, .f32⟩
  | 36 => ⟨S_, .f32⟩
  | 37 => ⟨S115200x1, .f32⟩
  | 38 => ⟨S921600x1, .i32⟩
  | 39 => ⟨S115200x1, .f32⟩
  | 40 => ⟨S1x256, .f32⟩
  | 41 => ⟨S1x256, .f32⟩
  | 42 => ⟨S1x256, .f32⟩
  | 43 => ⟨S115200x256, .f32⟩
  | 44 => ⟨S_, .i32⟩
  | 45 => ⟨S921600, .i32⟩
  | 46 => ⟨S921600, .i1⟩
  | 47 => ⟨S_, .i32⟩
  | 48 => ⟨S921600, .i32⟩
  | 49 => ⟨S921600, .i32⟩
  | 50 => ⟨S921600, .i32⟩
  | 51 => ⟨S921600x1, .i32⟩
  | 52 => ⟨S921600x256, .f32⟩
  | 53 => ⟨S_, .f32⟩
  | 54 => ⟨S115200x256, .f32⟩
  | 55 => ⟨S921600x1, .i32⟩
  | 56 => ⟨S115200x256, .f32⟩
  | 57 => ⟨S1x256, .f32⟩
  | 58 => ⟨S1x256, .f32⟩
  | 59 => ⟨S1x256, .f32⟩
  | 60 => ⟨S115200x256, .f32⟩
  | 61 => ⟨S_, .i32⟩
  | 62 => ⟨S921600, .i32⟩
  | 63 => ⟨S921600, .i1⟩
  | 64 => ⟨S_, .i32⟩
  | 65 => ⟨S921600, .i32⟩
  | 66 => ⟨S921600, .i32⟩
  | 67 => ⟨S921600, .i32⟩
  | 68 => ⟨S921600x1, .i32⟩
  | 69 => ⟨S921600x256, .f32⟩
  | 70 => ⟨S_, .f32⟩
  | 71 => ⟨S115200x256, .f32⟩
  | 72 => ⟨S921600x1, .i32⟩
  | 73 => ⟨S115200x256, .f32⟩
  | 74 => ⟨S1x256, .f32⟩
  | 75 => ⟨S1x256, .f32⟩
  | 76 => ⟨S1x256, .f32⟩
  | 77 => ⟨S115200x256, .f32⟩
  | 78 => ⟨S1x512, .f32⟩
  | 79 => ⟨S256x512, .f32⟩
  | 80 => ⟨S256x512, .f32⟩
  | 81 => ⟨S256x512, .f32⟩
  | 82 => ⟨S1x512, .f32⟩
  | 83 => ⟨S115200x512, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S1x512, .f32⟩
  | 93 => ⟨S1x512, .f32⟩
  | 94 => ⟨S1x512, .f32⟩
  | 95 => ⟨S1x512, .f32⟩
  | 96 => ⟨S115200x512, .f32⟩
  | 97 => ⟨S1x256, .f32⟩
  | 98 => ⟨S115200x256, .f32⟩
  | 99 => ⟨S1x256, .f32⟩
  | 100 => ⟨S1x256, .f32⟩
  | 101 => ⟨S_, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S1x256, .f32⟩
  | 108 => ⟨S1x256, .f32⟩
  | 109 => ⟨S1x256, .f32⟩
  | 110 => ⟨S1x256, .f32⟩
  | 111 => ⟨S115200x256, .f32⟩
  | 112 => ⟨S1x1, .f32⟩
  | 113 => ⟨S1x1, .f32⟩
  | 114 => ⟨S115200x1, .f32⟩
  | 115 => ⟨S115200x1, .f32⟩
  | 116 => ⟨S_, .f32⟩
  | 117 => ⟨S1, .f32⟩
  | 118 => ⟨S_, .f32⟩
  | 119 => ⟨S1, .f32⟩
  | 120 => ⟨S1, .f32⟩
  | 121 => ⟨S1x1, .f32⟩
  | 122 => ⟨S115200x1, .f32⟩
  | 123 => ⟨S115200x1, .f32⟩
  | 124 => ⟨S115200x1, .f32⟩
  | 125 => ⟨S_, .f32⟩
  | 126 => ⟨S1, .f32⟩
  | 127 => ⟨S1x1, .f32⟩
  | _ => ⟨S115200x1, .f32⟩

abbrev hbmTy0_1 (i : Nat) : BufTy := match i % 128 with
  | 0 => ⟨S1x1, .f32⟩
  | 1 => ⟨S115200x1, .f32⟩
  | 2 => ⟨S115200x1, .f32⟩
  | 3 => ⟨S_, .f32⟩
  | 4 => ⟨S512x1, .f32⟩
  | 5 => ⟨S115200x1, .i32⟩
  | 6 => ⟨S512x1, .f32⟩
  | 7 => ⟨S_, .f32⟩
  | 8 => ⟨S115200x1, .f32⟩
  | 9 => ⟨S_, .f32⟩
  | 10 => ⟨S512x1, .f32⟩
  | 11 => ⟨S115200x1, .i32⟩
  | 12 => ⟨S512x1, .f32⟩
  | 13 => ⟨S_, .f32⟩
  | 14 => ⟨S512x1, .f32⟩
  | 15 => ⟨S512x1, .f32⟩
  | 16 => ⟨S512x1, .f32⟩
  | 17 => ⟨S512x1, .f32⟩
  | _ => ⟨S115200x1, .f32⟩

abbrev hbmTy (i : Nat) : BufTy := match i / 128 with
  | 0 => hbmTy0_0 i
  | 1 => hbmTy0_1 i
  | _ => ⟨S115200x1, .f32⟩

abbrev bufTy : (tb : Table) → Fin (tcTables nBuf tb) → BufTy
  | .hbm, ⟨i, _⟩ => hbmTy i
  | .local _ .vmem, ⟨0, _⟩ => ⟨S1152x1, .f32⟩
  | .local _ .vmem, ⟨1, _⟩ => ⟨S1152x1, .f32⟩
  | .local _ .vmem, ⟨2, _⟩ => ⟨S1152x1, .f32⟩
  | .local _ .vmem, ⟨3, _⟩ => ⟨S1152x1, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1152x256, .f32⟩
  | .local _ .vmem, ⟨9, _⟩ => ⟨S1152x256, .f32⟩
  | .local _ .vmem, ⟨10, _⟩ => ⟨S1152x256, .f32⟩
  | .local _ .vmem, ⟨11, _⟩ => ⟨S1152x256, .f32⟩
  | .local _ .vmem, ⟨12, _⟩ => ⟨S1152x256, .f32⟩
  | .local _ .vmem, ⟨13, _⟩ => ⟨S1152x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1152x256, .f32⟩
  | .local _ .vmem, ⟨19, _⟩ => ⟨S1152x256, .f32⟩
  | .local _ .vmem, ⟨20, _⟩ => ⟨S1152x256, .f32⟩
  | .local _ .vmem, ⟨21, _⟩ => ⟨S1152x256, .f32⟩
  | .local _ .vmem, ⟨22, _⟩ => ⟨S1152x256, .f32⟩
  | .local _ .vmem, ⟨23, _⟩ => ⟨S1152x256, .f32⟩
  | .local _ .vmem, ⟨24, _⟩ => ⟨S256x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1152x256, .f32⟩
  | .local _ .vmem, ⟨29, _⟩ => ⟨S1152x256, .f32⟩
  | .local _ .vmem, ⟨30, _⟩ => ⟨S1152x1, .f32⟩
  | .local _ .vmem, ⟨31, _⟩ => ⟨S1152x1, .f32⟩
  | .local _ .vmem, ⟨32, _⟩ => ⟨S1152x256, .f32⟩
  | .local _ .vmem, ⟨33, _⟩ => ⟨S1152x256, .f32⟩
  | .local _ .vmem, ⟨34, _⟩ => ⟨S1152x256, .f32⟩
  | .local _ .vmem, ⟨35, _⟩ => ⟨S1152x256, .f32⟩
  | .local _ .vmem, ⟨36, _⟩ => ⟨S1152x256, .f32⟩
  | .local _ .vmem, ⟨37, _⟩ => ⟨S1152x256, .f32⟩
  | .local _ .vmem, ⟨38, _⟩ => ⟨S1x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | .local _ .vmem, ⟨42, _⟩ => ⟨S1x512, .f32⟩
  | .local _ .vmem, ⟨43, _⟩ => ⟨S1152x512, .f32⟩
  | .local _ .vmem, ⟨44, _⟩ => ⟨S1152x512, .f32⟩
  | .local _ .vmem, ⟨45, _⟩ => ⟨S1x512, .f32⟩
  | .local _ .vmem, ⟨46, _⟩ => ⟨S1x512, .f32⟩
  | .local _ .vmem, ⟨47, _⟩ => ⟨S1152x512, .f32⟩
  | .local _ .vmem, ⟨48, _⟩ => ⟨S1152x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S1x512, .f32⟩
  | .local _ .vmem, ⟨53, _⟩ => ⟨S1152x512, .f32⟩
  | .local _ .vmem, ⟨54, _⟩ => ⟨S1152x512, .f32⟩
  | .local _ .vmem, ⟨55, _⟩ => ⟨S1152x512, .f32⟩
  | .local _ .vmem, ⟨56, _⟩ => ⟨S1152x512, .f32⟩
  | .local _ .vmem, ⟨57, _⟩ => ⟨S512x256, .f32⟩
  | .local _ .vmem, ⟨58, _⟩ => ⟨S1x256, .f32⟩
  | .local _ .vmem, ⟨59, _⟩ => ⟨S1152x256, .f32⟩
  | .local _ .vmem, ⟨60, _⟩ => ⟨S1152x256, .f32⟩
  | .local _ .vmem, ⟨61, _⟩ => ⟨S1x256, .f32⟩
  | .local _ .vmem, ⟨62, _⟩ => ⟨S1x256, .f32⟩
  | .local _ .vmem, ⟨63, _⟩ => ⟨S1152x256, .f32⟩
  | .local _ .vmem, ⟨64, _⟩ => ⟨S1152x256, .f32⟩
  | .local _ .vmem, ⟨65, _⟩ => ⟨S1x256, .f32⟩
  | .local _ .vmem, ⟨66, _⟩ => ⟨S1x256, .f32⟩
  | .local _ .vmem, ⟨67, _⟩ => ⟨S1x256, .f32⟩
  | .local _ .vmem, ⟨68, _⟩ => ⟨S1x256, .f32⟩
  | .local _ .vmem, ⟨69, _⟩ => ⟨S1152x256, .f32⟩
  | .local _ .vmem, ⟨70, _⟩ => ⟨S1152x256, .f32⟩
  | .local _ .vmem, ⟨71, _⟩ => ⟨S1152x256, .f32⟩
  | .local _ .vmem, ⟨72, _⟩ => ⟨S1152x256, .f32⟩
  | .local _ .vmem, ⟨73, _⟩ => ⟨S256x1, .f32⟩
  | .local _ .vmem, ⟨74, _⟩ => ⟨S1x1, .f32⟩
  | .local _ .vmem, ⟨75, _⟩ => ⟨S256x1, .f32⟩
  | .local _ .vmem, ⟨76, _⟩ => ⟨S1x1, .f32⟩
  | .local _ .vmem, ⟨77, _⟩ => ⟨S1152x1, .f32⟩
  | .local _ .vmem, ⟨78, _⟩ => ⟨S1152x1, .f32⟩
  | .local _ .vmem, ⟨79, _⟩ => ⟨S1152x1, .f32⟩
  | .local _ .vmem, ⟨80, _⟩ => ⟨S1152x1, .f32⟩
  | _, _ => ⟨S115200x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_1 : Ref sig .tc := ⟨.hbm, 44, rfl⟩
abbrev main_v18 : Ref sig .tc := ⟨.hbm, 45, rfl⟩
abbrev main_v19 : Ref sig .tc := ⟨.hbm, 46, rfl⟩
abbrev main_c_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_4 : Ref sig .tc := ⟨.hbm, 61, rfl⟩
abbrev main_v32 : Ref sig .tc := ⟨.hbm, 62, rfl⟩
abbrev main_v33 : Ref sig .tc := ⟨.hbm, 63, rfl⟩
abbrev main_c_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51_0 : Ref sig .tc := ⟨.hbm, 83, rfl⟩
abbrev main_v51_1 : Ref sig .tc := ⟨.hbm, 84, rfl⟩
abbrev main_v51_2 : Ref sig .tc := ⟨.hbm, 85, rfl⟩
abbrev main_cst_7 : Ref sig .tc := ⟨.hbm, 86, rfl⟩
abbrev main_v52 : Ref sig .tc := ⟨.hbm, 87, rfl⟩
abbrev main_v53 : Ref sig .tc := ⟨.hbm, 88, rfl⟩
abbrev main_cst_8 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62_0 : Ref sig .tc := ⟨.hbm, 98, rfl⟩
abbrev main_v62_1 : Ref sig .tc := ⟨.hbm, 99, rfl⟩
abbrev main_v62_2 : Ref sig .tc := ⟨.hbm, 100, rfl⟩
abbrev main_cst_9 : Ref sig .tc := ⟨.hbm, 101, rfl⟩
abbrev main_v63 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74_0 : Ref sig .tc := ⟨.hbm, 114, rfl⟩
abbrev main_v74_1 : Ref sig .tc := ⟨.hbm, 115, rfl⟩
abbrev main_call0_cst : Ref sig .tc := ⟨.hbm, 116, rfl⟩
abbrev main_call0_v0 : Ref sig .tc := ⟨.hbm, 117, rfl⟩
abbrev main_call0_cst_0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_call0_v5 : Ref sig .tc := ⟨.hbm, 123, rfl⟩
abbrev main_call0_v6 : Ref sig .tc := ⟨.hbm, 124, rfl⟩
abbrev main_call0_cst_1 : Ref sig .tc := ⟨.hbm, 125, rfl⟩
abbrev main_call0_v7 : Ref sig .tc := ⟨.hbm, 126, rfl⟩
abbrev main_call0_v8 : Ref sig .tc := ⟨.hbm, 127, rfl⟩
abbrev main_call0_v9 : Ref sig .tc := ⟨.hbm, 128, rfl⟩
abbrev main_call0_v10 : Ref sig .tc := ⟨.hbm, 129, rfl⟩
abbrev main_v75 : Ref sig .tc := ⟨.hbm, 130, rfl⟩
abbrev main_cst_11 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_12 : Ref sig .tc := ⟨.hbm, 135, rfl⟩
abbrev main_v79 : Ref sig .tc := ⟨.hbm, 136, rfl⟩
abbrev main_cst_13 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_14 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg9_1 : Ref sig .tc := ⟨.vmem, 44, rfl⟩
abbrev cc3_stg10_0 : Ref sig .tc := ⟨.vmem, 45, rfl⟩
abbrev cc3_stg11_0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg5_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg3_1 : Ref sig .tc := ⟨.vmem, 60, rfl⟩
abbrev cc5_stg4_0 : Ref sig .tc := ⟨.vmem, 61, rfl⟩
abbrev cc5_stg5_0 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg5_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg5_1 : Ref sig .tc := ⟨.vmem, 78, rfl⟩
abbrev cc7_stg6_0 : Ref sig .tc := ⟨.vmem, 79, rfl⟩
abbrev cc7_stg6_1 : Ref sig .tc := ⟨.vmem, 80, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem9_1 : DmaSem sig := 44
abbrev cc3_sem10_0 : DmaSem sig := 45
abbrev cc3_sem11_0 : DmaSem sig := 46
abbrev cc4_sem0_0 : DmaSem sig := 47
abbrev cc4_sem0_1 : DmaSem sig := 48
abbrev cc4_sem1_0 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem5_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem3_1 : DmaSem sig := 60
abbrev cc5_sem4_0 : DmaSem sig := 61
abbrev cc5_sem5_0 : DmaSem sig := 62
abbrev cc6_sem0_0 : DmaSem sig := 63
abbrev cc6_sem0_1 : DmaSem sig := 64
abbrev cc6_sem1_0 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem5_1 : DmaSem sig := 70
abbrev cc7_sem0_0 : DmaSem sig := 71
abbrev cc7_sem0_1 : DmaSem sig := 72
abbrev cc7_sem1_0 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem5_1 : DmaSem sig := 78
abbrev cc7_sem6_0 : DmaSem sig := 79
abbrev cc7_sem6_1 : DmaSem sig := 80

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1152x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1152x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1152x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1152x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1152x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1152x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1152x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1152x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1152x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1152x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1152x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1152x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1152x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1152x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1152x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1152x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1152x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1152x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1152x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1152x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1152x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1152x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x921600_S1x921600_0_0 : S2x921600.Slices ![0, 0] S1x921600
  shapeCasts_S1x921600_S921600 : S1x921600.ShapeCasts S921600
  slices_S2x921600_S1x921600_1_0 : S2x921600.Slices ![1, 0] S1x921600
  bcast_S_S921600 : S_.BroadcastsInDim S921600 (![] : Fin 0 → Fin S921600.rank)
  bcast_S921600_S921600x1_0 : S921600.BroadcastsInDim S921600x1 (![0] : Fin 1 → Fin S921600x1.rank)
  bcast_S_S115200x1 : S_.BroadcastsInDim S115200x1 (![] : Fin 0 → Fin S115200x1.rank)
  shapeCasts_S256_S1x256 : S256.ShapeCasts S1x256
  inb_S1152x1_S1152x1_0_0 : ∀ a, (![0, 0] : Fin 2 → Nat) a + S1152x1.size a ≤ S1152x1.size a
  h_S1152x1 : 0 < S1152x1.numel
  shapeCasts_S1152x1_S1152x1 : S1152x1.ShapeCasts S1152x1
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1152x256 : S1x256.Broadcasts S1152x256
  reduces_S1152x256_S1152 : S1152x256.Reduces [1] S1152
  shapeCasts_S1152_S1152x1 : S1152.ShapeCasts S1152x1
  broadcasts_S1152x1_S1152x256 : S1152x1.Broadcasts S1152x256
  inb_S1152x256_S1152x256_0_0 : ∀ a, (![0, 0] : Fin 2 → Nat) a + S1152x256.size a ≤ S1152x256.size a
  h_S1152x256 : 0 < S1152x256.numel
  bcast_S_S115200x256 : S_.BroadcastsInDim S115200x256 (![] : Fin 0 → Fin S115200x256.rank)
  shapeCasts_S1152x256_S1152x256 : S1152x256.ShapeCasts S1152x256
  inb_S256x256_S256x256_0_0 : ∀ a, (![0, 0] : Fin 2 → Nat) a + S256x256.size a ≤ S256x256.size a
  h_S256x256 : 0 < S256x256.numel
  slices_S769x512_S1x512_0_0 : S769x512.Slices ![0, 0] S1x512
  slices_S769x512_S256x512_1_0 : S769x512.Slices ![1, 0] S256x512
  slices_S769x512_S256x512_257_0 : S769x512.Slices ![257, 0] S256x512
  slices_S769x512_S256x512_513_0 : S769x512.Slices ![513, 0] S256x512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S1152x512 : S1x512.Broadcasts S1152x512
  inb_S1152x512_S1152x512_0_0 : ∀ a, (![0, 0] : Fin 2 → Nat) a + S1152x512.size a ≤ S1152x512.size a
  h_S1152x512 : 0 < S1152x512.numel
  reduces_S1152x512_S512 : S1152x512.Reduces [0] S512
  bcast_S_S1x512 : S_.BroadcastsInDim S1x512 (![] : Fin 0 → Fin S1x512.rank)
  shapeCasts_S1152x512_S1152x512 : S1152x512.ShapeCasts S1152x512
  inb_S512x256_S512x256_0_0 : ∀ a, (![0, 0] : Fin 2 → Nat) a + S512x256.size a ≤ S512x256.size a
  h_S512x256 : 0 < S512x256.numel
  reduces_S1152x256_S256 : S1152x256.Reduces [0] S256
  bcast_S_S1x256 : S_.BroadcastsInDim S1x256 (![] : Fin 0 → Fin S1x256.rank)
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1152x1 : S1x1.Broadcasts S1152x1
  reducesTo_S115200x1_S1_d0 : S115200x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S115200x1_0_1 : S1x1.BroadcastsInDim S115200x1 (![0, 1] : Fin 2 → Fin S115200x1.rank)
  bcast_S_S512x1 : S_.BroadcastsInDim S512x1 (![] : Fin 0 → Fin S512x1.rank)
  bcast_S115200_S115200x1_0 : S115200.BroadcastsInDim S115200x1 (![0] : Fin 1 → Fin S115200x1.rank)
  gather_S115200x1_S921600x1_S921600x1_1_0_n_n_0_1_11_wf : GatherDims.WF S115200x1 S921600x1 S921600x1 [1] [0] [] [0] [] 1 ![1, 1]
  scatter_S115200x1_S921600x1_S921600x1_1_0_0_1_wf : ScatterDims.WF S115200x1 S921600x1 S921600x1 [1] [0] [0] 1
  dot_S1152x1_S1x256_S1152x256_1_0_0_1_n_n_wf : DotDims.WF S1152x1 S1x256 S1152x256 [1] [0] [0] [1] [] []
  gather_S115200x256_S921600x1_S921600x256_1_0_n_n_0_1_1256_wf : GatherDims.WF S115200x256 S921600x1 S921600x256 [1] [0] [] [0] [] 1 ![1, 256]
  scatter_S115200x256_S921600x1_S921600x256_1_0_0_1_wf : ScatterDims.WF S115200x256 S921600x1 S921600x256 [1] [0] [0] 1
  dot_S1152x256_S256x256_S1152x256_1_0_0_1_n_n_wf : DotDims.WF S1152x256 S256x256 S1152x256 [1] [0] [0] [1] [] []
  dot_S1152x1_S1x512_S1152x512_1_0_0_1_n_n_wf : DotDims.WF S1152x1 S1x512 S1152x512 [1] [0] [0] [1] [] []
  dot_S1152x256_S256x512_S1152x512_1_0_0_1_n_n_wf : DotDims.WF S1152x256 S256x512 S1152x512 [1] [0] [0] [1] [] []
  dot_S1152x512_S512x256_S1152x256_1_0_0_1_n_n_wf : DotDims.WF S1152x512 S512x256 S1152x256 [1] [0] [0] [1] [] []
  dot_S1152x256_S256x1_S1152x1_1_0_0_1_n_n_wf : DotDims.WF S1152x256 S256x1 S1152x1 [1] [0] [0] [1] [] []
  scatter_S512x1_S115200x1_S115200x1_1_0_0_1_wf : ScatterDims.WF S512x1 S115200x1 S115200x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1152x1.size a ≤ S115200x1.size a
  hwx0_0 : ∀ i : grid0.Coords, EltTy.bits .f32 = 32 ∨ (Rect.block (s := S115200x1) S1152x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1152x1.size a ≤ S115200x1.size a
  hwx0_1 : ∀ i : grid0.Coords, EltTy.bits .f32 = 32 ∨ (Rect.block (s := S115200x1) S1152x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1152x256.size a ≤ S115200x256.size a
  hwx0_6 : ∀ i : grid0.Coords, EltTy.bits .f32 = 32 ∨ (Rect.block (s := S115200x256) S1152x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1152x256.size a ≤ S115200x256.size a
  hwx1_0 : ∀ i : grid1.Coords, EltTy.bits .f32 = 32 ∨ (Rect.block (s := S115200x256) S1152x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1152x256.size a ≤ S115200x256.size a
  hwx1_1 : ∀ i : grid1.Coords, EltTy.bits .f32 = 32 ∨ (Rect.block (s := S115200x256) S1152x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1152x256.size a ≤ S115200x256.size a
  hwx1_6 : ∀ i : grid1.Coords, EltTy.bits .f32 = 32 ∨ (Rect.block (s := S115200x256) S1152x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1152x256.size a ≤ S115200x256.size a
  hwx2_0 : ∀ i : grid2.Coords, EltTy.bits .f32 = 32 ∨ (Rect.block (s := S115200x256) S1152x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1152x256.size a ≤ S115200x256.size a
  hwx2_1 : ∀ i : grid2.Coords, EltTy.bits .f32 = 32 ∨ (Rect.block (s := S115200x256) S1152x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1152x256.size a ≤ S115200x256.size a
  hwx2_6 : ∀ i : grid2.Coords, EltTy.bits .f32 = 32 ∨ (Rect.block (s := S115200x256) S1152x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1152x1.size a ≤ S115200x1.size a
  hwx3_0 : ∀ i : grid3.Coords, EltTy.bits .f32 = 32 ∨ (Rect.block (s := S115200x1) S1152x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1152x256.size a ≤ S115200x256.size a
  hwx3_1 : ∀ i : grid3.Coords, EltTy.bits .f32 = 32 ∨ (Rect.block (s := S115200x256) S1152x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1152x256.size a ≤ S115200x256.size a
  hwx3_2 : ∀ i : grid3.Coords, EltTy.bits .f32 = 32 ∨ (Rect.block (s := S115200x256) S1152x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1152x256.size a ≤ S115200x256.size a
  hwx3_3 : ∀ i : grid3.Coords, EltTy.bits .f32 = 32 ∨ (Rect.block (s := S115200x256) S1152x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x512.size a ≤ S256x512.size a
  hwx3_5 : ∀ i : grid3.Coords, EltTy.bits .f32 = 32 ∨ (Rect.block (s := S256x512) S256x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x512.size a ≤ S256x512.size a
  hwx3_6 : ∀ i : grid3.Coords, EltTy.bits .f32 = 32 ∨ (Rect.block (s := S256x512) S256x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x512.size a ≤ S256x512.size a
  hwx3_7 : ∀ i : grid3.Coords, EltTy.bits .f32 = 32 ∨ (Rect.block (s := S256x512) S256x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1152x512.size a ≤ S115200x512.size a
  hwx3_9 : ∀ i : grid3.Coords, EltTy.bits .f32 = 32 ∨ (Rect.block (s := S115200x512) S1152x512.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x512.size a ≤ S1x512.size a
  hwx3_10 : ∀ i : grid3.Coords, EltTy.bits .f32 = 32 ∨ (Rect.block (s := S1x512) S1x512.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x512.size a ≤ S1x512.size a
  hwx3_11 : ∀ i : grid3.Coords, EltTy.bits .f32 = 32 ∨ (Rect.block (s := S1x512) S1x512.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1152x512.size a ≤ S115200x512.size a
  hwx4_0 : ∀ i : grid4.Coords, EltTy.bits .f32 = 32 ∨ (Rect.block (s := S115200x512) S1152x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1152x512.size a ≤ S115200x512.size a
  hwx4_5 : ∀ i : grid4.Coords, EltTy.bits .f32 = 32 ∨ (Rect.block (s := S115200x512) S1152x512.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1152x512.size a ≤ S115200x512.size a
  hwx5_0 : ∀ i : grid5.Coords, EltTy.bits .f32 = 32 ∨ (Rect.block (s := S115200x512) S1152x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .f32 = 32 ∨ (Rect.block (s := S512x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1152x256.size a ≤ S115200x256.size a
  hwx5_3 : ∀ i : grid5.Coords, EltTy.bits .f32 = 32 ∨ (Rect.block (s := S115200x256) S1152x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1152x256.size a ≤ S115200x256.size a
  hwx6_0 : ∀ i : grid6.Coords, EltTy.bits .f32 = 32 ∨ (Rect.block (s := S115200x256) S1152x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1152x256.size a ≤ S115200x256.size a
  hwx6_5 : ∀ i : grid6.Coords, EltTy.bits .f32 = 32 ∨ (Rect.block (s := S115200x256) S1152x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1152x256.size a ≤ S115200x256.size a
  hwx7_0 : ∀ i : grid7.Coords, EltTy.bits .f32 = 32 ∨ (Rect.block (s := S115200x256) S1152x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x1.size a ≤ S256x1.size a
  hwx7_1 : ∀ i : grid7.Coords, EltTy.bits .f32 = 32 ∨ (Rect.block (s := S256x1) S256x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x1.size a ≤ S256x1.size a
  hwx7_3 : ∀ i : grid7.Coords, EltTy.bits .f32 = 32 ∨ (Rect.block (s := S256x1) S256x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1152x1.size a ≤ S115200x1.size a
  hwx7_5 : ∀ i : grid7.Coords, EltTy.bits .f32 = 32 ∨ (Rect.block (s := S115200x1) S1152x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1152x1.size a ≤ S115200x1.size a
  hwx7_6 : ∀ i : grid7.Coords, EltTy.bits .f32 = 32 ∨ (Rect.block (s := S115200x1) S1152x1.size (cc7_transform_6 i) (hinb7_6 i)).WholeWords (EltTy.packing .f32)

variable [Facts₀]

def gather_S115200x1_S921600x1_S921600x1_1_0_n_n_0_1_11 : GatherDims S115200x1 S921600x1 S921600x1 where
  offsetDims := [1]
  collapsedSliceDims := [0]
  operandBatchingDims := []
  startIndicesBatchingDims := []
  startIndexMap := [0]
  indexVectorDim := 1
  sliceSizes := ![1, 1]
  wf := gather_S115200x1_S921600x1_S921600x1_1_0_n_n_0_1_11_wf
def scatter_S115200x1_S921600x1_S921600x1_1_0_0_1 : ScatterDims S115200x1 S921600x1 S921600x1 where
  updateWindowDims := [1]
  insertedWindowDims := [0]
  scatterDimsToOperandDims := [0]
  indexVectorDim := 1
  wf := scatter_S115200x1_S921600x1_S921600x1_1_0_0_1_wf
def dot_S1152x1_S1x256_S1152x256_1_0_0_1_n_n : DotDims S1152x1 S1x256 S1152x256 where
  lhsContracting := [1]
  rhsContracting := [0]
  lhsNonContracting := [0]
  rhsNonContracting := [1]
  lhsBatch := []
  rhsBatch := []
  wf := dot_S1152x1_S1x256_S1152x256_1_0_0_1_n_n_wf
def gather_S115200x256_S921600x1_S921600x256_1_0_n_n_0_1_1256 : GatherDims S115200x256 S921600x1 S921600x256 where
  offsetDims := [1]
  collapsedSliceDims := [0]
  operandBatchingDims := []
  startIndicesBatchingDims := []
  startIndexMap := [0]
  indexVectorDim := 1
  sliceSizes := ![1, 256]
  wf := gather_S115200x256_S921600x1_S921600x256_1_0_n_n_0_1_1256_wf
def scatter_S115200x256_S921600x1_S921600x256_1_0_0_1 : ScatterDims S115200x256 S921600x1 S921600x256 where
  updateWindowDims := [1]
  insertedWindowDims := [0]
  scatterDimsToOperandDims := [0]
  indexVectorDim := 1
  wf := scatter_S115200x256_S921600x1_S921600x256_1_0_0_1_wf
def dot_S1152x256_S256x256_S1152x256_1_0_0_1_n_n : DotDims S1152x256 S256x256 S1152x256 where
  lhsContracting := [1]
  rhsContracting := [0]
  lhsNonContracting := [0]
  rhsNonContracting := [1]
  lhsBatch := []
  rhsBatch := []
  wf := dot_S1152x256_S256x256_S1152x256_1_0_0_1_n_n_wf
def dot_S1152x1_S1x512_S1152x512_1_0_0_1_n_n : DotDims S1152x1 S1x512 S1152x512 where
  lhsContracting := [1]
  rhsContracting := [0]
  lhsNonContracting := [0]
  rhsNonContracting := [1]
  lhsBatch := []
  rhsBatch := []
  wf := dot_S1152x1_S1x512_S1152x512_1_0_0_1_n_n_wf
def dot_S1152x256_S256x512_S1152x512_1_0_0_1_n_n : DotDims S1152x256 S256x512 S1152x512 where
  lhsContracting := [1]
  rhsContracting := [0]
  lhsNonContracting := [0]
  rhsNonContracting := [1]
  lhsBatch := []
  rhsBatch := []
  wf := dot_S1152x256_S256x512_S1152x512_1_0_0_1_n_n_wf
def dot_S1152x512_S512x256_S1152x256_1_0_0_1_n_n : DotDims S1152x512 S512x256 S1152x256 where
  lhsContracting := [1]
  rhsContracting := [0]
  lhsNonContracting := [0]
  rhsNonContracting := [1]
  lhsBatch := []
  rhsBatch := []
  wf := dot_S1152x512_S512x256_S1152x256_1_0_0_1_n_n_wf
def dot_S1152x256_S256x1_S1152x1_1_0_0_1_n_n : DotDims S1152x256 S256x1 S1152x1 where
  lhsContracting := [1]
  rhsContracting := [0]
  lhsNonContracting := [0]
  rhsNonContracting := [1]
  lhsBatch := []
  rhsBatch := []
  wf := dot_S1152x256_S256x1_S1152x1_1_0_0_1_n_n_wf
def scatter_S512x1_S115200x1_S115200x1_1_0_0_1 : ScatterDims S512x1 S115200x1 S115200x1 where
  updateWindowDims := [1]
  insertedWindowDims := [0]
  scatterDimsToOperandDims := [0]
  indexVectorDim := 1
  wf := scatter_S512x1_S115200x1_S115200x1_1_0_0_1_wf

abbrev win0_0 : Pipeline.Window sig grid0 :=
  Pipeline.Window.ofSpec (Memref.whole main_arg0) S1152x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1152x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1152x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S1152x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1152x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1152x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S1152x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1152x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1152x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S1152x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1152x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1152x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1152x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S256x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S256x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S256x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v50) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v51_0) S1152x512.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v51_1) S1x512.size cc3_transform_10 reads3_10 true true 1 stage3_10 sem3_10
    hrank3 hreads3_10 hinb3_10 nbuf3_10 (Memref.isWhole_whole _) hwx3_10 hstage3_10

abbrev win3_11 : Pipeline.Window sig grid3 :=
  Pipeline.Window.ofSpec (Memref.whole main_v51_2) S1x512.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v51_0) S1152x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S1152x512.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v60) S1152x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62_0) S1152x256.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v62_1) S1x256.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62_2) S1x256.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v62_0) S1152x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v68) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v71) S1152x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v71) S1152x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg19) S256x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v72) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg21) S256x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v73) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v74_0) S1152x1.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v74_1) S1152x1.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S115200x1 : Shape := ⟨2, ![115200, 1]⟩
abbrev S2x921600 : Shape := ⟨2, ![2, 921600]⟩
abbrev S115200 : Shape := ⟨1, ![115200]⟩
abbrev S1x256 : Shape := ⟨2, ![1, 256]⟩
abbrev S256 : Shape := ⟨1, ![256]⟩
abbrev S256x256 : Shape := ⟨2, ![256, 256]⟩
abbrev S769x512 : Shape := ⟨2, ![769, 512]⟩
abbrev S512 : Shape := ⟨1, ![512]⟩
abbrev S512x256 : Shape := ⟨2, ![512, 256]⟩
abbrev S256x1 : Shape := ⟨2, ![256, 1]⟩
abbrev S1 : Shape := ⟨1, ![1]⟩
abbrev S1x921600 : Shape := ⟨2, ![1, 921600]⟩
abbrev S921600 : Shape := ⟨1, ![921600]⟩
abbrev S_ : Shape := ⟨0, ![]⟩
abbrev S921600x1 : Shape := ⟨2, ![921600, 1]⟩
abbrev S115200x256 : Shape := ⟨2, ![115200, 256]⟩
abbrev S921600x256 : Shape := ⟨2, ![921600, 256]⟩
abbrev S115200x769 : Shape := ⟨2, ![115200, 769]⟩
abbrev S115200x512 : Shape := ⟨2, ![115200, 512]⟩
abbrev S1x512 : Shape := ⟨2, ![1, 512]⟩
abbrev S1x1 : Shape := ⟨2, ![1, 1]⟩
abbrev S512x1 : Shape := ⟨2, ![512, 1]⟩

abbrev nBuf : Space → Nat
  | .hbm => 363
  | .vmem => 0
  | .smem => 0
  | _ => 0

abbrev hbmTy0_0 (i : Nat) : BufTy := match i % 128 with
  | 0 => ⟨S115200x1, .f32⟩
  | 1 => ⟨S2x921600, .i32⟩
  | 2 => ⟨S115200, .i32⟩
  | 3 => ⟨S1x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S769x512, .f32⟩
  | 12 => ⟨S512, .f32⟩
  | 13 => ⟨S512x256, .f32⟩
  | 14 => ⟨S256, .f32⟩
  | 15 => ⟨S512, .f32⟩
  | 16 => ⟨S512, .f32⟩
  | 17 => ⟨S256, .f32⟩
  | 18 => ⟨S256, .f32⟩
  | 19 => ⟨S256x1, .f32⟩
  | 20 => ⟨S1, .f32⟩
  | 21 => ⟨S256x1, .f32⟩
  | 22 => ⟨S1, .f32⟩
  | 23 => ⟨S1x921600, .i32⟩
  | 24 => ⟨S921600, .i32⟩
  | 25 => ⟨S1x921600, .i32⟩
  | 26 => ⟨S921600, .i32⟩
  | 27 => ⟨S_, .i32⟩
  | 28 => ⟨S921600, .i32⟩
  | 29 => ⟨S921600, .i1⟩
  | 30 => ⟨S_, .i32⟩
  | 31 => ⟨S921600, .i32⟩
  | 32 => ⟨S921600, .i32⟩
  | 33 => ⟨S921600, .i32⟩
  | 34 => ⟨S921600x1, .i32⟩
  | 35 => ⟨S921600x1, .f32⟩
  | 36 => ⟨S_, .f32⟩
  | 37 => ⟨S115200x1, .f32⟩
  | 38 => ⟨S921600x1, .i32⟩
  | 39 => ⟨S115200x1, .f32⟩
  | 40 => ⟨S115200x1, .f32⟩
  | 41 => ⟨S115200x256, .f32⟩
  | 42 => ⟨S1x256, .f32⟩
  | 43 => ⟨S115200x256, .f32⟩
  | 44 => ⟨S115200x256, .f32⟩
  | 45 => ⟨S_, .f32⟩
  | 46 => ⟨S115200, .f32⟩
  | 47 => ⟨S115200x1, .f32⟩
  | 48 => ⟨S_, .f32⟩
  | 49 => ⟨S115200x1, .f32⟩
  | 50 => ⟨S115200x1, .f32⟩
  | 51 => ⟨S_, .i32⟩
  | 52 => ⟨S_, .f32⟩
  | 53 => ⟨S115200, .f32⟩
  | 54 => ⟨S115200x1, .f32⟩
  | 55 => ⟨S_, .f32⟩
  | 56 => ⟨S115200x1, .f32⟩
  | 57 => ⟨S115200x1, .f32⟩
  | 58 => ⟨S115200x256, .f32⟩
  | 59 => ⟨S115200x256, .f32⟩
  | 60 => ⟨S115200x256, .f32⟩
  | 61 => ⟨S_, .f32⟩
  | 62 => ⟨S_, .f32⟩
  | 63 => ⟨S_, .f32⟩
  | 64 => ⟨S_, .f32⟩
  | 65 => ⟨S115200, .f32⟩
  | 66 => ⟨S115200x1, .f32⟩
  | 67 => ⟨S115200x1, .f32⟩
  | 68 => ⟨S115200x1, .f32⟩
  | 69 => ⟨S_, .f32⟩
  | 70 => ⟨S_, .i1⟩
  | 71 => ⟨S_, .f32⟩
  | 72 => ⟨S_, .f32⟩
  | 73 => ⟨S115200x1, .f32⟩
  | 74 => ⟨S115200x1, .f32⟩
  | 75 => ⟨S115200x256, .f32⟩
  | 76 => ⟨S115200x256, .f32⟩
  | 77 => ⟨S_, .f32⟩
  | 78 => ⟨S115200x1, .f32⟩
  | 79 => ⟨S115200x1, .f32⟩
  | 80 => ⟨S115200x1, .f32⟩
  | 81 => ⟨S115200x256, .f32⟩
  | 82 => ⟨S115200x256, .f32⟩
  | 83 => ⟨S1x256, .f32⟩
  | 84 => ⟨S115200x256, .f32⟩
  | 85 => ⟨S115200x256, .f32⟩
  | 86 => ⟨S1x256, .f32⟩
  | 87 => ⟨S115200x256, .f32⟩
  | 88 => ⟨S115200x256, .f32⟩
  | 89 => ⟨S_, .f32⟩
  | 90 => ⟨S115200x256, .f32⟩
  | 91 => ⟨S115200x256, .f32⟩
  | 92 => ⟨S_, .i32⟩
  | 93 => ⟨S921600, .i32⟩
  | 94 => ⟨S921600, .i1⟩
  | 95 => ⟨S_, .i32⟩
  | 96 => ⟨S921600, .i32⟩
  | 97 => ⟨S921600, .i32⟩
  | 98 => ⟨S921600, .i32⟩
  | 99 => ⟨S921600x1, .i32⟩
  | 100 => ⟨S921600x256, .f32⟩
  | 101 => ⟨S_, .f32⟩
  | 102 => ⟨S115200x256, .f32⟩
  | 103 => ⟨S921600x1, .i32⟩
  | 104 => ⟨S115200x256, .f32⟩
  | 105 => ⟨S115200x256, .f32⟩
  | 106 => ⟨S115200x256, .f32⟩
  | 107 => ⟨S1x256, .f32⟩
  | 108 => ⟨S115200x256, .f32⟩
  | 109 => ⟨S115200x256, .f32⟩
  | 110 => ⟨S_, .f32⟩
  | 111 => ⟨S115200, .f32⟩
  | 112 => ⟨S115200x1, .f32⟩
  | 113 => ⟨S_, .f32⟩
  | 114 => ⟨S115200x1, .f32⟩
  | 115 => ⟨S115200x1, .f32⟩
  | 116 => ⟨S_, .i32⟩
  | 117 => ⟨S_, .f32⟩
  | 118 => ⟨S115200, .f32⟩
  | 119 => ⟨S115200x1, .f32⟩
  | 120 => ⟨S_, .f32⟩
  | 121 => ⟨S115200x1, .f32⟩
  | 122 => ⟨S115200x1, .f32⟩
  | 123 => ⟨S115200x256, .f32⟩
  | 124 => ⟨S115200x256, .f32⟩
  | 125 => ⟨S115200x256, .f32⟩
  | 126 => ⟨S_, .f32⟩
  | 127 => ⟨S_, .f32⟩
  | _ => ⟨S115200x1, .f32⟩

abbrev hbmTy0_1 (i : Nat) : BufTy := match i % 128 with
  | 0 => ⟨S_, .f32⟩
  | 1 => ⟨S_, .f32⟩
  | 2 => ⟨S115200, .f32⟩
  | 3 => ⟨S115200x1, .f32⟩
  | 4 => ⟨S115200x1, .f32⟩
  | 5 => ⟨S115200x1, .f32⟩
  | 6 => ⟨S_, .f32⟩
  | 7 => ⟨S_, .i1⟩
  | 8 => ⟨S_, .f32⟩
  | 9 => ⟨S_, .f32⟩
  | 10 => ⟨S115200x1, .f32⟩
  | 11 => ⟨S115200x1, .f32⟩
  | 12 => ⟨S115200x256, .f32⟩
  | 13 => ⟨S115200x256, .f32⟩
  | 14 => ⟨S_, .f32⟩
  | 15 => ⟨S115200x1, .f32⟩
  | 16 => ⟨S115200x1, .f32⟩
  | 17 => ⟨S115200x1, .f32⟩
  | 18 => ⟨S115200x256, .f32⟩
  | 19 => ⟨S115200x256, .f32⟩
  | 20 => ⟨S1x256, .f32⟩
  | 21 => ⟨S115200x256, .f32⟩
  | 22 => ⟨S115200x256, .f32⟩
  | 23 => ⟨S1x256, .f32⟩
  | 24 => ⟨S115200x256, .f32⟩
  | 25 => ⟨S115200x256, .f32⟩
  | 26 => ⟨S_, .f32⟩
  | 27 => ⟨S115200x256, .f32⟩
  | 28 => ⟨S115200x256, .f32⟩
  | 29 => ⟨S_, .i32⟩
  | 30 => ⟨S921600, .i32⟩
  | 31 => ⟨S921600, .i1⟩
  | 32 => ⟨S_, .i32⟩
  | 33 => ⟨S921600, .i32⟩
  | 34 => ⟨S921600, .i32⟩
  | 35 => ⟨S921600, .i32⟩
  | 36 => ⟨S921600x1, .i32⟩
  | 37 => ⟨S921600x256, .f32⟩
  | 38 => ⟨S_, .f32⟩
  | 39 => ⟨S115200x256, .f32⟩
  | 40 => ⟨S921600x1, .i32⟩
  | 41 => ⟨S115200x256, .f32⟩
  | 42 => ⟨S115200x256, .f32⟩
  | 43 => ⟨S115200x256, .f32⟩
  | 44 => ⟨S1x256, .f32⟩
  | 45 => ⟨S115200x256, .f32⟩
  | 46 => ⟨S115200x256, .f32⟩
  | 47 => ⟨S_, .f32⟩
  | 48 => ⟨S115200, .f32⟩
  | 49 => ⟨S115200x1, .f32⟩
  | 50 => ⟨S_, .f32⟩
  | 51 => ⟨S115200x1, .f32⟩
  | 52 => ⟨S115200x1, .f32⟩
  | 53 => ⟨S_, .i32⟩
  | 54 => ⟨S_, .f32⟩
  | 55 => ⟨S115200, .f32⟩
  | 56 => ⟨S115200x1, .f32⟩
  | 57 => ⟨S_, .f32⟩
  | 58 => ⟨S115200x1, .f32⟩
  | 59 => ⟨S115200x1, .f32⟩
  | 60 => ⟨S115200x256, .f32⟩
  | 61 => ⟨S115200x256, .f32⟩
  | 62 => ⟨S115200x256, .f32⟩
  | 63 => ⟨S_, .f32⟩
  | 64 => ⟨S_, .f32⟩
  | 65 => ⟨S_, .f32⟩
  | 66 => ⟨S_, .f32⟩
  | 67 => ⟨S115200, .f32⟩
  | 68 => ⟨S115200x1, .f32⟩
  | 69 => ⟨S115200x1, .f32⟩
  | 70 => ⟨S115200x1, .f32⟩
  | 71 => ⟨S_, .f32⟩
  | 72 => ⟨S_, .i1⟩
  | 73 => ⟨S_, .f32⟩
  | 74 => ⟨S_, .f32⟩
  | 75 => ⟨S115200x1, .f32⟩
  | 76 => ⟨S115200x1, .f32⟩
  | 77 => ⟨S115200x256, .f32⟩
  | 78 => ⟨S115200x256, .f32⟩
  | 79 => ⟨S_, .f32⟩
  | 80 => ⟨S115200x1, .f32⟩
  | 81 => ⟨S115200x1, .f32⟩
  | 82 => ⟨S115200x1, .f32⟩
  | 83 => ⟨S115200x256, .f32⟩
  | 84 => ⟨S115200x256, .f32⟩
  | 85 => ⟨S1x256, .f32⟩
  | 86 => ⟨S115200x256, .f32⟩
  | 87 => ⟨S115200x256, .f32⟩
  | 88 => ⟨S1x256, .f32⟩
  | 89 => ⟨S115200x256, .f32⟩
  | 90 => ⟨S115200x256, .f32⟩
  | 91 => ⟨S_, .f32⟩
  | 92 => ⟨S115200x256, .f32⟩
  | 93 => ⟨S115200x256, .f32⟩
  | 94 => ⟨S115200x769, .f32⟩
  | 95 => ⟨S115200x512, .f32⟩
  | 96 => ⟨S1x512, .f32⟩
  | 97 => ⟨S115200x512, .f32⟩
  | 98 => ⟨S115200x512, .f32⟩
  | 99 => ⟨S_, .f32⟩
  | 100 => ⟨S512, .f32⟩
  | 101 => ⟨S_, .f32⟩
  | 102 => ⟨S512, .f32⟩
  | 103 => ⟨S512, .f32⟩
  | 104 => ⟨S_, .i32⟩
  | 105 => ⟨S_, .f32⟩
  | 106 => ⟨S512, .f32⟩
  | 107 => ⟨S1x512, .f32⟩
  | 108 => ⟨S_, .f32⟩
  | 109 => ⟨S1x512, .f32⟩
  | 110 => ⟨S1x512, .f32⟩
  | 111 => ⟨S115200x512, .f32⟩
  | 112 => ⟨S115200x512, .f32⟩
  | 113 => ⟨S115200x512, .f32⟩
  | 114 => ⟨S_, .f32⟩
  | 115 => ⟨S_, .f32⟩
  | 116 => ⟨S_, .f32⟩
  | 117 => ⟨S_, .f32⟩
  | 118 => ⟨S512, .f32⟩
  | 119 => ⟨S512, .f32⟩
  | 120 => ⟨S512, .f32⟩
  | 121 => ⟨S_, .f32⟩
  | 122 => ⟨S_, .i1⟩
  | 123 => ⟨S_, .f32⟩
  | 124 => ⟨S_, .f32⟩
  | 125 => ⟨S512, .f32⟩
  | 126 => ⟨S512, .f32⟩
  | 127 => ⟨S1x512, .f32⟩
  | _ => ⟨S115200x1, .f32⟩

abbrev hbmTy0_2 (i : Nat) : BufTy := match i % 128 with
  | 0 => ⟨S115200x512, .f32⟩
  | 1 => ⟨S115200x512, .f32⟩
  | 2 => ⟨S_, .f32⟩
  | 3 => ⟨S512, .f32⟩
  | 4 => ⟨S512, .f32⟩
  | 5 => ⟨S512, .f32⟩
  | 6 => ⟨S1x512, .f32⟩
  | 7 => ⟨S115200x512, .f32⟩
  | 8 => ⟨S115200x512, .f32⟩
  | 9 => ⟨S1x512, .f32⟩
  | 10 => ⟨S115200x512, .f32⟩
  | 11 => ⟨S115200x512, .f32⟩
  | 12 => ⟨S1x512, .f32⟩
  | 13 => ⟨S115200x512, .f32⟩
  | 14 => ⟨S115200x512, .f32⟩
  | 15 => ⟨S_, .f32⟩
  | 16 => ⟨S115200x512, .f32⟩
  | 17 => ⟨S115200x512, .f32⟩
  | 18 => ⟨S115200x256, .f32⟩
  | 19 => ⟨S1x256, .f32⟩
  | 20 => ⟨S115200x256, .f32⟩
  | 21 => ⟨S115200x256, .f32⟩
  | 22 => ⟨S_, .f32⟩
  | 23 => ⟨S256, .f32⟩
  | 24 => ⟨S_, .f32⟩
  | 25 => ⟨S256, .f32⟩
  | 26 => ⟨S256, .f32⟩
  | 27 => ⟨S_, .i32⟩
  | 28 => ⟨S_, .f32⟩
  | 29 => ⟨S256, .f32⟩
  | 30 => ⟨S1x256, .f32⟩
  | 31 => ⟨S_, .f32⟩
  | 32 => ⟨S1x256, .f32⟩
  | 33 => ⟨S1x256, .f32⟩
  | 34 => ⟨S115200x256, .f32⟩
  | 35 => ⟨S115200x256, .f32⟩
  | 36 => ⟨S115200x256, .f32⟩
  | 37 => ⟨S_, .f32⟩
  | 38 => ⟨S_, .f32⟩
  | 39 => ⟨S_, .f32⟩
  | 40 => ⟨S_, .f32⟩
  | 41 => ⟨S256, .f32⟩
  | 42 => ⟨S256, .f32⟩
  | 43 => ⟨S256, .f32⟩
  | 44 => ⟨S_, .f32⟩
  | 45 => ⟨S_, .i1⟩
  | 46 => ⟨S_, .f32⟩
  | 47 => ⟨S_, .f32⟩
  | 48 => ⟨S256, .f32⟩
  | 49 => ⟨S256, .f32⟩
  | 50 => ⟨S1x256, .f32⟩
  | 51 => ⟨S115200x256, .f32⟩
  | 52 => ⟨S115200x256, .f32⟩
  | 53 => ⟨S_, .f32⟩
  | 54 => ⟨S256, .f32⟩
  | 55 => ⟨S256, .f32⟩
  | 56 => ⟨S256, .f32⟩
  | 57 => ⟨S1x256, .f32⟩
  | 58 => ⟨S115200x256, .f32⟩
  | 59 => ⟨S115200x256, .f32⟩
  | 60 => ⟨S1x256, .f32⟩
  | 61 => ⟨S115200x256, .f32⟩
  | 62 => ⟨S115200x256, .f32⟩
  | 63 => ⟨S1x256, .f32⟩
  | 64 => ⟨S115200x256, .f32⟩
  | 65 => ⟨S115200x256, .f32⟩
  | 66 => ⟨S_, .f32⟩
  | 67 => ⟨S115200x256, .f32⟩
  | 68 => ⟨S115200x256, .f32⟩
  | 69 => ⟨S115200x1, .f32⟩
  | 70 => ⟨S1x1, .f32⟩
  | 71 => ⟨S115200x1, .f32⟩
  | 72 => ⟨S115200x1, .f32⟩
  | 73 => ⟨S_, .f32⟩
  | 74 => ⟨S1, .f32⟩
  | 75 => ⟨S_, .f32⟩
  | 76 => ⟨S1, .f32⟩
  | 77 => ⟨S1, .f32⟩
  | 78 => ⟨S1x1, .f32⟩
  | 79 => ⟨S115200x1, .f32⟩
  | 80 => ⟨S115200x1, .f32⟩
  | 81 => ⟨S115200x1, .f32⟩
  | 82 => ⟨S_, .f32⟩
  | 83 => ⟨S1, .f32⟩
  | 84 => ⟨S1x1, .f32⟩
  | 85 => ⟨S1x1, .f32⟩
  | 86 => ⟨S115200x1, .f32⟩
  | 87 => ⟨S115200x1, .f32⟩
  | 88 => ⟨S115200x1, .f32⟩
  | 89 => ⟨S1x1, .f32⟩
  | 90 => ⟨S115200x1, .f32⟩
  | 91 => ⟨S115200x1, .f32⟩
  | 92 => ⟨S_, .f32⟩
  | 93 => ⟨S512x1, .f32⟩
  | 94 => ⟨S115200x1, .i32⟩
  | 95 => ⟨S512x1, .f32⟩
  | 96 => ⟨S_, .f32⟩
  | 97 => ⟨S115200x1, .f32⟩
  | 98 => ⟨S_, .f32⟩
  | 99 => ⟨S512x1, .f32⟩
  | 100 => ⟨S115200x1, .i32⟩
  | 101 => ⟨S512x1, .f32⟩
  | 102 => ⟨S_, .f32⟩
  | 103 => ⟨S512x1, .f32⟩
  | 104 => ⟨S512x1, .f32⟩
  | 105 => ⟨S512x1, .f32⟩
  | 106 => ⟨S512x1, .f32⟩
  | _ => ⟨S115200x1, .f32⟩

abbrev hbmTy (i : Nat) : BufTy := match i / 128 with
  | 0 => hbmTy0_0 i
  | 1 => hbmTy0_1 i
  | 2 => hbmTy0_2 i
  | _ => ⟨S115200x1, .f32⟩

abbrev bufTy : (tb : Table) → Fin (tcTables nBuf tb) → BufTy
  | .hbm, ⟨i, _⟩ => hbmTy i
  | _, _ => ⟨S115200x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_cst_2 : Ref sig .tc := ⟨.hbm, 48, rfl⟩
abbrev main_v21 : Ref sig .tc := ⟨.hbm, 49, rfl⟩
abbrev main_v22 : Ref sig .tc := ⟨.hbm, 50, rfl⟩
abbrev main_c_3 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_v12 : Ref sig .tc := ⟨.hbm, 68, rfl⟩
abbrev main_call0_cst_3 : Ref sig .tc := ⟨.hbm, 69, rfl⟩
abbrev main_call0_v13 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_4 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_call1_cst : Ref sig .tc := ⟨.hbm, 89, rfl⟩
abbrev main_call1_v0 : Ref sig .tc := ⟨.hbm, 90, rfl⟩
abbrev main_v37 : Ref sig .tc := ⟨.hbm, 91, rfl⟩
abbrev main_c_5 : Ref sig .tc := ⟨.hbm, 92, rfl⟩
abbrev main_v38 : Ref sig .tc := ⟨.hbm, 93, rfl⟩
abbrev main_v39 : Ref sig .tc := ⟨.hbm, 94, rfl⟩
abbrev main_c_6 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_7 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_8 : Ref sig .tc := ⟨.hbm, 110, rfl⟩
abbrev main_v53 : Ref sig .tc := ⟨.hbm, 111, rfl⟩
abbrev main_v54 : Ref sig .tc := ⟨.hbm, 112, rfl⟩
abbrev main_cst_9 : Ref sig .tc := ⟨.hbm, 113, rfl⟩
abbrev main_v55 : Ref sig .tc := ⟨.hbm, 114, rfl⟩
abbrev main_v56 : Ref sig .tc := ⟨.hbm, 115, rfl⟩
abbrev main_c_10 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_v12 : Ref sig .tc := ⟨.hbm, 133, rfl⟩
abbrev main_call2_cst_3 : Ref sig .tc := ⟨.hbm, 134, rfl⟩
abbrev main_call2_v13 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_cst_11 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_call3_cst : Ref sig .tc := ⟨.hbm, 154, rfl⟩
abbrev main_call3_v0 : Ref sig .tc := ⟨.hbm, 155, rfl⟩
abbrev main_v71 : Ref sig .tc := ⟨.hbm, 156, rfl⟩
abbrev main_c_12 : Ref sig .tc := ⟨.hbm, 157, rfl⟩
abbrev main_v72 : Ref sig .tc := ⟨.hbm, 158, rfl⟩
abbrev main_v73 : Ref sig .tc := ⟨.hbm, 159, rfl⟩
abbrev main_c_13 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_cst_14 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_cst_15 : Ref sig .tc := ⟨.hbm, 175, rfl⟩
abbrev main_v87 : Ref sig .tc := ⟨.hbm, 176, rfl⟩
abbrev main_v88 : Ref sig .tc := ⟨.hbm, 177, rfl⟩
abbrev main_cst_16 : Ref sig .tc := ⟨.hbm, 178, rfl⟩
abbrev main_v89 : Ref sig .tc := ⟨.hbm, 179, rfl⟩
abbrev main_v90 : Ref sig .tc := ⟨.hbm, 180, rfl⟩
abbrev main_c_17 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_cst_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_cst_1 : Ref sig .tc := ⟨.hbm, 192, rfl⟩
abbrev main_call4_v8 : Ref sig .tc := ⟨.hbm, 193, rfl⟩
abbrev main_call4_cst_2 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_v12 : Ref sig .tc := ⟨.hbm, 198, rfl⟩
abbrev main_call4_cst_3 : Ref sig .tc := ⟨.hbm, 199, rfl⟩
abbrev main_call4_v13 : Ref sig .tc := ⟨.hbm, 200, rfl⟩
abbrev main_call4_cst_4 : Ref sig .tc := ⟨.hbm, 201, rfl⟩
abbrev main_call4_call0_v0 : Ref sig .tc := ⟨.hbm, 202, rfl⟩
abbrev main_call4_call0_v1 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_cst_18 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_call5_cst : Ref sig .tc := ⟨.hbm, 219, rfl⟩
abbrev main_call5_v0 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_cst_19 : Ref sig .tc := ⟨.hbm, 227, rfl⟩
abbrev main_v111 : Ref sig .tc := ⟨.hbm, 228, rfl⟩
abbrev main_cst_20 : Ref sig .tc := ⟨.hbm, 229, rfl⟩
abbrev main_v112 : Ref sig .tc := ⟨.hbm, 230, rfl⟩
abbrev main_v113 : Ref sig .tc := ⟨.hbm, 231, rfl⟩
abbrev main_c_21 : Ref sig .tc := ⟨.hbm, 232, rfl⟩
abbrev main_call6_cst : Ref sig .tc := ⟨.hbm, 233, rfl⟩
abbrev main_call6_v0 : Ref sig .tc := ⟨.hbm, 234, rfl⟩
abbrev main_call6_v1 : Ref sig .tc := ⟨.hbm, 235, rfl⟩
abbrev main_call6_cst_0 : Ref sig .tc := ⟨.hbm, 236, rfl⟩
abbrev main_call6_v2 : Ref sig .tc := ⟨.hbm, 237, rfl⟩
abbrev main_call6_v3 : Ref sig .tc := ⟨.hbm, 238, rfl⟩
abbrev main_call6_v4 : Ref sig .tc := ⟨.hbm, 239, rfl⟩
abbrev main_call6_v5 : Ref sig .tc := ⟨.hbm, 240, rfl⟩
abbrev main_call6_v6 : Ref sig .tc := ⟨.hbm, 241, rfl⟩
abbrev main_call6_v7 : Ref sig .tc := ⟨.hbm, 242, rfl⟩
abbrev main_call6_cst_1 : Ref sig .tc := ⟨.hbm, 243, rfl⟩
abbrev main_call6_v8 : Ref sig .tc := ⟨.hbm, 244, rfl⟩
abbrev main_call6_cst_2 : Ref sig .tc := ⟨.hbm, 245, rfl⟩
abbrev main_call6_v9 : Ref sig .tc := ⟨.hbm, 246, rfl⟩
abbrev main_call6_v10 : Ref sig .tc := ⟨.hbm, 247, rfl⟩
abbrev main_call6_v11 : Ref sig .tc := ⟨.hbm, 248, rfl⟩
abbrev main_call6_cst_3 : Ref sig .tc := ⟨.hbm, 249, rfl⟩
abbrev main_call6_v12 : Ref sig .tc := ⟨.hbm, 250, rfl⟩
abbrev main_call6_cst_4 : Ref sig .tc := ⟨.hbm, 251, rfl⟩
abbrev main_call6_call0_v0 : Ref sig .tc := ⟨.hbm, 252, rfl⟩
abbrev main_call6_call0_v1 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_cst_22 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_call7_cst : Ref sig .tc := ⟨.hbm, 271, rfl⟩
abbrev main_call7_v0 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_v133 : Ref sig .tc := ⟨.hbm, 276, rfl⟩
abbrev main_v134 : Ref sig .tc := ⟨.hbm, 277, rfl⟩
abbrev main_cst_23 : Ref sig .tc := ⟨.hbm, 278, rfl⟩
abbrev main_v135 : Ref sig .tc := ⟨.hbm, 279, rfl⟩
abbrev main_cst_24 : Ref sig .tc := ⟨.hbm, 280, rfl⟩
abbrev main_v136 : Ref sig .tc := ⟨.hbm, 281, rfl⟩
abbrev main_v137 : Ref sig .tc := ⟨.hbm, 282, rfl⟩
abbrev main_c_25 : Ref sig .tc := ⟨.hbm, 283, rfl⟩
abbrev main_call8_cst : Ref sig .tc := ⟨.hbm, 284, rfl⟩
abbrev main_call8_v0 : Ref sig .tc := ⟨.hbm, 285, rfl⟩
abbrev main_call8_v1 : Ref sig .tc := ⟨.hbm, 286, rfl⟩
abbrev main_call8_cst_0 : Ref sig .tc := ⟨.hbm, 287, rfl⟩
abbrev main_call8_v2 : Ref sig .tc := ⟨.hbm, 288, rfl⟩
abbrev main_call8_v3 : Ref sig .tc := ⟨.hbm, 289, rfl⟩
abbrev main_call8_v4 : Ref sig .tc := ⟨.hbm, 290, rfl⟩
abbrev main_call8_v5 : Ref sig .tc := ⟨.hbm, 291, rfl⟩
abbrev main_call8_v6 : Ref sig .tc := ⟨.hbm, 292, rfl⟩
abbrev main_call8_v7 : Ref sig .tc := ⟨.hbm, 293, rfl⟩
abbrev main_call8_cst_1 : Ref sig .tc := ⟨.hbm, 294, rfl⟩
abbrev main_call8_v8 : Ref sig .tc := ⟨.hbm, 295, rfl⟩
abbrev main_call8_cst_2 : Ref sig .tc := ⟨.hbm, 296, rfl⟩
abbrev main_call8_v9 : Ref sig .tc := ⟨.hbm, 297, rfl⟩
abbrev main_call8_v10 : Ref sig .tc := ⟨.hbm, 298, rfl⟩
abbrev main_call8_v11 : Ref sig .tc := ⟨.hbm, 299, rfl⟩
abbrev main_call8_cst_3 : Ref sig .tc := ⟨.hbm, 300, rfl⟩
abbrev main_call8_v12 : Ref sig .tc := ⟨.hbm, 301, rfl⟩
abbrev main_call8_cst_4 : Ref sig .tc := ⟨.hbm, 302, rfl⟩
abbrev main_call8_call0_v0 : Ref sig .tc := ⟨.hbm, 303, rfl⟩
abbrev main_call8_call0_v1 : Ref sig .tc := ⟨.hbm, 304, rfl⟩
abbrev main_v138 : Ref sig .tc := ⟨.hbm, 305, rfl⟩
abbrev main_v139 : Ref sig .tc := ⟨.hbm, 306, rfl⟩
abbrev main_v140 : Ref sig .tc := ⟨.hbm, 307, rfl⟩
abbrev main_v141 : Ref sig .tc := ⟨.hbm, 308, rfl⟩
abbrev main_cst_26 : Ref sig .tc := ⟨.hbm, 309, rfl⟩
abbrev main_v142 : Ref sig .tc := ⟨.hbm, 310, rfl⟩
abbrev main_v143 : Ref sig .tc := ⟨.hbm, 311, rfl⟩
abbrev main_v144 : Ref sig .tc := ⟨.hbm, 312, rfl⟩
abbrev main_v145 : Ref sig .tc := ⟨.hbm, 313, rfl⟩
abbrev main_v146 : Ref sig .tc := ⟨.hbm, 314, rfl⟩
abbrev main_v147 : Ref sig .tc := ⟨.hbm, 315, rfl⟩
abbrev main_v148 : Ref sig .tc := ⟨.hbm, 316, rfl⟩
abbrev main_v149 : Ref sig .tc := ⟨.hbm, 317, rfl⟩
abbrev main_v150 : Ref sig .tc := ⟨.hbm, 318, rfl⟩
abbrev main_v151 : Ref sig .tc := ⟨.hbm, 319, rfl⟩
abbrev main_v152 : Ref sig .tc := ⟨.hbm, 320, rfl⟩
abbrev main_v153 : Ref sig .tc := ⟨.hbm, 321, rfl⟩
abbrev main_call9_cst : Ref sig .tc := ⟨.hbm, 322, rfl⟩
abbrev main_call9_v0 : Ref sig .tc := ⟨.hbm, 323, rfl⟩
abbrev main_v154 : Ref sig .tc := ⟨.hbm, 324, rfl⟩
abbrev main_v155 : Ref sig .tc := ⟨.hbm, 325, rfl⟩
abbrev main_v156 : Ref sig .tc := ⟨.hbm, 326, rfl⟩
abbrev main_v157 : Ref sig .tc := ⟨.hbm, 327, rfl⟩
abbrev main_v158 : Ref sig .tc := ⟨.hbm, 328, rfl⟩
abbrev main_call10_cst : Ref sig .tc := ⟨.hbm, 329, rfl⟩
abbrev main_call10_v0 : Ref sig .tc := ⟨.hbm, 330, rfl⟩
abbrev main_call10_cst_0 : Ref sig .tc := ⟨.hbm, 331, rfl⟩
abbrev main_call10_v1 : Ref sig .tc := ⟨.hbm, 332, rfl⟩
abbrev main_call10_v2 : Ref sig .tc := ⟨.hbm, 333, rfl⟩
abbrev main_call10_v3 : Ref sig .tc := ⟨.hbm, 334, rfl⟩
abbrev main_call10_v4 : Ref sig .tc := ⟨.hbm, 335, rfl⟩
abbrev main_call10_v5 : Ref sig .tc := ⟨.hbm, 336, rfl⟩
abbrev main_call10_v6 : Ref sig .tc := ⟨.hbm, 337, rfl⟩
abbrev main_call10_cst_1 : Ref sig .tc := ⟨.hbm, 338, rfl⟩
abbrev main_call10_v7 : Ref sig .tc := ⟨.hbm, 339, rfl⟩
abbrev main_call10_v8 : Ref sig .tc := ⟨.hbm, 340, rfl⟩
abbrev main_call10_v9 : Ref sig .tc := ⟨.hbm, 341, rfl⟩
abbrev main_call10_v10 : Ref sig .tc := ⟨.hbm, 342, rfl⟩
abbrev main_v159 : Ref sig .tc := ⟨.hbm, 343, rfl⟩
abbrev main_v160 : Ref sig .tc := ⟨.hbm, 344, rfl⟩
abbrev main_v161 : Ref sig .tc := ⟨.hbm, 345, rfl⟩
abbrev main_v162 : Ref sig .tc := ⟨.hbm, 346, rfl⟩
abbrev main_v163 : Ref sig .tc := ⟨.hbm, 347, rfl⟩
abbrev main_cst_27 : Ref sig .tc := ⟨.hbm, 348, rfl⟩
abbrev main_v164 : Ref sig .tc := ⟨.hbm, 349, rfl⟩
abbrev main_v165 : Ref sig .tc := ⟨.hbm, 350, rfl⟩
abbrev main_v166 : Ref sig .tc := ⟨.hbm, 351, rfl⟩
abbrev main_cst_28 : Ref sig .tc := ⟨.hbm, 352, rfl⟩
abbrev main_v167 : Ref sig .tc := ⟨.hbm, 353, rfl⟩
abbrev main_cst_29 : Ref sig .tc := ⟨.hbm, 354, rfl⟩
abbrev main_v168 : Ref sig .tc := ⟨.hbm, 355, rfl⟩
abbrev main_v169 : Ref sig .tc := ⟨.hbm, 356, rfl⟩
abbrev main_v170 : Ref sig .tc := ⟨.hbm, 357, rfl⟩
abbrev main_cst_30 : Ref sig .tc := ⟨.hbm, 358, rfl⟩
abbrev main_v171 : Ref sig .tc := ⟨.hbm, 359, rfl⟩
abbrev main_v172 : Ref sig .tc := ⟨.hbm, 360, rfl⟩
abbrev main_v173 : Ref sig .tc := ⟨.hbm, 361, rfl⟩
abbrev main_v174 : Ref sig .tc := ⟨.hbm, 362, rfl⟩

abbrev nD : Nat := 1
abbrev τ : Topo := Topo.v7x

variable {F : FTy → Type} [FloatOps F]

class Facts₀ : Prop where
  slices_S2x921600_S1x921600_0_0 : S2x921600.Slices ![0, 0] S1x921600
  shapeCasts_S1x921600_S921600 : S1x921600.ShapeCasts S921600
  slices_S2x921600_S1x921600_1_0 : S2x921600.Slices ![1, 0] S1x921600
  bcast_S_S921600 : S_.BroadcastsInDim S921600 (![] : Fin 0 → Fin S921600.rank)
  bcast_S921600_S921600x1_0 : S921600.BroadcastsInDim S921600x1 (![0] : Fin 1 → Fin S921600x1.rank)
  bcast_S_S115200x1 : S_.BroadcastsInDim S115200x1 (![] : Fin 0 → Fin S115200x1.rank)
  bcast_S256_S1x256_1 : S256.BroadcastsInDim S1x256 (![1] : Fin 1 → Fin S1x256.rank)
  bcast_S1x256_S115200x256_0_1 : S1x256.BroadcastsInDim S115200x256 (![0, 1] : Fin 2 → Fin S115200x256.rank)
  reducesTo_S115200x256_S115200_d1 : S115200x256.ReducesTo [1] S115200
  h_S_ : 0 < S_.numel
  bcast_S115200_S115200x1_0 : S115200.BroadcastsInDim S115200x1 (![0] : Fin 1 → Fin S115200x1.rank)
  bcast_S115200x1_S115200x256_0_1 : S115200x1.BroadcastsInDim S115200x256 (![0, 1] : Fin 2 → Fin S115200x256.rank)
  bcast_S_S115200x256 : S_.BroadcastsInDim S115200x256 (![] : Fin 0 → Fin S115200x256.rank)
  concatenates_S115200x1_S115200x256_S115200x256_S115200x256_S115200x769_d1 : Shape.Concatenates [S115200x1, S115200x256, S115200x256, S115200x256] S115200x769 1
  bcast_S512_S1x512_1 : S512.BroadcastsInDim S1x512 (![1] : Fin 1 → Fin S1x512.rank)
  bcast_S1x512_S115200x512_0_1 : S1x512.BroadcastsInDim S115200x512 (![0, 1] : Fin 2 → Fin S115200x512.rank)
  reducesTo_S115200x512_S512_d0 : S115200x512.ReducesTo [0] S512
  bcast_S_S512 : S_.BroadcastsInDim S512 (![] : Fin 0 → Fin S512.rank)
  bcast_S_S1x512 : S_.BroadcastsInDim S1x512 (![] : Fin 0 → Fin S1x512.rank)
  bcast_S_S115200x512 : S_.BroadcastsInDim S115200x512 (![] : Fin 0 → Fin S115200x512.rank)
  reducesTo_S115200x256_S256_d0 : S115200x256.ReducesTo [0] S256
  bcast_S_S256 : S_.BroadcastsInDim S256 (![] : Fin 0 → Fin S256.rank)
  bcast_S_S1x256 : S_.BroadcastsInDim S1x256 (![] : Fin 0 → Fin S1x256.rank)
  bcast_S1_S1x1_1 : S1.BroadcastsInDim S1x1 (![1] : Fin 1 → Fin S1x1.rank)
  bcast_S1x1_S115200x1_0_1 : S1x1.BroadcastsInDim S115200x1 (![0, 1] : Fin 2 → Fin S115200x1.rank)
  reducesTo_S115200x1_S1_d0 : S115200x1.ReducesTo [0] S1
  bcast_S_S1 : S_.BroadcastsInDim S1 (![] : Fin 0 → Fin S1.rank)
  bcast_S_S512x1 : S_.BroadcastsInDim S512x1 (![] : Fin 0 → Fin S512x1.rank)
  gather_S115200x1_S921600x1_S921600x1_1_0_n_n_0_1_11_wf : GatherDims.WF S115200x1 S921600x1 S921600x1 [1] [0] [] [0] [] 1 ![1, 1]
  scatter_S115200x1_S921600x1_S921600x1_1_0_0_1_wf : ScatterDims.WF S115200x1 S921600x1 S921600x1 [1] [0] [0] 1
  dot_S115200x1_S1x256_S115200x256_1_0_0_1_n_n_wf : DotDims.WF S115200x1 S1x256 S115200x256 [1] [0] [0] [1] [] []
  gather_S115200x256_S921600x1_S921600x256_1_0_n_n_0_1_1256_wf : GatherDims.WF S115200x256 S921600x1 S921600x256 [1] [0] [] [0] [] 1 ![1, 256]
  scatter_S115200x256_S921600x1_S921600x256_1_0_0_1_wf : ScatterDims.WF S115200x256 S921600x1 S921600x256 [1] [0] [0] 1
  dot_S115200x256_S256x256_S115200x256_1_0_0_1_n_n_wf : DotDims.WF S115200x256 S256x256 S115200x256 [1] [0] [0] [1] [] []
  dot_S115200x769_S769x512_S115200x512_1_0_0_1_n_n_wf : DotDims.WF S115200x769 S769x512 S115200x512 [1] [0] [0] [1] [] []
  dot_S115200x512_S512x256_S115200x256_1_0_0_1_n_n_wf : DotDims.WF S115200x512 S512x256 S115200x256 [1] [0] [0] [1] [] []
  dot_S115200x256_S256x1_S115200x1_1_0_0_1_n_n_wf : DotDims.WF S115200x256 S256x1 S115200x1 [1] [0] [0] [1] [] []
  scatter_S512x1_S115200x1_S115200x1_1_0_0_1_wf : ScatterDims.WF S512x1 S115200x1 S115200x1 [1] [0] [0] 1

variable [Facts₀]

def gather_S115200x1_S921600x1_S921600x1_1_0_n_n_0_1_11 : GatherDims S115200x1 S921600x1 S921600x1 where
  offsetDims := [1]
  collapsedSliceDims := [0]
  operandBatchingDims := []
  startIndicesBatchingDims := []
  startIndexMap := [0]
  indexVectorDim := 1
  sliceSizes := ![1, 1]
  wf := gather_S115200x1_S921600x1_S921600x1_1_0_n_n_0_1_11_wf
def scatter_S115200x1_S921600x1_S921600x1_1_0_0_1 : ScatterDims S115200x1 S921600x1 S921600x1 where
  updateWindowDims := [1]
  insertedWindowDims := [0]
  scatterDimsToOperandDims := [0]
  indexVectorDim := 1
  wf := scatter_S115200x1_S921600x1_S921600x1_1_0_0_1_wf
def dot_S115200x1_S1x256_S115200x256_1_0_0_1_n_n : DotDims S115200x1 S1x256 S115200x256 where
  lhsContracting := [1]
  rhsContracting := [0]
  lhsNonContracting := [0]
  rhsNonContracting := [1]
  lhsBatch := []
  rhsBatch := []
  wf := dot_S115200x1_S1x256_S115200x256_1_0_0_1_n_n_wf
def gather_S115200x256_S921600x1_S921600x256_1_0_n_n_0_1_1256 : GatherDims S115200x256 S921600x1 S921600x256 where
  offsetDims := [1]
  collapsedSliceDims := [0]
  operandBatchingDims := []
  startIndicesBatchingDims := []
  startIndexMap := [0]
  indexVectorDim := 1
  sliceSizes := ![1, 256]
  wf := gather_S115200x256_S921600x1_S921600x256_1_0_n_n_0_1_1256_wf
def scatter_S115200x256_S921600x1_S921600x256_1_0_0_1 : ScatterDims S115200x256 S921600x1 S921600x256 where
  updateWindowDims := [1]
  insertedWindowDims := [0]
  scatterDimsToOperandDims := [0]
  indexVectorDim := 1
  wf := scatter_S115200x256_S921600x1_S921600x256_1_0_0_1_wf
def dot_S115200x256_S256x256_S115200x256_1_0_0_1_n_n : DotDims S115200x256 S256x256 S115200x256 where
  lhsContracting := [1]
  rhsContracting := [0]
  lhsNonContracting := [0]
  rhsNonContracting := [1]
  lhsBatch := []
  rhsBatch := []
  wf := dot_S115200x256_S256x256_S115200x256_1_0_0_1_n_n_wf
def dot_S115200x769_S769x512_S115200x512_1_0_0_1_n_n : DotDims S115200x769 S769x512 S115200x512 where
  lhsContracting := [1]
  rhsContracting := [0]
  lhsNonContracting := [0]
  rhsNonContracting := [1]
  lhsBatch := []
  rhsBatch := []
  wf := dot_S115200x769_S769x512_S115200x512_1_0_0_1_n_n_wf
def dot_S115200x512_S512x256_S115200x256_1_0_0_1_n_n : DotDims S115200x512 S512x256 S115200x256 where
  lhsContracting := [1]
  rhsContracting := [0]
  lhsNonContracting := [0]
  rhsNonContracting := [1]
  lhsBatch := []
  rhsBatch := []
  wf := dot_S115200x512_S512x256_S115200x256_1_0_0_1_n_n_wf
def dot_S115200x256_S256x1_S115200x1_1_0_0_1_n_n : DotDims S115200x256 S256x1 S115200x1 where
  lhsContracting := [1]
  rhsContracting := [0]
  lhsNonContracting := [0]
  rhsNonContracting := [1]
  lhsBatch := []
  rhsBatch := []
  wf := dot_S115200x256_S256x1_S115200x1_1_0_0_1_n_n_wf
def scatter_S512x1_S115200x1_S115200x1_1_0_0_1 : ScatterDims S512x1 S115200x1 S115200x1 where
  updateWindowDims := [1]
  insertedWindowDims := [0]
  scatterDimsToOperandDims := [0]
  indexVectorDim := 1
  wf := scatter_S512x1_S115200x1_S115200x1_1_0_0_1_wf

class Facts : Prop extends Facts₀ where

variable [Facts]
-- ==== Proof.KRun.lean ====
/-
  The idealized kernel program's run, with its two result buffers exported: at the compiled mesh, from any
  memory with zero counters, every weakly fair execution of @main on the TensorCores terminates, nothing
  faulting, and in every final state the two result buffers hold the last fold's contents at them and every
  argument array is as launched.  The run is the launch over @main's eighteen segments (a host segment per
  stretch of host operations, a region per pallas_call); the final thread state holds every unscoped buffer
  at the last fold's contents, which is read off against the final state buffer by buffer.
-/
import proofs.«167845_j85727547228621_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run: termination, and at every final state the two result buffers at the last fold's contents and the
    twenty-three argument arrays as launched. -/
theorem run : θ_run defs (onTc (τ := τ) (main (F := F))) ⟨m, fun _ => 0, ρ⟩ (fun r => ∀ c : Dev nD,
      r.2.mem ((c.tc : Thread nD τ).loc main_v75) = W18 m ρ c (Proc.devRef .tc main_v75)
      ∧ r.2.mem ((c.tc : Thread nD τ).loc main_v86) = W18 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v75 (by decide)),
       h c _ (mem_uc main_v86 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c)⟩)

end Cert.KernelIdeal.KRun

end
-- ==== Proof.KNames.lean ====
/-
  The arrays the eight kernel launches leave, named.  Each launch reads the buffers as they stand when it is
  entered and leaves its output arrays at what its grid points wrote back; the host operations between two
  launches are applied to what the launch before them left.  These names are the values that cross from one
  launch to the next: the three graph layers' node features, the two dense layers before their column
  statistics (with the column sums and the column sums of squares), the two normalised dense layers, and the
  two heads.
-/
import proofs.«167845_j85727547228621_1_alg».proof.Proof.Gen.KernelIdeal.Frame

noncomputable section

namespace Cert.KernelIdeal.KNames

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The node features after the first, second and third graph layer. -/
def X1 := (dat0 (V1 m ρ) c).arrAt 6 cfg0.N
def X2 := (dat1 (V3 m ρ) c).arrAt 6 cfg1.N
def X3 := (dat2 (V5 m ρ) c).arrAt 6 cfg2.N
/-- The first dense layer before normalisation, its column sums and its column sums of squares. -/
def P1 := (dat3 (V7 m ρ) c).arrAt 9 cfg3.N
def S1 := (dat3 (V7 m ρ) c).arrAt 10 cfg3.N
def Q1 := (dat3 (V7 m ρ) c).arrAt 11 cfg3.N
/-- The first dense layer normalised. -/
def H1 := (dat4 (V9 m ρ) c).arrAt 5 cfg4.N
/-- The second dense layer before normalisation, its column sums and its column sums of squares. -/
def P2 := (dat5 (V11 m ρ) c).arrAt 3 cfg5.N
def S2 := (dat5 (V11 m ρ) c).arrAt 4 cfg5.N
def Q2 := (dat5 (V11 m ρ) c).arrAt 5 cfg5.N
/-- The second dense layer normalised. -/
def H2 := (dat6 (V13 m ρ) c).arrAt 5 cfg6.N
/-- The two heads. -/
def HA := (dat7 (V15 m ρ) c).arrAt 5 cfg7.N
def HV := (dat7 (V15 m ρ) c).arrAt 6 cfg7.N

end Cert.KernelIdeal.KNames

end
-- ==== Proof.KWalk.lean ====
/-
  What each segment of @main leaves alone.  @main is a fold over its buffers: ten stretches of host operations
  and eight kernel launches.  A stretch changes only the buffers its operations write; a launch changes only
  its output arrays (an input array is handed back as it was entered, any other buffer is not touched).  So a
  buffer read at a segment boundary can be walked back, segment by segment, to the segment that produced it,
  or to the launch memory.
-/
import proofs.«167845_j85727547228621_1_alg».proof.Proof.Gen.KernelIdeal.Frame

set_option maxRecDepth 16384

noncomputable section

namespace Cert.KernelIdeal.KWalk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The host stretches: the buffers each one writes, and every other buffer kept -/

/-- The buffers `hostOps0`'s operations write. -/
abbrev wr0 : List (Ref sig .tc) := [main_v0, main_v1, main_v2, main_v3, main_c, main_v4, main_v5, main_c_0, main_v6, main_v7, main_v8, main_v9, main_v10, main_cst, main_v11, main_v12, main_v13, main_v14, main_v15, main_v16]
theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps0` does not write holds after it what it held before. -/
theorem keepH0 (r : Ref sig .tc) (h : r ∉ wr0) : W1 m ρ c (Proc.devRef .tc r) = W0 m ρ c (Proc.devRef .tc r) :=
  StableHlo.after_of_writes_sub hostOps0 _ writes0 h

/-- The buffers `hostOps1`'s operations write. -/
abbrev wr1 : List (Ref sig .tc) := [main_c_1, main_v18, main_v19, main_c_2, main_v20, main_v21, main_v22, main_v23, main_v24, main_cst_3, main_v25, main_v26, main_v27, main_v28, main_v29, main_v30]
theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps1` does not write holds after it what it held before. -/
theorem keepH1 (r : Ref sig .tc) (h : r ∉ wr1) : W3 m ρ c (Proc.devRef .tc r) = W2 m ρ c (Proc.devRef .tc r) :=
  StableHlo.after_of_writes_sub hostOps1 _ writes1 h

/-- The buffers `hostOps2`'s operations write. -/
abbrev wr2 : List (Ref sig .tc) := [main_c_4, main_v32, main_v33, main_c_5, main_v34, main_v35, main_v36, main_v37, main_v38, main_cst_6, main_v39, main_v40, main_v41, main_v42, main_v43, main_v44]
theorem writes2 : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps2` does not write holds after it what it held before. -/
theorem keepH2 (r : Ref sig .tc) (h : r ∉ wr2) : W5 m ρ c (Proc.devRef .tc r) = W4 m ρ c (Proc.devRef .tc r) :=
  StableHlo.after_of_writes_sub hostOps2 _ writes2 h

/-- The buffers `hostOps3`'s operations write. -/
abbrev wr3 : List (Ref sig .tc) := [main_v46, main_v47, main_v48, main_v49, main_v50]
theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps3` does not write holds after it what it held before. -/
theorem keepH3 (r : Ref sig .tc) (h : r ∉ wr3) : W7 m ρ c (Proc.devRef .tc r) = W6 m ρ c (Proc.devRef .tc r) :=
  StableHlo.after_of_writes_sub hostOps3 _ writes3 h

/-- The buffers `hostOps4`'s operations write. -/
abbrev wr4 : List (Ref sig .tc) := [main_cst_7, main_v52, main_v53, main_cst_8, main_v54, main_v55, main_v56, main_v57, main_v58, main_v59]
theorem writes4 : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps4` does not write holds after it what it held before. -/
theorem keepH4 (r : Ref sig .tc) (h : r ∉ wr4) : W9 m ρ c (Proc.devRef .tc r) = W8 m ρ c (Proc.devRef .tc r) :=
  StableHlo.after_of_writes_sub hostOps4 _ writes4 h

/-- The buffers `hostOps5`'s operations write. -/
abbrev wr5 : List (Ref sig .tc) := [main_v61]
theorem writes5 : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps5` does not write holds after it what it held before. -/
theorem keepH5 (r : Ref sig .tc) (h : r ∉ wr5) : W11 m ρ c (Proc.devRef .tc r) = W10 m ρ c (Proc.devRef .tc r) :=
  StableHlo.after_of_writes_sub hostOps5 _ writes5 h

/-- The buffers `hostOps6`'s operations write. -/
abbrev wr6 : List (Ref sig .tc) := [main_cst_9, main_v63, main_v64, main_cst_10, main_v65, main_v66, main_v67, main_v68, main_v69, main_v70]
theorem writes6 : (hostOps6 : List (HloOp τ sig (Elt F))).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps6` does not write holds after it what it held before. -/
theorem keepH6 (r : Ref sig .tc) (h : r ∉ wr6) : W13 m ρ c (Proc.devRef .tc r) = W12 m ρ c (Proc.devRef .tc r) :=
  StableHlo.after_of_writes_sub hostOps6 _ writes6 h

/-- The buffers `hostOps7`'s operations write. -/
abbrev wr7 : List (Ref sig .tc) := [main_v72, main_v73]
theorem writes7 : (hostOps7 : List (HloOp τ sig (Elt F))).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps7` does not write holds after it what it held before. -/
theorem keepH7 (r : Ref sig .tc) (h : r ∉ wr7) : W15 m ρ c (Proc.devRef .tc r) = W14 m ρ c (Proc.devRef .tc r) :=
  StableHlo.after_of_writes_sub hostOps7 _ writes7 h

/-- The buffers `hostOps8`'s operations write. -/
abbrev wr8 : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v75]
theorem writes8 : (hostOps8 : List (HloOp τ sig (Elt F))).Forall fun op => op.writes ⊆ (wr8.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps8` does not write holds after it what it held before. -/
theorem keepH8 (r : Ref sig .tc) (h : r ∉ wr8) : W17 m ρ c (Proc.devRef .tc r) = W16 m ρ c (Proc.devRef .tc r) :=
  StableHlo.after_of_writes_sub hostOps8 _ writes8 h

/-- The buffers `hostOps8_1`'s operations write. -/
abbrev wr8_1 : List (Ref sig .tc) := [main_cst_11, main_v76, main_v77, main_v78, main_cst_12, main_v79, main_cst_13, main_v80, main_v81, main_v82, main_cst_14, main_v83, main_v84, main_v85, main_v86]
theorem writes8_1 : (hostOps8_1 : List (HloOp τ sig (Elt F))).Forall fun op => op.writes ⊆ (wr8_1.map (Proc.devRef (τ := τ) .tc)).toFinset := by
  simp only [hostOps8_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
/-- A buffer `hostOps8_1` does not write holds after it what it held before. -/
theorem keepH8_1 (r : Ref sig .tc) (h : r ∉ wr8_1) : W18 m ρ c (Proc.devRef .tc r) = W17 m ρ c (Proc.devRef .tc r) :=
  StableHlo.after_of_writes_sub hostOps8_1 _ writes8_1 h

/-! ## The launches: every buffer but the output arrays kept -/

/-- Launch 0's output arrays. -/
abbrev out0 : List (Ref sig .tc) := [main_v17]
/-- A buffer that is not an output array of launch 0 holds after it what it held before: an input array is
    left as entered, any other buffer is untouched. -/
theorem keepR0 (r : Ref sig .tc) (h : r ∉ out0) : W2 m ρ c (Proc.devRef .tc r) = W1 m ρ c (Proc.devRef .tc r) := by
  by_cases hr : ∃ w, Pipeline.arrRef spec0 w = r
  · obtain ⟨w, rfl⟩ := hr
    have hin : (cfg0.win w).isOut = false := by
      revert h; fin_cases w <;> decide
    exact (W2_arr m ρ c w).trans (((dat0 (V1 m ρ) c).arrAt_in w hin _).trans (A_eq0 (V1 m ρ) c w))
  · exact W2_of_ne m ρ c r (fun w e => hr ⟨w, e⟩)

/-- Launch 1's output arrays. -/
abbrev out1 : List (Ref sig .tc) := [main_v31]
/-- A buffer that is not an output array of launch 1 holds after it what it held before: an input array is
    left as entered, any other buffer is untouched. -/
theorem keepR1 (r : Ref sig .tc) (h : r ∉ out1) : W4 m ρ c (Proc.devRef .tc r) = W3 m ρ c (Proc.devRef .tc r) := by
  by_cases hr : ∃ w, Pipeline.arrRef spec1 w = r
  · obtain ⟨w, rfl⟩ := hr
    have hin : (cfg1.win w).isOut = false := by
      revert h; fin_cases w <;> decide
    exact (W4_arr m ρ c w).trans (((dat1 (V3 m ρ) c).arrAt_in w hin _).trans (A_eq1 (V3 m ρ) c w))
  · exact W4_of_ne m ρ c r (fun w e => hr ⟨w, e⟩)

/-- Launch 2's output arrays. -/
abbrev out2 : List (Ref sig .tc) := [main_v45]
/-- A buffer that is not an output array of launch 2 holds after it what it held before: an input array is
    left as entered, any other buffer is untouched. -/
theorem keepR2 (r : Ref sig .tc) (h : r ∉ out2) : W6 m ρ c (Proc.devRef .tc r) = W5 m ρ c (Proc.devRef .tc r) := by
  by_cases hr : ∃ w, Pipeline.arrRef spec2 w = r
  · obtain ⟨w, rfl⟩ := hr
    have hin : (cfg2.win w).isOut = false := by
      revert h; fin_cases w <;> decide
    exact (W6_arr m ρ c w).trans (((dat2 (V5 m ρ) c).arrAt_in w hin _).trans (A_eq2 (V5 m ρ) c w))
  · exact W6_of_ne m ρ c r (fun w e => hr ⟨w, e⟩)

/-- Launch 3's output arrays. -/
abbrev out3 : List (Ref sig .tc) := [main_v51_0, main_v51_1, main_v51_2]
/-- A buffer that is not an output array of launch 3 holds after it what it held before: an input array is
    left as entered, any other buffer is untouched. -/
theorem keepR3 (r : Ref sig .tc) (h : r ∉ out3) : W8 m ρ c (Proc.devRef .tc r) = W7 m ρ c (Proc.devRef .tc r) := by
  by_cases hr : ∃ w, Pipeline.arrRef spec3 w = r
  · obtain ⟨w, rfl⟩ := hr
    have hin : (cfg3.win w).isOut = false := by
      revert h; fin_cases w <;> decide
    exact (W8_arr m ρ c w).trans (((dat3 (V7 m ρ) c).arrAt_in w hin _).trans (A_eq3 (V7 m ρ) c w))
  · exact W8_of_ne m ρ c r (fun w e => hr ⟨w, e⟩)

/-- Launch 4's output arrays. -/
abbrev out4 : List (Ref sig .tc) := [main_v60]
/-- A buffer that is not an output array of launch 4 holds after it what it held before: an input array is
    left as entered, any other buffer is untouched. -/
theorem keepR4 (r : Ref sig .tc) (h : r ∉ out4) : W10 m ρ c (Proc.devRef .tc r) = W9 m ρ c (Proc.devRef .tc r) := by
  by_cases hr : ∃ w, Pipeline.arrRef spec4 w = r
  · obtain ⟨w, rfl⟩ := hr
    have hin : (cfg4.win w).isOut = false := by
      revert h; fin_cases w <;> decide
    exact (W10_arr m ρ c w).trans (((dat4 (V9 m ρ) c).arrAt_in w hin _).trans (A_eq4 (V9 m ρ) c w))
  · exact W10_of_ne m ρ c r (fun w e => hr ⟨w, e⟩)

/-- Launch 5's output arrays. -/
abbrev out5 : List (Ref sig .tc) := [main_v62_0, main_v62_1, main_v62_2]
/-- A buffer that is not an output array of launch 5 holds after it what it held before: an input array is
    left as entered, any other buffer is untouched. -/
theorem keepR5 (r : Ref sig .tc) (h : r ∉ out5) : W12 m ρ c (Proc.devRef .tc r) = W11 m ρ c (Proc.devRef .tc r) := by
  by_cases hr : ∃ w, Pipeline.arrRef spec5 w = r
  · obtain ⟨w, rfl⟩ := hr
    have hin : (cfg5.win w).isOut = false := by
      revert h; fin_cases w <;> decide
    exact (W12_arr m ρ c w).trans (((dat5 (V11 m ρ) c).arrAt_in w hin _).trans (A_eq5 (V11 m ρ) c w))
  · exact W12_of_ne m ρ c r (fun w e => hr ⟨w, e⟩)

/-- Launch 6's output arrays. -/
abbrev out6 : List (Ref sig .tc) := [main_v71]
/-- A buffer that is not an output array of launch 6 holds after it what it held before: an input array is
    left as entered, any other buffer is untouched. -/
theorem keepR6 (r : Ref sig .tc) (h : r ∉ out6) : W14 m ρ c (Proc.devRef .tc r) = W13 m ρ c (Proc.devRef .tc r) := by
  by_cases hr : ∃ w, Pipeline.arrRef spec6 w = r
  · obtain ⟨w, rfl⟩ := hr
    have hin : (cfg6.win w).isOut = false := by
      revert h; fin_cases w <;> decide
    exact (W14_arr m ρ c w).trans (((dat6 (V13 m ρ) c).arrAt_in w hin _).trans (A_eq6 (V13 m ρ) c w))
  · exact W14_of_ne m ρ c r (fun w e => hr ⟨w, e⟩)

/-- Launch 7's output arrays. -/
abbrev out7 : List (Ref sig .tc) := [main_v74_0, main_v74_1]
/-- A buffer that is not an output array of launch 7 holds after it what it held before: an input array is
    left as entered, any other buffer is untouched. -/
theorem keepR7 (r : Ref sig .tc) (h : r ∉ out7) : W16 m ρ c (Proc.devRef .tc r) = W15 m ρ c (Proc.devRef .tc r) := by
  by_cases hr : ∃ w, Pipeline.arrRef spec7 w = r
  · obtain ⟨w, rfl⟩ := hr
    have hin : (cfg7.win w).isOut = false := by
      revert h; fin_cases w <;> decide
    exact (W16_arr m ρ c w).trans (((dat7 (V15 m ρ) c).arrAt_in w hin _).trans (A_eq7 (V15 m ρ) c w))
  · exact W16_of_ne m ρ c r (fun w e => hr ⟨w, e⟩)

/-! ## Back to the launch memory: a buffer nothing has written yet holds what the launch dealt it -/

/-- The buffers written before boundary `j` (boundary 0 is the launch; an odd boundary follows a stretch of host
    operations, an even one a kernel launch). -/
abbrev upto0 : List (Ref sig .tc) := []
theorem stay0 (r : Ref sig .tc) (h : r ∉ upto0) : W0 m ρ c (Proc.devRef .tc r) = m ((c : Thread nD τ).loc r) := rfl
abbrev upto1 : List (Ref sig .tc) := wr0 ++ upto0
theorem stay1 (r : Ref sig .tc) (h : r ∉ upto1) : W1 m ρ c (Proc.devRef .tc r) = m ((c : Thread nD τ).loc r) :=
  (keepH0 m ρ c r fun hm => h (List.mem_append_left _ hm)).trans (stay0 m ρ c r fun hm => h (List.mem_append_right _ hm))
abbrev upto2 : List (Ref sig .tc) := out0 ++ upto1
theorem stay2 (r : Ref sig .tc) (h : r ∉ upto2) : W2 m ρ c (Proc.devRef .tc r) = m ((c : Thread nD τ).loc r) :=
  (keepR0 m ρ c r fun hm => h (List.mem_append_left _ hm)).trans (stay1 m ρ c r fun hm => h (List.mem_append_right _ hm))
abbrev upto3 : List (Ref sig .tc) := wr1 ++ upto2
theorem stay3 (r : Ref sig .tc) (h : r ∉ upto3) : W3 m ρ c (Proc.devRef .tc r) = m ((c : Thread nD τ).loc r) :=
  (keepH1 m ρ c r fun hm => h (List.mem_append_left _ hm)).trans (stay2 m ρ c r fun hm => h (List.mem_append_right _ hm))
abbrev upto4 : List (Ref sig .tc) := out1 ++ upto3
theorem stay4 (r : Ref sig .tc) (h : r ∉ upto4) : W4 m ρ c (Proc.devRef .tc r) = m ((c : Thread nD τ).loc r) :=
  (keepR1 m ρ c r fun hm => h (List.mem_append_left _ hm)).trans (stay3 m ρ c r fun hm => h (List.mem_append_right _ hm))
abbrev upto5 : List (Ref sig .tc) := wr2 ++ upto4
theorem stay5 (r : Ref sig .tc) (h : r ∉ upto5) : W5 m ρ c (Proc.devRef .tc r) = m ((c : Thread nD τ).loc r) :=
  (keepH2 m ρ c r fun hm => h (List.mem_append_left _ hm)).trans (stay4 m ρ c r fun hm => h (List.mem_append_right _ hm))
abbrev upto6 : List (Ref sig .tc) := out2 ++ upto5
theorem stay6 (r : Ref sig .tc) (h : r ∉ upto6) : W6 m ρ c (Proc.devRef .tc r) = m ((c : Thread nD τ).loc r) :=
  (keepR2 m ρ c r fun hm => h (List.mem_append_left _ hm)).trans (stay5 m ρ c r fun hm => h (List.mem_append_right _ hm))
abbrev upto7 : List (Ref sig .tc) := wr3 ++ upto6
theorem stay7 (r : Ref sig .tc) (h : r ∉ upto7) : W7 m ρ c (Proc.devRef .tc r) = m ((c : Thread nD τ).loc r) :=
  (keepH3 m ρ c r fun hm => h (List.mem_append_left _ hm)).trans (stay6 m ρ c r fun hm => h (List.mem_append_right _ hm))
abbrev upto8 : List (Ref sig .tc) := out3 ++ upto7
theorem stay8 (r : Ref sig .tc) (h : r ∉ upto8) : W8 m ρ c (Proc.devRef .tc r) = m ((c : Thread nD τ).loc r) :=
  (keepR3 m ρ c r fun hm => h (List.mem_append_left _ hm)).trans (stay7 m ρ c r fun hm => h (List.mem_append_right _ hm))
abbrev upto9 : List (Ref sig .tc) := wr4 ++ upto8
theorem stay9 (r : Ref sig .tc) (h : r ∉ upto9) : W9 m ρ c (Proc.devRef .tc r) = m ((c : Thread nD τ).loc r) :=
  (keepH4 m ρ c r fun hm => h (List.mem_append_left _ hm)).trans (stay8 m ρ c r fun hm => h (List.mem_append_right _ hm))
abbrev upto10 : List (Ref sig .tc) := out4 ++ upto9
theorem stay10 (r : Ref sig .tc) (h : r ∉ upto10) : W10 m ρ c (Proc.devRef .tc r) = m ((c : Thread nD τ).loc r) :=
  (keepR4 m ρ c r fun hm => h (List.mem_append_left _ hm)).trans (stay9 m ρ c r fun hm => h (List.mem_append_right _ hm))
abbrev upto11 : List (Ref sig .tc) := wr5 ++ upto10
theorem stay11 (r : Ref sig .tc) (h : r ∉ upto11) : W11 m ρ c (Proc.devRef .tc r) = m ((c : Thread nD τ).loc r) :=
  (keepH5 m ρ c r fun hm => h (List.mem_append_left _ hm)).trans (stay10 m ρ c r fun hm => h (List.mem_append_right _ hm))
abbrev upto12 : List (Ref sig .tc) := out5 ++ upto11
theorem stay12 (r : Ref sig .tc) (h : r ∉ upto12) : W12 m ρ c (Proc.devRef .tc r) = m ((c : Thread nD τ).loc r) :=
  (keepR5 m ρ c r fun hm => h (List.mem_append_left _ hm)).trans (stay11 m ρ c r fun hm => h (List.mem_append_right _ hm))
abbrev upto13 : List (Ref sig .tc) := wr6 ++ upto12
theorem stay13 (r : Ref sig .tc) (h : r ∉ upto13) : W13 m ρ c (Proc.devRef .tc r) = m ((c : Thread nD τ).loc r) :=
  (keepH6 m ρ c r fun hm => h (List.mem_append_left _ hm)).trans (stay12 m ρ c r fun hm => h (List.mem_append_right _ hm))
abbrev upto14 : List (Ref sig .tc) := out6 ++ upto13
theorem stay14 (r : Ref sig .tc) (h : r ∉ upto14) : W14 m ρ c (Proc.devRef .tc r) = m ((c : Thread nD τ).loc r) :=
  (keepR6 m ρ c r fun hm => h (List.mem_append_left _ hm)).trans (stay13 m ρ c r fun hm => h (List.mem_append_right _ hm))
abbrev upto15 : List (Ref sig .tc) := wr7 ++ upto14
theorem stay15 (r : Ref sig .tc) (h : r ∉ upto15) : W15 m ρ c (Proc.devRef .tc r) = m ((c : Thread nD τ).loc r) :=
  (keepH7 m ρ c r fun hm => h (List.mem_append_left _ hm)).trans (stay14 m ρ c r fun hm => h (List.mem_append_right _ hm))
abbrev upto16 : List (Ref sig .tc) := out7 ++ upto15
theorem stay16 (r : Ref sig .tc) (h : r ∉ upto16) : W16 m ρ c (Proc.devRef .tc r) = m ((c : Thread nD τ).loc r) :=
  (keepR7 m ρ c r fun hm => h (List.mem_append_left _ hm)).trans (stay15 m ρ c r fun hm => h (List.mem_append_right _ hm))
abbrev upto17 : List (Ref sig .tc) := wr8 ++ upto16
theorem stay17 (r : Ref sig .tc) (h : r ∉ upto17) : W17 m ρ c (Proc.devRef .tc r) = m ((c : Thread nD τ).loc r) :=
  (keepH8 m ρ c r fun hm => h (List.mem_append_left _ hm)).trans (stay16 m ρ c r fun hm => h (List.mem_append_right _ hm))

end Cert.KernelIdeal.KWalk

end
-- ==== Proof.KChainDefs.lean ====
/-
  The kernel program's host-side computations that are more than a reshape, named: the two neighbour
  aggregations before the graph layers and the two result tails after the last launch.  Each definition lists,
  in program order and with the program's own operations and side conditions, the host operations that lead
  from the arrays read to the array produced.  Nothing is proved here.
-/
import proofs.«167845_j85727547228621_1_alg».proof.Proof.Gen.KernelIdeal.Frame

noncomputable section

namespace Cert.KernelIdeal.KChain

open Cert.KernelIdeal Cert.KernelIdeal.Gen Idealize.ShloMosaic Idealize.ShloMosaic.TcCoe

variable {F : FTy → Type} [FloatOps F]

/-- Neighbour sums of a one-column feature array over the edge list `ei` (row 0 the sources, row 1 the
    targets, a negative index counted from the end): row i of the result is the sum of the rows src(e) of `x`
    over the edges e with dst(e) = i — the sources' rows gathered, then added into a zero array at the targets. -/
def agg1 (x : FVec F S115200x1 .f32) (ei : IVec S2x921600 32) : FVec F S115200x1 .f32 :=
  let v0 := (extractStridedSlice S1x921600 ![0, 0] · slices_S2x921600_S1x921600_0_0) ei
  let v1 := (shapeCast S921600 · shapeCasts_S1x921600_S921600) v0
  let v2 := (extractStridedSlice S1x921600 ![1, 0] · slices_S2x921600_S1x921600_1_0) ei
  let v3 := (shapeCast S921600 · shapeCasts_S1x921600_S921600) v2
  let c := (constantI S_ 32 0#32)
  let v4 := (broadcastInDim S921600 ![] bcast_S_S921600) c
  let v5 := (cmpi .slt) v1 v4
  let c_0 := (constantI S_ 32 115200#32)
  let v6 := (broadcastInDim S921600 ![] bcast_S_S921600) c_0
  let v7 := (addi) v1 v6
  let v8 := (select) v5 v7 v1
  let v9 := (broadcastInDim S921600x1 ![0] bcast_S921600_S921600x1_0) v8
  let v10 := (fun x i => Host.gather gather_S115200x1_S921600x1_S921600x1_1_0_n_n_0_1_11 x i) x v9
  let cst := (constant S_ .f32 0x00000000#32)
  let v11 := (broadcastInDim S115200x1 ![] bcast_S_S115200x1) cst
  let v12 := (broadcastInDim S921600x1 ![0] bcast_S921600_S921600x1_0) v3
  let v13 := (fun x i u => Host.scatterAdd scatter_S115200x1_S921600x1_S921600x1_1_0_0_1 x i u) v11 v12 v10
  v13

/-- Neighbour sums of a 256-column feature array over the edge list `ei`: the same chain at 256 columns. -/
def aggH (x : FVec F S115200x256 .f32) (ei : IVec S2x921600 32) : FVec F S115200x256 .f32 :=
  let v0 := (extractStridedSlice S1x921600 ![0, 0] · slices_S2x921600_S1x921600_0_0) ei
  let v1 := (shapeCast S921600 · shapeCasts_S1x921600_S921600) v0
  let v2 := (extractStridedSlice S1x921600 ![1, 0] · slices_S2x921600_S1x921600_1_0) ei
  let v3 := (shapeCast S921600 · shapeCasts_S1x921600_S921600) v2
  let c_1 := (constantI S_ 32 0#32)
  let v18 := (broadcastInDim S921600 ![] bcast_S_S921600) c_1
  let v19 := (cmpi .slt) v1 v18
  let c_2 := (constantI S_ 32 115200#32)
  let v20 := (broadcastInDim S921600 ![] bcast_S_S921600) c_2
  let v21 := (addi) v1 v20
  let v22 := (select) v19 v21 v1
  let v23 := (broadcastInDim S921600x1 ![0] bcast_S921600_S921600x1_0) v22
  let v24 := (fun x i => Host.gather gather_S115200x256_S921600x1_S921600x256_1_0_n_n_0_1_1256 x i) x v23
  let cst_3 := (constant S_ .f32 0x00000000#32)
  let v25 := (broadcastInDim S115200x256 ![] bcast_S_S115200x256) cst_3
  let v26 := (broadcastInDim S921600x1 ![0] bcast_S921600_S921600x1_0) v3
  let v27 := (fun x i u => Host.scatterAdd scatter_S115200x256_S921600x1_S921600x256_1_0_0_1 x i u) v25 v26 v24
  v27

/-- The logarithm of the softmax over all the nodes of a one-column array: the column's maximum subtracted,
    then the logarithm of the sum of the exponentials subtracted. -/
def tailAct (a : FVec F S115200x1 .f32) : FVec F S115200x1 .f32 :=
  let call0_cst := (constant S_ .f32 0xFF800000#32)
  let call0_v0 := (fun x v => Host.reduce FloatOps.maximumf x v reducesTo_S115200x1_S1_d0 h_S_) a call0_cst
  let call0_cst_0 := (constant S_ .f32 0xFF800000#32)
  let call0_v1 := (broadcastInDim S1 ![] bcast_S_S1) call0_cst_0
  let call0_v2 := (maximumf) call0_v1 call0_v0
  let call0_v3 := (broadcastInDim S1x1 ![1] bcast_S1_S1x1_1) call0_v2
  let call0_v4 := (broadcastInDim S115200x1 ![0, 1] bcast_S1x1_S115200x1_0_1) call0_v3
  let call0_v5 := (subf) a call0_v4
  let call0_v6 := (Host.exp) call0_v5
  let call0_cst_1 := (constant S_ .f32 0x00000000#32)
  let call0_v7 := (fun x v => Host.reduceAdd x v reducesTo_S115200x1_S1_d0 h_S_) call0_v6 call0_cst_1
  let call0_v8 := (broadcastInDim S1x1 ![1] bcast_S1_S1x1_1) call0_v7
  let call0_v9 := (Host.log) call0_v8
  let call0_v10 := (broadcastInDim S115200x1 ![0, 1] bcast_S1x1_S115200x1_0_1) call0_v9
  let v75 := (subf) call0_v5 call0_v10
  v75

/-- Per graph: the hyperbolic tangent of the sum of its nodes' values over the larger of its node count and
    one — the values and a column of ones each added into a zero array at the nodes' graph numbers `ids`. -/
def tailVal (v : FVec F S115200x1 .f32) (ids : IVec S115200 32) : FVec F S512x1 .f32 :=
  let cst_11 := (constant S_ .f32 0x00000000#32)
  let v76 := (broadcastInDim S512x1 ![] bcast_S_S512x1) cst_11
  let v77 := (broadcastInDim S115200x1 ![0] bcast_S115200_S115200x1_0) ids
  let v78 := (fun x i u => Host.scatterAdd scatter_S512x1_S115200x1_S115200x1_1_0_0_1 x i u) v76 v77 v
  let cst_12 := (constant S_ .f32 0x3F800000#32)
  let v79 := (broadcastInDim S115200x1 ![] bcast_S_S115200x1) cst_12
  let cst_13 := (constant S_ .f32 0x00000000#32)
  let v80 := (broadcastInDim S512x1 ![] bcast_S_S512x1) cst_13
  let v81 := (broadcastInDim S115200x1 ![0] bcast_S115200_S115200x1_0) ids
  let v82 := (fun x i u => Host.scatterAdd scatter_S512x1_S115200x1_S115200x1_1_0_0_1 x i u) v80 v81 v79
  let cst_14 := (constant S_ .f32 0x3F800000#32)
  let v83 := (broadcastInDim S512x1 ![] bcast_S_S512x1) cst_14
  let v84 := (maximumf) v82 v83
  let v85 := (Host.divf) v78 v84
  let v86 := (Host.tanh) v85
  v86

end Cert.KernelIdeal.KChain

end
-- ==== Proof.KChainOut.lean ====
/-
  The kernel program's two results.  After the last launch two stretches of host operations remain: the first
  turns the action head into the logarithm of its softmax over all the nodes, the second turns the value head
  into one value per graph.  Each result buffer, read at the end of the fold, is its stretch's operations
  composed over the head the last launch left (and, for the values, the nodes' graph numbers as launched).
  The first stretch is a function the program calls: its operations are stated over references that carry their
  tensor type, and a value passes to and from a buffer through a transport along the equality of the two
  types, which is the identity (the two lemmas below).
-/
import proofs.«167845_j85727547228621_1_alg».proof.Proof.KNames
import proofs.«167845_j85727547228621_1_alg».proof.Proof.KWalk
import proofs.«167845_j85727547228621_1_alg».proof.Proof.KChainDefs

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Contents moved to a typed reference's own buffer type and back are the contents. -/
theorem ofBuf_toBuf {Val : EltTy → Type} {T : BufTy} (x : StableHlo.TRef sig T) (v : T.Contents Val) : x.ofBuf (x.toBuf v) = v := by
  obtain ⟨r, h, hd, hu⟩ := x
  subst h
  rfl

/-- Contents moved to a typed reference's own buffer type are what, moved back, gives them. -/
theorem toBuf_eq {Val : EltTy → Type} {T : BufTy} (x : StableHlo.TRef sig T) (v : T.Contents Val) (w : x.ref.ty.Contents Val)
    (h : v = x.ofBuf w) : x.toBuf v = w := by
  obtain ⟨r, e, hd, hu⟩ := x
  subst e
  exact h

attribute [local irreducible] Host.reduce Host.reduceAdd Host.exp Host.log in
/-- The first result: the log-softmax tail of the action head.  The last stretch does not write it; the stretch
    before computes it from the last launch's window 5. -/
theorem outA : W18 m ρ c (Proc.devRef .tc main_v75) = tailAct (KNames.HA m ρ c) := by
  rw [KWalk.keepH8_1 m ρ c main_v75 (by decide)]
  show StableHlo.after hostOps8 (W16 m ρ c) (Proc.devRef .tc main_v75) = _
  after_results_simp
  simp only [ofBuf_toBuf]
  rw [show W16 m ρ c (Proc.devRef .tc main_v74_0) = KNames.HA m ρ c from W16_arr m ρ c 5]
  refine toBuf_eq _ _ _ ?_
  rfl

attribute [local irreducible] Host.scatterAdd Host.tanh in
/-- The second result: the per-graph tail of the value head.  The last stretch computes it from the last
    launch's window 6 and from the graph numbers as launched, neither of which the stretch before writes. -/
theorem outV : W18 m ρ c (Proc.devRef .tc main_v86) = tailVal (KNames.HV m ρ c) (m ((c : Thread nD τ).loc main_arg2)) := by
  show StableHlo.after hostOps8_1 (W17 m ρ c) (Proc.devRef .tc main_v86) = _
  after_results_simp
  rw [show W16 m ρ c (Proc.devRef .tc main_v74_1) = KNames.HV m ρ c from W16_arr m ρ c 6,
    show W16 m ρ c (Proc.devRef .tc main_arg2) = m ((c : Thread nD τ).loc main_arg2) from (KWalk.stay16 m ρ c main_arg2 (by decide))]
  rfl

end Cert.KernelIdeal.KChain

end
-- ==== Proof.Spec.lean ====
/-
  The network, layer by layer, as whole-array functions on the extended reals.

  A node-feature matrix has one row per node.  A dense layer sends `x` to `x · w` plus one bias row; a row
  normalisation (one mean and one variance per ROW, over the features) or a column normalisation (one mean
  and one variance per COLUMN, over all the nodes) subtracts the mean, scales by the inverse square root of
  the variance plus a small constant, scales by a gain, adds a shift, and takes the positive part.

  The variance is spelt in two ways: the mean of the squares minus the square of the mean (`…VarK`), and the
  mean of the squared deviations from the mean (`…VarR`).  Over the reals the two agree; at an infinite entry
  they do not, which is why the comparison of the two spellings is made only on finite data.  Everything here
  is index by index; the divisors and the small constant are kept as the float words the programs print.
-/
import Idealize.ShloMosaic.PureOps.Ideal
import Idealize.ShloMosaic.Lib.ValueIdx

noncomputable section

open scoped BigOperators

namespace Cert.Spec

open Idealize.ShloMosaic Idealize.ShloMosaic.ValueIdx

/-- An `n` by `c` array of extended reals. -/
abbrev Mat (n c : Nat) : Type := (⟨2, ![n, c]⟩ : Shape).Idx → EReal

/-- The feature count 256, the node count 115200 and the small constant added to a variance, as the programs print them. -/
def c256 : EReal := Ideal.ofBits .f32 0x43800000#32
def cN : EReal := Ideal.ofBits .f32 0x47E10000#32
def eps : EReal := Ideal.ofBits .f32 0x3727C5AC#32

/-- The entrywise sum of two arrays. -/
def add {n c : Nat} (x y : Mat n c) : Mat n c := fun i => x i + y i

/-- A dense layer: entry `(p, q)` is the sum over `j` of `x (p, j) * w (j, q)`, plus `b q`. -/
def dense {n k c : Nat} (x : Mat n k) (w : Mat k c) (b : Fin c → EReal) : Mat n c :=
  fun i => (∑ j : Fin k, x (ix2 (i 0) j) * w (ix2 j (i 1))) + b (i 1)

/-- A dense layer whose input columns come in four groups, each with its own weight block, the four
    partial products added left to right before the bias. -/
def dense4 {n k0 k1 k2 k3 c : Nat} (x0 : Mat n k0) (x1 : Mat n k1) (x2 : Mat n k2) (x3 : Mat n k3)
    (w0 : Mat k0 c) (w1 : Mat k1 c) (w2 : Mat k2 c) (w3 : Mat k3 c) (b : Fin c → EReal) : Mat n c :=
  fun i => ((((∑ j : Fin k0, x0 (ix2 (i 0) j) * w0 (ix2 j (i 1))) + (∑ j : Fin k1, x1 (ix2 (i 0) j) * w1 (ix2 j (i 1))))
      + (∑ j : Fin k2, x2 (ix2 (i 0) j) * w2 (ix2 j (i 1)))) + (∑ j : Fin k3, x3 (ix2 (i 0) j) * w3 (ix2 j (i 1)))) + b (i 1)

/-! ## Statistics of a row -/

def rowSum {n c : Nat} (h : Mat n c) (p : Fin n) : EReal := ∑ q : Fin c, h (ix2 p q)
def rowMean {n c : Nat} (h : Mat n c) (d : EReal) (p : Fin n) : EReal := Ideal.div (rowSum h p) d
/-- The mean of the squares minus the square of the mean. -/
def rowVarK {n c : Nat} (h : Mat n c) (d : EReal) (p : Fin n) : EReal :=
  Ideal.div (∑ q : Fin c, h (ix2 p q) * h (ix2 p q)) d - rowMean h d p * rowMean h d p
/-- The mean of the squared deviations from the mean. -/
def rowVarR {n c : Nat} (h : Mat n c) (d : EReal) (p : Fin n) : EReal :=
  Ideal.div (∑ q : Fin c, (h (ix2 p q) - rowMean h d p) * (h (ix2 p q) - rowMean h d p)) d

/-- Normalise every row with its own mean `mu p` and variance `var p`, then gain, shift and positive part. -/
def normRows {n c : Nat} (h : Mat n c) (mu var : Fin n → EReal) (g β : Fin c → EReal) : Mat n c :=
  fun i => max ((((h i - mu (i 0)) * Ideal.rsqrt (var (i 0) + eps)) * g (i 1)) + β (i 1)) 0

def lnK {n c : Nat} (h : Mat n c) (g β : Fin c → EReal) : Mat n c := normRows h (rowMean h c256) (rowVarK h c256) g β
def lnR {n c : Nat} (h : Mat n c) (g β : Fin c → EReal) : Mat n c := normRows h (rowMean h c256) (rowVarR h c256) g β

/-! ## Statistics of a column -/

def colSum {n c : Nat} (h : Mat n c) (q : Fin c) : EReal := ∑ p : Fin n, h (ix2 p q)
def colSumSq {n c : Nat} (h : Mat n c) (q : Fin c) : EReal := ∑ p : Fin n, h (ix2 p q) * h (ix2 p q)
def colMean {n c : Nat} (h : Mat n c) (d : EReal) (q : Fin c) : EReal := Ideal.div (colSum h q) d
def colVarK {n c : Nat} (h : Mat n c) (d : EReal) (q : Fin c) : EReal :=
  Ideal.div (colSumSq h q) d - colMean h d q * colMean h d q
def colVarR {n c : Nat} (h : Mat n c) (d : EReal) (q : Fin c) : EReal :=
  Ideal.div (∑ p : Fin n, (h (ix2 p q) - colMean h d q) * (h (ix2 p q) - colMean h d q)) d

/-- Normalise every column with its own mean `mu q` and variance `var q`, then gain, shift and positive part. -/
def normCols {n c : Nat} (h : Mat n c) (mu var : Fin c → EReal) (g β : Fin c → EReal) : Mat n c :=
  fun i => max ((((h i - mu (i 1)) * Ideal.rsqrt (var (i 1) + eps)) * g (i 1)) + β (i 1)) 0

def bnK {n c : Nat} (h : Mat n c) (g β : Fin c → EReal) : Mat n c := normCols h (colMean h cN) (colVarK h cN) g β
def bnR {n c : Nat} (h : Mat n c) (g β : Fin c → EReal) : Mat n c := normCols h (colMean h cN) (colVarR h cN) g β

/-- A one-row array holding one value per column. -/
def rowOf {c : Nat} (f : Fin c → EReal) : Mat 1 c := fun i => f (i 1)

/-- Rows `off` … `off + k − 1` of an array with `K` rows. -/
def rowsFrom {k K c : Nat} (off : Nat) (h : off + k ≤ K) (w : Mat K c) : Mat k c :=
  fun i => w (ix2 ⟨off + (i 0).val, by have := idx2_lt0 i; omega⟩ (i 1))

/-! ## The functions at an index -/

theorem add_apply {n c : Nat} (x y : Mat n c) (i : (⟨2, ![n, c]⟩ : Shape).Idx) : add x y i = x i + y i := rfl

theorem dense_apply {n k c : Nat} (x : Mat n k) (w : Mat k c) (b : Fin c → EReal) (p : Fin n) (q : Fin c) :
    dense x w b (ix2 p q) = (∑ j : Fin k, x (ix2 p j) * w (ix2 j q)) + b q := rfl

theorem dense4_apply {n k0 k1 k2 k3 c : Nat} (x0 : Mat n k0) (x1 : Mat n k1) (x2 : Mat n k2) (x3 : Mat n k3)
    (w0 : Mat k0 c) (w1 : Mat k1 c) (w2 : Mat k2 c) (w3 : Mat k3 c) (b : Fin c → EReal) (p : Fin n) (q : Fin c) :
    dense4 x0 x1 x2 x3 w0 w1 w2 w3 b (ix2 p q)
      = ((((∑ j : Fin k0, x0 (ix2 p j) * w0 (ix2 j q)) + (∑ j : Fin k1, x1 (ix2 p j) * w1 (ix2 j q)))
          + (∑ j : Fin k2, x2 (ix2 p j) * w2 (ix2 j q))) + (∑ j : Fin k3, x3 (ix2 p j) * w3 (ix2 j q))) + b q := rfl

theorem normRows_apply {n c : Nat} (h : Mat n c) (mu var : Fin n → EReal) (g β : Fin c → EReal) (p : Fin n) (q : Fin c) :
    normRows h mu var g β (ix2 p q) = max ((((h (ix2 p q) - mu p) * Ideal.rsqrt (var p + eps)) * g q) + β q) 0 := rfl

theorem normCols_apply {n c : Nat} (h : Mat n c) (mu var : Fin c → EReal) (g β : Fin c → EReal) (p : Fin n) (q : Fin c) :
    normCols h mu var g β (ix2 p q) = max ((((h (ix2 p q) - mu q) * Ideal.rsqrt (var q + eps)) * g q) + β q) 0 := rfl

theorem rowOf_apply {c : Nat} (f : Fin c → EReal) (q : Fin c) : rowOf f (ix2 (0 : Fin 1) q) = f q := rfl

theorem rowsFrom_apply {k K c : Nat} (off : Nat) (h : off + k ≤ K) (w : Mat K c) (j : Fin k) (q : Fin c) :
    rowsFrom off h w (ix2 j q) = w (ix2 ⟨off + j.val, by have := j.isLt; omega⟩ q) := rfl

end Cert.Spec

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.KReg7.lean ====
/-
  The two output heads of region 7, read off their blocks.

  Each grid point t takes rows 1152 t … 1152 t + 1151 of the [115200, 256] feature array, the two [256, 1] weight
  columns and the two [1, 1] biases, and writes the same rows of the two [115200, 1] outputs: entry (p, 0) of a head is
  the sum over k of feature (p, k) times weight (k, 0), plus the bias.  The casts to the narrower float format are the
  identity at the ideal values and the product accumulates into zero, so each head is the dense layer of the feature
  array; the hundred blocks tile each output.
-/
import proofs.«167845_j85727547228621_1_alg».proof.Proof.Gen.KernelIdeal.Frame
import proofs.«167845_j85727547228621_1_alg».proof.Proof.Spec
import proofs.«167845_j85727547228621_1_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KReg7

open Cert.KernelIdeal Cert.KernelIdeal.Gen Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The printed dimension numbers are the plain ones: [1152, 256] by [256, 1]. -/
theorem dims_plain : dot_S1152x256_S256x1_S1152x1_1_0_0_1_n_n = DotDims.plain 1152 256 1 := rfl

/-- The first head's stored value at row p of the block: row p of the features against the weight column, plus the bias. -/
theorem headA_apply (x0 : Vec Ideal S1152x256 .f32) (w : Vec Ideal S256x1 .f32) (b : Vec Ideal S1x1 .f32) (p : Fin 1152) (q : Fin 1) :
    Gen.k7_pay2 (F := Ideal) x0 w b (ix2 p q) = (∑ k : Fin 256, x0 (ix2 p k) * w (ix2 k q)) + b (ix2 (0 : Fin 1) q) := by
  unfold Gen.k7_pay2 Gen.k7_pay1
  simp only [shapeCast_self]
  rw [addf_apply, broadcastTo_1b_ab_apply, dims_plain]
  refine congrArg (· + b (ix2 (0 : Fin 1) q)) ?_
  refine (Cert.Bridge.matmul_plain_zero_apply 1152 256 1 none _ _ p q).trans ?_
  rfl

/-- The second head's, likewise. -/
theorem headV_apply (x0 : Vec Ideal S1152x256 .f32) (w : Vec Ideal S256x1 .f32) (b : Vec Ideal S1x1 .f32) (p : Fin 1152) (q : Fin 1) :
    Gen.k7_pay3 (F := Ideal) x0 w b (ix2 p q) = (∑ k : Fin 256, x0 (ix2 p k) * w (ix2 k q)) + b (ix2 (0 : Fin 1) q) := by
  unfold Gen.k7_pay3 Gen.k7_pay1
  simp only [shapeCast_self]
  rw [addf_apply, broadcastTo_1b_ab_apply, dims_plain]
  refine congrArg (· + b (ix2 (0 : Fin 1) q)) ?_
  refine (Cert.Bridge.matmul_plain_zero_apply 1152 256 1 none _ _ p q).trans ?_
  rfl

/-- The printed index maps over the grid: the feature window and the two outputs move one block of rows per point;
    the weight columns and the biases stay put. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- The feature window's block at point t is rows 1152 t … 1152 t + 1151 of its array. -/
theorem iblk0_apply (c : Dev nD) (t : Fin cfg7.N) (p : Fin 1152) (k : Fin 256) (r : Fin 115200)
    (hr : r.val = 1152 * t.val + p.val) :
    (iblk7 V c 0 t : Vec Ideal S1152x256 .f32) (ix2 p k) = (V c main_v71 : S115200x256.Idx → EReal) (ix2 r k) := by
  obtain ⟨e0, e1, -⟩ := idx_facts t
  unfold iblk7
  rw [View.read_apply]
  show V c main_v71 _ = V c main_v71 _
  refine congrArg _ ?_
  funext a
  apply Fin.ext
  match a with
  | ⟨0, _⟩ => show win7_0.index t (0 : Fin 2) * 1152 + 1 * p.val = r.val; rw [e0, hr]; omega
  | ⟨1, _⟩ => show win7_0.index t (1 : Fin 2) * 256 + 1 * k.val = k.val; rw [e1]; omega

/-- The first weight column's block at any point is the whole column. -/
theorem iblk1_apply (c : Dev nD) (t : Fin cfg7.N) (k : Fin 256) (q : Fin 1) :
    (iblk7 V c 1 t : Vec Ideal S256x1 .f32) (ix2 k q) = (V c main_arg19 : S256x1.Idx → EReal) (ix2 k q) := by
  obtain ⟨-, -, e0, e1, -⟩ := idx_facts t
  unfold iblk7
  rw [View.read_apply]
  show V c main_arg19 _ = V c main_arg19 _
  refine congrArg _ ?_
  funext a
  apply Fin.ext
  match a with
  | ⟨0, _⟩ => show win7_1.index t (0 : Fin 2) * 256 + 1 * k.val = k.val; rw [e0]; omega
  | ⟨1, _⟩ => show win7_1.index t (1 : Fin 2) * 1 + 1 * q.val = q.val; rw [e1]; omega

/-- The first bias's block at any point is the bias. -/
theorem iblk2_apply (c : Dev nD) (t : Fin cfg7.N) (q : Fin 1) :
    (iblk7 V c 2 t : Vec Ideal S1x1 .f32) (ix2 (0 : Fin 1) q) = (V c main_v72 : S1x1.Idx → EReal) (ix2 (0 : Fin 1) q) := by
  obtain ⟨-, -, -, -, e0, e1, -⟩ := idx_facts t
  unfold iblk7
  rw [View.read_apply]
  show V c main_v72 _ = V c main_v72 _
  refine congrArg _ ?_
  funext a
  apply Fin.ext
  match a with
  | ⟨0, _⟩ => show win7_2.index t (0 : Fin 2) * 1 + 1 * 0 = 0; rw [e0]
  | ⟨1, _⟩ => show win7_2.index t (1 : Fin 2) * 1 + 1 * q.val = q.val; rw [e1]; omega

/-- The second weight column's. -/
theorem iblk3_apply (c : Dev nD) (t : Fin cfg7.N) (k : Fin 256) (q : Fin 1) :
    (iblk7 V c 3 t : Vec Ideal S256x1 .f32) (ix2 k q) = (V c main_arg21 : S256x1.Idx → EReal) (ix2 k q) := by
  obtain ⟨-, -, -, -, -, -, e0, e1, -⟩ := idx_facts t
  unfold iblk7
  rw [View.read_apply]
  show V c main_arg21 _ = V c main_arg21 _
  refine congrArg _ ?_
  funext a
  apply Fin.ext
  match a with
  | ⟨0, _⟩ => show win7_3.index t (0 : Fin 2) * 256 + 1 * k.val = k.val; rw [e0]; omega
  | ⟨1, _⟩ => show win7_3.index t (1 : Fin 2) * 1 + 1 * q.val = q.val; rw [e1]; omega

/-- The second bias's. -/
theorem iblk4_apply (c : Dev nD) (t : Fin cfg7.N) (q : Fin 1) :
    (iblk7 V c 4 t : Vec Ideal S1x1 .f32) (ix2 (0 : Fin 1) q) = (V c main_v73 : S1x1.Idx → EReal) (ix2 (0 : Fin 1) q) := by
  obtain ⟨-, -, -, -, -, -, -, -, e0, e1, -⟩ := idx_facts t
  unfold iblk7
  rw [View.read_apply]
  show V c main_v73 _ = V c main_v73 _
  refine congrArg _ ?_
  funext a
  apply Fin.ext
  match a with
  | ⟨0, _⟩ => show win7_4.index t (0 : Fin 2) * 1 + 1 * 0 = 0; rw [e0]
  | ⟨1, _⟩ => show win7_4.index t (1 : Fin 2) * 1 + 1 * q.val = q.val; rw [e1]; omega

/-- What the first output array ends holding: the dense layer of the features by the first weight column and bias. -/
abbrev resultA (c : Dev nD) : S115200x1.Idx → EReal :=
  Spec.dense (V c main_v71 : S115200x256.Idx → EReal) (V c main_arg19 : S256x1.Idx → EReal)
    (fun q => (V c main_v72 : S1x1.Idx → EReal) (ix2 (0 : Fin 1) q))

/-- What the second output array ends holding: the same with the second weight column and bias. -/
abbrev resultV (c : Dev nD) : S115200x1.Idx → EReal :=
  Spec.dense (V c main_v71 : S115200x256.Idx → EReal) (V c main_arg21 : S256x1.Idx → EReal)
    (fun q => (V c main_v73 : S1x1.Idx → EReal) (ix2 (0 : Fin 1) q))

/-- What point t writes back to the first output is block t of the first head. -/
theorem flushedA_eq (c : Dev nD) (t : Fin cfg7.N) :
    (dat7 V c).flushed 5 t = ((cfg7.win 5).blk t).view.read (Elt Ideal) (resultA V c) := by
  show (cfg7.win 5).cut (grid7.coords t) ((dat7 V c).after 5 t) = _
  rw [after7_5]
  unfold out7_5
  rw [View.canon_unit_zero hz]
  simp only [View.ld_unit_zero (S := S1152x256) hz, View.ld_unit_zero (S := S256x1) hz, View.ld_unit_zero (S := S1x1) hz]
  funext j
  obtain ⟨p, q, rfl⟩ : ∃ (p : Fin 1152) (q : Fin 1), j = ix2 p q := ⟨j 0, j 1, eq_ix2 j⟩
  have ht : t.val < 100 := lt_of_lt_of_eq t.isLt N_7
  have hr : 1152 * t.val + p.val < 115200 := by omega
  obtain ⟨-, -, -, -, -, -, -, -, -, -, e0, e1, -⟩ := idx_facts t
  have hx : (cfg7.win 5).xinj (grid7.coords t) (ix2 p q) = ix2 p q :=
    funext fun a => by match a with | ⟨0, _⟩ => rfl | ⟨1, _⟩ => rfl
  have hemb : ((cfg7.win 5).blk t).view.emb (ix2 p q) = (ix2 (⟨1152 * t.val + p.val, hr⟩ : Fin 115200) q : S115200x1.Idx) := by
    funext a
    apply Fin.ext
    match a with
    | ⟨0, _⟩ => show win7_5.index t (0 : Fin 2) * 1152 + 1 * p.val = 1152 * t.val + p.val; rw [e0]; omega
    | ⟨1, _⟩ => show win7_5.index t (1 : Fin 2) * 1 + 1 * q.val = q.val; rw [e1]; omega
  rw [View.read_apply, hemb]
  show Gen.k7_pay2 (F := Ideal) _ _ _ ((cfg7.win 5).xinj (grid7.coords t) (ix2 p q))
    = resultA V c (ix2 (⟨1152 * t.val + p.val, hr⟩ : Fin 115200) q)
  rw [hx]
  refine (headA_apply (iblk7 V c 0 t) (iblk7 V c 1 t) (iblk7 V c 2 t) p q).trans ?_
  refine Eq.trans ?_ (Spec.dense_apply _ _ _ _ q).symm
  rw [iblk2_apply]
  refine congrArg (· + _) ?_
  refine Finset.sum_congr rfl fun k _ => ?_
  rw [iblk0_apply V c t p k ⟨1152 * t.val + p.val, hr⟩ rfl, iblk1_apply]

/-- What point t writes back to the second output is block t of the second head. -/
theorem flushedV_eq (c : Dev nD) (t : Fin cfg7.N) :
    (dat7 V c).flushed 6 t = ((cfg7.win 6).blk t).view.read (Elt Ideal) (resultV V c) := by
  show (cfg7.win 6).cut (grid7.coords t) ((dat7 V c).after 6 t) = _
  rw [after7_6]
  unfold out7_6
  rw [View.canon_unit_zero hz]
  simp only [View.ld_unit_zero (S := S1152x256) hz, View.ld_unit_zero (S := S256x1) hz, View.ld_unit_zero (S := S1x1) hz]
  funext j
  obtain ⟨p, q, rfl⟩ : ∃ (p : Fin 1152) (q : Fin 1), j = ix2 p q := ⟨j 0, j 1, eq_ix2 j⟩
  have ht : t.val < 100 := lt_of_lt_of_eq t.isLt N_7
  have hr : 1152 * t.val + p.val < 115200 := by omega
  obtain ⟨-, -, -, -, -, -, -, -, -, -, -, -, e0, e1⟩ := idx_facts t
  have hx : (cfg7.win 6).xinj (grid7.coords t) (ix2 p q) = ix2 p q :=
    funext fun a => by match a with | ⟨0, _⟩ => rfl | ⟨1, _⟩ => rfl
  have hemb : ((cfg7.win 6).blk t).view.emb (ix2 p q) = (ix2 (⟨1152 * t.val + p.val, hr⟩ : Fin 115200) q : S115200x1.Idx) := by
    funext a
    apply Fin.ext
    match a with
    | ⟨0, _⟩ => show win7_6.index t (0 : Fin 2) * 1152 + 1 * p.val = 1152 * t.val + p.val; rw [e0]; omega
    | ⟨1, _⟩ => show win7_6.index t (1 : Fin 2) * 1 + 1 * q.val = q.val; rw [e1]; omega
  rw [View.read_apply, hemb]
  show Gen.k7_pay3 (F := Ideal) _ _ _ ((cfg7.win 6).xinj (grid7.coords t) (ix2 p q))
    = resultV V c (ix2 (⟨1152 * t.val + p.val, hr⟩ : Fin 115200) q)
  rw [hx]
  refine (headV_apply (iblk7 V c 0 t) (iblk7 V c 3 t) (iblk7 V c 4 t) p q).trans ?_
  refine Eq.trans ?_ (Spec.dense_apply _ _ _ _ q).symm
  rw [iblk4_apply]
  refine congrArg (· + _) ?_
  refine Finset.sum_congr rfl fun k _ => ?_
  rw [iblk0_apply V c t p k ⟨1152 * t.val + p.val, hr⟩ rfl, iblk3_apply]

/-- An index of the first output is in point t's block iff each coordinate is in the block's range on its axis. -/
theorem mem_blkA (t : Fin cfg7.N) (i : S115200x1.Idx) :
    i ∈ ((cfg7.win 5).blk t).view.set ↔ ∀ a : Fin 2, win7_5.index t a * S1152x1.size a ≤ (i a).val
      ∧ (i a).val < win7_5.index t a * S1152x1.size a + S1152x1.size a := by
  show i ∈ ((View.whole main_v74_0).slice (win7_5.rect t)).set ↔ _
  rw [View.set_slice_whole, Rect.mem_set_unit]
  exact Iff.rfl

/-- The same for the second output. -/
theorem mem_blkV (t : Fin cfg7.N) (i : S115200x1.Idx) :
    i ∈ ((cfg7.win 6).blk t).view.set ↔ ∀ a : Fin 2, win7_6.index t a * S1152x1.size a ≤ (i a).val
      ∧ (i a).val < win7_6.index t a * S1152x1.size a + S1152x1.size a := by
  show i ∈ ((View.whole main_v74_1).slice (win7_6.rect t)).set ↔ _
  rw [View.set_slice_whole, Rect.mem_set_unit]
  exact Iff.rfl

/-- Row r of the first output is in the block of point r / 1152. -/
theorem coverA (i : S115200x1.Idx) : ∃ t : Fin cfg7.N, (cfg7.win 5).flush t = true ∧ i ∈ ((cfg7.win 5).blk t).view.set := by
  have hi0 : (i 0).val < 115200 := (i 0).isLt
  have hi1 : (i 1).val < 1 := (i 1).isLt
  have hN : cfg7.N = 100 := N_7
  obtain ⟨t, ht⟩ : ∃ t : Fin cfg7.N, t.val = (i 0).val / 1152 := ⟨⟨(i 0).val / 1152, by rw [hN]; omega⟩, rfl⟩
  obtain ⟨-, -, -, -, -, -, -, -, -, -, e0, e1, -⟩ := idx_facts t
  refine ⟨t, flush7_5 t, ?_⟩
  rw [mem_blkA]
  intro a
  match a with
  | ⟨0, _⟩ =>
    show win7_5.index t (0 : Fin 2) * 1152 ≤ (i 0).val ∧ (i 0).val < win7_5.index t (0 : Fin 2) * 1152 + 1152
    rw [e0, ht]; omega
  | ⟨1, _⟩ =>
    show win7_5.index t (1 : Fin 2) * 1 ≤ (i 1).val ∧ (i 1).val < win7_5.index t (1 : Fin 2) * 1 + 1
    rw [e1]; omega

/-- Row r of the second output is in the block of point r / 1152. -/
theorem coverV (i : S115200x1.Idx) : ∃ t : Fin cfg7.N, (cfg7.win 6).flush t = true ∧ i ∈ ((cfg7.win 6).blk t).view.set := by
  have hi0 : (i 0).val < 115200 := (i 0).isLt
  have hi1 : (i 1).val < 1 := (i 1).isLt
  have hN : cfg7.N = 100 := N_7
  obtain ⟨t, ht⟩ : ∃ t : Fin cfg7.N, t.val = (i 0).val / 1152 := ⟨⟨(i 0).val / 1152, by rw [hN]; omega⟩, rfl⟩
  obtain ⟨-, -, -, -, -, -, -, -, -, -, -, -, e0, e1⟩ := idx_facts t
  refine ⟨t, flush7_6 t, ?_⟩
  rw [mem_blkV]
  intro a
  match a with
  | ⟨0, _⟩ =>
    show win7_6.index t (0 : Fin 2) * 1152 ≤ (i 0).val ∧ (i 0).val < win7_6.index t (0 : Fin 2) * 1152 + 1152
    rw [e0, ht]; omega
  | ⟨1, _⟩ =>
    show win7_6.index t (1 : Fin 2) * 1 ≤ (i 1).val ∧ (i 1).val < win7_6.index t (1 : Fin 2) * 1 + 1
    rw [e1]; omega

/-- The first output array after the region: the dense layer of the features by the first weight column and bias. -/
theorem outA (c : Dev nD) : (dat7 V c).arrAt 5 cfg7.N
    = Spec.dense (V c main_v71 : S115200x256.Idx → EReal) (V c main_arg19 : S256x1.Idx → EReal)
        (fun q => (V c main_v72 : S1x1.Idx → EReal) (ix2 (0 : Fin 1) q)) :=
  (dat7 V c).arrAt_eq_of_cover 5 (resultA V c) (fun t _ => flushedA_eq V c t) coverA

/-- The second output array after the region: the dense layer of the features by the second weight column and bias. -/
theorem outV (c : Dev nD) : (dat7 V c).arrAt 6 cfg7.N
    = Spec.dense (V c main_v71 : S115200x256.Idx → EReal) (V c main_arg21 : S256x1.Idx → EReal)
        (fun q => (V c main_v73 : S1x1.Idx → EReal) (ix2 (0 : Fin 1) q)) :=
  (dat7 V c).arrAt_eq_of_cover 6 (resultV V c) (fun t _ => flushedV_eq V c t) coverV

end Cert.KernelIdeal.KReg7
end
-- ==== Proof.KChain6.lean ====
/-
  What the kernel launches find in their input arrays: launches 6 and 7 (the second normalisation; the two heads).  Each fact is an equation of whole buffers,
  read at the launch's entry.  An argument array, or an earlier launch's output array, is walked back through
  the segments in between, none of which writes it; an array the stretch of host operations before the launch
  computes is that stretch's operations composed, over the buffers the stretch reads, themselves walked back.
-/
import proofs.«167845_j85727547228621_1_alg».proof.Proof.KNames
import proofs.«167845_j85727547228621_1_alg».proof.Proof.KWalk
import proofs.«167845_j85727547228621_1_alg».proof.Proof.KChainDefs

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## Launch 6 -/

/-- Launch 6, window 0: launch 5's output array, which nothing in between writes. -/
theorem in6_0 : V13 m ρ c main_v62_0 = KNames.P2 m ρ c :=
  (KWalk.keepH6 m ρ c main_v62_0 (by decide)).trans (W12_arr m ρ c 3)

/-- Launch 6, window 1: the stretch before the launch computes it from the arrays named on the right. -/
theorem in6_1 : V13 m ρ c main_v64 = Host.divf (KNames.S2 m ρ c) (broadcastInDim S1x256 ![] bcast_S_S1x256 (constant (F := F) S_ .f32 0x47E10000#32)) := by
  show StableHlo.after hostOps6 (W12 m ρ c) (Proc.devRef .tc main_v64) = _
  after_results_simp
  rw [show W12 m ρ c (Proc.devRef .tc main_v62_1) = (KNames.S2 m ρ c) from (W12_arr m ρ c 4)]

/-- Launch 6, window 2: the stretch before the launch computes it from the arrays named on the right. -/
theorem in6_2 : V13 m ρ c main_v68 = subf (Host.divf (KNames.Q2 m ρ c) (broadcastInDim S1x256 ![] bcast_S_S1x256 (constant (F := F) S_ .f32 0x47E10000#32))) (mulf (Host.divf (KNames.S2 m ρ c) (broadcastInDim S1x256 ![] bcast_S_S1x256 (constant (F := F) S_ .f32 0x47E10000#32))) (Host.divf (KNames.S2 m ρ c) (broadcastInDim S1x256 ![] bcast_S_S1x256 (constant (F := F) S_ .f32 0x47E10000#32)))) := by
  show StableHlo.after hostOps6 (W12 m ρ c) (Proc.devRef .tc main_v68) = _
  after_results_simp
  rw [show W12 m ρ c (Proc.devRef .tc main_v62_2) = (KNames.Q2 m ρ c) from (W12_arr m ρ c 5),
    show W12 m ρ c (Proc.devRef .tc main_v62_1) = (KNames.S2 m ρ c) from (W12_arr m ρ c 4)]

/-- Launch 6, window 3: the stretch before the launch computes it from the arrays named on the right. -/
theorem in6_3 : V13 m ρ c main_v69 = shapeCast S1x256 (m ((c : Thread nD τ).loc main_arg17)) shapeCasts_S256_S1x256 := by
  show StableHlo.after hostOps6 (W12 m ρ c) (Proc.devRef .tc main_v69) = _
  after_results_simp
  rw [show W12 m ρ c (Proc.devRef .tc main_arg17) = (m ((c : Thread nD τ).loc main_arg17)) from (KWalk.stay12 m ρ c main_arg17 (by decide))]
  rfl

/-- Launch 6, window 4: the stretch before the launch computes it from the arrays named on the right. -/
theorem in6_4 : V13 m ρ c main_v70 = shapeCast S1x256 (m ((c : Thread nD τ).loc main_arg18)) shapeCasts_S256_S1x256 := by
  show StableHlo.after hostOps6 (W12 m ρ c) (Proc.devRef .tc main_v70) = _
  after_results_simp
  rw [show W12 m ρ c (Proc.devRef .tc main_arg18) = (m ((c : Thread nD τ).loc main_arg18)) from (KWalk.stay12 m ρ c main_arg18 (by decide))]
  rfl

/-! ## Launch 7 -/

/-- Launch 7, window 0: launch 6's output array, which nothing in between writes. -/
theorem in7_0 : V15 m ρ c main_v71 = KNames.H2 m ρ c :=
  (KWalk.keepH7 m ρ c main_v71 (by decide)).trans (W14_arr m ρ c 5)

/-- Launch 7, window 1: the argument array as launched — nothing before the launch writes it. -/
theorem in7_1 : V15 m ρ c main_arg19 = m ((c : Thread nD τ).loc main_arg19) :=
  (KWalk.stay15 m ρ c main_arg19 (by decide))

/-- Launch 7, window 2: the stretch before the launch computes it from the arrays named on the right. -/
theorem in7_2 : V15 m ρ c main_v72 = shapeCast S1x1 (m ((c : Thread nD τ).loc main_arg20)) shapeCasts_S1_S1x1 := by
  show StableHlo.after hostOps7 (W14 m ρ c) (Proc.devRef .tc main_v72) = _
  after_results_simp
  rw [show W14 m ρ c (Proc.devRef .tc main_arg20) = (m ((c : Thread nD τ).loc main_arg20)) from (KWalk.stay14 m ρ c main_arg20 (by decide))]
  rfl

/-- Launch 7, window 3: the argument array as launched — nothing before the launch writes it. -/
theorem in7_3 : V15 m ρ c main_arg21 = m ((c : Thread nD τ).loc main_arg21) :=
  (KWalk.stay15 m ρ c main_arg21 (by decide))

/-- Launch 7, window 4: the stretch before the launch computes it from the arrays named on the right. -/
theorem in7_4 : V15 m ρ c main_v73 = shapeCast S1x1 (m ((c : Thread nD τ).loc main_arg22)) shapeCasts_S1_S1x1 := by
  show StableHlo.after hostOps7 (W14 m ρ c) (Proc.devRef .tc main_v73) = _
  after_results_simp
  rw [show W14 m ρ c (Proc.devRef .tc main_arg22) = (m ((c : Thread nD τ).loc main_arg22)) from (KWalk.stay14 m ρ c main_arg22 (by decide))]
  rfl

end Cert.KernelIdeal.KChain

end
-- ==== Proof.KReg6.lean ====
/-
  The column normalisation of region 6, read off its blocks.

  Each grid point t takes rows 1152 t … 1152 t + 1151 of the [115200, 256] data array and the four [1, 256] parameter
  rows (mean, variance, gain, shift), and writes the same rows of the output: entry (p, q) is
  max(((h(p, q) − mean q) · rsqrt(var q + ε)) · gain q + shift q, 0).  The hundred blocks tile the output, so the
  output array after the region is that function of the data array and the parameter rows, index by index.
-/
import proofs.«167845_j85727547228621_1_alg».proof.Proof.Gen.KernelIdeal.Frame
import proofs.«167845_j85727547228621_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg6

open Cert.KernelIdeal Cert.KernelIdeal.Gen Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the block: the entry less the column's mean, times the inverse
    square root of the column's variance plus the small constant, times the gain, plus the shift, positive part. -/
theorem pay_apply (x0 : Vec Ideal S1152x256 .f32) (x1 x2 x3 x4 : Vec Ideal S1x256 .f32) (p : Fin 1152) (q : Fin 256) :
    Gen.k6_pay1 (F := Ideal) x0 x1 x2 x3 x4 (ix2 p q)
      = max ((((x0 (ix2 p q) - x1 (ix2 (0 : Fin 1) q)) * Ideal.rsqrt (x2 (ix2 (0 : Fin 1) q) + Spec.eps)) * x3 (ix2 (0 : Fin 1) q))
          + x4 (ix2 (0 : Fin 1) q)) 0 := by
  unfold Gen.k6_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (_ * Ideal.rsqrt (x2 (ix2 (0 : Fin 1) q) + Ideal.ofBits .f32 0x3727C5AC#32) * _ + _) (Ideal.ofBits .f32 0x00000000#32) = _
  rw [Ideal.ofBits_zero_f32]
  rfl

/-- The printed index maps over the grid: the data window and the output move one block of rows per point; the
    four parameter rows stay put. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The data window's block at point t is rows 1152 t … 1152 t + 1151 of its array. -/
theorem iblk0_apply (c : Dev nD) (t : Fin cfg6.N) (p : Fin 1152) (q : Fin 256) (r : Fin 115200)
    (hr : r.val = 1152 * t.val + p.val) :
    (iblk6 V c 0 t : Vec Ideal S1152x256 .f32) (ix2 p q) = (V c main_v62_0 : S115200x256.Idx → EReal) (ix2 r q) := by
  obtain ⟨e0, e1, -⟩ := idx_facts t
  unfold iblk6
  rw [View.read_apply]
  show V c main_v62_0 _ = V c main_v62_0 _
  refine congrArg _ ?_
  funext a
  apply Fin.ext
  match a with
  | ⟨0, _⟩ => show win6_0.index t (0 : Fin 2) * 1152 + 1 * p.val = r.val; rw [e0, hr]; omega
  | ⟨1, _⟩ => show win6_0.index t (1 : Fin 2) * 256 + 1 * q.val = q.val; rw [e1]; omega

/-- The mean row's block at any point is the whole row. -/
theorem iblk1_apply (c : Dev nD) (t : Fin cfg6.N) (q : Fin 256) :
    (iblk6 V c 1 t : Vec Ideal S1x256 .f32) (ix2 (0 : Fin 1) q) = (V c main_v64 : S1x256.Idx → EReal) (ix2 (0 : Fin 1) q) := by
  obtain ⟨-, -, e0, e1, -⟩ := idx_facts t
  unfold iblk6
  rw [View.read_apply]
  show V c main_v64 _ = V c main_v64 _
  refine congrArg _ ?_
  funext a
  apply Fin.ext
  match a with
  | ⟨0, _⟩ => show win6_1.index t (0 : Fin 2) * 1 + 1 * 0 = 0; rw [e0]
  | ⟨1, _⟩ => show win6_1.index t (1 : Fin 2) * 256 + 1 * q.val = q.val; rw [e1]; omega

/-- The variance row's. -/
theorem iblk2_apply (c : Dev nD) (t : Fin cfg6.N) (q : Fin 256) :
    (iblk6 V c 2 t : Vec Ideal S1x256 .f32) (ix2 (0 : Fin 1) q) = (V c main_v68 : S1x256.Idx → EReal) (ix2 (0 : Fin 1) q) := by
  obtain ⟨-, -, -, -, e0, e1, -⟩ := idx_facts t
  unfold iblk6
  rw [View.read_apply]
  show V c main_v68 _ = V c main_v68 _
  refine congrArg _ ?_
  funext a
  apply Fin.ext
  match a with
  | ⟨0, _⟩ => show win6_2.index t (0 : Fin 2) * 1 + 1 * 0 = 0; rw [e0]
  | ⟨1, _⟩ => show win6_2.index t (1 : Fin 2) * 256 + 1 * q.val = q.val; rw [e1]; omega

/-- The gain row's. -/
theorem iblk3_apply (c : Dev nD) (t : Fin cfg6.N) (q : Fin 256) :
    (iblk6 V c 3 t : Vec Ideal S1x256 .f32) (ix2 (0 : Fin 1) q) = (V c main_v69 : S1x256.Idx → EReal) (ix2 (0 : Fin 1) q) := by
  obtain ⟨-, -, -, -, -, -, e0, e1, -⟩ := idx_facts t
  unfold iblk6
  rw [View.read_apply]
  show V c main_v69 _ = V c main_v69 _
  refine congrArg _ ?_
  funext a
  apply Fin.ext
  match a with
  | ⟨0, _⟩ => show win6_3.index t (0 : Fin 2) * 1 + 1 * 0 = 0; rw [e0]
  | ⟨1, _⟩ => show win6_3.index t (1 : Fin 2) * 256 + 1 * q.val = q.val; rw [e1]; omega

/-- The shift row's. -/
theorem iblk4_apply (c : Dev nD) (t : Fin cfg6.N) (q : Fin 256) :
    (iblk6 V c 4 t : Vec Ideal S1x256 .f32) (ix2 (0 : Fin 1) q) = (V c main_v70 : S1x256.Idx → EReal) (ix2 (0 : Fin 1) q) := by
  obtain ⟨-, -, -, -, -, -, -, -, e0, e1, -⟩ := idx_facts t
  unfold iblk6
  rw [View.read_apply]
  show V c main_v70 _ = V c main_v70 _
  refine congrArg _ ?_
  funext a
  apply Fin.ext
  match a with
  | ⟨0, _⟩ => show win6_4.index t (0 : Fin 2) * 1 + 1 * 0 = 0; rw [e0]
  | ⟨1, _⟩ => show win6_4.index t (1 : Fin 2) * 256 + 1 * q.val = q.val; rw [e1]; omega

/-- What the output array ends holding: the column normalisation of the data array by the four parameter rows. -/
abbrev result (c : Dev nD) : S115200x256.Idx → EReal :=
  Spec.normCols (V c main_v62_0 : S115200x256.Idx → EReal) (fun q => (V c main_v64 : S1x256.Idx → EReal) (ix2 (0 : Fin 1) q))
    (fun q => (V c main_v68 : S1x256.Idx → EReal) (ix2 (0 : Fin 1) q)) (fun q => (V c main_v69 : S1x256.Idx → EReal) (ix2 (0 : Fin 1) q))
    (fun q => (V c main_v70 : S1x256.Idx → EReal) (ix2 (0 : Fin 1) q))

/-- What point t writes back is block t of the result. -/
theorem flushed_eq (c : Dev nD) (t : Fin cfg6.N) :
    (dat6 V c).flushed 5 t = ((cfg6.win 5).blk t).view.read (Elt Ideal) (result V c) := by
  show (cfg6.win 5).cut (grid6.coords t) ((dat6 V c).after 5 t) = _
  rw [after6_5]
  unfold out6_5
  rw [View.canon_unit_zero hz]
  simp only [View.ld_unit_zero (S := S1152x256) hz, View.ld_unit_zero (S := S1x256) hz]
  funext j
  obtain ⟨p, q, rfl⟩ : ∃ (p : Fin 1152) (q : Fin 256), j = ix2 p q := ⟨j 0, j 1, eq_ix2 j⟩
  have ht : t.val < 100 := lt_of_lt_of_eq t.isLt N_6
  have hr : 1152 * t.val + p.val < 115200 := by omega
  obtain ⟨-, -, -, -, -, -, -, -, -, -, e0, e1⟩ := idx_facts t
  have hx : (cfg6.win 5).xinj (grid6.coords t) (ix2 p q) = ix2 p q :=
    funext fun a => by match a with | ⟨0, _⟩ => rfl | ⟨1, _⟩ => rfl
  have hemb : ((cfg6.win 5).blk t).view.emb (ix2 p q) = (ix2 (⟨1152 * t.val + p.val, hr⟩ : Fin 115200) q : S115200x256.Idx) := by
    funext a
    apply Fin.ext
    match a with
    | ⟨0, _⟩ => show win6_5.index t (0 : Fin 2) * 1152 + 1 * p.val = 1152 * t.val + p.val; rw [e0]; omega
    | ⟨1, _⟩ => show win6_5.index t (1 : Fin 2) * 256 + 1 * q.val = q.val; rw [e1]; omega
  rw [View.read_apply, hemb]
  show Gen.k6_pay1 _ _ _ _ _ ((cfg6.win 5).xinj (grid6.coords t) (ix2 p q)) = _
  rw [hx]
  refine (pay_apply (iblk6 V c 0 t) (iblk6 V c 1 t) (iblk6 V c 2 t) (iblk6 V c 3 t) (iblk6 V c 4 t) p q).trans ?_
  rw [iblk0_apply V c t p q ⟨1152 * t.val + p.val, hr⟩ rfl, iblk1_apply, iblk2_apply, iblk3_apply, iblk4_apply]
  rfl

/-- An index of the array is in point t's block iff each coordinate is in the block's range on its axis. -/
theorem mem_blk (t : Fin cfg6.N) (i : S115200x256.Idx) :
    i ∈ ((cfg6.win 5).blk t).view.set ↔ ∀ a : Fin 2, win6_5.index t a * S1152x256.size a ≤ (i a).val
      ∧ (i a).val < win6_5.index t a * S1152x256.size a + S1152x256.size a := by
  show i ∈ ((View.whole main_v71).slice (win6_5.rect t)).set ↔ _
  rw [View.set_slice_whole, Rect.mem_set_unit]
  exact Iff.rfl

/-- Row r of the array is in the block of point r / 1152. -/
theorem cover (i : S115200x256.Idx) : ∃ t : Fin cfg6.N, (cfg6.win 5).flush t = true ∧ i ∈ ((cfg6.win 5).blk t).view.set := by
  have hi0 : (i 0).val < 115200 := (i 0).isLt
  have hi1 : (i 1).val < 256 := (i 1).isLt
  have hN : cfg6.N = 100 := N_6
  obtain ⟨t, ht⟩ : ∃ t : Fin cfg6.N, t.val = (i 0).val / 1152 := ⟨⟨(i 0).val / 1152, by rw [hN]; omega⟩, rfl⟩
  obtain ⟨-, -, -, -, -, -, -, -, -, -, e0, e1⟩ := idx_facts t
  refine ⟨t, flush6_5 t, ?_⟩
  rw [mem_blk]
  intro a
  match a with
  | ⟨0, _⟩ =>
    show win6_5.index t (0 : Fin 2) * 1152 ≤ (i 0).val ∧ (i 0).val < win6_5.index t (0 : Fin 2) * 1152 + 1152
    rw [e0, ht]; omega
  | ⟨1, _⟩ =>
    show win6_5.index t (1 : Fin 2) * 256 ≤ (i 1).val ∧ (i 1).val < win6_5.index t (1 : Fin 2) * 256 + 256
    rw [e1]; omega

/-- The output array after the region: the column normalisation of the data array by the four parameter rows. -/
theorem out (c : Dev nD) : (dat6 V c).arrAt 5 cfg6.N
    = Spec.normCols (V c main_v62_0 : S115200x256.Idx → EReal) (fun q => (V c main_v64 : S1x256.Idx → EReal) (ix2 (0 : Fin 1) q))
        (fun q => (V c main_v68 : S1x256.Idx → EReal) (ix2 (0 : Fin 1) q)) (fun q => (V c main_v69 : S1x256.Idx → EReal) (ix2 (0 : Fin 1) q))
        (fun q => (V c main_v70 : S1x256.Idx → EReal) (ix2 (0 : Fin 1) q)) :=
  (dat6 V c).arrAt_eq_of_cover 5 (result V c) (fun t _ => flushed_eq V c t) cover

end Cert.KernelIdeal.KReg6
end
-- ==== Proof.KReg5Pay.lean ====
/-
  The second dense layer on one block of 1152 rows, entry by entry.

  On a block `x` of 1152 rows of the 512 input features, with the 512 by 256 weight matrix `w` and the bias row `b`,
  the layer before normalisation has entry (p, q) equal to the sum over k of x (p, k) * w (k, q), plus b (0, q): the
  casts to the narrow format are the identity on the extended reals and the product is accumulated into zero.  The two
  running rows are updated by adding, column by column, the sum over the block's 1152 rows of that entry and of its
  square.  The rows first stored at the first block are zero rows.
-/
import proofs.«167845_j85727547228621_1_alg».proof.Proof.Gen.KernelIdeal.Skeleton
import proofs.«167845_j85727547228621_1_alg».proof.Proof.LibMatmulRows
import Idealize.ShloMosaic.Lib.ValueLayout
import Idealize.ShloMosaic.Lib.Pipeline.Value

noncomputable section

open scoped BigOperators

namespace Cert.KernelIdeal.KReg5

open Cert.KernelIdeal Cert.KernelIdeal.Gen Idealize.ShloMosaic Idealize.ShloMosaic.ValueIdx

/-- The printed dimension numbers of the block product are the plain ones: rows by contraction, contraction by columns. -/
theorem dot_plain : dot_S1152x512_S512x256_S1152x256_1_0_0_1_n_n = DotDims.plain 1152 512 256 := rfl

/-- The sum over the rows of a block of 1152 rows and 256 columns, at column q. -/
theorem colsum_apply (src : FVec Ideal S1152x256 .f32) (h : S1152x256.Reduces [0] S256) (hφ : FKind.Formats .f32)
    (hacc : (0x00000000#32 : BitVec 32) = 0x00000000#32) (q : Fin 256) :
    multiReduction (F := Ideal) .add [0] S256 src 0x00000000#32 h hφ hacc (ix1 q) = ∑ p : Fin 1152, src (ix2 p q) := by
  refine (Ideal.multiReduction_add_single src 0x00000000#32 h hφ hacc (ix1 q)).trans ?_
  refine Finset.sum_congr rfl fun p _ => congrArg src ?_
  funext a
  match a with
  | ⟨0, _⟩ => rfl
  | ⟨1, _⟩ => rfl

/-- The layer before normalisation on one block, at (p, q). -/
theorem pre_apply (x : Vec Ideal S1152x512 .f32) (w : Vec Ideal S512x256 .f32) (b : Vec Ideal S1x256 .f32)
    (p : Fin 1152) (q : Fin 256) :
    k5_pay3 (F := Ideal) x w b (ix2 p q) = (∑ k : Fin 512, x (ix2 p k) * w (ix2 k q)) + b (ix2 (0 : Fin 1) q) := by
  unfold k5_pay3
  refine congrArg₂ (· + ·) ?_ ?_
  · rw [dot_plain]
    refine (Cert.Bridge.matmul_plain_zero_apply 1152 512 256 none _ _ p q).trans ?_
    refine Finset.sum_congr rfl fun k _ => ?_
    show shapeCast S1152x512 x _ (ix2 p k) * w (ix2 k q) = _
    rw [shapeCast_self]
  · refine (broadcastTo_1b_ab_apply _ _ p q).trans ?_
    rw [shapeCast_self]

/-- The running column sums after a block: the row as it stood plus the block's column sums of the layer. -/
theorem sum_apply (x : Vec Ideal S1152x512 .f32) (w : Vec Ideal S512x256 .f32) (b : Vec Ideal S1x256 .f32)
    (acc : Vec Ideal S1x256 .f32) (q : Fin 256) :
    k5_pay4 (F := Ideal) x w b acc (ix2 (0 : Fin 1) q)
      = acc (ix2 (0 : Fin 1) q) + ∑ p : Fin 1152, k5_pay3 (F := Ideal) x w b (ix2 p q) := by
  unfold k5_pay4
  refine congrArg₂ (· + ·) ?_ ?_
  · rw [shapeCast_self]
  · refine (shapeCast_a_1a_apply _ _ (0 : Fin 1) q).trans ?_
    exact colsum_apply _ _ _ _ q

/-- The running column sums of squares after a block: the row as it stood plus the block's column sums of the squares. -/
theorem sumsq_apply (x : Vec Ideal S1152x512 .f32) (w : Vec Ideal S512x256 .f32) (b : Vec Ideal S1x256 .f32)
    (acc : Vec Ideal S1x256 .f32) (q : Fin 256) :
    k5_pay5 (F := Ideal) x w b acc (ix2 (0 : Fin 1) q)
      = acc (ix2 (0 : Fin 1) q)
        + ∑ p : Fin 1152, k5_pay3 (F := Ideal) x w b (ix2 p q) * k5_pay3 (F := Ideal) x w b (ix2 p q) := by
  unfold k5_pay5
  refine congrArg₂ (· + ·) ?_ ?_
  · rw [shapeCast_self]
  · refine (shapeCast_a_1a_apply _ _ (0 : Fin 1) q).trans ?_
    exact colsum_apply _ _ _ _ q

/-- The two rows stored at the first block are zero rows. -/
theorem zero_sum_apply (i : S1x256.Idx) : k5_pay1 (F := Ideal) i = 0 := Ideal.ofBits_zero_f32
theorem zero_sumsq_apply (i : S1x256.Idx) : k5_pay2 (F := Ideal) i = 0 := Ideal.ofBits_zero_f32

end Cert.KernelIdeal.KReg5

end
-- ==== Proof.KReg5Pieces.lean ====
/-
  What one grid point of the second dense layer's launch leaves in its three output buffers, as the body's arithmetic
  applied to the blocks it loaded.

  At every point the block of the layer before normalisation is the body's one product-plus-bias term of the loaded
  input block, weight matrix and bias row.  At the first point the two running rows are first zeroed, read back, and the
  block's column sums (of the entries, of their squares) are added to the zero rows; at every later point they are added
  to the rows as the point before left them.
-/
import proofs.«167845_j85727547228621_1_alg».proof.Proof.Gen.KernelIdeal.Frame
import Idealize.ShloMosaic.Lib.Pipeline.Value
import Idealize.ShloMosaic.Lib.Tactic

noncomputable section

namespace Cert.KernelIdeal.KReg5

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## A point after the first: the rows are read as the point before left them -/

theorem out_B_3 (c : Dev nD) (i : grid5.Coords) (a1 : Memref sig .tc .vmem S1152x512 .f32) (h1 : a1.IsWhole)
    (a2 : Memref sig .tc .vmem S512x256 .f32) (h2 : a2.IsWhole) (a3 : Memref sig .tc .vmem S1x256 .f32) (h3 : a3.IsWhole)
    (a4 : Memref sig .tc .vmem S1152x256 .f32) (h4 : a4.IsWhole) (a5 : Memref sig .tc .vmem S1x256 .f32) (h5 : a5.IsWhole)
    (a6 : Memref sig .tc .vmem S1x256 .f32) (h6 : a6.IsWhole) (hc : ¬cond5_0 i)
    (x0 : Vec F S1152x512 .f32) (x1 : Vec F S512x256 .f32) (x2 : Vec F S1x256 .f32) (xo4 xo5 : Vec F S1x256 .f32) :
    out5_B_3 c i a1 h1 a2 h2 a3 h3 a4 h4 a5 h5 a6 h6 hc x0 x1 x2 xo4 xo5 = k5_pay3 x0 x1 x2 := by
  unfold out5_B_3
  rw [View.read_writes_eq_canon _ _ _ (cover5_B_3 c i a1 h1 a2 h2 a3 h3 a4 h4 a5 h5 a6 h6 hc x0 x1 x2 xo4 xo5)]
  unfold kernelRun5_B
  dsimp only
  rw [View.canon_unit_zero hz]
  simp only [View.readAt_eq_ld, h1.read_unread, h2.read_unread, h3.read_unread, h5.read_unread, h6.read_unread,
    View.ld_unit_zero (S := S1152x512) hz, View.ld_unit_zero (S := S512x256) hz, View.ld_unit_zero (S := S1x256) hz]

theorem out_B_4 (c : Dev nD) (i : grid5.Coords) (a1 : Memref sig .tc .vmem S1152x512 .f32) (h1 : a1.IsWhole)
    (a2 : Memref sig .tc .vmem S512x256 .f32) (h2 : a2.IsWhole) (a3 : Memref sig .tc .vmem S1x256 .f32) (h3 : a3.IsWhole)
    (a4 : Memref sig .tc .vmem S1152x256 .f32) (h4 : a4.IsWhole) (a5 : Memref sig .tc .vmem S1x256 .f32) (h5 : a5.IsWhole)
    (a6 : Memref sig .tc .vmem S1x256 .f32) (h6 : a6.IsWhole) (hc : ¬cond5_0 i)
    (x0 : Vec F S1152x512 .f32) (x1 : Vec F S512x256 .f32) (x2 : Vec F S1x256 .f32) (xo4 xo5 : Vec F S1x256 .f32) :
    out5_B_4 c i a1 h1 a2 h2 a3 h3 a4 h4 a5 h5 a6 h6 hc x0 x1 x2 xo4 xo5 = k5_pay4 x0 x1 x2 xo4 := by
  unfold out5_B_4
  rw [View.read_writes_eq_canon _ _ _ (cover5_B_4 c i a1 h1 a2 h2 a3 h3 a4 h4 a5 h5 a6 h6 hc x0 x1 x2 xo4 xo5)]
  unfold kernelRun5_B
  dsimp only
  rw [View.canon_unit_zero hz]
  simp only [View.readAt_eq_ld, h1.read_unread, h2.read_unread, h3.read_unread, h5.read_unread, h6.read_unread,
    View.ld_unit_zero (S := S1152x512) hz, View.ld_unit_zero (S := S512x256) hz, View.ld_unit_zero (S := S1x256) hz]

theorem out_B_5 (c : Dev nD) (i : grid5.Coords) (a1 : Memref sig .tc .vmem S1152x512 .f32) (h1 : a1.IsWhole)
    (a2 : Memref sig .tc .vmem S512x256 .f32) (h2 : a2.IsWhole) (a3 : Memref sig .tc .vmem S1x256 .f32) (h3 : a3.IsWhole)
    (a4 : Memref sig .tc .vmem S1152x256 .f32) (h4 : a4.IsWhole) (a5 : Memref sig .tc .vmem S1x256 .f32) (h5 : a5.IsWhole)
    (a6 : Memref sig .tc .vmem S1x256 .f32) (h6 : a6.IsWhole) (hc : ¬cond5_0 i)
    (x0 : Vec F S1152x512 .f32) (x1 : Vec F S512x256 .f32) (x2 : Vec F S1x256 .f32) (xo4 xo5 : Vec F S1x256 .f32) :
    out5_B_5 c i a1 h1 a2 h2 a3 h3 a4 h4 a5 h5 a6 h6 hc x0 x1 x2 xo4 xo5 = k5_pay5 x0 x1 x2 xo5 := by
  unfold out5_B_5
  rw [View.read_writes_eq_canon _ _ _ (cover5_B_5 c i a1 h1 a2 h2 a3 h3 a4 h4 a5 h5 a6 h6 hc x0 x1 x2 xo4 xo5)]
  unfold kernelRun5_B
  dsimp only
  rw [View.canon_unit_zero hz]
  simp only [View.readAt_eq_ld, h1.read_unread, h2.read_unread, h3.read_unread, h5.read_unread, h6.read_unread,
    View.ld_unit_zero (S := S1152x512) hz, View.ld_unit_zero (S := S512x256) hz, View.ld_unit_zero (S := S1x256) hz]

/-! ## The first point: the rows are zeroed, then read back -/

theorem out_A_3 (c : Dev nD) (i : grid5.Coords) (a1 : Memref sig .tc .vmem S1152x512 .f32) (h1 : a1.IsWhole)
    (a2 : Memref sig .tc .vmem S512x256 .f32) (h2 : a2.IsWhole) (a3 : Memref sig .tc .vmem S1x256 .f32) (h3 : a3.IsWhole)
    (a4 : Memref sig .tc .vmem S1152x256 .f32) (h4 : a4.IsWhole) (a5 : Memref sig .tc .vmem S1x256 .f32) (h5 : a5.IsWhole)
    (a6 : Memref sig .tc .vmem S1x256 .f32) (h6 : a6.IsWhole) (hc : cond5_0 i)
    (x0 : Vec F S1152x512 .f32) (x1 : Vec F S512x256 .f32) (x2 : Vec F S1x256 .f32) :
    out5_A_3 c i a1 h1 a2 h2 a3 h3 a4 h4 a5 h5 a6 h6 hc x0 x1 x2 = k5_pay3 x0 x1 x2 := by
  unfold out5_A_3
  rw [View.read_writes_eq_canon _ _ _ (cover5_A_3 c i a1 h1 a2 h2 a3 h3 a4 h4 a5 h5 a6 h6 hc x0 x1 x2)]
  unfold kernelRun5_A
  dsimp only
  rw [View.canon_unit_zero hz]
  simp only [View.readAt_eq_ld, h1.read_unread, h2.read_unread, h3.read_unread, h5.read_unread, h6.read_unread,
    View.ld_unit_zero (S := S1152x512) hz, View.ld_unit_zero (S := S512x256) hz, View.ld_unit_zero (S := S1x256) hz]

theorem out_A_4 (c : Dev nD) (i : grid5.Coords) (a1 : Memref sig .tc .vmem S1152x512 .f32) (h1 : a1.IsWhole)
    (a2 : Memref sig .tc .vmem S512x256 .f32) (h2 : a2.IsWhole) (a3 : Memref sig .tc .vmem S1x256 .f32) (h3 : a3.IsWhole)
    (a4 : Memref sig .tc .vmem S1152x256 .f32) (h4 : a4.IsWhole) (a5 : Memref sig .tc .vmem S1x256 .f32) (h5 : a5.IsWhole)
    (a6 : Memref sig .tc .vmem S1x256 .f32) (h6 : a6.IsWhole) (hc : cond5_0 i)
    (x0 : Vec F S1152x512 .f32) (x1 : Vec F S512x256 .f32) (x2 : Vec F S1x256 .f32) :
    out5_A_4 c i a1 h1 a2 h2 a3 h3 a4 h4 a5 h5 a6 h6 hc x0 x1 x2 = k5_pay4 x0 x1 x2 k5_pay1 := by
  unfold out5_A_4
  rw [View.read_writes_eq_canon _ _ _ (cover5_A_4 c i a1 h1 a2 h2 a3 h3 a4 h4 a5 h5 a6 h6 hc x0 x1 x2)]
  unfold kernelRun5_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread,
    View.ld_unit_zero (S := S1152x512) hz, View.ld_unit_zero (S := S512x256) hz, View.ld_unit_zero (S := S1x256) hz]

theorem out_A_5 (c : Dev nD) (i : grid5.Coords) (a1 : Memref sig .tc .vmem S1152x512 .f32) (h1 : a1.IsWhole)
    (a2 : Memref sig .tc .vmem S512x256 .f32) (h2 : a2.IsWhole) (a3 : Memref sig .tc .vmem S1x256 .f32) (h3 : a3.IsWhole)
    (a4 : Memref sig .tc .vmem S1152x256 .f32) (h4 : a4.IsWhole) (a5 : Memref sig .tc .vmem S1x256 .f32) (h5 : a5.IsWhole)
    (a6 : Memref sig .tc .vmem S1x256 .f32) (h6 : a6.IsWhole) (hc : cond5_0 i)
    (x0 : Vec F S1152x512 .f32) (x1 : Vec F S512x256 .f32) (x2 : Vec F S1x256 .f32) :
    out5_A_5 c i a1 h1 a2 h2 a3 h3 a4 h4 a5 h5 a6 h6 hc x0 x1 x2 = k5_pay5 x0 x1 x2 k5_pay2 := by
  unfold out5_A_5
  rw [View.read_writes_eq_canon _ _ _ (cover5_A_5 c i a1 h1 a2 h2 a3 h3 a4 h4 a5 h5 a6 h6 hc x0 x1 x2)]
  unfold kernelRun5_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread,
    View.ld_unit_zero (S := S1152x512) hz, View.ld_unit_zero (S := S512x256) hz, View.ld_unit_zero (S := S1x256) hz]

/-! ## The three output buffers after each point, as the body's terms of the point's blocks -/

section Points

variable (V : (c : Dev nD) → (b : Ref sig .tc) → Buf (Elt F) ((c : Thread nD τ).loc b))

/-- After the first point: the layer's block, and the block's column sums added to zero rows. -/
theorem at_first (c : Dev nD) (t : Fin cfg5.N) (h0 : t.val % 100 = 0) :
    outsAt5 V c t.val t.isLt
      = (k5_pay3 (iblk5 V c 0 t) (iblk5 V c 1 t) (iblk5 V c 2 t),
         k5_pay4 (iblk5 V c 0 t) (iblk5 V c 1 t) (iblk5 V c 2 t) k5_pay1,
         k5_pay5 (iblk5 V c 0 t) (iblk5 V c 1 t) (iblk5 V c 2 t) k5_pay2) := by
  rw [outsAt5_A V c t h0,
    out_A_3 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t),
    out_A_4 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t),
    out_A_5 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t)]

/-- After a later point: the layer's block, and the block's column sums added to the rows the point before left. -/
theorem at_later (c : Dev nD) (t : Fin cfg5.N) (h0 : ¬t.val % 100 = 0) :
    outsAt5 V c t.val t.isLt
      = (k5_pay3 (iblk5 V c 0 t) (iblk5 V c 1 t) (iblk5 V c 2 t),
         k5_pay4 (iblk5 V c 0 t) (iblk5 V c 1 t) (iblk5 V c 2 t)
           (outsAt5 V c (t.val - 1) (Nat.lt_of_le_of_lt (Nat.sub_le _ _) t.isLt)).2.1,
         k5_pay5 (iblk5 V c 0 t) (iblk5 V c 1 t) (iblk5 V c 2 t)
           (outsAt5 V c (t.val - 1) (Nat.lt_of_le_of_lt (Nat.sub_le _ _) t.isLt)).2.2) := by
  rw [outsAt5_B V c t h0,
    out_B_3 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t)
      (outsAt5 V c (t.val - 1) (Nat.lt_of_le_of_lt (Nat.sub_le _ _) t.isLt)).2.1
      (outsAt5 V c (t.val - 1) (Nat.lt_of_le_of_lt (Nat.sub_le _ _) t.isLt)).2.2,
    out_B_4 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t)
      (outsAt5 V c (t.val - 1) (Nat.lt_of_le_of_lt (Nat.sub_le _ _) t.isLt)).2.1
      (outsAt5 V c (t.val - 1) (Nat.lt_of_le_of_lt (Nat.sub_le _ _) t.isLt)).2.2,
    out_B_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t)
      (outsAt5 V c (t.val - 1) (Nat.lt_of_le_of_lt (Nat.sub_le _ _) t.isLt)).2.1
      (outsAt5 V c (t.val - 1) (Nat.lt_of_le_of_lt (Nat.sub_le _ _) t.isLt)).2.2]

end Points

end Cert.KernelIdeal.KReg5

end
-- ==== Proof.KReg5Blocks.lean ====
/-
  The blocks the second dense layer's launch reads at grid point t, as entries of the arrays.

  The input window hands point t rows 1152 t to 1152 t + 1151 of the 115200 by 512 input; the weight matrix and the
  bias row are handed whole at every point.  An output block of 1152 rows sits at the same rows of its array, and the
  two running rows are their whole arrays.
-/
import proofs.«167845_j85727547228621_1_alg».proof.Proof.Gen.KernelIdeal.Frame
import Idealize.ShloMosaic.Lib.Pipeline.Value
import Idealize.ShloMosaic.Lib.ValueIdx

noncomputable section

namespace Cert.KernelIdeal.KReg5

open Cert.KernelIdeal Cert.KernelIdeal.Gen Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

/-- The printed index maps over the grid: the row-blocked windows move with the point, the others stay at block 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Entry (p, k) of the input block at point t is entry (1152 t + p, k) of the input. -/
theorem blk0_apply (c : Dev nD) (t : Fin cfg5.N) (p : Fin 1152) (k : Fin 512) (hr : 1152 * t.val + p.val < 115200) :
    (iblk5 V c 0 t : Vec Ideal S1152x512 .f32) (ix2 p k)
      = (V c main_v60 : S115200x512.Idx → EReal) (ix2 ⟨1152 * t.val + p.val, hr⟩ k) := by
  obtain ⟨e0, e1, -⟩ := idx_facts t
  unfold iblk5
  rw [View.read_apply]
  show V c main_v60 _ = V c main_v60 _
  refine congrArg _ ?_
  funext a
  apply Fin.ext
  match a with
  | ⟨0, _⟩ => show win5_0.index t 0 * 1152 + 1 * p.val = 1152 * t.val + p.val; rw [e0]; omega
  | ⟨1, _⟩ => show win5_0.index t 1 * 512 + 1 * k.val = k.val; rw [e1]; omega

/-- The weight block at any point is the weight matrix. -/
theorem blk1_eq (c : Dev nD) (t : Fin cfg5.N) :
    (iblk5 V c 1 t : Vec Ideal S512x256 .f32) = (V c main_arg13 : S512x256.Idx → EReal) := by
  obtain ⟨-, -, e2, e3, -⟩ := idx_facts t
  funext j
  unfold iblk5
  rw [View.read_apply]
  show V c main_arg13 _ = V c main_arg13 j
  refine congrArg _ ?_
  funext a
  apply Fin.ext
  match a with
  | ⟨0, _⟩ => show win5_1.index t 0 * 512 + 1 * (j 0).val = (j 0).val; rw [e2]; omega
  | ⟨1, _⟩ => show win5_1.index t 1 * 256 + 1 * (j 1).val = (j 1).val; rw [e3]; omega

/-- The bias block at any point is the bias row. -/
theorem blk2_eq (c : Dev nD) (t : Fin cfg5.N) :
    (iblk5 V c 2 t : Vec Ideal S1x256 .f32) = (V c main_v61 : S1x256.Idx → EReal) := by
  obtain ⟨-, -, -, -, e4, e5, -⟩ := idx_facts t
  funext j
  unfold iblk5
  rw [View.read_apply]
  show V c main_v61 _ = V c main_v61 j
  refine congrArg _ ?_
  funext a
  apply Fin.ext
  match a with
  | ⟨0, _⟩ => show win5_2.index t 0 * 1 + 1 * (j 0).val = (j 0).val; rw [e4]; omega
  | ⟨1, _⟩ => show win5_2.index t 1 * 256 + 1 * (j 1).val = (j 1).val; rw [e5]; omega

end Cert.KernelIdeal.KReg5

end
-- ==== Proof.LibColumnBlocks.lean ====
/-
  The sum of one column of an array over all its rows, taken a block of rows at a time.

  For an n by c array f and a column q, `below f m q` is the sum of f (r, q) over the rows r < m (rows past the last one
  count as zero).  It is zero at m = 0; adding a block of B rows starting at row m adds the sum over the block of
  f (m + p, q); and at m = n it is the sum of the column over every row.  Only the commutative monoid structure of the
  extended reals is used, so nothing asks the entries to be finite.  The same for the array of squares gives the column's
  sum of squares.
-/
import Idealize.ShloMosaic.Lib.ValueIdx
import proofs.«167845_j85727547228621_1_alg».proof.Proof.Spec

noncomputable section

open scoped BigOperators

namespace Cert.ColumnBlocks

open Idealize.ShloMosaic Idealize.ShloMosaic.ValueIdx

/-- Entry (r, q) of an n by c array, and zero at a row past the last. -/
def rowN {n c : Nat} (f : (⟨2, ![n, c]⟩ : Shape).Idx → EReal) (r : Nat) (q : Fin c) : EReal :=
  if h : r < n then f (ix2 ⟨r, h⟩ q) else 0

theorem rowN_of_lt {n c : Nat} (f : (⟨2, ![n, c]⟩ : Shape).Idx → EReal) (r : Nat) (h : r < n) (q : Fin c) :
    rowN f r q = f (ix2 ⟨r, h⟩ q) := dif_pos h

/-- The sum of column q over the rows below m. -/
def below {n c : Nat} (f : (⟨2, ![n, c]⟩ : Shape).Idx → EReal) (m : Nat) (q : Fin c) : EReal :=
  ∑ r ∈ Finset.range m, rowN f r q

theorem below_zero {n c : Nat} (f : (⟨2, ![n, c]⟩ : Shape).Idx → EReal) (q : Fin c) : below f 0 q = 0 :=
  Finset.sum_range_zero _

/-- A block of B rows starting at row m adds its own column sum. -/
theorem below_add_block {n c : Nat} (f : (⟨2, ![n, c]⟩ : Shape).Idx → EReal) (m B : Nat) (q : Fin c) :
    below f (m + B) q = below f m q + ∑ p : Fin B, rowN f (m + p.val) q := by
  unfold below
  rw [Finset.sum_range_add, Finset.sum_range (fun x => rowN f (m + x) q)]

/-- Over all the rows it is the column's sum. -/
theorem below_all {n c : Nat} (f : (⟨2, ![n, c]⟩ : Shape).Idx → EReal) (q : Fin c) :
    below f n q = ∑ p : Fin n, f (ix2 p q) := by
  unfold below
  rw [Finset.sum_range]
  exact Finset.sum_congr rfl fun p _ => rowN_of_lt f p.val p.isLt q

/-- The array of squares, entry by entry. -/
def sqr {n c : Nat} (f : (⟨2, ![n, c]⟩ : Shape).Idx → EReal) : (⟨2, ![n, c]⟩ : Shape).Idx → EReal := fun i => f i * f i

theorem sqr_apply {n c : Nat} (f : (⟨2, ![n, c]⟩ : Shape).Idx → EReal) (i : (⟨2, ![n, c]⟩ : Shape).Idx) :
    sqr f i = f i * f i := rfl

/-- Over all the rows, the sum of a column is the column's sum, and that of the squares the column's sum of squares. -/
theorem below_all_colSum {n c : Nat} (f : (⟨2, ![n, c]⟩ : Shape).Idx → EReal) (q : Fin c) :
    below f n q = Cert.Spec.colSum f q := below_all f q

theorem below_all_colSumSq {n c : Nat} (f : (⟨2, ![n, c]⟩ : Shape).Idx → EReal) (q : Fin c) :
    below (sqr f) n q = Cert.Spec.colSumSq f q := below_all (sqr f) q

end Cert.ColumnBlocks

end
-- ==== Proof.KReg5Inv.lean ====
/-
  The second dense layer's launch, point by point: what its three output buffers hold after each grid point.

  The layer before normalisation is one function of the arrays the launch finds: entry (r, q) is the sum over k of
  input (r, k) * weight (k, q), plus bias (0, q).  Point t computes rows 1152 t … 1152 t + 1151 of it from its input
  block, so after point n the first buffer holds block n of the layer, and, by induction on the point, the two running
  rows hold at column q the sums of the layer's entries, and of their squares, over the rows below 1152 n + 1152:
  the first point starts from zero rows, every later point adds its block's column sums to what the point before left.
-/
import proofs.«167845_j85727547228621_1_alg».proof.Proof.KReg5Pay
import proofs.«167845_j85727547228621_1_alg».proof.Proof.KReg5Pieces
import proofs.«167845_j85727547228621_1_alg».proof.Proof.KReg5Blocks
import proofs.«167845_j85727547228621_1_alg».proof.Proof.LibColumnBlocks

noncomputable section

open scoped BigOperators

namespace Cert.KernelIdeal.KReg5

open Cert.KernelIdeal Cert.KernelIdeal.Gen Idealize.ShloMosaic Idealize.ShloMosaic.TcCoe Idealize.ShloMosaic.ValueIdx
  Idealize.ShloMosaic.Pipeline Cert.ColumnBlocks

variable (V : (c : Dev nD) → (b : Ref sig .tc) → Buf (Elt Ideal) ((c : Thread nD τ).loc b))

/-- The second dense layer before normalisation, as one function of the arrays the launch finds. -/
abbrev pre (c : Dev nD) : Spec.Mat 115200 256 :=
  Spec.dense (V c main_v60 : S115200x512.Idx → EReal) (V c main_arg13 : S512x256.Idx → EReal)
    (fun q => (V c main_v61 : S1x256.Idx → EReal) (ix2 (0 : Fin 1) q))

/-- The block of the layer computed at point t is rows 1152 t … 1152 t + 1151 of it. -/
theorem pre_block (c : Dev nD) (t : Fin cfg5.N) (p : Fin 1152) (q : Fin 256) (hr : 1152 * t.val + p.val < 115200) :
    k5_pay3 (F := Ideal) (iblk5 V c 0 t) (iblk5 V c 1 t) (iblk5 V c 2 t) (ix2 p q)
      = pre V c (ix2 ⟨1152 * t.val + p.val, hr⟩ q) := by
  refine (pre_apply (iblk5 V c 0 t) (iblk5 V c 1 t) (iblk5 V c 2 t) p q).trans ?_
  rw [blk1_eq V c t, blk2_eq V c t]
  refine Eq.trans ?_ (Spec.dense_apply _ _ _ ⟨1152 * t.val + p.val, hr⟩ q).symm
  refine congrArg₂ (· + ·) (Finset.sum_congr rfl fun k _ => ?_) rfl
  rw [blk0_apply V c t p k hr]

/-- A point's update of the running column sums: rows below 1152 t become rows below 1152 t + 1152. -/
theorem sum_step (c : Dev nD) (t : Fin cfg5.N) (acc : Vec Ideal S1x256 .f32) (q : Fin 256)
    (hacc : acc (ix2 (0 : Fin 1) q) = below (pre V c) (1152 * t.val) q) :
    k5_pay4 (F := Ideal) (iblk5 V c 0 t) (iblk5 V c 1 t) (iblk5 V c 2 t) acc (ix2 (0 : Fin 1) q)
      = below (pre V c) (1152 * t.val + 1152) q := by
  have hlt : t.val < 100 := lt_of_lt_of_eq t.isLt N_5
  refine (sum_apply (iblk5 V c 0 t) (iblk5 V c 1 t) (iblk5 V c 2 t) acc q).trans ?_
  rw [below_add_block, hacc]
  refine congrArg₂ (· + ·) rfl (Finset.sum_congr rfl fun p _ => ?_)
  have hr : 1152 * t.val + p.val < 115200 := by have := p.isLt; omega
  rw [pre_block V c t p q hr, rowN_of_lt _ _ hr]

/-- The same for the running column sums of squares. -/
theorem sumsq_step (c : Dev nD) (t : Fin cfg5.N) (acc : Vec Ideal S1x256 .f32) (q : Fin 256)
    (hacc : acc (ix2 (0 : Fin 1) q) = below (sqr (pre V c)) (1152 * t.val) q) :
    k5_pay5 (F := Ideal) (iblk5 V c 0 t) (iblk5 V c 1 t) (iblk5 V c 2 t) acc (ix2 (0 : Fin 1) q)
      = below (sqr (pre V c)) (1152 * t.val + 1152) q := by
  have hlt : t.val < 100 := lt_of_lt_of_eq t.isLt N_5
  refine (sumsq_apply (iblk5 V c 0 t) (iblk5 V c 1 t) (iblk5 V c 2 t) acc q).trans ?_
  rw [below_add_block, hacc]
  refine congrArg₂ (· + ·) rfl (Finset.sum_congr rfl fun p _ => ?_)
  have hr : 1152 * t.val + p.val < 115200 := by have := p.isLt; omega
  rw [pre_block V c t p q hr, rowN_of_lt _ _ hr, sqr_apply]

/-- After point n: the layer's block n, and the column sums (of the entries, of their squares) over the rows below
    1152 n + 1152. By induction on the point. -/
theorem outs_inv (c : Dev nD) : ∀ (n : ℕ) (h : n < cfg5.N),
    (outsAt5 V c n h).1 = k5_pay3 (F := Ideal) (iblk5 V c 0 ⟨n, h⟩) (iblk5 V c 1 ⟨n, h⟩) (iblk5 V c 2 ⟨n, h⟩)
    ∧ (∀ q : Fin 256, (outsAt5 V c n h).2.1 (ix2 (0 : Fin 1) q) = below (pre V c) (1152 * n + 1152) q)
    ∧ (∀ q : Fin 256, (outsAt5 V c n h).2.2 (ix2 (0 : Fin 1) q) = below (sqr (pre V c)) (1152 * n + 1152) q)
  | 0, h => by
    have e := at_first V c ⟨0, h⟩ rfl
    refine ⟨congrArg Prod.fst e, fun q => ?_, fun q => ?_⟩
    · refine (congrFun (congrArg (fun x => x.2.1) e) (ix2 (0 : Fin 1) q)).trans ?_
      have hz0 : (k5_pay1 (F := Ideal)) (ix2 (0 : Fin 1) q) = below (pre V c) (1152 * (⟨0, h⟩ : Fin cfg5.N).val) q := by
        rw [zero_sum_apply, show 1152 * (⟨0, h⟩ : Fin cfg5.N).val = 0 from rfl, below_zero]
      exact sum_step V c ⟨0, h⟩ (k5_pay1 (F := Ideal)) q hz0
    · refine (congrFun (congrArg (fun x => x.2.2) e) (ix2 (0 : Fin 1) q)).trans ?_
      have hz0 : (k5_pay2 (F := Ideal)) (ix2 (0 : Fin 1) q) = below (sqr (pre V c)) (1152 * (⟨0, h⟩ : Fin cfg5.N).val) q := by
        rw [zero_sumsq_apply, show 1152 * (⟨0, h⟩ : Fin cfg5.N).val = 0 from rfl, below_zero]
      exact sumsq_step V c ⟨0, h⟩ (k5_pay2 (F := Ideal)) q hz0
  | n + 1, h => by
    have hB : ¬(⟨n + 1, h⟩ : Fin cfg5.N).val % 100 = 0 := by
      have := lt_of_lt_of_eq h N_5
      dsimp only
      omega
    have e := at_later V c ⟨n + 1, h⟩ hB
    obtain ⟨-, ih1, ih2⟩ := outs_inv c n (Nat.lt_of_succ_lt h)
    refine ⟨congrArg Prod.fst e, fun q => ?_, fun q => ?_⟩
    · refine (congrFun (congrArg (fun x => x.2.1) e) (ix2 (0 : Fin 1) q)).trans ?_
      exact sum_step V c ⟨n + 1, h⟩ _ q (ih1 q)
    · refine (congrFun (congrArg (fun x => x.2.2) e) (ix2 (0 : Fin 1) q)).trans ?_
      exact sumsq_step V c ⟨n + 1, h⟩ _ q (ih2 q)

end Cert.KernelIdeal.KReg5

end
-- ==== Proof.KReg5.lean ====
/-
  The arrays the second dense layer's launch leaves.

  Every point writes its block of 1152 rows of the layer back, and row r of the array lies in the block of point
  r / 1152, so the first output array ends holding the whole layer.  The two running rows are written back once, after
  the last point, when they hold the sums over all 115200 rows: the second array ends holding the layer's column sums
  and the third the column sums of its squares.
-/
import proofs.«167845_j85727547228621_1_alg».proof.Proof.KReg5Inv

noncomputable section

open scoped BigOperators

namespace Cert.KernelIdeal.KReg5

open Cert.KernelIdeal Cert.KernelIdeal.Gen Idealize.ShloMosaic Idealize.ShloMosaic.TcCoe Idealize.ShloMosaic.ValueIdx
  Idealize.ShloMosaic.Pipeline Cert.ColumnBlocks

variable (V : (c : Dev nD) → (b : Ref sig .tc) → Buf (Elt Ideal) ((c : Thread nD τ).loc b))

/-- An index of a one-row array is (0, its column). -/
theorem row_idx (j : S1x256.Idx) : j = ix2 (0 : Fin 1) (j 1) := by
  funext a
  match a with
  | ⟨0, _⟩ => exact Subsingleton.elim (α := Fin 1) _ _
  | ⟨1, _⟩ => rfl

/-! ## The layer's array: every point writes its block of rows back -/

/-- What point t writes back to the layer's array is its block of rows of the layer. -/
theorem flushed_pre (c : Dev nD) (t : Fin cfg5.N) :
    (dat5 V c).flushed 3 t = ((cfg5.win 3).blk t).view.read (Elt Ideal) (pre V c) := by
  obtain ⟨-, -, -, -, -, -, e6, e7, -⟩ := idx_facts t
  have hlt : t.val < 100 := lt_of_lt_of_eq t.isLt N_5
  show (cfg5.win 3).cut (grid5.coords t) ((dat5 V c).after 3 t) = _
  rw [after5_3, (outs_inv V c t.val t.isLt).1]
  funext j
  obtain ⟨p, q, rfl⟩ : ∃ (p : Fin 1152) (q : Fin 256), j = ix2 p q := ⟨j 0, j 1, eq_ix2 j⟩
  have hr : 1152 * t.val + p.val < 115200 := by have := p.isLt; omega
  show k5_pay3 (F := Ideal) (iblk5 V c 0 t) (iblk5 V c 1 t) (iblk5 V c 2 t) (ix2 p q)
    = pre V c (((cfg5.win 3).blk t).view.emb (ix2 p q))
  rw [pre_block V c t p q hr]
  refine congrArg _ ?_
  funext a
  apply Fin.ext
  match a with
  | ⟨0, _⟩ => show 1152 * t.val + p.val = win5_3.index t 0 * 1152 + 1 * p.val; rw [e6]; omega
  | ⟨1, _⟩ => show q.val = win5_3.index t 1 * 256 + 1 * q.val; rw [e7]; omega

/-- An index of the layer's array is in point t's block iff each coordinate is in the block's range on its axis. -/
theorem mem_blk_pre (t : Fin cfg5.N) (i : S115200x256.Idx) :
    i ∈ ((cfg5.win 3).blk t).view.set ↔ ∀ a : Fin 2, win5_3.index t a * S1152x256.size a ≤ (i a).val
      ∧ (i a).val < win5_3.index t a * S1152x256.size a + S1152x256.size a := by
  show i ∈ ((View.whole main_v62_0).slice (win5_3.rect t)).set ↔ _
  rw [View.set_slice_whole, Rect.mem_set_unit]
  exact Iff.rfl

/-- The layer's array ends holding the layer: row r is written by point r / 1152. -/
theorem outPre (c : Dev nD) : (dat5 V c).arrAt 3 cfg5.N = pre V c :=
  (dat5 V c).arrAt_eq_of_cover 3 (pre V c) (fun t _ => flushed_pre V c t) fun i => by
    have hi0 : (i 0).val < 115200 := (i 0).isLt
    have hi1 : (i 1).val < 256 := (i 1).isLt
    obtain ⟨t, ht⟩ : ∃ t : Fin cfg5.N, t.val = (i 0).val / 1152 :=
      ⟨⟨(i 0).val / 1152, lt_of_lt_of_eq (by omega : (i 0).val / 1152 < 100) N_5.symm⟩, rfl⟩
    obtain ⟨-, -, -, -, -, -, e6, e7, -⟩ := idx_facts t
    refine ⟨t, flush5_3 t, ?_⟩
    rw [mem_blk_pre]
    intro a
    match a with
    | ⟨0, _⟩ =>
      show win5_3.index t 0 * 1152 ≤ (i 0).val ∧ (i 0).val < win5_3.index t 0 * 1152 + 1152
      rw [e6, ht]; omega
    | ⟨1, _⟩ =>
      show win5_3.index t 1 * 256 ≤ (i 1).val ∧ (i 1).val < win5_3.index t 1 * 256 + 256
      rw [e7]; omega

/-! ## The two rows: written back once, after the last point -/

/-- The last point, the one that writes the rows back. -/
def tLast : Fin cfg5.N := ⟨99, lt_of_lt_of_eq (by decide : 99 < 100) N_5.symm⟩

/-- An index of a row's array is in the last point's block. -/
theorem mem_blk_sum (i : S1x256.Idx) : i ∈ ((cfg5.win 4).blk tLast).view.set := by
  obtain ⟨-, -, -, -, -, -, -, -, e8, e9, -⟩ := idx_facts tLast
  have hi0 : (i 0).val < 1 := (i 0).isLt
  have hi1 : (i 1).val < 256 := (i 1).isLt
  show i ∈ ((View.whole main_v62_1).slice (win5_4.rect tLast)).set
  rw [View.set_slice_whole, Rect.mem_set_unit]
  intro a
  match a with
  | ⟨0, _⟩ =>
    show win5_4.index tLast 0 * 1 ≤ (i 0).val ∧ (i 0).val < win5_4.index tLast 0 * 1 + 1
    rw [e8]; omega
  | ⟨1, _⟩ =>
    show win5_4.index tLast 1 * 256 ≤ (i 1).val ∧ (i 1).val < win5_4.index tLast 1 * 256 + 256
    rw [e9]; omega

theorem mem_blk_sumsq (i : S1x256.Idx) : i ∈ ((cfg5.win 5).blk tLast).view.set := by
  obtain ⟨-, -, -, -, -, -, -, -, -, -, e10, e11⟩ := idx_facts tLast
  have hi0 : (i 0).val < 1 := (i 0).isLt
  have hi1 : (i 1).val < 256 := (i 1).isLt
  show i ∈ ((View.whole main_v62_2).slice (win5_5.rect tLast)).set
  rw [View.set_slice_whole, Rect.mem_set_unit]
  intro a
  match a with
  | ⟨0, _⟩ =>
    show win5_5.index tLast 0 * 1 ≤ (i 0).val ∧ (i 0).val < win5_5.index tLast 0 * 1 + 1
    rw [e10]; omega
  | ⟨1, _⟩ =>
    show win5_5.index tLast 1 * 256 ≤ (i 1).val ∧ (i 1).val < win5_5.index tLast 1 * 256 + 256
    rw [e11]; omega

/-- Reading a one-row array through the one block of the sums' window. -/
theorem read_row_sum (t : Fin cfg5.N) (G : S1x256.Idx → EReal) (q : Fin 256) :
    ((cfg5.win 4).blk t).view.read (Elt Ideal) G (ix2 (0 : Fin 1) q) = G (ix2 (0 : Fin 1) q) := by
  obtain ⟨-, -, -, -, -, -, -, -, e8, e9, -⟩ := idx_facts t
  rw [View.read_apply]
  refine congrArg G ?_
  funext a
  apply Fin.ext
  match a with
  | ⟨0, _⟩ => show win5_4.index t 0 * 1 + 1 * 0 = 0; rw [e8]
  | ⟨1, _⟩ => show win5_4.index t 1 * 256 + 1 * q.val = q.val; rw [e9]; omega

theorem read_row_sumsq (t : Fin cfg5.N) (G : S1x256.Idx → EReal) (q : Fin 256) :
    ((cfg5.win 5).blk t).view.read (Elt Ideal) G (ix2 (0 : Fin 1) q) = G (ix2 (0 : Fin 1) q) := by
  obtain ⟨-, -, -, -, -, -, -, -, -, -, e10, e11⟩ := idx_facts t
  rw [View.read_apply]
  refine congrArg G ?_
  funext a
  apply Fin.ext
  match a with
  | ⟨0, _⟩ => show win5_5.index t 0 * 1 + 1 * 0 = 0; rw [e10]
  | ⟨1, _⟩ => show win5_5.index t 1 * 256 + 1 * q.val = q.val; rw [e11]; omega

/-- What the last point writes back to the sums' array: the column sums of the layer over all 115200 rows. -/
theorem flushed_sum (c : Dev nD) (t : Fin cfg5.N) (hf : (cfg5.win 4).flush t = true) :
    (dat5 V c).flushed 4 t = ((cfg5.win 4).blk t).view.read (Elt Ideal) (Spec.rowOf (Spec.colSum (pre V c))) := by
  have hlt : t.val < 100 := lt_of_lt_of_eq t.isLt N_5
  have h99 : t.val = 99 := by have := (flush5_4 t).mp hf; omega
  show (cfg5.win 4).cut (grid5.coords t) ((dat5 V c).after 4 t) = _
  rw [after5_4]
  funext j
  obtain ⟨q, rfl⟩ : ∃ q : Fin 256, j = ix2 (0 : Fin 1) q := ⟨j 1, row_idx j⟩
  refine Eq.trans ?_ (read_row_sum t _ q).symm
  refine Eq.trans ?_ (Spec.rowOf_apply _ q).symm
  refine ((outs_inv V c t.val t.isLt).2.1 q).trans ?_
  rw [show 1152 * t.val + 1152 = 115200 from by omega]
  exact below_all_colSum (pre V c) q

/-- What the last point writes back to the sums of squares' array: the column sums of the squares over all rows. -/
theorem flushed_sumsq (c : Dev nD) (t : Fin cfg5.N) (hf : (cfg5.win 5).flush t = true) :
    (dat5 V c).flushed 5 t = ((cfg5.win 5).blk t).view.read (Elt Ideal) (Spec.rowOf (Spec.colSumSq (pre V c))) := by
  have hlt : t.val < 100 := lt_of_lt_of_eq t.isLt N_5
  have h99 : t.val = 99 := by have := (flush5_5 t).mp hf; omega
  show (cfg5.win 5).cut (grid5.coords t) ((dat5 V c).after 5 t) = _
  rw [after5_5]
  funext j
  obtain ⟨q, rfl⟩ : ∃ q : Fin 256, j = ix2 (0 : Fin 1) q := ⟨j 1, row_idx j⟩
  refine Eq.trans ?_ (read_row_sumsq t _ q).symm
  refine Eq.trans ?_ (Spec.rowOf_apply _ q).symm
  refine ((outs_inv V c t.val t.isLt).2.2 q).trans ?_
  rw [show 1152 * t.val + 1152 = 115200 from by omega]
  exact below_all_colSumSq (pre V c) q

/-- The sums' array ends holding the column sums of the layer. -/
theorem outSum (c : Dev nD) : (dat5 V c).arrAt 4 cfg5.N = Spec.rowOf (Spec.colSum (pre V c)) :=
  (dat5 V c).arrAt_eq_of_cover 4 (Spec.rowOf (Spec.colSum (pre V c))) (flushed_sum V c) fun i =>
    ⟨tLast, (flush5_4 tLast).mpr rfl, mem_blk_sum i⟩

/-- The sums of squares' array ends holding the column sums of the squares of the layer. -/
theorem outSumSq (c : Dev nD) : (dat5 V c).arrAt 5 cfg5.N = Spec.rowOf (Spec.colSumSq (pre V c)) :=
  (dat5 V c).arrAt_eq_of_cover 5 (Spec.rowOf (Spec.colSumSq (pre V c))) (flushed_sumsq V c) fun i =>
    ⟨tLast, (flush5_5 tLast).mpr rfl, mem_blk_sumsq i⟩

end Cert.KernelIdeal.KReg5

end
-- ==== Proof.KChain4.lean ====
/-
  What the kernel launches find in their input arrays: launches 4 and 5 (the first normalisation; the second dense layer and its column statistics).  Each fact is an equation of whole buffers,
  read at the launch's entry.  An argument array, or an earlier launch's output array, is walked back through
  the segments in between, none of which writes it; an array the stretch of host operations before the launch
  computes is that stretch's operations composed, over the buffers the stretch reads, themselves walked back.
-/
import proofs.«167845_j85727547228621_1_alg».proof.Proof.KNames
import proofs.«167845_j85727547228621_1_alg».proof.Proof.KWalk
import proofs.«167845_j85727547228621_1_alg».proof.Proof.KChainDefs

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## Launch 4 -/

/-- Launch 4, window 0: launch 3's output array, which nothing in between writes. -/
theorem in4_0 : V9 m ρ c main_v51_0 = KNames.P1 m ρ c :=
  (KWalk.keepH4 m ρ c main_v51_0 (by decide)).trans (W8_arr m ρ c 9)

/-- Launch 4, window 1: the stretch before the launch computes it from the arrays named on the right. -/
theorem in4_1 : V9 m ρ c main_v53 = Host.divf (KNames.S1 m ρ c) (broadcastInDim S1x512 ![] bcast_S_S1x512 (constant (F := F) S_ .f32 0x47E10000#32)) := by
  show StableHlo.after hostOps4 (W8 m ρ c) (Proc.devRef .tc main_v53) = _
  after_results_simp
  rw [show W8 m ρ c (Proc.devRef .tc main_v51_1) = (KNames.S1 m ρ c) from (W8_arr m ρ c 10)]

/-- Launch 4, window 2: the stretch before the launch computes it from the arrays named on the right. -/
theorem in4_2 : V9 m ρ c main_v57 = subf (Host.divf (KNames.Q1 m ρ c) (broadcastInDim S1x512 ![] bcast_S_S1x512 (constant (F := F) S_ .f32 0x47E10000#32))) (mulf (Host.divf (KNames.S1 m ρ c) (broadcastInDim S1x512 ![] bcast_S_S1x512 (constant (F := F) S_ .f32 0x47E10000#32))) (Host.divf (KNames.S1 m ρ c) (broadcastInDim S1x512 ![] bcast_S_S1x512 (constant (F := F) S_ .f32 0x47E10000#32)))) := by
  show StableHlo.after hostOps4 (W8 m ρ c) (Proc.devRef .tc main_v57) = _
  after_results_simp
  rw [show W8 m ρ c (Proc.devRef .tc main_v51_2) = (KNames.Q1 m ρ c) from (W8_arr m ρ c 11),
    show W8 m ρ c (Proc.devRef .tc main_v51_1) = (KNames.S1 m ρ c) from (W8_arr m ρ c 10)]

/-- Launch 4, window 3: the stretch before the launch computes it from the arrays named on the right. -/
theorem in4_3 : V9 m ρ c main_v58 = shapeCast S1x512 (m ((c : Thread nD τ).loc main_arg15)) shapeCasts_S512_S1x512 := by
  show StableHlo.after hostOps4 (W8 m ρ c) (Proc.devRef .tc main_v58) = _
  after_results_simp
  rw [show W8 m ρ c (Proc.devRef .tc main_arg15) = (m ((c : Thread nD τ).loc main_arg15)) from (KWalk.stay8 m ρ c main_arg15 (by decide))]
  rfl

/-- Launch 4, window 4: the stretch before the launch computes it from the arrays named on the right. -/
theorem in4_4 : V9 m ρ c main_v59 = shapeCast S1x512 (m ((c : Thread nD τ).loc main_arg16)) shapeCasts_S512_S1x512 := by
  show StableHlo.after hostOps4 (W8 m ρ c) (Proc.devRef .tc main_v59) = _
  after_results_simp
  rw [show W8 m ρ c (Proc.devRef .tc main_arg16) = (m ((c : Thread nD τ).loc main_arg16)) from (KWalk.stay8 m ρ c main_arg16 (by decide))]
  rfl

/-! ## Launch 5 -/

/-- Launch 5, window 0: launch 4's output array, which nothing in between writes. -/
theorem in5_0 : V11 m ρ c main_v60 = KNames.H1 m ρ c :=
  (KWalk.keepH5 m ρ c main_v60 (by decide)).trans (W10_arr m ρ c 5)

/-- Launch 5, window 1: the argument array as launched — nothing before the launch writes it. -/
theorem in5_1 : V11 m ρ c main_arg13 = m ((c : Thread nD τ).loc main_arg13) :=
  (KWalk.stay11 m ρ c main_arg13 (by decide))

/-- Launch 5, window 2: the stretch before the launch computes it from the arrays named on the right. -/
theorem in5_2 : V11 m ρ c main_v61 = shapeCast S1x256 (m ((c : Thread nD τ).loc main_arg14)) shapeCasts_S256_S1x256 := by
  show StableHlo.after hostOps5 (W10 m ρ c) (Proc.devRef .tc main_v61) = _
  after_results_simp
  rw [show W10 m ρ c (Proc.devRef .tc main_arg14) = (m ((c : Thread nD τ).loc main_arg14)) from (KWalk.stay10 m ρ c main_arg14 (by decide))]
  rfl

end Cert.KernelIdeal.KChain

end
-- ==== Proof.KReg4.lean ====
/-
  The column normalisation of region 4, read off its blocks.

  Each grid point t takes rows 1152 t … 1152 t + 1151 of the [115200, 512] data array and the four [1, 512] parameter
  rows (mean, variance, gain, shift), and writes the same rows of the output: entry (p, q) is
  max(((h(p, q) − mean q) · rsqrt(var q + ε)) · gain q + shift q, 0).  The hundred blocks tile the output, so the
  output array after the region is that function of the data array and the parameter rows, index by index.
-/
import proofs.«167845_j85727547228621_1_alg».proof.Proof.Gen.KernelIdeal.Frame
import proofs.«167845_j85727547228621_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KReg4

open Cert.KernelIdeal Cert.KernelIdeal.Gen Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The body's stored value at row p, column q of the block: the entry less the column's mean, times the inverse
    square root of the column's variance plus the small constant, times the gain, plus the shift, positive part. -/
theorem pay_apply (x0 : Vec Ideal S1152x512 .f32) (x1 x2 x3 x4 : Vec Ideal S1x512 .f32) (p : Fin 1152) (q : Fin 512) :
    Gen.k4_pay1 (F := Ideal) x0 x1 x2 x3 x4 (ix2 p q)
      = max ((((x0 (ix2 p q) - x1 (ix2 (0 : Fin 1) q)) * Ideal.rsqrt (x2 (ix2 (0 : Fin 1) q) + Spec.eps)) * x3 (ix2 (0 : Fin 1) q))
          + x4 (ix2 (0 : Fin 1) q)) 0 := by
  unfold Gen.k4_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  show max (_ * Ideal.rsqrt (x2 (ix2 (0 : Fin 1) q) + Ideal.ofBits .f32 0x3727C5AC#32) * _ + _) (Ideal.ofBits .f32 0x00000000#32) = _
  rw [Ideal.ofBits_zero_f32]
  rfl

/-- The printed index maps over the grid: the data window and the output move one block of rows per point; the
    four parameter rows stay put. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The data window's block at point t is rows 1152 t … 1152 t + 1151 of its array. -/
theorem iblk0_apply (c : Dev nD) (t : Fin cfg4.N) (p : Fin 1152) (q : Fin 512) (r : Fin 115200)
    (hr : r.val = 1152 * t.val + p.val) :
    (iblk4 V c 0 t : Vec Ideal S1152x512 .f32) (ix2 p q) = (V c main_v51_0 : S115200x512.Idx → EReal) (ix2 r q) := by
  obtain ⟨e0, e1, -⟩ := idx_facts t
  unfold iblk4
  rw [View.read_apply]
  show V c main_v51_0 _ = V c main_v51_0 _
  refine congrArg _ ?_
  funext a
  apply Fin.ext
  match a with
  | ⟨0, _⟩ => show win4_0.index t (0 : Fin 2) * 1152 + 1 * p.val = r.val; rw [e0, hr]; omega
  | ⟨1, _⟩ => show win4_0.index t (1 : Fin 2) * 512 + 1 * q.val = q.val; rw [e1]; omega

/-- The mean row's block at any point is the whole row. -/
theorem iblk1_apply (c : Dev nD) (t : Fin cfg4.N) (q : Fin 512) :
    (iblk4 V c 1 t : Vec Ideal S1x512 .f32) (ix2 (0 : Fin 1) q) = (V c main_v53 : S1x512.Idx → EReal) (ix2 (0 : Fin 1) q) := by
  obtain ⟨-, -, e0, e1, -⟩ := idx_facts t
  unfold iblk4
  rw [View.read_apply]
  show V c main_v53 _ = V c main_v53 _
  refine congrArg _ ?_
  funext a
  apply Fin.ext
  match a with
  | ⟨0, _⟩ => show win4_1.index t (0 : Fin 2) * 1 + 1 * 0 = 0; rw [e0]
  | ⟨1, _⟩ => show win4_1.index t (1 : Fin 2) * 512 + 1 * q.val = q.val; rw [e1]; omega

/-- The variance row's. -/
theorem iblk2_apply (c : Dev nD) (t : Fin cfg4.N) (q : Fin 512) :
    (iblk4 V c 2 t : Vec Ideal S1x512 .f32) (ix2 (0 : Fin 1) q) = (V c main_v57 : S1x512.Idx → EReal) (ix2 (0 : Fin 1) q) := by
  obtain ⟨-, -, -, -, e0, e1, -⟩ := idx_facts t
  unfold iblk4
  rw [View.read_apply]
  show V c main_v57 _ = V c main_v57 _
  refine congrArg _ ?_
  funext a
  apply Fin.ext
  match a with
  | ⟨0, _⟩ => show win4_2.index t (0 : Fin 2) * 1 + 1 * 0 = 0; rw [e0]
  | ⟨1, _⟩ => show win4_2.index t (1 : Fin 2) * 512 + 1 * q.val = q.val; rw [e1]; omega

/-- The gain row's. -/
theorem iblk3_apply (c : Dev nD) (t : Fin cfg4.N) (q : Fin 512) :
    (iblk4 V c 3 t : Vec Ideal S1x512 .f32) (ix2 (0 : Fin 1) q) = (V c main_v58 : S1x512.Idx → EReal) (ix2 (0 : Fin 1) q) := by
  obtain ⟨-, -, -, -, -, -, e0, e1, -⟩ := idx_facts t
  unfold iblk4
  rw [View.read_apply]
  show V c main_v58 _ = V c main_v58 _
  refine congrArg _ ?_
  funext a
  apply Fin.ext
  match a with
  | ⟨0, _⟩ => show win4_3.index t (0 : Fin 2) * 1 + 1 * 0 = 0; rw [e0]
  | ⟨1, _⟩ => show win4_3.index t (1 : Fin 2) * 512 + 1 * q.val = q.val; rw [e1]; omega

/-- The shift row's. -/
theorem iblk4_apply (c : Dev nD) (t : Fin cfg4.N) (q : Fin 512) :
    (iblk4 V c 4 t : Vec Ideal S1x512 .f32) (ix2 (0 : Fin 1) q) = (V c main_v59 : S1x512.Idx → EReal) (ix2 (0 : Fin 1) q) := by
  obtain ⟨-, -, -, -, -, -, -, -, e0, e1, -⟩ := idx_facts t
  unfold iblk4
  rw [View.read_apply]
  show V c main_v59 _ = V c main_v59 _
  refine congrArg _ ?_
  funext a
  apply Fin.ext
  match a with
  | ⟨0, _⟩ => show win4_4.index t (0 : Fin 2) * 1 + 1 * 0 = 0; rw [e0]
  | ⟨1, _⟩ => show win4_4.index t (1 : Fin 2) * 512 + 1 * q.val = q.val; rw [e1]; omega

/-- What the output array ends holding: the column normalisation of the data array by the four parameter rows. -/
abbrev result (c : Dev nD) : S115200x512.Idx → EReal :=
  Spec.normCols (V c main_v51_0 : S115200x512.Idx → EReal) (fun q => (V c main_v53 : S1x512.Idx → EReal) (ix2 (0 : Fin 1) q))
    (fun q => (V c main_v57 : S1x512.Idx → EReal) (ix2 (0 : Fin 1) q)) (fun q => (V c main_v58 : S1x512.Idx → EReal) (ix2 (0 : Fin 1) q))
    (fun q => (V c main_v59 : S1x512.Idx → EReal) (ix2 (0 : Fin 1) q))

/-- What point t writes back is block t of the result. -/
theorem flushed_eq (c : Dev nD) (t : Fin cfg4.N) :
    (dat4 V c).flushed 5 t = ((cfg4.win 5).blk t).view.read (Elt Ideal) (result V c) := by
  show (cfg4.win 5).cut (grid4.coords t) ((dat4 V c).after 5 t) = _
  rw [after4_5]
  unfold out4_5
  rw [View.canon_unit_zero hz]
  simp only [View.ld_unit_zero (S := S1152x512) hz, View.ld_unit_zero (S := S1x512) hz]
  funext j
  obtain ⟨p, q, rfl⟩ : ∃ (p : Fin 1152) (q : Fin 512), j = ix2 p q := ⟨j 0, j 1, eq_ix2 j⟩
  have ht : t.val < 100 := lt_of_lt_of_eq t.isLt N_4
  have hr : 1152 * t.val + p.val < 115200 := by omega
  obtain ⟨-, -, -, -, -, -, -, -, -, -, e0, e1⟩ := idx_facts t
  have hx : (cfg4.win 5).xinj (grid4.coords t) (ix2 p q) = ix2 p q :=
    funext fun a => by match a with | ⟨0, _⟩ => rfl | ⟨1, _⟩ => rfl
  have hemb : ((cfg4.win 5).blk t).view.emb (ix2 p q) = (ix2 (⟨1152 * t.val + p.val, hr⟩ : Fin 115200) q : S115200x512.Idx) := by
    funext a
    apply Fin.ext
    match a with
    | ⟨0, _⟩ => show win4_5.index t (0 : Fin 2) * 1152 + 1 * p.val = 1152 * t.val + p.val; rw [e0]; omega
    | ⟨1, _⟩ => show win4_5.index t (1 : Fin 2) * 512 + 1 * q.val = q.val; rw [e1]; omega
  rw [View.read_apply, hemb]
  show Gen.k4_pay1 _ _ _ _ _ ((cfg4.win 5).xinj (grid4.coords t) (ix2 p q)) = _
  rw [hx]
  refine (pay_apply (iblk4 V c 0 t) (iblk4 V c 1 t) (iblk4 V c 2 t) (iblk4 V c 3 t) (iblk4 V c 4 t) p q).trans ?_
  rw [iblk0_apply V c t p q ⟨1152 * t.val + p.val, hr⟩ rfl, iblk1_apply, iblk2_apply, iblk3_apply, iblk4_apply]
  rfl

/-- An index of the array is in point t's block iff each coordinate is in the block's range on its axis. -/
theorem mem_blk (t : Fin cfg4.N) (i : S115200x512.Idx) :
    i ∈ ((cfg4.win 5).blk t).view.set ↔ ∀ a : Fin 2, win4_5.index t a * S1152x512.size a ≤ (i a).val
      ∧ (i a).val < win4_5.index t a * S1152x512.size a + S1152x512.size a := by
  show i ∈ ((View.whole main_v60).slice (win4_5.rect t)).set ↔ _
  rw [View.set_slice_whole, Rect.mem_set_unit]
  exact Iff.rfl

/-- Row r of the array is in the block of point r / 1152. -/
theorem cover (i : S115200x512.Idx) : ∃ t : Fin cfg4.N, (cfg4.win 5).flush t = true ∧ i ∈ ((cfg4.win 5).blk t).view.set := by
  have hi0 : (i 0).val < 115200 := (i 0).isLt
  have hi1 : (i 1).val < 512 := (i 1).isLt
  have hN : cfg4.N = 100 := N_4
  obtain ⟨t, ht⟩ : ∃ t : Fin cfg4.N, t.val = (i 0).val / 1152 := ⟨⟨(i 0).val / 1152, by rw [hN]; omega⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 1152 ≤ (i 0).val ∧ (i 0).val < win4_5.index t (0 : Fin 2) * 1152 + 1152
    rw [e0, ht]; omega
  | ⟨1, _⟩ =>
    show win4_5.index t (1 : Fin 2) * 512 ≤ (i 1).val ∧ (i 1).val < win4_5.index t (1 : Fin 2) * 512 + 512
    rw [e1]; omega

/-- The output array after the region: the column normalisation of the data array by the four parameter rows. -/
theorem out (c : Dev nD) : (dat4 V c).arrAt 5 cfg4.N
    = Spec.normCols (V c main_v51_0 : S115200x512.Idx → EReal) (fun q => (V c main_v53 : S1x512.Idx → EReal) (ix2 (0 : Fin 1) q))
        (fun q => (V c main_v57 : S1x512.Idx → EReal) (ix2 (0 : Fin 1) q)) (fun q => (V c main_v58 : S1x512.Idx → EReal) (ix2 (0 : Fin 1) q))
        (fun q => (V c main_v59 : S1x512.Idx → EReal) (ix2 (0 : Fin 1) q)) :=
  (dat4 V c).arrAt_eq_of_cover 5 (result V c) (fun t _ => flushed_eq V c t) cover

end Cert.KernelIdeal.KReg4
end
-- ==== Proof.KReg3Pay.lean ====
/-
  The first dense layer on one block of 1152 rows, entry by entry.

  The layer's 769 input features come in four groups: one column `x0` and three groups `x1`, `x2`, `x3` of 256 columns
  (the node features after each graph layer), each with its own weight block `w0` (1 by 512), `w1`, `w2`, `w3` (256 by
  512).  On a block of 1152 rows the layer before normalisation has entry (p, q) equal to the four partial products
  added left to right, sum over k of x_g (p, k) * w_g (k, q) for g = 0, 1, 2, 3, plus the bias b (0, q): the casts to the
  narrow format are the identity on the extended reals and every product is accumulated into zero.  The two running
  rows are updated by adding, column by column, the sum over the block's 1152 rows of that entry and of its square.
  The rows first stored at the first block are zero rows.
-/
import proofs.«167845_j85727547228621_1_alg».proof.Proof.Gen.KernelIdeal.Skeleton
import proofs.«167845_j85727547228621_1_alg».proof.Proof.LibMatmulRows
import Idealize.ShloMosaic.Lib.ValueLayout
import Idealize.ShloMosaic.Lib.Pipeline.Value

noncomputable section

open scoped BigOperators

namespace Cert.KernelIdeal.KReg3

open Cert.KernelIdeal Cert.KernelIdeal.Gen Idealize.ShloMosaic Idealize.ShloMosaic.ValueIdx

/-- The printed dimension numbers of the block products are the plain ones: rows by contraction, contraction by columns. -/
theorem dot_plain_col : dot_S1152x1_S1x512_S1152x512_1_0_0_1_n_n = DotDims.plain 1152 1 512 := rfl
theorem dot_plain_grp : dot_S1152x256_S256x512_S1152x512_1_0_0_1_n_n = DotDims.plain 1152 256 512 := rfl

/-- The one-column group's product on a block, at (p, q). -/
theorem col_product (x : Vec Ideal S1152x1 .f32) (w : Vec Ideal S1x512 .f32) (hw : S1x512.ShapeCasts S1x512)
    (hb : FTy.bits .bf16 < FTy.bits .f32) (p : Fin 1152) (q : Fin 512) :
    matmul (F := Ideal) dot_S1152x1_S1x512_S1152x512_1_0_0_1_n_n none (truncf .bf16 x hb)
        (truncf .bf16 (shapeCast S1x512 w hw) hb) (constant S1152x512 .f32 0x00000000#32) (ix2 p q)
      = ∑ k : Fin 1, x (ix2 p k) * w (ix2 k q) := by
  rw [dot_plain_col]
  refine (Cert.Bridge.matmul_plain_zero_apply 1152 1 512 none _ _ p q).trans ?_
  refine Finset.sum_congr rfl fun k _ => ?_
  show x (ix2 p k) * shapeCast S1x512 w hw (ix2 k q) = _
  rw [shapeCast_self]

/-- A 256-column group's product on a block, at (p, q). -/
theorem grp_product (x : Vec Ideal S1152x256 .f32) (w : Vec Ideal S256x512 .f32) (hx : S1152x256.ShapeCasts S1152x256)
    (hw : S256x512.ShapeCasts S256x512) (hb : FTy.bits .bf16 < FTy.bits .f32) (p : Fin 1152) (q : Fin 512) :
    matmul (F := Ideal) dot_S1152x256_S256x512_S1152x512_1_0_0_1_n_n none (truncf .bf16 (shapeCast S1152x256 x hx) hb)
        (truncf .bf16 (shapeCast S256x512 w hw) hb) (constant S1152x512 .f32 0x00000000#32) (ix2 p q)
      = ∑ k : Fin 256, x (ix2 p k) * w (ix2 k q) := by
  rw [dot_plain_grp]
  refine (Cert.Bridge.matmul_plain_zero_apply 1152 256 512 none _ _ p q).trans ?_
  refine Finset.sum_congr rfl fun k _ => ?_
  show shapeCast S1152x256 x hx (ix2 p k) * shapeCast S256x512 w hw (ix2 k q) = _
  rw [shapeCast_self, shapeCast_self]

/-- The sum over the rows of a block of 1152 rows and 512 columns, at column q. -/
theorem colsum_apply (src : FVec Ideal S1152x512 .f32) (h : S1152x512.Reduces [0] S512) (hφ : FKind.Formats .f32)
    (hacc : (0x00000000#32 : BitVec 32) = 0x00000000#32) (q : Fin 512) :
    multiReduction (F := Ideal) .add [0] S512 src 0x00000000#32 h hφ hacc (ix1 q) = ∑ p : Fin 1152, src (ix2 p q) := by
  refine (Ideal.multiReduction_add_single src 0x00000000#32 h hφ hacc (ix1 q)).trans ?_
  refine Finset.sum_congr rfl fun p _ => congrArg src ?_
  funext a
  match a with
  | ⟨0, _⟩ => rfl
  | ⟨1, _⟩ => rfl

/-- The four partial products added left to right, on one block, at (p, q). -/
theorem products_apply (x0 : Vec Ideal S1152x1 .f32) (w0 : Vec Ideal S1x512 .f32) (x1 : Vec Ideal S1152x256 .f32)
    (w1 : Vec Ideal S256x512 .f32) (x2 : Vec Ideal S1152x256 .f32) (w2 : Vec Ideal S256x512 .f32)
    (x3 : Vec Ideal S1152x256 .f32) (w3 : Vec Ideal S256x512 .f32) (p : Fin 1152) (q : Fin 512) :
    k3_pay6 (F := Ideal) x0 w0 x1 w1 x2 w2 x3 w3 (ix2 p q)
      = (((∑ k : Fin 1, x0 (ix2 p k) * w0 (ix2 k q)) + ∑ k : Fin 256, x1 (ix2 p k) * w1 (ix2 k q))
          + ∑ k : Fin 256, x2 (ix2 p k) * w2 (ix2 k q)) + ∑ k : Fin 256, x3 (ix2 p k) * w3 (ix2 k q) := by
  unfold k3_pay6
  refine congrArg₂ (· + ·) (congrArg₂ (· + ·) (congrArg₂ (· + ·) ?_ ?_) ?_) ?_
  · exact col_product x0 w0 _ _ p q
  · exact grp_product x1 w1 _ _ _ p q
  · exact grp_product x2 w2 _ _ _ p q
  · exact grp_product x3 w3 _ _ _ p q

/-- The layer before normalisation on one block, from the sum `s` of the partial products, at (p, q). -/
theorem pre_apply (s : FVec Ideal S1152x512 .f32) (b : Vec Ideal S1x512 .f32) (p : Fin 1152) (q : Fin 512) :
    k3_pay1 (F := Ideal) s b (ix2 p q) = s (ix2 p q) + b (ix2 (0 : Fin 1) q) := by
  unfold k3_pay1
  refine congrArg₂ (· + ·) rfl ?_
  refine (broadcastTo_1b_ab_apply _ _ p q).trans ?_
  rw [shapeCast_self]

/-- The running column sums after a block: the row as it stood plus the block's column sums of the layer. -/
theorem sum_apply (s : FVec Ideal S1152x512 .f32) (b : Vec Ideal S1x512 .f32) (acc : Vec Ideal S1x512 .f32) (q : Fin 512) :
    k3_pay2 (F := Ideal) s b acc (ix2 (0 : Fin 1) q)
      = acc (ix2 (0 : Fin 1) q) + ∑ p : Fin 1152, k3_pay1 (F := Ideal) s b (ix2 p q) := by
  unfold k3_pay2
  refine congrArg₂ (· + ·) ?_ ?_
  · rw [shapeCast_self]
  · refine (shapeCast_a_1a_apply _ _ (0 : Fin 1) q).trans ?_
    exact colsum_apply _ _ _ _ q

/-- The running column sums of squares after a block: the row as it stood plus the block's column sums of the squares. -/
theorem sumsq_apply (s : FVec Ideal S1152x512 .f32) (b : Vec Ideal S1x512 .f32) (acc : Vec Ideal S1x512 .f32) (q : Fin 512) :
    k3_pay3 (F := Ideal) s b acc (ix2 (0 : Fin 1) q)
      = acc (ix2 (0 : Fin 1) q)
        + ∑ p : Fin 1152, k3_pay1 (F := Ideal) s b (ix2 p q) * k3_pay1 (F := Ideal) s b (ix2 p q) := by
  unfold k3_pay3
  refine congrArg₂ (· + ·) ?_ ?_
  · rw [shapeCast_self]
  · refine (shapeCast_a_1a_apply _ _ (0 : Fin 1) q).trans ?_
    exact colsum_apply _ _ _ _ q

/-- The two rows stored at the first block are zero rows. -/
theorem zero_sum_apply (i : S1x512.Idx) : k3_pay4 (F := Ideal) i = 0 := Ideal.ofBits_zero_f32
theorem zero_sumsq_apply (i : S1x512.Idx) : k3_pay5 (F := Ideal) i = 0 := Ideal.ofBits_zero_f32

end Cert.KernelIdeal.KReg3

end
-- ==== Proof.KReg3Pieces.lean ====
/-
  What one grid point of the first dense layer's launch leaves in its three output buffers, as the body's arithmetic
  applied to the blocks it loaded.

  At every point the block of the layer before normalisation is the body's sum of the four partial products of the
  loaded input blocks and weight blocks, plus the bias row.  At the first point the two running rows are first zeroed,
  read back, and the block's column sums (of the entries, of their squares) are added to the zero rows; at every later
  point they are added to the rows as the point before left them.
-/
import proofs.«167845_j85727547228621_1_alg».proof.Proof.Gen.KernelIdeal.Frame
import Idealize.ShloMosaic.Lib.Pipeline.Value
import Idealize.ShloMosaic.Lib.Tactic

noncomputable section

namespace Cert.KernelIdeal.KReg3

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## A point after the first: the rows are read as the point before left them -/

theorem out_B_9 (c : Dev nD) (i : grid3.Coords) (a1 : Memref sig .tc .vmem S1152x1 .f32) (h1 : a1.IsWhole) (a2 : Memref sig .tc .vmem S1152x256 .f32) (h2 : a2.IsWhole) (a3 : Memref sig .tc .vmem S1152x256 .f32) (h3 : a3.IsWhole) (a4 : Memref sig .tc .vmem S1152x256 .f32) (h4 : a4.IsWhole) (a5 : Memref sig .tc .vmem S1x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S1x512 .f32) (h9 : a9.IsWhole) (a10 : Memref sig .tc .vmem S1152x512 .f32) (h10 : a10.IsWhole) (a11 : Memref sig .tc .vmem S1x512 .f32) (h11 : a11.IsWhole) (a12 : Memref sig .tc .vmem S1x512 .f32) (h12 : a12.IsWhole) (hc : ¬cond3_0 i)
    (x0 : Vec F S1152x1 .f32) (x1 : Vec F S1152x256 .f32) (x2 : Vec F S1152x256 .f32) (x3 : Vec F S1152x256 .f32) (x4 : Vec F S1x512 .f32) (x5 : Vec F S256x512 .f32) (x6 : Vec F S256x512 .f32) (x7 : Vec F S256x512 .f32) (x8 : Vec F S1x512 .f32) (xo10 xo11 : Vec F S1x512 .f32) :
    out3_B_9 c i a1 h1 a2 h2 a3 h3 a4 h4 a5 h5 a6 h6 a7 h7 a8 h8 a9 h9 a10 h10 a11 h11 a12 h12 hc x0 x1 x2 x3 x4 x5 x6 x7 x8 xo10 xo11 = k3_pay1 (k3_pay6 x0 x4 x1 x5 x2 x6 x3 x7) x8 := by
  unfold out3_B_9
  rw [View.read_writes_eq_canon _ _ _ (cover3_B_9 c i a1 h1 a2 h2 a3 h3 a4 h4 a5 h5 a6 h6 a7 h7 a8 h8 a9 h9 a10 h10 a11 h11 a12 h12 hc x0 x1 x2 x3 x4 x5 x6 x7 x8 xo10 xo11)]
  unfold kernelRun3_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h11.read_unread, h12.read_unread,
    View.ld_unit_zero (S := S1152x1) hz, View.ld_unit_zero (S := S1152x256) hz, View.ld_unit_zero (S := S1x512) hz,
    View.ld_unit_zero (S := S256x512) hz]

theorem out_B_10 (c : Dev nD) (i : grid3.Coords) (a1 : Memref sig .tc .vmem S1152x1 .f32) (h1 : a1.IsWhole) (a2 : Memref sig .tc .vmem S1152x256 .f32) (h2 : a2.IsWhole) (a3 : Memref sig .tc .vmem S1152x256 .f32) (h3 : a3.IsWhole) (a4 : Memref sig .tc .vmem S1152x256 .f32) (h4 : a4.IsWhole) (a5 : Memref sig .tc .vmem S1x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S1x512 .f32) (h9 : a9.IsWhole) (a10 : Memref sig .tc .vmem S1152x512 .f32) (h10 : a10.IsWhole) (a11 : Memref sig .tc .vmem S1x512 .f32) (h11 : a11.IsWhole) (a12 : Memref sig .tc .vmem S1x512 .f32) (h12 : a12.IsWhole) (hc : ¬cond3_0 i)
    (x0 : Vec F S1152x1 .f32) (x1 : Vec F S1152x256 .f32) (x2 : Vec F S1152x256 .f32) (x3 : Vec F S1152x256 .f32) (x4 : Vec F S1x512 .f32) (x5 : Vec F S256x512 .f32) (x6 : Vec F S256x512 .f32) (x7 : Vec F S256x512 .f32) (x8 : Vec F S1x512 .f32) (xo10 xo11 : Vec F S1x512 .f32) :
    out3_B_10 c i a1 h1 a2 h2 a3 h3 a4 h4 a5 h5 a6 h6 a7 h7 a8 h8 a9 h9 a10 h10 a11 h11 a12 h12 hc x0 x1 x2 x3 x4 x5 x6 x7 x8 xo10 xo11 = k3_pay2 (k3_pay6 x0 x4 x1 x5 x2 x6 x3 x7) x8 xo10 := by
  unfold out3_B_10
  rw [View.read_writes_eq_canon _ _ _ (cover3_B_10 c i a1 h1 a2 h2 a3 h3 a4 h4 a5 h5 a6 h6 a7 h7 a8 h8 a9 h9 a10 h10 a11 h11 a12 h12 hc x0 x1 x2 x3 x4 x5 x6 x7 x8 xo10 xo11)]
  unfold kernelRun3_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h11.read_unread, h12.read_unread,
    View.ld_unit_zero (S := S1152x1) hz, View.ld_unit_zero (S := S1152x256) hz, View.ld_unit_zero (S := S1x512) hz,
    View.ld_unit_zero (S := S256x512) hz]

theorem out_B_11 (c : Dev nD) (i : grid3.Coords) (a1 : Memref sig .tc .vmem S1152x1 .f32) (h1 : a1.IsWhole) (a2 : Memref sig .tc .vmem S1152x256 .f32) (h2 : a2.IsWhole) (a3 : Memref sig .tc .vmem S1152x256 .f32) (h3 : a3.IsWhole) (a4 : Memref sig .tc .vmem S1152x256 .f32) (h4 : a4.IsWhole) (a5 : Memref sig .tc .vmem S1x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S1x512 .f32) (h9 : a9.IsWhole) (a10 : Memref sig .tc .vmem S1152x512 .f32) (h10 : a10.IsWhole) (a11 : Memref sig .tc .vmem S1x512 .f32) (h11 : a11.IsWhole) (a12 : Memref sig .tc .vmem S1x512 .f32) (h12 : a12.IsWhole) (hc : ¬cond3_0 i)
    (x0 : Vec F S1152x1 .f32) (x1 : Vec F S1152x256 .f32) (x2 : Vec F S1152x256 .f32) (x3 : Vec F S1152x256 .f32) (x4 : Vec F S1x512 .f32) (x5 : Vec F S256x512 .f32) (x6 : Vec F S256x512 .f32) (x7 : Vec F S256x512 .f32) (x8 : Vec F S1x512 .f32) (xo10 xo11 : Vec F S1x512 .f32) :
    out3_B_11 c i a1 h1 a2 h2 a3 h3 a4 h4 a5 h5 a6 h6 a7 h7 a8 h8 a9 h9 a10 h10 a11 h11 a12 h12 hc x0 x1 x2 x3 x4 x5 x6 x7 x8 xo10 xo11 = k3_pay3 (k3_pay6 x0 x4 x1 x5 x2 x6 x3 x7) x8 xo11 := by
  unfold out3_B_11
  rw [View.read_writes_eq_canon _ _ _ (cover3_B_11 c i a1 h1 a2 h2 a3 h3 a4 h4 a5 h5 a6 h6 a7 h7 a8 h8 a9 h9 a10 h10 a11 h11 a12 h12 hc x0 x1 x2 x3 x4 x5 x6 x7 x8 xo10 xo11)]
  unfold kernelRun3_B
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h11.read_unread, h12.read_unread,
    View.ld_unit_zero (S := S1152x1) hz, View.ld_unit_zero (S := S1152x256) hz, View.ld_unit_zero (S := S1x512) hz,
    View.ld_unit_zero (S := S256x512) hz]

/-! ## The first point: the rows are zeroed, then read back -/

theorem out_A_9 (c : Dev nD) (i : grid3.Coords) (a1 : Memref sig .tc .vmem S1152x1 .f32) (h1 : a1.IsWhole) (a2 : Memref sig .tc .vmem S1152x256 .f32) (h2 : a2.IsWhole) (a3 : Memref sig .tc .vmem S1152x256 .f32) (h3 : a3.IsWhole) (a4 : Memref sig .tc .vmem S1152x256 .f32) (h4 : a4.IsWhole) (a5 : Memref sig .tc .vmem S1x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S1x512 .f32) (h9 : a9.IsWhole) (a10 : Memref sig .tc .vmem S1152x512 .f32) (h10 : a10.IsWhole) (a11 : Memref sig .tc .vmem S1x512 .f32) (h11 : a11.IsWhole) (a12 : Memref sig .tc .vmem S1x512 .f32) (h12 : a12.IsWhole) (hc : cond3_0 i)
    (x0 : Vec F S1152x1 .f32) (x1 : Vec F S1152x256 .f32) (x2 : Vec F S1152x256 .f32) (x3 : Vec F S1152x256 .f32) (x4 : Vec F S1x512 .f32) (x5 : Vec F S256x512 .f32) (x6 : Vec F S256x512 .f32) (x7 : Vec F S256x512 .f32) (x8 : Vec F S1x512 .f32) :
    out3_A_9 c i a1 h1 a2 h2 a3 h3 a4 h4 a5 h5 a6 h6 a7 h7 a8 h8 a9 h9 a10 h10 a11 h11 a12 h12 hc x0 x1 x2 x3 x4 x5 x6 x7 x8 = k3_pay1 (k3_pay6 x0 x4 x1 x5 x2 x6 x3 x7) x8 := by
  unfold out3_A_9
  rw [View.read_writes_eq_canon _ _ _ (cover3_A_9 c i a1 h1 a2 h2 a3 h3 a4 h4 a5 h5 a6 h6 a7 h7 a8 h8 a9 h9 a10 h10 a11 h11 a12 h12 hc x0 x1 x2 x3 x4 x5 x6 x7 x8)]
  unfold kernelRun3_A
  dsimp only
  sl_unfold_words
  rw [View.canon_unit_zero hz]
  simp only [View.readAt_eq_ld, h1.read_unread, h2.read_unread, h3.read_unread, h4.read_unread, h5.read_unread,
    h6.read_unread, h7.read_unread, h8.read_unread, h9.read_unread, h11.read_unread, h12.read_unread,
    View.ld_unit_zero (S := S1152x1) hz, View.ld_unit_zero (S := S1152x256) hz, View.ld_unit_zero (S := S1x512) hz,
    View.ld_unit_zero (S := S256x512) hz]

theorem out_A_10 (c : Dev nD) (i : grid3.Coords) (a1 : Memref sig .tc .vmem S1152x1 .f32) (h1 : a1.IsWhole) (a2 : Memref sig .tc .vmem S1152x256 .f32) (h2 : a2.IsWhole) (a3 : Memref sig .tc .vmem S1152x256 .f32) (h3 : a3.IsWhole) (a4 : Memref sig .tc .vmem S1152x256 .f32) (h4 : a4.IsWhole) (a5 : Memref sig .tc .vmem S1x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S1x512 .f32) (h9 : a9.IsWhole) (a10 : Memref sig .tc .vmem S1152x512 .f32) (h10 : a10.IsWhole) (a11 : Memref sig .tc .vmem S1x512 .f32) (h11 : a11.IsWhole) (a12 : Memref sig .tc .vmem S1x512 .f32) (h12 : a12.IsWhole) (hc : cond3_0 i)
    (x0 : Vec F S1152x1 .f32) (x1 : Vec F S1152x256 .f32) (x2 : Vec F S1152x256 .f32) (x3 : Vec F S1152x256 .f32) (x4 : Vec F S1x512 .f32) (x5 : Vec F S256x512 .f32) (x6 : Vec F S256x512 .f32) (x7 : Vec F S256x512 .f32) (x8 : Vec F S1x512 .f32) :
    out3_A_10 c i a1 h1 a2 h2 a3 h3 a4 h4 a5 h5 a6 h6 a7 h7 a8 h8 a9 h9 a10 h10 a11 h11 a12 h12 hc x0 x1 x2 x3 x4 x5 x6 x7 x8 = k3_pay2 (k3_pay6 x0 x4 x1 x5 x2 x6 x3 x7) x8 k3_pay4 := by
  unfold out3_A_10
  rw [View.read_writes_eq_canon _ _ _ (cover3_A_10 c i a1 h1 a2 h2 a3 h3 a4 h4 a5 h5 a6 h6 a7 h7 a8 h8 a9 h9 a10 h10 a11 h11 a12 h12 hc x0 x1 x2 x3 x4 x5 x6 x7 x8)]
  unfold kernelRun3_A
  dsimp only
  sl_unfold_words
  rw [View.canon_cons_unit_zero (S := S1x512) hz, View.readCov_unit_zero (S := S1x512) _ hz]
  simp only [View.readAt_eq_ld, h1.read_unread, h2.read_unread, h3.read_unread, h4.read_unread, h5.read_unread,
    h6.read_unread, h7.read_unread, h8.read_unread, h9.read_unread, h11.read_unread, h12.read_unread,
    View.ld_unit_zero (S := S1152x1) hz, View.ld_unit_zero (S := S1152x256) hz, View.ld_unit_zero (S := S1x512) hz,
    View.ld_unit_zero (S := S256x512) hz]

theorem out_A_11 (c : Dev nD) (i : grid3.Coords) (a1 : Memref sig .tc .vmem S1152x1 .f32) (h1 : a1.IsWhole) (a2 : Memref sig .tc .vmem S1152x256 .f32) (h2 : a2.IsWhole) (a3 : Memref sig .tc .vmem S1152x256 .f32) (h3 : a3.IsWhole) (a4 : Memref sig .tc .vmem S1152x256 .f32) (h4 : a4.IsWhole) (a5 : Memref sig .tc .vmem S1x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S1x512 .f32) (h9 : a9.IsWhole) (a10 : Memref sig .tc .vmem S1152x512 .f32) (h10 : a10.IsWhole) (a11 : Memref sig .tc .vmem S1x512 .f32) (h11 : a11.IsWhole) (a12 : Memref sig .tc .vmem S1x512 .f32) (h12 : a12.IsWhole) (hc : cond3_0 i)
    (x0 : Vec F S1152x1 .f32) (x1 : Vec F S1152x256 .f32) (x2 : Vec F S1152x256 .f32) (x3 : Vec F S1152x256 .f32) (x4 : Vec F S1x512 .f32) (x5 : Vec F S256x512 .f32) (x6 : Vec F S256x512 .f32) (x7 : Vec F S256x512 .f32) (x8 : Vec F S1x512 .f32) :
    out3_A_11 c i a1 h1 a2 h2 a3 h3 a4 h4 a5 h5 a6 h6 a7 h7 a8 h8 a9 h9 a10 h10 a11 h11 a12 h12 hc x0 x1 x2 x3 x4 x5 x6 x7 x8 = k3_pay3 (k3_pay6 x0 x4 x1 x5 x2 x6 x3 x7) x8 k3_pay5 := by
  unfold out3_A_11
  rw [View.read_writes_eq_canon _ _ _ (cover3_A_11 c i a1 h1 a2 h2 a3 h3 a4 h4 a5 h5 a6 h6 a7 h7 a8 h8 a9 h9 a10 h10 a11 h11 a12 h12 hc x0 x1 x2 x3 x4 x5 x6 x7 x8)]
  unfold kernelRun3_A
  dsimp only
  sl_unfold_words
  rw [View.canon_cons_unit_zero (S := S1x512) hz, View.readCov_unit_zero (S := S1x512) _ hz]
  simp only [View.readAt_eq_ld, h1.read_unread, h2.read_unread, h3.read_unread, h4.read_unread, h5.read_unread,
    h6.read_unread, h7.read_unread, h8.read_unread, h9.read_unread, h11.read_unread, h12.read_unread,
    View.ld_unit_zero (S := S1152x1) hz, View.ld_unit_zero (S := S1152x256) hz, View.ld_unit_zero (S := S1x512) hz,
    View.ld_unit_zero (S := S256x512) hz]

/-! ## The three output buffers after each point, as the body's terms of the point's blocks -/

section Points

variable (V : (c : Dev nD) → (b : Ref sig .tc) → Buf (Elt F) ((c : Thread nD τ).loc b))

/-- After the first point: the layer's block, and the block's column sums added to zero rows. -/
theorem at_first (c : Dev nD) (t : Fin cfg3.N) (h0 : t.val % 100 = 0) :
    outsAt3 V c t.val t.isLt
      = (k3_pay1 (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t),
         k3_pay2 (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) k3_pay4,
         k3_pay3 (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) k3_pay5) := by
  rw [outsAt3_A V c t h0,
    out_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t),
    out_A_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t),
    out_A_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t)]

/-- After a later point: the layer's block, and the block's column sums added to the rows the point before left. -/
theorem at_later (c : Dev nD) (t : Fin cfg3.N) (h0 : ¬t.val % 100 = 0) :
    outsAt3 V c t.val t.isLt
      = (k3_pay1 (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t),
         k3_pay2 (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t)
           (outsAt3 V c (t.val - 1) (Nat.lt_of_le_of_lt (Nat.sub_le _ _) t.isLt)).2.1,
         k3_pay3 (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t)
           (outsAt3 V c (t.val - 1) (Nat.lt_of_le_of_lt (Nat.sub_le _ _) t.isLt)).2.2) := by
  rw [outsAt3_B V c t h0,
    out_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)
      (outsAt3 V c (t.val - 1) (Nat.lt_of_le_of_lt (Nat.sub_le _ _) t.isLt)).2.1
      (outsAt3 V c (t.val - 1) (Nat.lt_of_le_of_lt (Nat.sub_le _ _) t.isLt)).2.2,
    out_B_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)
      (outsAt3 V c (t.val - 1) (Nat.lt_of_le_of_lt (Nat.sub_le _ _) t.isLt)).2.1
      (outsAt3 V c (t.val - 1) (Nat.lt_of_le_of_lt (Nat.sub_le _ _) t.isLt)).2.2,
    out_B_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (iblk3 V c 8 t)
      (outsAt3 V c (t.val - 1) (Nat.lt_of_le_of_lt (Nat.sub_le _ _) t.isLt)).2.1
      (outsAt3 V c (t.val - 1) (Nat.lt_of_le_of_lt (Nat.sub_le _ _) t.isLt)).2.2]

end Points

end Cert.KernelIdeal.KReg3

end
-- ==== Proof.KReg3Blocks.lean ====
/-
  The blocks the first dense layer's launch reads at grid point t, as entries of the arrays.

  The four row-blocked input windows (the one-column group and the three groups of 256 columns) hand point t rows
  1152 t to 1152 t + 1151 of their 115200-row arrays; the four weight blocks and the bias row are handed whole at every
  point.  An output block of 1152 rows sits at the same rows of its array, and the two running rows are their whole
  arrays.
-/
import proofs.«167845_j85727547228621_1_alg».proof.Proof.Gen.KernelIdeal.Frame
import Idealize.ShloMosaic.Lib.Pipeline.Value
import Idealize.ShloMosaic.Lib.ValueIdx

noncomputable section

namespace Cert.KernelIdeal.KReg3

open Cert.KernelIdeal Cert.KernelIdeal.Gen Idealize.ShloMosaic Idealize.ShloMosaic.TcCoe Idealize.ShloMosaic.ValueIdx
  Idealize.ShloMosaic.Pipeline

variable (V : (c : Dev nD) → (b : Ref sig .tc) → Buf (Elt Ideal) ((c : Thread nD τ).loc b))

/-! ## The printed index maps over the grid: the row-blocked windows move with the point, the others stay at block 0 -/

theorem idx_0 : ∀ t : Fin cfg3.N, win3_0.index t (0 : Fin 2) = t.val ∧ win3_0.index t (1 : Fin 2) = 0 :=
  (by decide +kernel : ∀ t : Fin grid3.N, _)
theorem idx_1 : ∀ t : Fin cfg3.N, win3_1.index t (0 : Fin 2) = t.val ∧ win3_1.index t (1 : Fin 2) = 0 :=
  (by decide +kernel : ∀ t : Fin grid3.N, _)
theorem idx_2 : ∀ t : Fin cfg3.N, win3_2.index t (0 : Fin 2) = t.val ∧ win3_2.index t (1 : Fin 2) = 0 :=
  (by decide +kernel : ∀ t : Fin grid3.N, _)
theorem idx_3 : ∀ t : Fin cfg3.N, win3_3.index t (0 : Fin 2) = t.val ∧ win3_3.index t (1 : Fin 2) = 0 :=
  (by decide +kernel : ∀ t : Fin grid3.N, _)
theorem idx_9 : ∀ t : Fin cfg3.N, win3_9.index t (0 : Fin 2) = t.val ∧ win3_9.index t (1 : Fin 2) = 0 :=
  (by decide +kernel : ∀ t : Fin grid3.N, _)
theorem idx_4 : ∀ t : Fin cfg3.N, win3_4.index t (0 : Fin 2) = 0 ∧ win3_4.index t (1 : Fin 2) = 0 :=
  (by decide +kernel : ∀ t : Fin grid3.N, _)
theorem idx_5 : ∀ t : Fin cfg3.N, win3_5.index t (0 : Fin 2) = 0 ∧ win3_5.index t (1 : Fin 2) = 0 :=
  (by decide +kernel : ∀ t : Fin grid3.N, _)
theorem idx_6 : ∀ t : Fin cfg3.N, win3_6.index t (0 : Fin 2) = 0 ∧ win3_6.index t (1 : Fin 2) = 0 :=
  (by decide +kernel : ∀ t : Fin grid3.N, _)
theorem idx_7 : ∀ t : Fin cfg3.N, win3_7.index t (0 : Fin 2) = 0 ∧ win3_7.index t (1 : Fin 2) = 0 :=
  (by decide +kernel : ∀ t : Fin grid3.N, _)
theorem idx_8 : ∀ t : Fin cfg3.N, win3_8.index t (0 : Fin 2) = 0 ∧ win3_8.index t (1 : Fin 2) = 0 :=
  (by decide +kernel : ∀ t : Fin grid3.N, _)
theorem idx_10 : ∀ t : Fin cfg3.N, win3_10.index t (0 : Fin 2) = 0 ∧ win3_10.index t (1 : Fin 2) = 0 :=
  (by decide +kernel : ∀ t : Fin grid3.N, _)
theorem idx_11 : ∀ t : Fin cfg3.N, win3_11.index t (0 : Fin 2) = 0 ∧ win3_11.index t (1 : Fin 2) = 0 :=
  (by decide +kernel : ∀ t : Fin grid3.N, _)

/-! ## The input blocks -/

/-- Entry (p, k) of window 0's block at point t is entry (1152 t + p, k) of its array. -/
theorem blk0_apply (c : Dev nD) (t : Fin cfg3.N) (p : Fin 1152) (k : Fin 1) (hr : 1152 * t.val + p.val < 115200) :
    (iblk3 V c 0 t : Vec Ideal S1152x1 .f32) (ix2 p k)
      = (V c main_arg0 : S115200x1.Idx → EReal) (ix2 ⟨1152 * t.val + p.val, hr⟩ k) := by
  obtain ⟨e0, e1⟩ := idx_0 t
  unfold iblk3
  rw [View.read_apply]
  show V c main_arg0 _ = V c main_arg0 _
  refine congrArg _ ?_
  funext a
  apply Fin.ext
  match a with
  | ⟨0, _⟩ => show win3_0.index t 0 * 1152 + 1 * p.val = 1152 * t.val + p.val; rw [e0]; omega
  | ⟨1, _⟩ => show win3_0.index t 1 * 1 + 1 * k.val = k.val; rw [e1]; omega

/-- Entry (p, k) of window 1's block at point t is entry (1152 t + p, k) of its array. -/
theorem blk1_apply (c : Dev nD) (t : Fin cfg3.N) (p : Fin 1152) (k : Fin 256) (hr : 1152 * t.val + p.val < 115200) :
    (iblk3 V c 1 t : Vec Ideal S1152x256 .f32) (ix2 p k)
      = (V c main_v17 : S115200x256.Idx → EReal) (ix2 ⟨1152 * t.val + p.val, hr⟩ k) := by
  obtain ⟨e0, e1⟩ := idx_1 t
  unfold iblk3
  rw [View.read_apply]
  show V c main_v17 _ = V c main_v17 _
  refine congrArg _ ?_
  funext a
  apply Fin.ext
  match a with
  | ⟨0, _⟩ => show win3_1.index t 0 * 1152 + 1 * p.val = 1152 * t.val + p.val; rw [e0]; omega
  | ⟨1, _⟩ => show win3_1.index t 1 * 256 + 1 * k.val = k.val; rw [e1]; omega

/-- Entry (p, k) of window 2's block at point t is entry (1152 t + p, k) of its array. -/
theorem blk2_apply (c : Dev nD) (t : Fin cfg3.N) (p : Fin 1152) (k : Fin 256) (hr : 1152 * t.val + p.val < 115200) :
    (iblk3 V c 2 t : Vec Ideal S1152x256 .f32) (ix2 p k)
      = (V c main_v31 : S115200x256.Idx → EReal) (ix2 ⟨1152 * t.val + p.val, hr⟩ k) := by
  obtain ⟨e0, e1⟩ := idx_2 t
  unfold iblk3
  rw [View.read_apply]
  show V c main_v31 _ = V c main_v31 _
  refine congrArg _ ?_
  funext a
  apply Fin.ext
  match a with
  | ⟨0, _⟩ => show win3_2.index t 0 * 1152 + 1 * p.val = 1152 * t.val + p.val; rw [e0]; omega
  | ⟨1, _⟩ => show win3_2.index t 1 * 256 + 1 * k.val = k.val; rw [e1]; omega

/-- Entry (p, k) of window 3's block at point t is entry (1152 t + p, k) of its array. -/
theorem blk3_apply (c : Dev nD) (t : Fin cfg3.N) (p : Fin 1152) (k : Fin 256) (hr : 1152 * t.val + p.val < 115200) :
    (iblk3 V c 3 t : Vec Ideal S1152x256 .f32) (ix2 p k)
      = (V c main_v45 : S115200x256.Idx → EReal) (ix2 ⟨1152 * t.val + p.val, hr⟩ k) := by
  obtain ⟨e0, e1⟩ := idx_3 t
  unfold iblk3
  rw [View.read_apply]
  show V c main_v45 _ = V c main_v45 _
  refine congrArg _ ?_
  funext a
  apply Fin.ext
  match a with
  | ⟨0, _⟩ => show win3_3.index t 0 * 1152 + 1 * p.val = 1152 * t.val + p.val; rw [e0]; omega
  | ⟨1, _⟩ => show win3_3.index t 1 * 256 + 1 * k.val = k.val; rw [e1]; omega

/-- Window 4's block at any point is its whole array. -/
theorem blk4_eq (c : Dev nD) (t : Fin cfg3.N) :
    (iblk3 V c 4 t : Vec Ideal S1x512 .f32) = (V c main_v46 : S1x512.Idx → EReal) := by
  obtain ⟨e0, e1⟩ := idx_4 t
  funext j
  unfold iblk3
  rw [View.read_apply]
  show V c main_v46 _ = V c main_v46 j
  refine congrArg _ ?_
  funext a
  apply Fin.ext
  match a with
  | ⟨0, _⟩ => show win3_4.index t 0 * 1 + 1 * (j 0).val = (j 0).val; rw [e0]; omega
  | ⟨1, _⟩ => show win3_4.index t 1 * 512 + 1 * (j 1).val = (j 1).val; rw [e1]; omega

/-- Window 5's block at any point is its whole array. -/
theorem blk5_eq (c : Dev nD) (t : Fin cfg3.N) :
    (iblk3 V c 5 t : Vec Ideal S256x512 .f32) = (V c main_v47 : S256x512.Idx → EReal) := by
  obtain ⟨e0, e1⟩ := idx_5 t
  funext j
  unfold iblk3
  rw [View.read_apply]
  show V c main_v47 _ = V c main_v47 j
  refine congrArg _ ?_
  funext a
  apply Fin.ext
  match a with
  | ⟨0, _⟩ => show win3_5.index t 0 * 256 + 1 * (j 0).val = (j 0).val; rw [e0]; omega
  | ⟨1, _⟩ => show win3_5.index t 1 * 512 + 1 * (j 1).val = (j 1).val; rw [e1]; omega

/-- Window 6's block at any point is its whole array. -/
theorem blk6_eq (c : Dev nD) (t : Fin cfg3.N) :
    (iblk3 V c 6 t : Vec Ideal S256x512 .f32) = (V c main_v48 : S256x512.Idx → EReal) := by
  obtain ⟨e0, e1⟩ := idx_6 t
  funext j
  unfold iblk3
  rw [View.read_apply]
  show V c main_v48 _ = V c main_v48 j
  refine congrArg _ ?_
  funext a
  apply Fin.ext
  match a with
  | ⟨0, _⟩ => show win3_6.index t 0 * 256 + 1 * (j 0).val = (j 0).val; rw [e0]; omega
  | ⟨1, _⟩ => show win3_6.index t 1 * 512 + 1 * (j 1).val = (j 1).val; rw [e1]; omega

/-- Window 7's block at any point is its whole array. -/
theorem blk7_eq (c : Dev nD) (t : Fin cfg3.N) :
    (iblk3 V c 7 t : Vec Ideal S256x512 .f32) = (V c main_v49 : S256x512.Idx → EReal) := by
  obtain ⟨e0, e1⟩ := idx_7 t
  funext j
  unfold iblk3
  rw [View.read_apply]
  show V c main_v49 _ = V c main_v49 j
  refine congrArg _ ?_
  funext a
  apply Fin.ext
  match a with
  | ⟨0, _⟩ => show win3_7.index t 0 * 256 + 1 * (j 0).val = (j 0).val; rw [e0]; omega
  | ⟨1, _⟩ => show win3_7.index t 1 * 512 + 1 * (j 1).val = (j 1).val; rw [e1]; omega

/-- Window 8's block at any point is its whole array. -/
theorem blk8_eq (c : Dev nD) (t : Fin cfg3.N) :
    (iblk3 V c 8 t : Vec Ideal S1x512 .f32) = (V c main_v50 : S1x512.Idx → EReal) := by
  obtain ⟨e0, e1⟩ := idx_8 t
  funext j
  unfold iblk3
  rw [View.read_apply]
  show V c main_v50 _ = V c main_v50 j
  refine congrArg _ ?_
  funext a
  apply Fin.ext
  match a with
  | ⟨0, _⟩ => show win3_8.index t 0 * 1 + 1 * (j 0).val = (j 0).val; rw [e0]; omega
  | ⟨1, _⟩ => show win3_8.index t 1 * 512 + 1 * (j 1).val = (j 1).val; rw [e1]; omega

end Cert.KernelIdeal.KReg3

end
-- ==== Proof.KReg3Inv.lean ====
/-
  The first dense layer's launch, point by point: what its three output buffers hold after each grid point.

  The layer before normalisation is one function of the arrays the launch finds: entry (r, q) is the four partial
  products of row r of the four input groups with column q of their weight blocks, added left to right, plus
  bias (0, q).  Point t computes rows 1152 t … 1152 t + 1151 of it from its input blocks, so after point n the first
  buffer holds block n of the layer, and, by induction on the point, the two running rows hold at column q the sums of
  the layer's entries, and of their squares, over the rows below 1152 n + 1152: the first point starts from zero rows,
  every later point adds its block's column sums to what the point before left.
-/
import proofs.«167845_j85727547228621_1_alg».proof.Proof.KReg3Pay
import proofs.«167845_j85727547228621_1_alg».proof.Proof.KReg3Pieces
import proofs.«167845_j85727547228621_1_alg».proof.Proof.KReg3Blocks
import proofs.«167845_j85727547228621_1_alg».proof.Proof.LibColumnBlocks

noncomputable section

open scoped BigOperators

namespace Cert.KernelIdeal.KReg3

open Cert.KernelIdeal Cert.KernelIdeal.Gen Idealize.ShloMosaic Idealize.ShloMosaic.TcCoe Idealize.ShloMosaic.ValueIdx
  Idealize.ShloMosaic.Pipeline Cert.ColumnBlocks

variable (V : (c : Dev nD) → (b : Ref sig .tc) → Buf (Elt Ideal) ((c : Thread nD τ).loc b))

/-- The first dense layer before normalisation, as one function of the arrays the launch finds. -/
abbrev pre (c : Dev nD) : Spec.Mat 115200 512 :=
  Spec.dense4 (V c main_arg0 : S115200x1.Idx → EReal) (V c main_v17 : S115200x256.Idx → EReal)
    (V c main_v31 : S115200x256.Idx → EReal) (V c main_v45 : S115200x256.Idx → EReal)
    (V c main_v46 : S1x512.Idx → EReal) (V c main_v47 : S256x512.Idx → EReal) (V c main_v48 : S256x512.Idx → EReal)
    (V c main_v49 : S256x512.Idx → EReal) (fun q => (V c main_v50 : S1x512.Idx → EReal) (ix2 (0 : Fin 1) q))

/-- The block of the layer computed at point t is rows 1152 t … 1152 t + 1151 of it. -/
theorem pre_block (c : Dev nD) (t : Fin cfg3.N) (p : Fin 1152) (q : Fin 512) (hr : 1152 * t.val + p.val < 115200) :
    k3_pay1 (F := Ideal) (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) (ix2 p q)
      = pre V c (ix2 ⟨1152 * t.val + p.val, hr⟩ q) := by
  refine (pre_apply (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) p q).trans ?_
  refine Eq.trans ?_ (Spec.dense4_apply _ _ _ _ _ _ _ _ _ ⟨1152 * t.val + p.val, hr⟩ q).symm
  refine congrArg₂ (· + ·) ?_ ?_
  · refine (products_apply (iblk3 V c 0 t) (iblk3 V c 4 t) (iblk3 V c 1 t) (iblk3 V c 5 t) (iblk3 V c 2 t) (iblk3 V c 6 t) (iblk3 V c 3 t) (iblk3 V c 7 t) p q).trans ?_
    rw [blk4_eq V c t, blk5_eq V c t, blk6_eq V c t, blk7_eq V c t]
    refine congrArg₂ (· + ·) (congrArg₂ (· + ·) (congrArg₂ (· + ·) ?_ ?_) ?_) ?_
    · refine Finset.sum_congr rfl fun k _ => ?_
      rw [blk0_apply V c t p k hr]
    · refine Finset.sum_congr rfl fun k _ => ?_
      rw [blk1_apply V c t p k hr]
    · refine Finset.sum_congr rfl fun k _ => ?_
      rw [blk2_apply V c t p k hr]
    · refine Finset.sum_congr rfl fun k _ => ?_
      rw [blk3_apply V c t p k hr]
  · rw [blk8_eq V c t]

/-- A point's update of the running column sums: rows below 1152 t become rows below 1152 t + 1152. -/
theorem sum_step (c : Dev nD) (t : Fin cfg3.N) (acc : Vec Ideal S1x512 .f32) (q : Fin 512)
    (hacc : acc (ix2 (0 : Fin 1) q) = below (pre V c) (1152 * t.val) q) :
    k3_pay2 (F := Ideal) (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) acc (ix2 (0 : Fin 1) q)
      = below (pre V c) (1152 * t.val + 1152) q := by
  have hlt : t.val < 100 := lt_of_lt_of_eq t.isLt N_3
  refine (sum_apply (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) acc q).trans ?_
  rw [below_add_block, hacc]
  refine congrArg₂ (· + ·) rfl (Finset.sum_congr rfl fun p _ => ?_)
  have hr : 1152 * t.val + p.val < 115200 := by have := p.isLt; omega
  rw [pre_block V c t p q hr, rowN_of_lt _ _ hr]

/-- The same for the running column sums of squares. -/
theorem sumsq_step (c : Dev nD) (t : Fin cfg3.N) (acc : Vec Ideal S1x512 .f32) (q : Fin 512)
    (hacc : acc (ix2 (0 : Fin 1) q) = below (sqr (pre V c)) (1152 * t.val) q) :
    k3_pay3 (F := Ideal) (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) acc (ix2 (0 : Fin 1) q)
      = below (sqr (pre V c)) (1152 * t.val + 1152) q := by
  have hlt : t.val < 100 := lt_of_lt_of_eq t.isLt N_3
  refine (sumsq_apply (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) acc q).trans ?_
  rw [below_add_block, hacc]
  refine congrArg₂ (· + ·) rfl (Finset.sum_congr rfl fun p _ => ?_)
  have hr : 1152 * t.val + p.val < 115200 := by have := p.isLt; omega
  rw [pre_block V c t p q hr, rowN_of_lt _ _ hr, sqr_apply]

/-- After point n: the layer's block n, and the column sums (of the entries, of their squares) over the rows below
    1152 n + 1152. By induction on the point. -/
theorem outs_inv (c : Dev nD) : ∀ (n : ℕ) (h : n < cfg3.N),
    (outsAt3 V c n h).1 = k3_pay1 (F := Ideal) (k3_pay6 (iblk3 V c 0 ⟨n, h⟩) (iblk3 V c 4 ⟨n, h⟩) (iblk3 V c 1 ⟨n, h⟩) (iblk3 V c 5 ⟨n, h⟩) (iblk3 V c 2 ⟨n, h⟩) (iblk3 V c 6 ⟨n, h⟩) (iblk3 V c 3 ⟨n, h⟩) (iblk3 V c 7 ⟨n, h⟩)) (iblk3 V c 8 ⟨n, h⟩)
    ∧ (∀ q : Fin 512, (outsAt3 V c n h).2.1 (ix2 (0 : Fin 1) q) = below (pre V c) (1152 * n + 1152) q)
    ∧ (∀ q : Fin 512, (outsAt3 V c n h).2.2 (ix2 (0 : Fin 1) q) = below (sqr (pre V c)) (1152 * n + 1152) q)
  | 0, h => by
    have e := at_first V c ⟨0, h⟩ rfl
    refine ⟨congrArg Prod.fst e, fun q => ?_, fun q => ?_⟩
    · refine (congrFun (congrArg (fun x => x.2.1) e) (ix2 (0 : Fin 1) q)).trans ?_
      have hz0 : (k3_pay4 (F := Ideal)) (ix2 (0 : Fin 1) q) = below (pre V c) (1152 * (⟨0, h⟩ : Fin cfg3.N).val) q := by
        rw [zero_sum_apply, show 1152 * (⟨0, h⟩ : Fin cfg3.N).val = 0 from rfl, below_zero]
      exact sum_step V c ⟨0, h⟩ (k3_pay4 (F := Ideal)) q hz0
    · refine (congrFun (congrArg (fun x => x.2.2) e) (ix2 (0 : Fin 1) q)).trans ?_
      have hz0 : (k3_pay5 (F := Ideal)) (ix2 (0 : Fin 1) q) = below (sqr (pre V c)) (1152 * (⟨0, h⟩ : Fin cfg3.N).val) q := by
        rw [zero_sumsq_apply, show 1152 * (⟨0, h⟩ : Fin cfg3.N).val = 0 from rfl, below_zero]
      exact sumsq_step V c ⟨0, h⟩ (k3_pay5 (F := Ideal)) q hz0
  | n + 1, h => by
    have hB : ¬(⟨n + 1, h⟩ : Fin cfg3.N).val % 100 = 0 := by
      have := lt_of_lt_of_eq h N_3
      dsimp only
      omega
    have e := at_later V c ⟨n + 1, h⟩ hB
    obtain ⟨-, ih1, ih2⟩ := outs_inv c n (Nat.lt_of_succ_lt h)
    refine ⟨congrArg Prod.fst e, fun q => ?_, fun q => ?_⟩
    · refine (congrFun (congrArg (fun x => x.2.1) e) (ix2 (0 : Fin 1) q)).trans ?_
      exact sum_step V c ⟨n + 1, h⟩ _ q (ih1 q)
    · refine (congrFun (congrArg (fun x => x.2.2) e) (ix2 (0 : Fin 1) q)).trans ?_
      exact sumsq_step V c ⟨n + 1, h⟩ _ q (ih2 q)

end Cert.KernelIdeal.KReg3

end
-- ==== Proof.KReg3.lean ====
/-
  The arrays the first dense layer's launch leaves.

  Every point writes its block of 1152 rows of the layer back, and row r of the array lies in the block of point
  r / 1152, so the first output array ends holding the whole layer.  The two running rows are written back once, after
  the last point, when they hold the sums over all 115200 rows: the second array ends holding the layer's column sums
  and the third the column sums of its squares.
-/
import proofs.«167845_j85727547228621_1_alg».proof.Proof.KReg3Inv

noncomputable section

open scoped BigOperators

namespace Cert.KernelIdeal.KReg3

open Cert.KernelIdeal Cert.KernelIdeal.Gen Idealize.ShloMosaic Idealize.ShloMosaic.TcCoe Idealize.ShloMosaic.ValueIdx
  Idealize.ShloMosaic.Pipeline Cert.ColumnBlocks

variable (V : (c : Dev nD) → (b : Ref sig .tc) → Buf (Elt Ideal) ((c : Thread nD τ).loc b))

/-- An index of a one-row array is (0, its column). -/
theorem row_idx (j : S1x512.Idx) : j = ix2 (0 : Fin 1) (j 1) := by
  funext a
  match a with
  | ⟨0, _⟩ => exact Subsingleton.elim (α := Fin 1) _ _
  | ⟨1, _⟩ => rfl

/-! ## The layer's array: every point writes its block of rows back -/

/-- What point t writes back to the layer's array is its block of rows of the layer. -/
theorem flushed_pre (c : Dev nD) (t : Fin cfg3.N) :
    (dat3 V c).flushed 9 t = ((cfg3.win 9).blk t).view.read (Elt Ideal) (pre V c) := by
  obtain ⟨e6, e7⟩ := idx_9 t
  have hlt : t.val < 100 := lt_of_lt_of_eq t.isLt N_3
  show (cfg3.win 9).cut (grid3.coords t) ((dat3 V c).after 9 t) = _
  rw [after3_9, (outs_inv V c t.val t.isLt).1]
  funext j
  obtain ⟨p, q, rfl⟩ : ∃ (p : Fin 1152) (q : Fin 512), j = ix2 p q := ⟨j 0, j 1, eq_ix2 j⟩
  have hr : 1152 * t.val + p.val < 115200 := by have := p.isLt; omega
  show k3_pay1 (F := Ideal) (k3_pay6 (iblk3 V c 0 t) (iblk3 V c 4 t) (iblk3 V c 1 t) (iblk3 V c 5 t) (iblk3 V c 2 t) (iblk3 V c 6 t) (iblk3 V c 3 t) (iblk3 V c 7 t)) (iblk3 V c 8 t) (ix2 p q)
    = pre V c (((cfg3.win 9).blk t).view.emb (ix2 p q))
  rw [pre_block V c t p q hr]
  refine congrArg _ ?_
  funext a
  apply Fin.ext
  match a with
  | ⟨0, _⟩ => show 1152 * t.val + p.val = win3_9.index t 0 * 1152 + 1 * p.val; rw [e6]; omega
  | ⟨1, _⟩ => show q.val = win3_9.index t 1 * 512 + 1 * q.val; rw [e7]; omega

/-- An index of the layer's array is in point t's block iff each coordinate is in the block's range on its axis. -/
theorem mem_blk_pre (t : Fin cfg3.N) (i : S115200x512.Idx) :
    i ∈ ((cfg3.win 9).blk t).view.set ↔ ∀ a : Fin 2, win3_9.index t a * S1152x512.size a ≤ (i a).val
      ∧ (i a).val < win3_9.index t a * S1152x512.size a + S1152x512.size a := by
  show i ∈ ((View.whole main_v51_0).slice (win3_9.rect t)).set ↔ _
  rw [View.set_slice_whole, Rect.mem_set_unit]
  exact Iff.rfl

/-- The layer's array ends holding the layer: row r is written by point r / 1152. -/
theorem outPre (c : Dev nD) : (dat3 V c).arrAt 9 cfg3.N = pre V c :=
  (dat3 V c).arrAt_eq_of_cover 9 (pre V c) (fun t _ => flushed_pre V c t) fun i => by
    have hi0 : (i 0).val < 115200 := (i 0).isLt
    have hi1 : (i 1).val < 512 := (i 1).isLt
    obtain ⟨t, ht⟩ : ∃ t : Fin cfg3.N, t.val = (i 0).val / 1152 :=
      ⟨⟨(i 0).val / 1152, lt_of_lt_of_eq (by omega : (i 0).val / 1152 < 100) N_3.symm⟩, rfl⟩
    obtain ⟨e6, e7⟩ := idx_9 t
    refine ⟨t, flush3_9 t, ?_⟩
    rw [mem_blk_pre]
    intro a
    match a with
    | ⟨0, _⟩ =>
      show win3_9.index t 0 * 1152 ≤ (i 0).val ∧ (i 0).val < win3_9.index t 0 * 1152 + 1152
      rw [e6, ht]; omega
    | ⟨1, _⟩ =>
      show win3_9.index t 1 * 512 ≤ (i 1).val ∧ (i 1).val < win3_9.index t 1 * 512 + 512
      rw [e7]; omega

/-! ## The two rows: written back once, after the last point -/

/-- The last point, the one that writes the rows back. -/
def tLast : Fin cfg3.N := ⟨99, lt_of_lt_of_eq (by decide : 99 < 100) N_3.symm⟩

/-- An index of a row's array is in the last point's block. -/
theorem mem_blk_sum (i : S1x512.Idx) : i ∈ ((cfg3.win 10).blk tLast).view.set := by
  obtain ⟨e8, e9⟩ := idx_10 tLast
  have hi0 : (i 0).val < 1 := (i 0).isLt
  have hi1 : (i 1).val < 512 := (i 1).isLt
  show i ∈ ((View.whole main_v51_1).slice (win3_10.rect tLast)).set
  rw [View.set_slice_whole, Rect.mem_set_unit]
  intro a
  match a with
  | ⟨0, _⟩ =>
    show win3_10.index tLast 0 * 1 ≤ (i 0).val ∧ (i 0).val < win3_10.index tLast 0 * 1 + 1
    rw [e8]; omega
  | ⟨1, _⟩ =>
    show win3_10.index tLast 1 * 512 ≤ (i 1).val ∧ (i 1).val < win3_10.index tLast 1 * 512 + 512
    rw [e9]; omega

theorem mem_blk_sumsq (i : S1x512.Idx) : i ∈ ((cfg3.win 11).blk tLast).view.set := by
  obtain ⟨e10, e11⟩ := idx_11 tLast
  have hi0 : (i 0).val < 1 := (i 0).isLt
  have hi1 : (i 1).val < 512 := (i 1).isLt
  show i ∈ ((View.whole main_v51_2).slice (win3_11.rect tLast)).set
  rw [View.set_slice_whole, Rect.mem_set_unit]
  intro a
  match a with
  | ⟨0, _⟩ =>
    show win3_11.index tLast 0 * 1 ≤ (i 0).val ∧ (i 0).val < win3_11.index tLast 0 * 1 + 1
    rw [e10]; omega
  | ⟨1, _⟩ =>
    show win3_11.index tLast 1 * 512 ≤ (i 1).val ∧ (i 1).val < win3_11.index tLast 1 * 512 + 512
    rw [e11]; omega

/-- Reading a one-row array through the one block of the sums' window. -/
theorem read_row_sum (t : Fin cfg3.N) (G : S1x512.Idx → EReal) (q : Fin 512) :
    ((cfg3.win 10).blk t).view.read (Elt Ideal) G (ix2 (0 : Fin 1) q) = G (ix2 (0 : Fin 1) q) := by
  obtain ⟨e8, e9⟩ := idx_10 t
  rw [View.read_apply]
  refine congrArg G ?_
  funext a
  apply Fin.ext
  match a with
  | ⟨0, _⟩ => show win3_10.index t 0 * 1 + 1 * 0 = 0; rw [e8]
  | ⟨1, _⟩ => show win3_10.index t 1 * 512 + 1 * q.val = q.val; rw [e9]; omega

theorem read_row_sumsq (t : Fin cfg3.N) (G : S1x512.Idx → EReal) (q : Fin 512) :
    ((cfg3.win 11).blk t).view.read (Elt Ideal) G (ix2 (0 : Fin 1) q) = G (ix2 (0 : Fin 1) q) := by
  obtain ⟨e10, e11⟩ := idx_11 t
  rw [View.read_apply]
  refine congrArg G ?_
  funext a
  apply Fin.ext
  match a with
  | ⟨0, _⟩ => show win3_11.index t 0 * 1 + 1 * 0 = 0; rw [e10]
  | ⟨1, _⟩ => show win3_11.index t 1 * 512 + 1 * q.val = q.val; rw [e11]; omega

/-- What the last point writes back to the sums' array: the column sums of the layer over all 115200 rows. -/
theorem flushed_sum (c : Dev nD) (t : Fin cfg3.N) (hf : (cfg3.win 10).flush t = true) :
    (dat3 V c).flushed 10 t = ((cfg3.win 10).blk t).view.read (Elt Ideal) (Spec.rowOf (Spec.colSum (pre V c))) := by
  have hlt : t.val < 100 := lt_of_lt_of_eq t.isLt N_3
  have h99 : t.val = 99 := by have := (flush3_10 t).mp hf; omega
  show (cfg3.win 10).cut (grid3.coords t) ((dat3 V c).after 10 t) = _
  rw [after3_10]
  funext j
  obtain ⟨q, rfl⟩ : ∃ q : Fin 512, j = ix2 (0 : Fin 1) q := ⟨j 1, row_idx j⟩
  refine Eq.trans ?_ (read_row_sum t _ q).symm
  refine Eq.trans ?_ (Spec.rowOf_apply _ q).symm
  refine ((outs_inv V c t.val t.isLt).2.1 q).trans ?_
  rw [show 1152 * t.val + 1152 = 115200 from by omega]
  exact below_all_colSum (pre V c) q

/-- What the last point writes back to the sums of squares' array: the column sums of the squares over all rows. -/
theorem flushed_sumsq (c : Dev nD) (t : Fin cfg3.N) (hf : (cfg3.win 11).flush t = true) :
    (dat3 V c).flushed 11 t = ((cfg3.win 11).blk t).view.read (Elt Ideal) (Spec.rowOf (Spec.colSumSq (pre V c))) := by
  have hlt : t.val < 100 := lt_of_lt_of_eq t.isLt N_3
  have h99 : t.val = 99 := by have := (flush3_11 t).mp hf; omega
  show (cfg3.win 11).cut (grid3.coords t) ((dat3 V c).after 11 t) = _
  rw [after3_11]
  funext j
  obtain ⟨q, rfl⟩ : ∃ q : Fin 512, j = ix2 (0 : Fin 1) q := ⟨j 1, row_idx j⟩
  refine Eq.trans ?_ (read_row_sumsq t _ q).symm
  refine Eq.trans ?_ (Spec.rowOf_apply _ q).symm
  refine ((outs_inv V c t.val t.isLt).2.2 q).trans ?_
  rw [show 1152 * t.val + 1152 = 115200 from by omega]
  exact below_all_colSumSq (pre V c) q

/-- The sums' array ends holding the column sums of the layer. -/
theorem outSum (c : Dev nD) : (dat3 V c).arrAt 10 cfg3.N = Spec.rowOf (Spec.colSum (pre V c)) :=
  (dat3 V c).arrAt_eq_of_cover 10 (Spec.rowOf (Spec.colSum (pre V c))) (flushed_sum V c) fun i =>
    ⟨tLast, (flush3_10 tLast).mpr rfl, mem_blk_sum i⟩

/-- The sums of squares' array ends holding the column sums of the squares of the layer. -/
theorem outSumSq (c : Dev nD) : (dat3 V c).arrAt 11 cfg3.N = Spec.rowOf (Spec.colSumSq (pre V c)) :=
  (dat3 V c).arrAt_eq_of_cover 11 (Spec.rowOf (Spec.colSumSq (pre V c))) (flushed_sumsq V c) fun i =>
    ⟨tLast, (flush3_11 tLast).mpr rfl, mem_blk_sumsq i⟩

end Cert.KernelIdeal.KReg3

end
-- ==== Proof.KChain3.lean ====
/-
  What the kernel launches find in their input arrays: launch 3 (the first dense layer and its column statistics).  Each fact is an equation of whole buffers,
  read at the launch's entry.  An argument array, or an earlier launch's output array, is walked back through
  the segments in between, none of which writes it; an array the stretch of host operations before the launch
  computes is that stretch's operations composed, over the buffers the stretch reads, themselves walked back.
-/
import proofs.«167845_j85727547228621_1_alg».proof.Proof.KNames
import proofs.«167845_j85727547228621_1_alg».proof.Proof.KWalk
import proofs.«167845_j85727547228621_1_alg».proof.Proof.KChainDefs

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## Launch 3 -/

/-- Launch 3, window 0: the argument array as launched — nothing before the launch writes it. -/
theorem in3_0 : V7 m ρ c main_arg0 = m ((c : Thread nD τ).loc main_arg0) :=
  (KWalk.stay7 m ρ c main_arg0 (by decide))

/-- Launch 3, window 1: launch 0's output array, which nothing in between writes. -/
theorem in3_1 : V7 m ρ c main_v17 = KNames.X1 m ρ c :=
  ((KWalk.keepH3 m ρ c main_v17 (by decide)).trans ((KWalk.keepR2 m ρ c main_v17 (by decide)).trans ((KWalk.keepH2 m ρ c main_v17 (by decide)).trans ((KWalk.keepR1 m ρ c main_v17 (by decide)).trans (KWalk.keepH1 m ρ c main_v17 (by decide)))))).trans (W2_arr m ρ c 6)

/-- Launch 3, window 2: launch 1's output array, which nothing in between writes. -/
theorem in3_2 : V7 m ρ c main_v31 = KNames.X2 m ρ c :=
  ((KWalk.keepH3 m ρ c main_v31 (by decide)).trans ((KWalk.keepR2 m ρ c main_v31 (by decide)).trans (KWalk.keepH2 m ρ c main_v31 (by decide)))).trans (W4_arr m ρ c 6)

/-- Launch 3, window 3: launch 2's output array, which nothing in between writes. -/
theorem in3_3 : V7 m ρ c main_v45 = KNames.X3 m ρ c :=
  (KWalk.keepH3 m ρ c main_v45 (by decide)).trans (W6_arr m ρ c 6)

/-- Launch 3, window 4: the stretch before the launch computes it from the arrays named on the right. -/
theorem in3_4 : V7 m ρ c main_v46 = extractStridedSlice S1x512 ![0, 0] (m ((c : Thread nD τ).loc main_arg11)) slices_S769x512_S1x512_0_0 := by
  show StableHlo.after hostOps3 (W6 m ρ c) (Proc.devRef .tc main_v46) = _
  after_results_simp
  rw [show W6 m ρ c (Proc.devRef .tc main_arg11) = (m ((c : Thread nD τ).loc main_arg11)) from (KWalk.stay6 m ρ c main_arg11 (by decide))]

/-- Launch 3, window 5: the stretch before the launch computes it from the arrays named on the right. -/
theorem in3_5 : V7 m ρ c main_v47 = extractStridedSlice S256x512 ![1, 0] (m ((c : Thread nD τ).loc main_arg11)) slices_S769x512_S256x512_1_0 := by
  show StableHlo.after hostOps3 (W6 m ρ c) (Proc.devRef .tc main_v47) = _
  after_results_simp
  rw [show W6 m ρ c (Proc.devRef .tc main_arg11) = (m ((c : Thread nD τ).loc main_arg11)) from (KWalk.stay6 m ρ c main_arg11 (by decide))]

/-- Launch 3, window 6: the stretch before the launch computes it from the arrays named on the right. -/
theorem in3_6 : V7 m ρ c main_v48 = extractStridedSlice S256x512 ![257, 0] (m ((c : Thread nD τ).loc main_arg11)) slices_S769x512_S256x512_257_0 := by
  show StableHlo.after hostOps3 (W6 m ρ c) (Proc.devRef .tc main_v48) = _
  after_results_simp
  rw [show W6 m ρ c (Proc.devRef .tc main_arg11) = (m ((c : Thread nD τ).loc main_arg11)) from (KWalk.stay6 m ρ c main_arg11 (by decide))]

/-- Launch 3, window 7: the stretch before the launch computes it from the arrays named on the right. -/
theorem in3_7 : V7 m ρ c main_v49 = extractStridedSlice S256x512 ![513, 0] (m ((c : Thread nD τ).loc main_arg11)) slices_S769x512_S256x512_513_0 := by
  show StableHlo.after hostOps3 (W6 m ρ c) (Proc.devRef .tc main_v49) = _
  after_results_simp
  rw [show W6 m ρ c (Proc.devRef .tc main_arg11) = (m ((c : Thread nD τ).loc main_arg11)) from (KWalk.stay6 m ρ c main_arg11 (by decide))]

/-- Launch 3, window 8: the stretch before the launch computes it from the arrays named on the right. -/
theorem in3_8 : V7 m ρ c main_v50 = shapeCast S1x512 (m ((c : Thread nD τ).loc main_arg12)) shapeCasts_S512_S1x512 := by
  show StableHlo.after hostOps3 (W6 m ρ c) (Proc.devRef .tc main_v50) = _
  after_results_simp
  rw [show W6 m ρ c (Proc.devRef .tc main_arg12) = (m ((c : Thread nD τ).loc main_arg12)) from (KWalk.stay6 m ρ c main_arg12 (by decide))]
  rfl

end Cert.KernelIdeal.KChain

end
-- ==== Proof.KGinLemmas.lean ====
/-
  One block of rows of a graph-isomorphism layer, read entry by entry.

  The layer adds the aggregated neighbour features to the node features, multiplies by a weight matrix (both factors
  cast to bf16, the product accumulated into zero in f32), adds a bias row, and then normalises every ROW: the mean is
  the lane sum divided by the feature count, the variance is the mean of the squares minus the square of the mean, the
  row is centred, scaled by the inverse square root of the variance plus a small constant, scaled by a gain row, shifted
  by a shift row, and clipped below at zero. At the ideal values the casts are the identity, so on a block of R rows the
  result is the whole-array function of the specification taken at R rows.

  Two further facts let a block be read inside the whole array: entry (p, q) of a dense layer depends on row p of its
  input only, and entry (p, q) of the row normalisation depends on row p of its input only.
-/
import proofs.«167845_j85727547228621_1_alg».proof.Proof.Spec
import proofs.«167845_j85727547228621_1_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KGin

open Idealize.ShloMosaic Idealize.ShloMosaic.ValueIdx Cert

/-! ## Rows of the specification's functions -/

/-- Entry (r, q) of a dense layer on an input whose row r is row p of another input is entry (p, q) of the dense
    layer on that other input. -/
theorem dense_row {n n' k c : Nat} (x : Spec.Mat n k) (x' : Spec.Mat n' k) (w : Spec.Mat k c) (b : Fin c → EReal)
    (p : Fin n) (r : Fin n') (hrow : ∀ j : Fin k, x' (ix2 r j) = x (ix2 p j)) (q : Fin c) :
    Spec.dense x' w b (ix2 r q) = Spec.dense x w b (ix2 p q) := by
  rw [Spec.dense_apply, Spec.dense_apply]
  simp only [hrow]

/-- Entry (r, q) of the row normalisation of an array whose row r is row p of another array is entry (p, q) of the
    row normalisation of that other array: the mean and the variance are those of the row. -/
theorem lnK_row {n n' c : Nat} (h : Spec.Mat n c) (h' : Spec.Mat n' c) (g β : Fin c → EReal)
    (p : Fin n) (r : Fin n') (hrow : ∀ q : Fin c, h' (ix2 r q) = h (ix2 p q)) (q : Fin c) :
    Spec.lnK h' g β (ix2 r q) = Spec.lnK h g β (ix2 p q) := by
  have hm : Spec.rowMean h' Spec.c256 r = Spec.rowMean h Spec.c256 p := by
    unfold Spec.rowMean Spec.rowSum
    simp only [hrow]
  have hv : Spec.rowVarK h' Spec.c256 r = Spec.rowVarK h Spec.c256 p := by
    unfold Spec.rowVarK
    rw [hm]
    simp only [hrow]
  unfold Spec.lnK
  rw [Spec.normRows_apply, Spec.normRows_apply, hrow q, hm, hv]

/-! ## Layout operations of the block, read at an entry -/

/-- The lane sum of an [R, C] block, laid as an [R, 1] column, at row p: the sum of the block's row p. -/
theorem laneSum_apply {R C : Nat} (H : FVec Ideal ⟨2, ![R, C]⟩ .f32)
    (hred : (⟨2, ![R, C]⟩ : Shape).Reduces [1] ⟨1, ![R]⟩) (hφ : FKind.Formats FTy.f32)
    (hacc : (0x00000000#32 : BitVec FTy.f32.bits) = FKind.add.neutral FTy.f32 hφ)
    (hsc : (⟨1, ![R]⟩ : Shape).ShapeCasts ⟨2, ![R, 1]⟩) (p : Fin R) :
    shapeCast ⟨2, ![R, 1]⟩ (multiReduction .add [1] ⟨1, ![R]⟩ H 0x00000000#32 hred hφ hacc) hsc (ix2 p (0 : Fin 1))
      = ∑ q : Fin C, H (ix2 p q) := by
  refine (shapeCast_apply _ hsc (ix2 p (0 : Fin 1)) (ix1 p) ?_).trans ?_
  · rw [Shape.rowMajor_val_two, Shape.rowMajor_val_one]
    show p.val = p.val * 1 + 0
    omega
  · refine (Ideal.multiReduction_add_single H _ hred hφ hacc (ix1 p)).trans ?_
    show ∑ k : Fin C, H (hred.lift (ix1 p) k) = _
    refine Finset.sum_congr rfl fun k _ => congrArg H ?_
    funext a
    apply Fin.ext
    match a with
    | ⟨0, _⟩ => rfl
    | ⟨1, _⟩ => rfl

/-- An [R, 1] column broadcast along the lanes of an [R, C] block reads, at (p, q), the column at row p. -/
theorem colBroadcast_apply {α : Type} {R C : Nat} (v : (⟨2, ![R, 1]⟩ : Shape).Idx → α)
    (h : (⟨2, ![R, 1]⟩ : Shape).Broadcasts ⟨2, ![R, C]⟩) (p : Fin R) (q : Fin C) :
    broadcastTo ⟨2, ![R, C]⟩ v h (ix2 p q) = v (ix2 p (0 : Fin 1)) := by
  refine broadcastTo_apply v h (ix2 p q) (ix2 p (0 : Fin 1)) fun ax => ?_
  match ax with
  | ⟨0, _⟩ =>
    show p.val = if R = 1 then 0 else p.val
    split
    · have := p.isLt; omega
    · rfl
  | ⟨1, _⟩ =>
    show (0 : Nat) = if (1 : Nat) = 1 then 0 else q.val
    simp

/-! ## The block's arithmetic -/

/-- The block's dense part: the sum of the two inputs times the weights (both cast to bf16, accumulated into zero),
    plus the bias row. -/
abbrev denseBlk {R K C : Nat} (D : DotDims ⟨2, ![R, K]⟩ ⟨2, ![K, C]⟩ ⟨2, ![R, C]⟩) (hbits : FTy.bf16.bits < FTy.f32.bits)
    (hb : (⟨2, ![1, C]⟩ : Shape).Broadcasts ⟨2, ![R, C]⟩)
    (x0 x1 : FVec Ideal ⟨2, ![R, K]⟩ .f32) (x2 : FVec Ideal ⟨2, ![K, C]⟩ .f32) (x3 : FVec Ideal ⟨2, ![1, C]⟩ .f32) :
    FVec Ideal ⟨2, ![R, C]⟩ .f32 :=
  addf (matmul D none (truncf .bf16 (addf x0 x1) hbits) (truncf .bf16 x2 hbits) (constant ⟨2, ![R, C]⟩ .f32 0x00000000#32))
    (broadcastTo ⟨2, ![R, C]⟩ x3 hb)

/-- It is the specification's dense layer of the sum of the two inputs. -/
theorem denseBlk_eq {R K C : Nat} (D : DotDims ⟨2, ![R, K]⟩ ⟨2, ![K, C]⟩ ⟨2, ![R, C]⟩) (hD : D = DotDims.plain R K C)
    (hbits : FTy.bf16.bits < FTy.f32.bits) (hb : (⟨2, ![1, C]⟩ : Shape).Broadcasts ⟨2, ![R, C]⟩)
    (x0 x1 : FVec Ideal ⟨2, ![R, K]⟩ .f32) (x2 : FVec Ideal ⟨2, ![K, C]⟩ .f32) (x3 : FVec Ideal ⟨2, ![1, C]⟩ .f32) :
    denseBlk D hbits hb x0 x1 x2 x3
      = Spec.dense (Spec.add x0 x1) x2 (fun q => x3 (ix2 (0 : Fin 1) q)) := by
  subst hD
  funext i
  obtain ⟨p, q, rfl⟩ : ∃ (p : Fin R) (q : Fin C), i = ix2 p q := ⟨i 0, i 1, eq_ix2 i⟩
  rw [Spec.dense_apply]
  show FloatOps.matmul (DotDims.plain R K C) none (truncf .bf16 (addf x0 x1) hbits) (truncf .bf16 x2 hbits)
      (constant ⟨2, ![R, C]⟩ .f32 0x00000000#32) (ix2 p q) + broadcastTo ⟨2, ![R, C]⟩ x3 hb (ix2 p q) = _
  rw [Bridge.matmul_plain_zero_apply, broadcastTo_1b_ab_apply]
  rfl

/-- The block's mean column: the lane sum over the feature count. -/
abbrev meanBlk {R C : Nat} (hred : (⟨2, ![R, C]⟩ : Shape).Reduces [1] ⟨1, ![R]⟩) (hφ : FKind.Formats FTy.f32)
    (hacc : (0x00000000#32 : BitVec FTy.f32.bits) = FKind.add.neutral FTy.f32 hφ)
    (hsc : (⟨1, ![R]⟩ : Shape).ShapeCasts ⟨2, ![R, 1]⟩) (H : FVec Ideal ⟨2, ![R, C]⟩ .f32) : FVec Ideal ⟨2, ![R, 1]⟩ .f32 :=
  divf (shapeCast ⟨2, ![R, 1]⟩ (multiReduction .add [1] ⟨1, ![R]⟩ H 0x00000000#32 hred hφ hacc) hsc)
    (broadcast ⟨2, ![R, 1]⟩ (Scalar.ofBits .f32 0x43800000#32))

theorem meanBlk_apply {R C : Nat} (hred : (⟨2, ![R, C]⟩ : Shape).Reduces [1] ⟨1, ![R]⟩) (hφ : FKind.Formats FTy.f32)
    (hacc : (0x00000000#32 : BitVec FTy.f32.bits) = FKind.add.neutral FTy.f32 hφ)
    (hsc : (⟨1, ![R]⟩ : Shape).ShapeCasts ⟨2, ![R, 1]⟩) (H : FVec Ideal ⟨2, ![R, C]⟩ .f32) (p : Fin R) :
    meanBlk hred hφ hacc hsc H (ix2 p (0 : Fin 1)) = Ideal.div (∑ q : Fin C, H (ix2 p q)) Spec.c256 := by
  show Ideal.div (shapeCast ⟨2, ![R, 1]⟩ (multiReduction .add [1] ⟨1, ![R]⟩ H 0x00000000#32 hred hφ hacc) hsc (ix2 p (0 : Fin 1)))
      Spec.c256 = _
  rw [laneSum_apply]

/-- The block's normalisation: centre by the mean, scale by the inverse square root of the variance (the mean of the
    squares minus the square of the mean) plus the small constant, gain, shift, positive part. -/
abbrev normBlk {R C : Nat} (hred : (⟨2, ![R, C]⟩ : Shape).Reduces [1] ⟨1, ![R]⟩) (hφ : FKind.Formats FTy.f32)
    (hacc : (0x00000000#32 : BitVec FTy.f32.bits) = FKind.add.neutral FTy.f32 hφ)
    (hsc : (⟨1, ![R]⟩ : Shape).ShapeCasts ⟨2, ![R, 1]⟩)
    (hbc : (⟨2, ![R, 1]⟩ : Shape).Broadcasts ⟨2, ![R, C]⟩) (hb : (⟨2, ![1, C]⟩ : Shape).Broadcasts ⟨2, ![R, C]⟩)
    (H : FVec Ideal ⟨2, ![R, C]⟩ .f32) (x4 x5 : FVec Ideal ⟨2, ![1, C]⟩ .f32) : FVec Ideal ⟨2, ![R, C]⟩ .f32 :=
  maximumf
    (addf
      (mulf
        (mulf (subf H (broadcastTo ⟨2, ![R, C]⟩ (meanBlk hred hφ hacc hsc H) hbc))
          (broadcastTo ⟨2, ![R, C]⟩
            (rsqrt (addf (subf (meanBlk hred hφ hacc hsc (mulf H H)) (mulf (meanBlk hred hφ hacc hsc H) (meanBlk hred hφ hacc hsc H)))
              (broadcast ⟨2, ![R, 1]⟩ (Scalar.ofBits .f32 0x3727C5AC#32)))) hbc))
        (broadcastTo ⟨2, ![R, C]⟩ x4 hb))
      (broadcastTo ⟨2, ![R, C]⟩ x5 hb))
    (broadcast ⟨2, ![R, C]⟩ (Scalar.ofBits .f32 0x00000000#32))

/-- It is the specification's row normalisation with the gain row and the shift row. -/
theorem normBlk_eq {R C : Nat} (hred : (⟨2, ![R, C]⟩ : Shape).Reduces [1] ⟨1, ![R]⟩) (hφ : FKind.Formats FTy.f32)
    (hacc : (0x00000000#32 : BitVec FTy.f32.bits) = FKind.add.neutral FTy.f32 hφ)
    (hsc : (⟨1, ![R]⟩ : Shape).ShapeCasts ⟨2, ![R, 1]⟩)
    (hbc : (⟨2, ![R, 1]⟩ : Shape).Broadcasts ⟨2, ![R, C]⟩) (hb : (⟨2, ![1, C]⟩ : Shape).Broadcasts ⟨2, ![R, C]⟩)
    (H : FVec Ideal ⟨2, ![R, C]⟩ .f32) (x4 x5 : FVec Ideal ⟨2, ![1, C]⟩ .f32) :
    normBlk hred hφ hacc hsc hbc hb H x4 x5
      = Spec.lnK H (fun q => x4 (ix2 (0 : Fin 1) q)) (fun q => x5 (ix2 (0 : Fin 1) q)) := by
  funext i
  obtain ⟨p, q, rfl⟩ : ∃ (p : Fin R) (q : Fin C), i = ix2 p q := ⟨i 0, i 1, eq_ix2 i⟩
  unfold Spec.lnK
  rw [Spec.normRows_apply]
  show max ((((H (ix2 p q) - broadcastTo ⟨2, ![R, C]⟩ (meanBlk hred hφ hacc hsc H) hbc (ix2 p q))
        * broadcastTo ⟨2, ![R, C]⟩
            (rsqrt (addf (subf (meanBlk hred hφ hacc hsc (mulf H H)) (mulf (meanBlk hred hφ hacc hsc H) (meanBlk hred hφ hacc hsc H)))
              (broadcast ⟨2, ![R, 1]⟩ (Scalar.ofBits .f32 0x3727C5AC#32)))) hbc (ix2 p q))
        * broadcastTo ⟨2, ![R, C]⟩ x4 hb (ix2 p q)) + broadcastTo ⟨2, ![R, C]⟩ x5 hb (ix2 p q))
      (Ideal.ofBits .f32 0x00000000#32) = _
  rw [colBroadcast_apply, colBroadcast_apply, broadcastTo_1b_ab_apply, broadcastTo_1b_ab_apply, Ideal.ofBits_zero_f32]
  show max ((((H (ix2 p q) - meanBlk hred hφ hacc hsc H (ix2 p (0 : Fin 1)))
        * Ideal.rsqrt ((meanBlk hred hφ hacc hsc (mulf H H) (ix2 p (0 : Fin 1))
            - meanBlk hred hφ hacc hsc H (ix2 p (0 : Fin 1)) * meanBlk hred hφ hacc hsc H (ix2 p (0 : Fin 1))) + Spec.eps))
        * x4 (ix2 (0 : Fin 1) q)) + x5 (ix2 (0 : Fin 1) q)) 0 = _
  rw [meanBlk_apply, meanBlk_apply]
  rfl

/-- The whole block: the row normalisation of the dense layer of the sum of the two inputs. -/
theorem gin_eq {R K C : Nat} (D : DotDims ⟨2, ![R, K]⟩ ⟨2, ![K, C]⟩ ⟨2, ![R, C]⟩) (hD : D = DotDims.plain R K C)
    (hbits : FTy.bf16.bits < FTy.f32.bits)
    (hred : (⟨2, ![R, C]⟩ : Shape).Reduces [1] ⟨1, ![R]⟩) (hφ : FKind.Formats FTy.f32)
    (hacc : (0x00000000#32 : BitVec FTy.f32.bits) = FKind.add.neutral FTy.f32 hφ)
    (hsc : (⟨1, ![R]⟩ : Shape).ShapeCasts ⟨2, ![R, 1]⟩)
    (hbc : (⟨2, ![R, 1]⟩ : Shape).Broadcasts ⟨2, ![R, C]⟩) (hb : (⟨2, ![1, C]⟩ : Shape).Broadcasts ⟨2, ![R, C]⟩)
    (x0 x1 : FVec Ideal ⟨2, ![R, K]⟩ .f32) (x2 : FVec Ideal ⟨2, ![K, C]⟩ .f32) (x3 x4 x5 : FVec Ideal ⟨2, ![1, C]⟩ .f32) :
    normBlk hred hφ hacc hsc hbc hb (denseBlk D hbits hb x0 x1 x2 x3) x4 x5
      = Spec.lnK (Spec.dense (Spec.add x0 x1) x2 (fun q => x3 (ix2 (0 : Fin 1) q)))
          (fun q => x4 (ix2 (0 : Fin 1) q)) (fun q => x5 (ix2 (0 : Fin 1) q)) := by
  rw [normBlk_eq, denseBlk_eq D hD]

end Cert.KernelIdeal.KGin

end
-- ==== Proof.KReg2.lean ====
/-
  Layer 2 of the three graph-isomorphism layers, as one whole-array function.

  The kernel walks the node rows in 100 blocks of 1152 rows. At every block it reads the block's rows of the two inputs
  (node features and aggregated neighbour features) and the whole weight matrix, bias row, gain row and shift row, and
  writes the block's rows of the result: the row normalisation of the dense layer of the sum of the two inputs. A dense
  layer's row depends on the same row of its input only, and the row normalisation's row depends on the same row of its
  input only, so the block's rows of the result are the block's rows of the whole-array function; the 100 blocks tile
  the 115200 rows, so the result array ends holding the whole-array function.
-/
import proofs.«167845_j85727547228621_1_alg».proof.Proof.Gen.KernelIdeal.Frame
import proofs.«167845_j85727547228621_1_alg».proof.Proof.KGinLemmas

noncomputable section

namespace Cert.KernelIdeal.KReg2

open Cert.KernelIdeal Cert.KernelIdeal.Gen Idealize.ShloMosaic Idealize.ShloMosaic.TcCoe Idealize.ShloMosaic.ValueIdx Idealize.ShloMosaic.Pipeline Cert

variable (V : (c : Dev nD) → (b : Ref sig .tc) → Buf (Elt Ideal) ((c : Thread nD τ).loc b))

/-! ## The block's arithmetic -/

/-- What the body stores, from the six blocks it reads: the row normalisation of the dense layer of the sum of the two
    input blocks, at 1152 rows. -/
theorem pay_eq (x0 x1 : Vec Ideal S1152x256 .f32) (x2 : Vec Ideal S256x256 .f32) (x3 x4 x5 : Vec Ideal S1x256 .f32) :
    k2_pay1 (k2_pay2 x0 x1 x2 x3 x4 x5) (k2_pay3 (F := Ideal))
      = Spec.lnK (Spec.dense (Spec.add x0 x1) x2 (fun q => x3 (ix2 (0 : Fin 1) q)))
          (fun q => x4 (ix2 (0 : Fin 1) q)) (fun q => x5 (ix2 (0 : Fin 1) q)) := by
  unfold k2_pay1 k2_pay2 k2_pay3
  simp only [shapeCast_self]
  exact KGin.gin_eq dot_S1152x256_S256x256_S1152x256_1_0_0_1_n_n rfl bitsLt_bf16_f32 reduces_S1152x256_S1152 (.inl rfl) rfl
    shapeCasts_S1152_S1152x1 broadcasts_S1152x1_S1152x256 broadcasts_S1x256_S1152x256 x0 x1 x2 x3 x4 x5

/-! ## Where each window's block sits -/

/-- The printed index maps, decided over the 100 grid points: the two inputs and the output move down the rows with the
    point, the four parameter windows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row r of the first input's block at point t is row 1152 t + r of the array. -/
theorem blk0_read (c : Dev nD) (t : Fin cfg2.N) (r : Fin 1152) (j : Fin 256) (hp : 1152 * t.val + r.val < 115200) :
    (iblk2 V c 0 t : Vec Ideal S1152x256 .f32) (ix2 r j)
      = (V c main_v31 : S115200x256.Idx → EReal) (ix2 (⟨1152 * t.val + r.val, hp⟩ : Fin 115200) j) := by
  unfold iblk2
  rw [View.read_apply]
  show (V c main_v31 : S115200x256.Idx → EReal) _ = _
  refine congrArg (V c main_v31 : S115200x256.Idx → EReal) ?_
  obtain ⟨e0, e1, -⟩ := idx_facts t
  funext a
  apply Fin.ext
  match a with
  | ⟨0, _⟩ => show win2_0.index t (0 : Fin 2) * 1152 + 1 * r.val = 1152 * t.val + r.val; rw [e0]; omega
  | ⟨1, _⟩ => show win2_0.index t (1 : Fin 2) * 256 + 1 * j.val = j.val; rw [e1]; omega

/-- Row r of the second input's block at point t is row 1152 t + r of the array. -/
theorem blk1_read (c : Dev nD) (t : Fin cfg2.N) (r : Fin 1152) (j : Fin 256) (hp : 1152 * t.val + r.val < 115200) :
    (iblk2 V c 1 t : Vec Ideal S1152x256 .f32) (ix2 r j)
      = (V c main_v41 : S115200x256.Idx → EReal) (ix2 (⟨1152 * t.val + r.val, hp⟩ : Fin 115200) j) := by
  unfold iblk2
  rw [View.read_apply]
  show (V c main_v41 : S115200x256.Idx → EReal) _ = _
  refine congrArg (V c main_v41 : S115200x256.Idx → EReal) ?_
  obtain ⟨-, -, e0, e1, -⟩ := idx_facts t
  funext a
  apply Fin.ext
  match a with
  | ⟨0, _⟩ => show win2_1.index t (0 : Fin 2) * 1152 + 1 * r.val = 1152 * t.val + r.val; rw [e0]; omega
  | ⟨1, _⟩ => show win2_1.index t (1 : Fin 2) * 256 + 1 * j.val = j.val; rw [e1]; omega

/-- The weight window's one block is the whole weight matrix. -/
theorem blk2_whole (c : Dev nD) (t : Fin cfg2.N) :
    (iblk2 V c 2 t : Vec Ideal S256x256 .f32) = (V c main_arg7 : S256x256.Idx → EReal) := by
  funext j
  unfold iblk2
  rw [View.read_apply]
  show (V c main_arg7 : S256x256.Idx → EReal) _ = _
  refine congrArg (V c main_arg7 : S256x256.Idx → EReal) ?_
  obtain ⟨-, -, -, -, e0, e1, -⟩ := idx_facts t
  funext a
  apply Fin.ext
  match a with
  | ⟨0, _⟩ => show win2_2.index t (0 : Fin 2) * 256 + 1 * (j 0).val = (j 0).val; rw [e0]; omega
  | ⟨1, _⟩ => show win2_2.index t (1 : Fin 2) * 256 + 1 * (j 1).val = (j 1).val; rw [e1]; omega

/-- The bias window's one block is the whole bias row. -/
theorem blk3_whole (c : Dev nD) (t : Fin cfg2.N) :
    (iblk2 V c 3 t : Vec Ideal S1x256 .f32) = (V c main_v42 : S1x256.Idx → EReal) := by
  funext j
  unfold iblk2
  rw [View.read_apply]
  show (V c main_v42 : S1x256.Idx → EReal) _ = _
  refine congrArg (V c main_v42 : S1x256.Idx → EReal) ?_
  obtain ⟨-, -, -, -, -, -, e0, e1, -⟩ := idx_facts t
  funext a
  apply Fin.ext
  match a with
  | ⟨0, _⟩ => show win2_3.index t (0 : Fin 2) * 1 + 1 * (j 0).val = (j 0).val; rw [e0]; omega
  | ⟨1, _⟩ => show win2_3.index t (1 : Fin 2) * 256 + 1 * (j 1).val = (j 1).val; rw [e1]; omega

/-- The gain window's one block is the whole gain row. -/
theorem blk4_whole (c : Dev nD) (t : Fin cfg2.N) :
    (iblk2 V c 4 t : Vec Ideal S1x256 .f32) = (V c main_v43 : S1x256.Idx → EReal) := by
  funext j
  unfold iblk2
  rw [View.read_apply]
  show (V c main_v43 : S1x256.Idx → EReal) _ = _
  refine congrArg (V c main_v43 : S1x256.Idx → EReal) ?_
  obtain ⟨-, -, -, -, -, -, -, -, e0, e1, -⟩ := idx_facts t
  funext a
  apply Fin.ext
  match a with
  | ⟨0, _⟩ => show win2_4.index t (0 : Fin 2) * 1 + 1 * (j 0).val = (j 0).val; rw [e0]; omega
  | ⟨1, _⟩ => show win2_4.index t (1 : Fin 2) * 256 + 1 * (j 1).val = (j 1).val; rw [e1]; omega

/-- The shift window's one block is the whole shift row. -/
theorem blk5_whole (c : Dev nD) (t : Fin cfg2.N) :
    (iblk2 V c 5 t : Vec Ideal S1x256 .f32) = (V c main_v44 : S1x256.Idx → EReal) := by
  funext j
  unfold iblk2
  rw [View.read_apply]
  show (V c main_v44 : S1x256.Idx → EReal) _ = _
  refine congrArg (V c main_v44 : S1x256.Idx → EReal) ?_
  obtain ⟨-, -, -, -, -, -, -, -, -, -, e0, e1, -⟩ := idx_facts t
  funext a
  apply Fin.ext
  match a with
  | ⟨0, _⟩ => show win2_5.index t (0 : Fin 2) * 1 + 1 * (j 0).val = (j 0).val; rw [e0]; omega
  | ⟨1, _⟩ => show win2_5.index t (1 : Fin 2) * 256 + 1 * (j 1).val = (j 1).val; rw [e1]; omega

/-! ## The result array -/

/-- The layer as a whole-array function of the arrays the region finds. -/
abbrev G (c : Dev nD) : S115200x256.Idx → EReal :=
  Spec.lnK (Spec.dense (Spec.add (V c main_v31 : S115200x256.Idx → EReal) (V c main_v41 : S115200x256.Idx → EReal))
      (V c main_arg7 : S256x256.Idx → EReal) (fun q => (V c main_v42 : S1x256.Idx → EReal) (ix2 (0 : Fin 1) q)))
    (fun q => (V c main_v43 : S1x256.Idx → EReal) (ix2 (0 : Fin 1) q)) (fun q => (V c main_v44 : S1x256.Idx → EReal) (ix2 (0 : Fin 1) q))

theorem hz : (![0, 0] : Fin 2 → Nat) = fun _ => 0 := funext fun a => by fin_cases a <;> rfl

/-- What point t writes back is block t of the whole-array function. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S1152x256) hz, View.ld_unit_zero (S := S256x256) hz, View.ld_unit_zero (S := S1x256) hz]
  rw [pay_eq, blk2_whole, blk3_whole, blk4_whole, blk5_whole]
  funext y
  obtain ⟨r, q, rfl⟩ : ∃ (r : Fin 1152) (q : Fin 256), y = ix2 r q := ⟨y 0, y 1, eq_ix2 y⟩
  have ht : t.val < 100 := by have h := t.isLt; have hN : cfg2.N = 100 := N_2; omega
  have hp : 1152 * t.val + r.val < 115200 := by have := r.isLt; omega
  rw [View.read_apply]
  obtain ⟨-, -, -, -, -, -, -, -, -, -, -, -, e0, e1⟩ := idx_facts t
  have hemb : ((cfg2.win 6).blk t).view.emb (ix2 r q) = (ix2 (⟨1152 * t.val + r.val, hp⟩ : Fin 115200) q : S115200x256.Idx) := by
    funext a
    apply Fin.ext
    match a with
    | ⟨0, _⟩ => show win2_6.index t (0 : Fin 2) * 1152 + 1 * r.val = 1152 * t.val + r.val; rw [e0]; omega
    | ⟨1, _⟩ => show win2_6.index t (1 : Fin 2) * 256 + 1 * q.val = q.val; rw [e1]; omega
  show Spec.lnK _ _ _ (ix2 r q) = G V c (((cfg2.win 6).blk t).view.emb (ix2 r q))
  rw [hemb]
  refine KGin.lnK_row _ _ _ _ (⟨1152 * t.val + r.val, hp⟩ : Fin 115200) r (fun q' => ?_) q
  refine KGin.dense_row _ _ _ _ (⟨1152 * t.val + r.val, hp⟩ : Fin 115200) r (fun j => ?_) q'
  rw [Spec.add_apply, Spec.add_apply, blk0_read V c t r j hp, blk1_read V c t r j hp]

/-- An index of the array is in point t's block iff each coordinate is in the block's range on its axis. -/
theorem mem_blk (t : Fin cfg2.N) (i : S115200x256.Idx) :
    i ∈ ((cfg2.win 6).blk t).view.set ↔ ∀ a : Fin 2, win2_6.index t a * S1152x256.size a ≤ (i a).val ∧ (i a).val < win2_6.index t a * S1152x256.size a + S1152x256.size a := by
  show i ∈ ((View.whole main_v45).slice (win2_6.rect t)).set ↔ _
  rw [View.set_slice_whole, Rect.mem_set_unit]
  exact Iff.rfl

/-- Row i is in the block of point i / 1152. -/
theorem cover (i : S115200x256.Idx) : ∃ t : Fin cfg2.N, (cfg2.win 6).flush t = true ∧ i ∈ ((cfg2.win 6).blk t).view.set := by
  have hi0 : (i 0).val < 115200 := (i 0).isLt
  have hi1 : (i 1).val < 256 := (i 1).isLt
  have hN : cfg2.N = 100 := N_2
  refine ⟨⟨(i 0).val / 1152, by rw [hN]; omega⟩, flush2_6 _, ?_⟩
  rw [mem_blk]
  obtain ⟨-, -, -, -, -, -, -, -, -, -, -, -, e0, e1⟩ := idx_facts ⟨(i 0).val / 1152, by rw [hN]; omega⟩
  intro a
  match a with
  | ⟨0, _⟩ =>
    show win2_6.index _ (0 : Fin 2) * 1152 ≤ (i 0).val ∧ (i 0).val < win2_6.index _ (0 : Fin 2) * 1152 + 1152
    rw [e0]
    show (i 0).val / 1152 * 1152 ≤ (i 0).val ∧ (i 0).val < (i 0).val / 1152 * 1152 + 1152
    omega
  | ⟨1, _⟩ =>
    show win2_6.index _ (1 : Fin 2) * 256 ≤ (i 1).val ∧ (i 1).val < win2_6.index _ (1 : Fin 2) * 256 + 256
    rw [e1]
    omega

/-- The result array after the region: the row normalisation of the dense layer of the sum of the two inputs. -/
theorem out (c : Dev nD) :
    (dat2 (F := Ideal) V c).arrAt 6 cfg2.N
      = Spec.lnK (Spec.dense (Spec.add (V c main_v31 : S115200x256.Idx → EReal) (V c main_v41 : S115200x256.Idx → EReal))
          (V c main_arg7 : S256x256.Idx → EReal) (fun q => (V c main_v42 : S1x256.Idx → EReal) (ix2 (0 : Fin 1) q)))
        (fun q => (V c main_v43 : S1x256.Idx → EReal) (ix2 (0 : Fin 1) q)) (fun q => (V c main_v44 : S1x256.Idx → EReal) (ix2 (0 : Fin 1) q)) :=
  (dat2 V c).arrAt_eq_of_cover 6 (G V c) (fun t _ => flushed_eq V c t) cover

end Cert.KernelIdeal.KReg2

end
-- ==== Proof.KChain0.lean ====
/-
  What the kernel launches find in their input arrays: launch 0 (the first graph layer), and the edge list's two rows as the first stretch leaves them.  Each fact is an equation of whole buffers,
  read at the launch's entry.  An argument array, or an earlier launch's output array, is walked back through
  the segments in between, none of which writes it; an array the stretch of host operations before the launch
  computes is that stretch's operations composed, over the buffers the stretch reads, themselves walked back.
-/
import proofs.«167845_j85727547228621_1_alg».proof.Proof.KNames
import proofs.«167845_j85727547228621_1_alg».proof.Proof.KWalk
import proofs.«167845_j85727547228621_1_alg».proof.Proof.KChainDefs

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The edge list's rows -/

/-- The edge list's source row, as the first stretch leaves it (a negative index not yet fixed). -/
theorem v1_at1 : W1 m ρ c (Proc.devRef .tc main_v1) = (shapeCast S921600 (extractStridedSlice S1x921600 ![0, 0] (m ((c : Thread nD τ).loc main_arg1)) slices_S2x921600_S1x921600_0_0) shapeCasts_S1x921600_S921600) := by
  show StableHlo.after hostOps0 (W0 m ρ c) (Proc.devRef .tc main_v1) = _
  after_results_simp
  rfl
/-- The edge list's target row, as the first stretch leaves it. -/
theorem v3_at1 : W1 m ρ c (Proc.devRef .tc main_v3) = (shapeCast S921600 (extractStridedSlice S1x921600 ![1, 0] (m ((c : Thread nD τ).loc main_arg1)) slices_S2x921600_S1x921600_1_0) shapeCasts_S1x921600_S921600) := by
  show StableHlo.after hostOps0 (W0 m ρ c) (Proc.devRef .tc main_v3) = _
  after_results_simp
  rfl

/-! ## Launch 0 -/

/-- Launch 0, window 0: the argument array as launched — nothing before the launch writes it. -/
theorem in0_0 : V1 m ρ c main_arg0 = m ((c : Thread nD τ).loc main_arg0) :=
  (KWalk.stay1 m ρ c main_arg0 (by decide))

attribute [local irreducible] Host.gather Host.scatterAdd in
/-- Launch 0, window 1: the neighbour sums of the input features over the edge list. -/
theorem in0_1 : V1 m ρ c main_v13 = agg1 (m ((c : Thread nD τ).loc main_arg0)) (m ((c : Thread nD τ).loc main_arg1)) := by
  show StableHlo.after hostOps0 (W0 m ρ c) (Proc.devRef .tc main_v13) = _
  after_results_simp
  rfl

/-- Launch 0, window 2: the argument array as launched — nothing before the launch writes it. -/
theorem in0_2 : V1 m ρ c main_arg3 = m ((c : Thread nD τ).loc main_arg3) :=
  (KWalk.stay1 m ρ c main_arg3 (by decide))

/-- Launch 0, window 3: the stretch before the launch computes it from the arrays named on the right. -/
theorem in0_3 : V1 m ρ c main_v14 = shapeCast S1x256 (m ((c : Thread nD τ).loc main_arg4)) shapeCasts_S256_S1x256 := by
  show StableHlo.after hostOps0 (W0 m ρ c) (Proc.devRef .tc main_v14) = _
  after_results_simp
  rfl

/-- Launch 0, window 4: the stretch before the launch computes it from the arrays named on the right. -/
theorem in0_4 : V1 m ρ c main_v15 = shapeCast S1x256 (m ((c : Thread nD τ).loc main_arg9)) shapeCasts_S256_S1x256 := by
  show StableHlo.after hostOps0 (W0 m ρ c) (Proc.devRef .tc main_v15) = _
  after_results_simp
  rfl

/-- Launch 0, window 5: the stretch before the launch computes it from the arrays named on the right. -/
theorem in0_5 : V1 m ρ c main_v16 = shapeCast S1x256 (m ((c : Thread nD τ).loc main_arg10)) shapeCasts_S256_S1x256 := by
  show StableHlo.after hostOps0 (W0 m ρ c) (Proc.devRef .tc main_v16) = _
  after_results_simp
  rfl

end Cert.KernelIdeal.KChain

end
-- ==== Proof.KChain2.lean ====
/-
  What the kernel launches find in their input arrays: launch 2 (the third graph layer).  Each fact is an equation of whole buffers,
  read at the launch's entry.  An argument array, or an earlier launch's output array, is walked back through
  the segments in between, none of which writes it; an array the stretch of host operations before the launch
  computes is that stretch's operations composed, over the buffers the stretch reads, themselves walked back.
-/
import proofs.«167845_j85727547228621_1_alg».proof.Proof.KChain0

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## Launch 2 -/

/-- Launch 2, window 0: launch 1's output array, which nothing in between writes. -/
theorem in2_0 : V5 m ρ c main_v31 = KNames.X2 m ρ c :=
  (KWalk.keepH2 m ρ c main_v31 (by decide)).trans (W4_arr m ρ c 6)

attribute [local irreducible] Host.gather Host.scatterAdd in
/-- Launch 2, window 1: the neighbour sums of the previous layer's features over the edge list. -/
theorem in2_1 : V5 m ρ c main_v41 = aggH (KNames.X2 m ρ c) (m ((c : Thread nD τ).loc main_arg1)) := by
  show StableHlo.after hostOps2 (W4 m ρ c) (Proc.devRef .tc main_v41) = _
  after_results_simp
  rw [show W4 m ρ c (Proc.devRef .tc main_v3) = (shapeCast S921600 (extractStridedSlice S1x921600 ![1, 0] (m ((c : Thread nD τ).loc main_arg1)) slices_S2x921600_S1x921600_1_0) shapeCasts_S1x921600_S921600) from (((KWalk.keepR1 m ρ c main_v3 (by decide)).trans ((KWalk.keepH1 m ρ c main_v3 (by decide)).trans (KWalk.keepR0 m ρ c main_v3 (by decide)))).trans (v3_at1 m ρ c)),
    show W4 m ρ c (Proc.devRef .tc main_v31) = (KNames.X2 m ρ c) from (W4_arr m ρ c 6),
    show W4 m ρ c (Proc.devRef .tc main_v1) = (shapeCast S921600 (extractStridedSlice S1x921600 ![0, 0] (m ((c : Thread nD τ).loc main_arg1)) slices_S2x921600_S1x921600_0_0) shapeCasts_S1x921600_S921600) from (((KWalk.keepR1 m ρ c main_v1 (by decide)).trans ((KWalk.keepH1 m ρ c main_v1 (by decide)).trans (KWalk.keepR0 m ρ c main_v1 (by decide)))).trans (v1_at1 m ρ c))]
  rfl

/-- Launch 2, window 2: the argument array as launched — nothing before the launch writes it. -/
theorem in2_2 : V5 m ρ c main_arg7 = m ((c : Thread nD τ).loc main_arg7) :=
  (KWalk.stay5 m ρ c main_arg7 (by decide))

/-- Launch 2, window 3: the stretch before the launch computes it from the arrays named on the right. -/
theorem in2_3 : V5 m ρ c main_v42 = shapeCast S1x256 (m ((c : Thread nD τ).loc main_arg8)) shapeCasts_S256_S1x256 := by
  show StableHlo.after hostOps2 (W4 m ρ c) (Proc.devRef .tc main_v42) = _
  after_results_simp
  rw [show W4 m ρ c (Proc.devRef .tc main_arg8) = (m ((c : Thread nD τ).loc main_arg8)) from (KWalk.stay4 m ρ c main_arg8 (by decide))]
  rfl

/-- Launch 2, window 4: the stretch before the launch computes it from the arrays named on the right. -/
theorem in2_4 : V5 m ρ c main_v43 = shapeCast S1x256 (m ((c : Thread nD τ).loc main_arg9)) shapeCasts_S256_S1x256 := by
  show StableHlo.after hostOps2 (W4 m ρ c) (Proc.devRef .tc main_v43) = _
  after_results_simp
  rw [show W4 m ρ c (Proc.devRef .tc main_arg9) = (m ((c : Thread nD τ).loc main_arg9)) from (KWalk.stay4 m ρ c main_arg9 (by decide))]
  rfl

/-- Launch 2, window 5: the stretch before the launch computes it from the arrays named on the right. -/
theorem in2_5 : V5 m ρ c main_v44 = shapeCast S1x256 (m ((c : Thread nD τ).loc main_arg10)) shapeCasts_S256_S1x256 := by
  show StableHlo.after hostOps2 (W4 m ρ c) (Proc.devRef .tc main_v44) = _
  after_results_simp
  rw [show W4 m ρ c (Proc.devRef .tc main_arg10) = (m ((c : Thread nD τ).loc main_arg10)) from (KWalk.stay4 m ρ c main_arg10 (by decide))]
  rfl

end Cert.KernelIdeal.KChain

end
-- ==== Proof.KReg1.lean ====
/-
  Layer 1 of the three graph-isomorphism layers, as one whole-array function.

  The kernel walks the node rows in 100 blocks of 1152 rows. At every block it reads the block's rows of the two inputs
  (node features and aggregated neighbour features) and the whole weight matrix, bias row, gain row and shift row, and
  writes the block's rows of the result: the row normalisation of the dense layer of the sum of the two inputs. A dense
  layer's row depends on the same row of its input only, and the row normalisation's row depends on the same row of its
  input only, so the block's rows of the result are the block's rows of the whole-array function; the 100 blocks tile
  the 115200 rows, so the result array ends holding the whole-array function.
-/
import proofs.«167845_j85727547228621_1_alg».proof.Proof.Gen.KernelIdeal.Frame
import proofs.«167845_j85727547228621_1_alg».proof.Proof.KGinLemmas

noncomputable section

namespace Cert.KernelIdeal.KReg1

open Cert.KernelIdeal Cert.KernelIdeal.Gen Idealize.ShloMosaic Idealize.ShloMosaic.TcCoe Idealize.ShloMosaic.ValueIdx Idealize.ShloMosaic.Pipeline Cert

variable (V : (c : Dev nD) → (b : Ref sig .tc) → Buf (Elt Ideal) ((c : Thread nD τ).loc b))

/-! ## The block's arithmetic -/

/-- What the body stores, from the six blocks it reads: the row normalisation of the dense layer of the sum of the two
    input blocks, at 1152 rows. -/
theorem pay_eq (x0 x1 : Vec Ideal S1152x256 .f32) (x2 : Vec Ideal S256x256 .f32) (x3 x4 x5 : Vec Ideal S1x256 .f32) :
    k1_pay1 (k1_pay2 x0 x1 x2 x3 x4 x5) (k1_pay3 (F := Ideal))
      = Spec.lnK (Spec.dense (Spec.add x0 x1) x2 (fun q => x3 (ix2 (0 : Fin 1) q)))
          (fun q => x4 (ix2 (0 : Fin 1) q)) (fun q => x5 (ix2 (0 : Fin 1) q)) := by
  unfold k1_pay1 k1_pay2 k1_pay3
  simp only [shapeCast_self]
  exact KGin.gin_eq dot_S1152x256_S256x256_S1152x256_1_0_0_1_n_n rfl bitsLt_bf16_f32 reduces_S1152x256_S1152 (.inl rfl) rfl
    shapeCasts_S1152_S1152x1 broadcasts_S1152x1_S1152x256 broadcasts_S1x256_S1152x256 x0 x1 x2 x3 x4 x5

/-! ## Where each window's block sits -/

/-- The printed index maps, decided over the 100 grid points: the two inputs and the output move down the rows with the
    point, the four parameter windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the first input's block at point t is row 1152 t + r of the array. -/
theorem blk0_read (c : Dev nD) (t : Fin cfg1.N) (r : Fin 1152) (j : Fin 256) (hp : 1152 * t.val + r.val < 115200) :
    (iblk1 V c 0 t : Vec Ideal S1152x256 .f32) (ix2 r j)
      = (V c main_v17 : S115200x256.Idx → EReal) (ix2 (⟨1152 * t.val + r.val, hp⟩ : Fin 115200) j) := by
  unfold iblk1
  rw [View.read_apply]
  show (V c main_v17 : S115200x256.Idx → EReal) _ = _
  refine congrArg (V c main_v17 : S115200x256.Idx → EReal) ?_
  obtain ⟨e0, e1, -⟩ := idx_facts t
  funext a
  apply Fin.ext
  match a with
  | ⟨0, _⟩ => show win1_0.index t (0 : Fin 2) * 1152 + 1 * r.val = 1152 * t.val + r.val; rw [e0]; omega
  | ⟨1, _⟩ => show win1_0.index t (1 : Fin 2) * 256 + 1 * j.val = j.val; rw [e1]; omega

/-- Row r of the second input's block at point t is row 1152 t + r of the array. -/
theorem blk1_read (c : Dev nD) (t : Fin cfg1.N) (r : Fin 1152) (j : Fin 256) (hp : 1152 * t.val + r.val < 115200) :
    (iblk1 V c 1 t : Vec Ideal S1152x256 .f32) (ix2 r j)
      = (V c main_v27 : S115200x256.Idx → EReal) (ix2 (⟨1152 * t.val + r.val, hp⟩ : Fin 115200) j) := by
  unfold iblk1
  rw [View.read_apply]
  show (V c main_v27 : S115200x256.Idx → EReal) _ = _
  refine congrArg (V c main_v27 : S115200x256.Idx → EReal) ?_
  obtain ⟨-, -, e0, e1, -⟩ := idx_facts t
  funext a
  apply Fin.ext
  match a with
  | ⟨0, _⟩ => show win1_1.index t (0 : Fin 2) * 1152 + 1 * r.val = 1152 * t.val + r.val; rw [e0]; omega
  | ⟨1, _⟩ => show win1_1.index t (1 : Fin 2) * 256 + 1 * j.val = j.val; rw [e1]; omega

/-- The weight window's one block is the whole weight matrix. -/
theorem blk2_whole (c : Dev nD) (t : Fin cfg1.N) :
    (iblk1 V c 2 t : Vec Ideal S256x256 .f32) = (V c main_arg5 : S256x256.Idx → EReal) := by
  funext j
  unfold iblk1
  rw [View.read_apply]
  show (V c main_arg5 : S256x256.Idx → EReal) _ = _
  refine congrArg (V c main_arg5 : S256x256.Idx → EReal) ?_
  obtain ⟨-, -, -, -, e0, e1, -⟩ := idx_facts t
  funext a
  apply Fin.ext
  match a with
  | ⟨0, _⟩ => show win1_2.index t (0 : Fin 2) * 256 + 1 * (j 0).val = (j 0).val; rw [e0]; omega
  | ⟨1, _⟩ => show win1_2.index t (1 : Fin 2) * 256 + 1 * (j 1).val = (j 1).val; rw [e1]; omega

/-- The bias window's one block is the whole bias row. -/
theorem blk3_whole (c : Dev nD) (t : Fin cfg1.N) :
    (iblk1 V c 3 t : Vec Ideal S1x256 .f32) = (V c main_v28 : S1x256.Idx → EReal) := by
  funext j
  unfold iblk1
  rw [View.read_apply]
  show (V c main_v28 : S1x256.Idx → EReal) _ = _
  refine congrArg (V c main_v28 : S1x256.Idx → EReal) ?_
  obtain ⟨-, -, -, -, -, -, e0, e1, -⟩ := idx_facts t
  funext a
  apply Fin.ext
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega

/-- The gain window's one block is the whole gain row. -/
theorem blk4_whole (c : Dev nD) (t : Fin cfg1.N) :
    (iblk1 V c 4 t : Vec Ideal S1x256 .f32) = (V c main_v29 : S1x256.Idx → EReal) := by
  funext j
  unfold iblk1
  rw [View.read_apply]
  show (V c main_v29 : S1x256.Idx → EReal) _ = _
  refine congrArg (V c main_v29 : S1x256.Idx → EReal) ?_
  obtain ⟨-, -, -, -, -, -, -, -, e0, e1, -⟩ := idx_facts t
  funext a
  apply Fin.ext
  match a with
  | ⟨0, _⟩ => show win1_4.index t (0 : Fin 2) * 1 + 1 * (j 0).val = (j 0).val; rw [e0]; omega
  | ⟨1, _⟩ => show win1_4.index t (1 : Fin 2) * 256 + 1 * (j 1).val = (j 1).val; rw [e1]; omega

/-- The shift window's one block is the whole shift row. -/
theorem blk5_whole (c : Dev nD) (t : Fin cfg1.N) :
    (iblk1 V c 5 t : Vec Ideal S1x256 .f32) = (V c main_v30 : S1x256.Idx → EReal) := by
  funext j
  unfold iblk1
  rw [View.read_apply]
  show (V c main_v30 : S1x256.Idx → EReal) _ = _
  refine congrArg (V c main_v30 : S1x256.Idx → EReal) ?_
  obtain ⟨-, -, -, -, -, -, -, -, -, -, e0, e1, -⟩ := idx_facts t
  funext a
  apply Fin.ext
  match a with
  | ⟨0, _⟩ => show win1_5.index t (0 : Fin 2) * 1 + 1 * (j 0).val = (j 0).val; rw [e0]; omega
  | ⟨1, _⟩ => show win1_5.index t (1 : Fin 2) * 256 + 1 * (j 1).val = (j 1).val; rw [e1]; omega

/-! ## The result array -/

/-- The layer as a whole-array function of the arrays the region finds. -/
abbrev G (c : Dev nD) : S115200x256.Idx → EReal :=
  Spec.lnK (Spec.dense (Spec.add (V c main_v17 : S115200x256.Idx → EReal) (V c main_v27 : S115200x256.Idx → EReal))
      (V c main_arg5 : S256x256.Idx → EReal) (fun q => (V c main_v28 : S1x256.Idx → EReal) (ix2 (0 : Fin 1) q)))
    (fun q => (V c main_v29 : S1x256.Idx → EReal) (ix2 (0 : Fin 1) q)) (fun q => (V c main_v30 : S1x256.Idx → EReal) (ix2 (0 : Fin 1) q))

theorem hz : (![0, 0] : Fin 2 → Nat) = fun _ => 0 := funext fun a => by fin_cases a <;> rfl

/-- What point t writes back is block t of the whole-array function. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S1152x256) hz, View.ld_unit_zero (S := S256x256) hz, View.ld_unit_zero (S := S1x256) hz]
  rw [pay_eq, blk2_whole, blk3_whole, blk4_whole, blk5_whole]
  funext y
  obtain ⟨r, q, rfl⟩ : ∃ (r : Fin 1152) (q : Fin 256), y = ix2 r q := ⟨y 0, y 1, eq_ix2 y⟩
  have ht : t.val < 100 := by have h := t.isLt; have hN : cfg1.N = 100 := N_1; omega
  have hp : 1152 * t.val + r.val < 115200 := by have := r.isLt; omega
  rw [View.read_apply]
  obtain ⟨-, -, -, -, -, -, -, -, -, -, -, -, e0, e1⟩ := idx_facts t
  have hemb : ((cfg1.win 6).blk t).view.emb (ix2 r q) = (ix2 (⟨1152 * t.val + r.val, hp⟩ : Fin 115200) q : S115200x256.Idx) := by
    funext a
    apply Fin.ext
    match a with
    | ⟨0, _⟩ => show win1_6.index t (0 : Fin 2) * 1152 + 1 * r.val = 1152 * t.val + r.val; rw [e0]; omega
    | ⟨1, _⟩ => show win1_6.index t (1 : Fin 2) * 256 + 1 * q.val = q.val; rw [e1]; omega
  show Spec.lnK _ _ _ (ix2 r q) = G V c (((cfg1.win 6).blk t).view.emb (ix2 r q))
  rw [hemb]
  refine KGin.lnK_row _ _ _ _ (⟨1152 * t.val + r.val, hp⟩ : Fin 115200) r (fun q' => ?_) q
  refine KGin.dense_row _ _ _ _ (⟨1152 * t.val + r.val, hp⟩ : Fin 115200) r (fun j => ?_) q'
  rw [Spec.add_apply, Spec.add_apply, blk0_read V c t r j hp, blk1_read V c t r j hp]

/-- An index of the array is in point t's block iff each coordinate is in the block's range on its axis. -/
theorem mem_blk (t : Fin cfg1.N) (i : S115200x256.Idx) :
    i ∈ ((cfg1.win 6).blk t).view.set ↔ ∀ a : Fin 2, win1_6.index t a * S1152x256.size a ≤ (i a).val ∧ (i a).val < win1_6.index t a * S1152x256.size a + S1152x256.size a := by
  show i ∈ ((View.whole main_v31).slice (win1_6.rect t)).set ↔ _
  rw [View.set_slice_whole, Rect.mem_set_unit]
  exact Iff.rfl

/-- Row i is in the block of point i / 1152. -/
theorem cover (i : S115200x256.Idx) : ∃ t : Fin cfg1.N, (cfg1.win 6).flush t = true ∧ i ∈ ((cfg1.win 6).blk t).view.set := by
  have hi0 : (i 0).val < 115200 := (i 0).isLt
  have hi1 : (i 1).val < 256 := (i 1).isLt
  have hN : cfg1.N = 100 := N_1
  refine ⟨⟨(i 0).val / 1152, by rw [hN]; omega⟩, flush1_6 _, ?_⟩
  rw [mem_blk]
  obtain ⟨-, -, -, -, -, -, -, -, -, -, -, -, e0, e1⟩ := idx_facts ⟨(i 0).val / 1152, by rw [hN]; omega⟩
  intro a
  match a with
  | ⟨0, _⟩ =>
    show win1_6.index _ (0 : Fin 2) * 1152 ≤ (i 0).val ∧ (i 0).val < win1_6.index _ (0 : Fin 2) * 1152 + 1152
    rw [e0]
    show (i 0).val / 1152 * 1152 ≤ (i 0).val ∧ (i 0).val < (i 0).val / 1152 * 1152 + 1152
    omega
  | ⟨1, _⟩ =>
    show win1_6.index _ (1 : Fin 2) * 256 ≤ (i 1).val ∧ (i 1).val < win1_6.index _ (1 : Fin 2) * 256 + 256
    rw [e1]
    omega

/-- The result array after the region: the row normalisation of the dense layer of the sum of the two inputs. -/
theorem out (c : Dev nD) :
    (dat1 (F := Ideal) V c).arrAt 6 cfg1.N
      = Spec.lnK (Spec.dense (Spec.add (V c main_v17 : S115200x256.Idx → EReal) (V c main_v27 : S115200x256.Idx → EReal))
          (V c main_arg5 : S256x256.Idx → EReal) (fun q => (V c main_v28 : S1x256.Idx → EReal) (ix2 (0 : Fin 1) q)))
        (fun q => (V c main_v29 : S1x256.Idx → EReal) (ix2 (0 : Fin 1) q)) (fun q => (V c main_v30 : S1x256.Idx → EReal) (ix2 (0 : Fin 1) q)) :=
  (dat1 V c).arrAt_eq_of_cover 6 (G V c) (fun t _ => flushed_eq V c t) cover

end Cert.KernelIdeal.KReg1

end
-- ==== Proof.KChain1.lean ====
/-
  What the kernel launches find in their input arrays: launch 1 (the second graph layer).  Each fact is an equation of whole buffers,
  read at the launch's entry.  An argument array, or an earlier launch's output array, is walked back through
  the segments in between, none of which writes it; an array the stretch of host operations before the launch
  computes is that stretch's operations composed, over the buffers the stretch reads, themselves walked back.
-/
import proofs.«167845_j85727547228621_1_alg».proof.Proof.KChain0

set_option maxRecDepth 16384

noncomputable section

namespace Cert.KernelIdeal.KChain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## Launch 1 -/

/-- Launch 1, window 0: launch 0's output array, which nothing in between writes. -/
theorem in1_0 : V3 m ρ c main_v17 = KNames.X1 m ρ c :=
  (KWalk.keepH1 m ρ c main_v17 (by decide)).trans (W2_arr m ρ c 6)

attribute [local irreducible] Host.gather Host.scatterAdd in
/-- Launch 1, window 1: the neighbour sums of the previous layer's features over the edge list. -/
theorem in1_1 : V3 m ρ c main_v27 = aggH (KNames.X1 m ρ c) (m ((c : Thread nD τ).loc main_arg1)) := by
  show StableHlo.after hostOps1 (W2 m ρ c) (Proc.devRef .tc main_v27) = _
  after_results_simp
  rw [show W2 m ρ c (Proc.devRef .tc main_v3) = (shapeCast S921600 (extractStridedSlice S1x921600 ![1, 0] (m ((c : Thread nD τ).loc main_arg1)) slices_S2x921600_S1x921600_1_0) shapeCasts_S1x921600_S921600) from ((KWalk.keepR0 m ρ c main_v3 (by decide)).trans (v3_at1 m ρ c)),
    show W2 m ρ c (Proc.devRef .tc main_v17) = (KNames.X1 m ρ c) from (W2_arr m ρ c 6),
    show W2 m ρ c (Proc.devRef .tc main_v1) = (shapeCast S921600 (extractStridedSlice S1x921600 ![0, 0] (m ((c : Thread nD τ).loc main_arg1)) slices_S2x921600_S1x921600_0_0) shapeCasts_S1x921600_S921600) from ((KWalk.keepR0 m ρ c main_v1 (by decide)).trans (v1_at1 m ρ c))]
  rfl

/-- Launch 1, window 2: the argument array as launched — nothing before the launch writes it. -/
theorem in1_2 : V3 m ρ c main_arg5 = m ((c : Thread nD τ).loc main_arg5) :=
  (KWalk.stay3 m ρ c main_arg5 (by decide))

/-- Launch 1, window 3: the stretch before the launch computes it from the arrays named on the right. -/
theorem in1_3 : V3 m ρ c main_v28 = shapeCast S1x256 (m ((c : Thread nD τ).loc main_arg6)) shapeCasts_S256_S1x256 := by
  show StableHlo.after hostOps1 (W2 m ρ c) (Proc.devRef .tc main_v28) = _
  after_results_simp
  rw [show W2 m ρ c (Proc.devRef .tc main_arg6) = (m ((c : Thread nD τ).loc main_arg6)) from (KWalk.stay2 m ρ c main_arg6 (by decide))]
  rfl

/-- Launch 1, window 4: the stretch before the launch computes it from the arrays named on the right. -/
theorem in1_4 : V3 m ρ c main_v29 = shapeCast S1x256 (m ((c : Thread nD τ).loc main_arg9)) shapeCasts_S256_S1x256 := by
  show StableHlo.after hostOps1 (W2 m ρ c) (Proc.devRef .tc main_v29) = _
  after_results_simp
  rw [show W2 m ρ c (Proc.devRef .tc main_arg9) = (m ((c : Thread nD τ).loc main_arg9)) from (KWalk.stay2 m ρ c main_arg9 (by decide))]
  rfl

/-- Launch 1, window 5: the stretch before the launch computes it from the arrays named on the right. -/
theorem in1_5 : V3 m ρ c main_v30 = shapeCast S1x256 (m ((c : Thread nD τ).loc main_arg10)) shapeCasts_S256_S1x256 := by
  show StableHlo.after hostOps1 (W2 m ρ c) (Proc.devRef .tc main_v30) = _
  after_results_simp
  rw [show W2 m ρ c (Proc.devRef .tc main_arg10) = (m ((c : Thread nD τ).loc main_arg10)) from (KWalk.stay2 m ρ c main_arg10 (by decide))]
  rfl

end Cert.KernelIdeal.KChain

end
-- ==== Proof.KReg0.lean ====
/-
  Layer 0 of the three graph-isomorphism layers, as one whole-array function (its inputs have one feature per node,
  so the dense layer's sum has one term).

  The kernel walks the node rows in 100 blocks of 1152 rows. At every block it reads the block's rows of the two inputs
  (node features and aggregated neighbour features) and the whole weight matrix, bias row, gain row and shift row, and
  writes the block's rows of the result: the row normalisation of the dense layer of the sum of the two inputs. A dense
  layer's row depends on the same row of its input only, and the row normalisation's row depends on the same row of its
  input only, so the block's rows of the result are the block's rows of the whole-array function; the 100 blocks tile
  the 115200 rows, so the result array ends holding the whole-array function.
-/
import proofs.«167845_j85727547228621_1_alg».proof.Proof.Gen.KernelIdeal.Frame
import proofs.«167845_j85727547228621_1_alg».proof.Proof.KGinLemmas

noncomputable section

namespace Cert.KernelIdeal.KReg0

open Cert.KernelIdeal Cert.KernelIdeal.Gen Idealize.ShloMosaic Idealize.ShloMosaic.TcCoe Idealize.ShloMosaic.ValueIdx Idealize.ShloMosaic.Pipeline Cert

variable (V : (c : Dev nD) → (b : Ref sig .tc) → Buf (Elt Ideal) ((c : Thread nD τ).loc b))

/-! ## The block's arithmetic -/

/-- What the body stores, from the six blocks it reads: the row normalisation of the dense layer of the sum of the two
    input blocks, at 1152 rows. -/
theorem pay_eq (x0 x1 : Vec Ideal S1152x1 .f32) (x2 : Vec Ideal S1x256 .f32) (x3 x4 x5 : Vec Ideal S1x256 .f32) :
    k0_pay1 (F := Ideal) x0 x1 x2 x3 x4 x5
      = Spec.lnK (Spec.dense (Spec.add x0 x1) x2 (fun q => x3 (ix2 (0 : Fin 1) q)))
          (fun q => x4 (ix2 (0 : Fin 1) q)) (fun q => x5 (ix2 (0 : Fin 1) q)) := by
  unfold k0_pay1
  simp only [shapeCast_self]
  exact KGin.gin_eq dot_S1152x1_S1x256_S1152x256_1_0_0_1_n_n rfl bitsLt_bf16_f32 reduces_S1152x256_S1152 (.inl rfl) rfl
    shapeCasts_S1152_S1152x1 broadcasts_S1152x1_S1152x256 broadcasts_S1x256_S1152x256 x0 x1 x2 x3 x4 x5

/-! ## Where each window's block sits -/

/-- The printed index maps, decided over the 100 grid points: the two inputs and the output move down the rows with the
    point, the four parameter windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of the first input's block at point t is row 1152 t + r of the array. -/
theorem blk0_read (c : Dev nD) (t : Fin cfg0.N) (r : Fin 1152) (j : Fin 1) (hp : 1152 * t.val + r.val < 115200) :
    (iblk0 V c 0 t : Vec Ideal S1152x1 .f32) (ix2 r j)
      = (V c main_arg0 : S115200x1.Idx → EReal) (ix2 (⟨1152 * t.val + r.val, hp⟩ : Fin 115200) j) := by
  unfold iblk0
  rw [View.read_apply]
  show (V c main_arg0 : S115200x1.Idx → EReal) _ = _
  refine congrArg (V c main_arg0 : S115200x1.Idx → EReal) ?_
  obtain ⟨e0, e1, -⟩ := idx_facts t
  funext a
  apply Fin.ext
  match a with
  | ⟨0, _⟩ => show win0_0.index t (0 : Fin 2) * 1152 + 1 * r.val = 1152 * t.val + r.val; rw [e0]; omega
  | ⟨1, _⟩ => show win0_0.index t (1 : Fin 2) * 1 + 1 * j.val = j.val; rw [e1]; omega

/-- Row r of the second input's block at point t is row 1152 t + r of the array. -/
theorem blk1_read (c : Dev nD) (t : Fin cfg0.N) (r : Fin 1152) (j : Fin 1) (hp : 1152 * t.val + r.val < 115200) :
    (iblk0 V c 1 t : Vec Ideal S1152x1 .f32) (ix2 r j)
      = (V c main_v13 : S115200x1.Idx → EReal) (ix2 (⟨1152 * t.val + r.val, hp⟩ : Fin 115200) j) := by
  unfold iblk0
  rw [View.read_apply]
  show (V c main_v13 : S115200x1.Idx → EReal) _ = _
  refine congrArg (V c main_v13 : S115200x1.Idx → EReal) ?_
  obtain ⟨-, -, e0, e1, -⟩ := idx_facts t
  funext a
  apply Fin.ext
  match a with
  | ⟨0, _⟩ => show win0_1.index t (0 : Fin 2) * 1152 + 1 * r.val = 1152 * t.val + r.val; rw [e0]; omega
  | ⟨1, _⟩ => show win0_1.index t (1 : Fin 2) * 1 + 1 * j.val = j.val; rw [e1]; omega

/-- The weight window's one block is the whole weight matrix. -/
theorem blk2_whole (c : Dev nD) (t : Fin cfg0.N) :
    (iblk0 V c 2 t : Vec Ideal S1x256 .f32) = (V c main_arg3 : S1x256.Idx → EReal) := by
  funext j
  unfold iblk0
  rw [View.read_apply]
  show (V c main_arg3 : S1x256.Idx → EReal) _ = _
  refine congrArg (V c main_arg3 : S1x256.Idx → EReal) ?_
  obtain ⟨-, -, -, -, e0, e1, -⟩ := idx_facts t
  funext a
  apply Fin.ext
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

/-- The bias window's one block is the whole bias row. -/
theorem blk3_whole (c : Dev nD) (t : Fin cfg0.N) :
    (iblk0 V c 3 t : Vec Ideal S1x256 .f32) = (V c main_v14 : S1x256.Idx → EReal) := by
  funext j
  unfold iblk0
  rw [View.read_apply]
  show (V c main_v14 : S1x256.Idx → EReal) _ = _
  refine congrArg (V c main_v14 : S1x256.Idx → EReal) ?_
  obtain ⟨-, -, -, -, -, -, e0, e1, -⟩ := idx_facts t
  funext a
  apply Fin.ext
  match a with
  | ⟨0, _⟩ => show win0_3.index t (0 : Fin 2) * 1 + 1 * (j 0).val = (j 0).val; rw [e0]; omega
  | ⟨1, _⟩ => show win0_3.index t (1 : Fin 2) * 256 + 1 * (j 1).val = (j 1).val; rw [e1]; omega

/-- The gain window's one block is the whole gain row. -/
theorem blk4_whole (c : Dev nD) (t : Fin cfg0.N) :
    (iblk0 V c 4 t : Vec Ideal S1x256 .f32) = (V c main_v15 : S1x256.Idx → EReal) := by
  funext j
  unfold iblk0
  rw [View.read_apply]
  show (V c main_v15 : S1x256.Idx → EReal) _ = _
  refine congrArg (V c main_v15 : S1x256.Idx → EReal) ?_
  obtain ⟨-, -, -, -, -, -, -, -, e0, e1, -⟩ := idx_facts t
  funext a
  apply Fin.ext
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

/-- The shift window's one block is the whole shift row. -/
theorem blk5_whole (c : Dev nD) (t : Fin cfg0.N) :
    (iblk0 V c 5 t : Vec Ideal S1x256 .f32) = (V c main_v16 : S1x256.Idx → EReal) := by
  funext j
  unfold iblk0
  rw [View.read_apply]
  show (V c main_v16 : S1x256.Idx → EReal) _ = _
  refine congrArg (V c main_v16 : S1x256.Idx → EReal) ?_
  obtain ⟨-, -, -, -, -, -, -, -, -, -, e0, e1, -⟩ := idx_facts t
  funext a
  apply Fin.ext
  match a with
  | ⟨0, _⟩ => show win0_5.index t (0 : Fin 2) * 1 + 1 * (j 0).val = (j 0).val; rw [e0]; omega
  | ⟨1, _⟩ => show win0_5.index t (1 : Fin 2) * 256 + 1 * (j 1).val = (j 1).val; rw [e1]; omega

/-! ## The result array -/

/-- The layer as a whole-array function of the arrays the region finds. -/
abbrev G (c : Dev nD) : S115200x256.Idx → EReal :=
  Spec.lnK (Spec.dense (Spec.add (V c main_arg0 : S115200x1.Idx → EReal) (V c main_v13 : S115200x1.Idx → EReal))
      (V c main_arg3 : S1x256.Idx → EReal) (fun q => (V c main_v14 : S1x256.Idx → EReal) (ix2 (0 : Fin 1) q)))
    (fun q => (V c main_v15 : S1x256.Idx → EReal) (ix2 (0 : Fin 1) q)) (fun q => (V c main_v16 : S1x256.Idx → EReal) (ix2 (0 : Fin 1) q))

theorem hz : (![0, 0] : Fin 2 → Nat) = fun _ => 0 := funext fun a => by fin_cases a <;> rfl

/-- What point t writes back is block t of the whole-array function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S1152x1) hz, View.ld_unit_zero (S := S1x256) hz, View.ld_unit_zero (S := S1x256) hz]
  rw [pay_eq, blk2_whole, blk3_whole, blk4_whole, blk5_whole]
  funext y
  obtain ⟨r, q, rfl⟩ : ∃ (r : Fin 1152) (q : Fin 256), y = ix2 r q := ⟨y 0, y 1, eq_ix2 y⟩
  have ht : t.val < 100 := by have h := t.isLt; have hN : cfg0.N = 100 := N_0; omega
  have hp : 1152 * t.val + r.val < 115200 := by have := r.isLt; omega
  rw [View.read_apply]
  obtain ⟨-, -, -, -, -, -, -, -, -, -, -, -, e0, e1⟩ := idx_facts t
  have hemb : ((cfg0.win 6).blk t).view.emb (ix2 r q) = (ix2 (⟨1152 * t.val + r.val, hp⟩ : Fin 115200) q : S115200x256.Idx) := by
    funext a
    apply Fin.ext
    match a with
    | ⟨0, _⟩ => show win0_6.index t (0 : Fin 2) * 1152 + 1 * r.val = 1152 * t.val + r.val; rw [e0]; omega
    | ⟨1, _⟩ => show win0_6.index t (1 : Fin 2) * 256 + 1 * q.val = q.val; rw [e1]; omega
  show Spec.lnK _ _ _ (ix2 r q) = G V c (((cfg0.win 6).blk t).view.emb (ix2 r q))
  rw [hemb]
  refine KGin.lnK_row _ _ _ _ (⟨1152 * t.val + r.val, hp⟩ : Fin 115200) r (fun q' => ?_) q
  refine KGin.dense_row _ _ _ _ (⟨1152 * t.val + r.val, hp⟩ : Fin 115200) r (fun j => ?_) q'
  rw [Spec.add_apply, Spec.add_apply, blk0_read V c t r j hp, blk1_read V c t r j hp]

/-- An index of the array is in point t's block iff each coordinate is in the block's range on its axis. -/
theorem mem_blk (t : Fin cfg0.N) (i : S115200x256.Idx) :
    i ∈ ((cfg0.win 6).blk t).view.set ↔ ∀ a : Fin 2, win0_6.index t a * S1152x256.size a ≤ (i a).val ∧ (i a).val < win0_6.index t a * S1152x256.size a + S1152x256.size a := by
  show i ∈ ((View.whole main_v17).slice (win0_6.rect t)).set ↔ _
  rw [View.set_slice_whole, Rect.mem_set_unit]
  exact Iff.rfl

/-- Row i is in the block of point i / 1152. -/
theorem cover (i : S115200x256.Idx) : ∃ t : Fin cfg0.N, (cfg0.win 6).flush t = true ∧ i ∈ ((cfg0.win 6).blk t).view.set := by
  have hi0 : (i 0).val < 115200 := (i 0).isLt
  have hi1 : (i 1).val < 256 := (i 1).isLt
  have hN : cfg0.N = 100 := N_0
  refine ⟨⟨(i 0).val / 1152, by rw [hN]; omega⟩, flush0_6 _, ?_⟩
  rw [mem_blk]
  obtain ⟨-, -, -, -, -, -, -, -, -, -, -, -, e0, e1⟩ := idx_facts ⟨(i 0).val / 1152, by rw [hN]; omega⟩
  intro a
  match a with
  | ⟨0, _⟩ =>
    show win0_6.index _ (0 : Fin 2) * 1152 ≤ (i 0).val ∧ (i 0).val < win0_6.index _ (0 : Fin 2) * 1152 + 1152
    rw [e0]
    show (i 0).val / 1152 * 1152 ≤ (i 0).val ∧ (i 0).val < (i 0).val / 1152 * 1152 + 1152
    omega
  | ⟨1, _⟩ =>
    show win0_6.index _ (1 : Fin 2) * 256 ≤ (i 1).val ∧ (i 1).val < win0_6.index _ (1 : Fin 2) * 256 + 256
    rw [e1]
    omega

/-- The result array after the region: the row normalisation of the dense layer of the sum of the two inputs. -/
theorem out (c : Dev nD) :
    (dat0 (F := Ideal) V c).arrAt 6 cfg0.N
      = Spec.lnK (Spec.dense (Spec.add (V c main_arg0 : S115200x1.Idx → EReal) (V c main_v13 : S115200x1.Idx → EReal))
          (V c main_arg3 : S1x256.Idx → EReal) (fun q => (V c main_v14 : S1x256.Idx → EReal) (ix2 (0 : Fin 1) q)))
        (fun q => (V c main_v15 : S1x256.Idx → EReal) (ix2 (0 : Fin 1) q)) (fun q => (V c main_v16 : S1x256.Idx → EReal) (ix2 (0 : Fin 1) q)) :=
  (dat0 V c).arrAt_eq_of_cover 6 (G V c) (fun t _ => flushed_eq V c t) cover

end Cert.KernelIdeal.KReg0

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.KRead.lean ====
/-
  The host-side layout and statistics terms between the launches, read at an index.

  * a vector of C parameters reshaped to a one-row array reads, at (0, q), the vector at q;
  * the four row blocks of the stacked [769, 512] weight matrix (rows 0, 1-256, 257-512, 513-768) are the matrix read
    from the row offset on;
  * a one-row array of column sums divided by the node count reads, at (0, q), the column's sum over the node count, so
    that on the column sums of an array it is the column's mean; the one-row array of column sums of squares divided by
    the node count, minus the square of the mean row, reads the mean of the squares minus the square of the mean, so
    that on the column sums of squares of an array it is the column's variance in that spelling.
  Everything is stated over variables, with the side conditions the program prints.
-/
import proofs.«167845_j85727547228621_1_alg».proof.Proof.Gen.KernelIdeal
import proofs.«167845_j85727547228621_1_alg».proof.Proof.Spec
import proofs.«167845_j85727547228621_1_alg».proof.Proof.LibRowReads
import Idealize.ShloMosaic.Lib.IdealHost

noncomputable section

open scoped BigOperators

namespace Cert.KernelIdeal.KValue

open Cert.KernelIdeal Cert.KernelIdeal.Gen Idealize.ShloMosaic Idealize.ShloMosaic.ValueIdx Cert

/-! ## Parameter rows -/

/-- A vector of 256 parameters as a one-row array, at (0, q). -/
theorem row256 (b : FVec Ideal S256 .f32) (q : Fin 256) :
    shapeCast S1x256 b shapeCasts_S256_S1x256 (ix2 (0 : Fin 1) q) = b (ix1 q) :=
  LibRowReads.asRow_read shapeCasts_S256_S1x256 b q

/-- A vector of 512 parameters as a one-row array, at (0, q). -/
theorem row512 (b : FVec Ideal S512 .f32) (q : Fin 512) :
    shapeCast S1x512 b shapeCasts_S512_S1x512 (ix2 (0 : Fin 1) q) = b (ix1 q) :=
  LibRowReads.asRow_read shapeCasts_S512_S1x512 b q

/-- A vector of one parameter as a one-by-one array, at (0, q). -/
theorem row1 (b : FVec Ideal S1 .f32) (q : Fin 1) :
    shapeCast S1x1 b shapeCasts_S1_S1x1 (ix2 (0 : Fin 1) q) = b (ix1 q) :=
  LibRowReads.asRow_read shapeCasts_S1_S1x1 b q

/-- The one-row array of a vector of 256 parameters is the row of the per-column family. -/
theorem row256_eq (b : FVec Ideal S256 .f32) :
    (fun q : Fin 256 => shapeCast S1x256 b shapeCasts_S256_S1x256 (ix2 (0 : Fin 1) q)) = fun q => b (ix1 q) :=
  funext fun q => row256 b q

theorem row512_eq (b : FVec Ideal S512 .f32) :
    (fun q : Fin 512 => shapeCast S1x512 b shapeCasts_S512_S1x512 (ix2 (0 : Fin 1) q)) = fun q => b (ix1 q) :=
  funext fun q => row512 b q

theorem row1_eq (b : FVec Ideal S1 .f32) :
    (fun q : Fin 1 => shapeCast S1x1 b shapeCasts_S1_S1x1 (ix2 (0 : Fin 1) q)) = fun q => b (ix1 q) :=
  funext fun q => row1 b q

/-! ## The row blocks of the stacked weight matrix -/

/-- Rows off … off + k − 1 of a [K, C] array, as a slice with column offset zero, at (j, q). -/
theorem rows_read {k K C : Nat} (off : Nat) (hoff : off + k ≤ K) (h : (⟨2, ![K, C]⟩ : Shape).Slices ![off, 0] ⟨2, ![k, C]⟩)
    (w : (⟨2, ![K, C]⟩ : Shape).Idx → EReal) :
    extractStridedSlice ⟨2, ![k, C]⟩ ![off, 0] w h = Spec.rowsFrom off hoff w := by
  funext i
  obtain ⟨j, q, rfl⟩ : ∃ (j : Fin k) (q : Fin C), i = ix2 j q := ⟨i 0, i 1, eq_ix2 i⟩
  rw [Spec.rowsFrom_apply]
  refine extractStridedSlice_apply ![off, 0] w h (ix2 j q) _ (fun ax => ?_)
  match ax with
  | ⟨0, _⟩ => show off + j.val = off + j.val; rfl
  | ⟨1, _⟩ => show q.val = 0 + q.val; omega

/-- Row 0 of the stacked weights. -/
theorem slice0 (w : FVec Ideal S769x512 .f32) :
    extractStridedSlice S1x512 ![0, 0] w slices_S769x512_S1x512_0_0 = Spec.rowsFrom 0 (by norm_num) w :=
  rows_read 0 (by norm_num) slices_S769x512_S1x512_0_0 w

/-- Rows 1 … 256 of the stacked weights. -/
theorem slice1 (w : FVec Ideal S769x512 .f32) :
    extractStridedSlice S256x512 ![1, 0] w slices_S769x512_S256x512_1_0 = Spec.rowsFrom 1 (by norm_num) w :=
  rows_read 1 (by norm_num) slices_S769x512_S256x512_1_0 w

/-- Rows 257 … 512 of the stacked weights. -/
theorem slice257 (w : FVec Ideal S769x512 .f32) :
    extractStridedSlice S256x512 ![257, 0] w slices_S769x512_S256x512_257_0 = Spec.rowsFrom 257 (by norm_num) w :=
  rows_read 257 (by norm_num) slices_S769x512_S256x512_257_0 w

/-- Rows 513 … 768 of the stacked weights. -/
theorem slice513 (w : FVec Ideal S769x512 .f32) :
    extractStridedSlice S256x512 ![513, 0] w slices_S769x512_S256x512_513_0 = Spec.rowsFrom 513 (by norm_num) w :=
  rows_read 513 (by norm_num) slices_S769x512_S256x512_513_0 w

/-! ## The column statistics rows -/

/-- The node count broadcast to a shape reads the node count everywhere. -/
theorem cN_read {t : Shape} (h : (⟨0, ![]⟩ : Shape).BroadcastsInDim t ![]) (i : t.Idx) :
    broadcastInDim t ![] h (constant (F := Ideal) S_ .f32 0x47E10000#32) i = Spec.cN :=
  LibRowReads.splat_read h _ i

/-- A one-row array over the node count, at (0, q). -/
theorem meanRow {C : Nat} (h : (⟨0, ![]⟩ : Shape).BroadcastsInDim ⟨2, ![1, C]⟩ ![]) (S : FVec Ideal ⟨2, ![1, C]⟩ .f32) (q : Fin C) :
    Host.divf S (broadcastInDim ⟨2, ![1, C]⟩ ![] h (constant S_ .f32 0x47E10000#32)) (ix2 (0 : Fin 1) q)
      = Ideal.div (S (ix2 (0 : Fin 1) q)) Spec.cN := by
  show Ideal.div (S (ix2 (0 : Fin 1) q)) (broadcastInDim ⟨2, ![1, C]⟩ ![] h (constant (F := Ideal) S_ .f32 0x47E10000#32) (ix2 (0 : Fin 1) q)) = _
  rw [cN_read]

/-- The row of an array's column sums over the node count is the row of its column means. -/
theorem meanRow_colSum {n C : Nat} (h : (⟨0, ![]⟩ : Shape).BroadcastsInDim ⟨2, ![1, C]⟩ ![]) (P : Spec.Mat n C) :
    ((fun q : Fin C => Host.divf (F := Ideal) (Spec.rowOf (Spec.colSum P) : FVec Ideal ⟨2, ![1, C]⟩ .f32)
        (broadcastInDim ⟨2, ![1, C]⟩ ![] h (constant S_ .f32 0x47E10000#32)) (ix2 (0 : Fin 1) q)) : Fin C → EReal)
      = Spec.colMean P Spec.cN := by
  funext q
  rw [meanRow, Spec.rowOf_apply]
  rfl

/-- The mean of the squares minus the square of the mean, as one-row arrays, at (0, q). -/
theorem varRow {C : Nat} (h : (⟨0, ![]⟩ : Shape).BroadcastsInDim ⟨2, ![1, C]⟩ ![]) (Q M : FVec Ideal ⟨2, ![1, C]⟩ .f32) (q : Fin C) :
    subf (Host.divf Q (broadcastInDim ⟨2, ![1, C]⟩ ![] h (constant S_ .f32 0x47E10000#32))) (mulf M M) (ix2 (0 : Fin 1) q)
      = Ideal.div (Q (ix2 (0 : Fin 1) q)) Spec.cN - M (ix2 (0 : Fin 1) q) * M (ix2 (0 : Fin 1) q) := by
  show Host.divf Q (broadcastInDim ⟨2, ![1, C]⟩ ![] h (constant S_ .f32 0x47E10000#32)) (ix2 (0 : Fin 1) q)
      - M (ix2 (0 : Fin 1) q) * M (ix2 (0 : Fin 1) q) = _
  rw [meanRow]

/-- On an array's column sums of squares and its mean row: the row of its column variances. -/
theorem varRow_colSumSq {n C : Nat} (h : (⟨0, ![]⟩ : Shape).BroadcastsInDim ⟨2, ![1, C]⟩ ![]) (P : Spec.Mat n C) :
    ((fun q : Fin C =>
        subf (F := Ideal) (Host.divf (Spec.rowOf (Spec.colSumSq P) : FVec Ideal ⟨2, ![1, C]⟩ .f32)
            (broadcastInDim ⟨2, ![1, C]⟩ ![] h (constant S_ .f32 0x47E10000#32)))
          (mulf (Host.divf (Spec.rowOf (Spec.colSum P) : FVec Ideal ⟨2, ![1, C]⟩ .f32)
              (broadcastInDim ⟨2, ![1, C]⟩ ![] h (constant S_ .f32 0x47E10000#32)))
            (Host.divf (Spec.rowOf (Spec.colSum P) : FVec Ideal ⟨2, ![1, C]⟩ .f32)
              (broadcastInDim ⟨2, ![1, C]⟩ ![] h (constant S_ .f32 0x47E10000#32)))) (ix2 (0 : Fin 1) q)) : Fin C → EReal)
      = Spec.colVarK P Spec.cN := by
  funext q
  rw [varRow, meanRow, Spec.rowOf_apply, Spec.rowOf_apply]
  rfl

end Cert.KernelIdeal.KValue

end
-- ==== Proof.SpecReal.lean ====
/-
  Finite data.  An array of extended reals is finite when every entry is a real number.  The two spellings of a
  variance agree on finite data only, so finiteness is carried from the inputs through every layer.
-/
import Idealize.ShloMosaic.PureOps.Ideal

noncomputable section

namespace Cert.Spec

open Idealize.ShloMosaic

/-- Every entry is a real number. -/
def IsReal {s : Shape} (x : s.Idx → EReal) : Prop := ∀ i, ∃ r : ℝ, x i = (r : EReal)

/-- Every value of a family of extended reals is a real number. -/
def IsRealF {α : Type} (f : α → EReal) : Prop := ∀ a, ∃ r : ℝ, f a = (r : EReal)

theorem IsReal.choose_spec' {s : Shape} {x : s.Idx → EReal} (h : IsReal x) : ∃ f : s.Idx → ℝ, ∀ i, x i = (f i : EReal) :=
  ⟨fun i => (h i).choose, fun i => (h i).choose_spec⟩

theorem IsRealF.choose_spec' {α : Type} {f : α → EReal} (h : IsRealF f) : ∃ g : α → ℝ, ∀ a, f a = (g a : EReal) :=
  ⟨fun a => (h a).choose, fun a => (h a).choose_spec⟩

end Cert.Spec

end
-- ==== Proof.SpecNetDefs.lean ====
/-
  The whole network as one function of its inputs.

  Three graph layers (each: add the neighbour sums, a dense layer, a row normalisation), the four feature arrays
  through a dense layer whose weights come in four row blocks, a column normalisation, a second dense layer and
  column normalisation, and two one-column heads.  The neighbour sums are parameters, and so are the row and
  column normalisations: the network is stated once and instantiated at the two spellings of the variance.
-/
import proofs.«167845_j85727547228621_1_alg».proof.Proof.Spec
import proofs.«167845_j85727547228621_1_alg».proof.Proof.SpecReal

noncomputable section

open scoped BigOperators

namespace Cert.Spec

open Idealize.ShloMosaic Idealize.ShloMosaic.ValueIdx

/-- The node count. -/
abbrev NN : Nat := 115200

/-- The inputs of the network besides the graph: the node values and every layer's weights, as arrays and
    per-column families. -/
structure Params where
  v : Mat NN 1
  w1 : Mat 1 256
  b1 : Fin 256 → EReal
  w2 : Mat 256 256
  b2 : Fin 256 → EReal
  w3 : Mat 256 256
  b3 : Fin 256 → EReal
  g : Fin 256 → EReal
  β : Fin 256 → EReal
  wf1 : Mat 769 512
  bf1 : Fin 512 → EReal
  wf2 : Mat 512 256
  bf2 : Fin 256 → EReal
  g1 : Fin 512 → EReal
  β1 : Fin 512 → EReal
  g2 : Fin 256 → EReal
  β2 : Fin 256 → EReal
  wa : Mat 256 1
  ba : Fin 1 → EReal
  wv : Mat 256 1
  bv : Fin 1 → EReal

/-- Every input is finite. -/
structure Params.Finite (P : Params) : Prop where
  v : IsReal P.v
  w1 : IsReal P.w1
  b1 : IsRealF P.b1
  w2 : IsReal P.w2
  b2 : IsRealF P.b2
  w3 : IsReal P.w3
  b3 : IsRealF P.b3
  g : IsRealF P.g
  β : IsRealF P.β
  wf1 : IsReal P.wf1
  bf1 : IsRealF P.bf1
  wf2 : IsReal P.wf2
  bf2 : IsRealF P.bf2
  g1 : IsRealF P.g1
  β1 : IsRealF P.β1
  g2 : IsRealF P.g2
  β2 : IsRealF P.β2
  wa : IsReal P.wa
  ba : IsRealF P.ba
  wv : IsReal P.wv
  bv : IsRealF P.bv

section Net
variable (ln : Mat NN 256 → (Fin 256 → EReal) → (Fin 256 → EReal) → Mat NN 256)
  (bn512 : Mat NN 512 → (Fin 512 → EReal) → (Fin 512 → EReal) → Mat NN 512)
  (bn256 : Mat NN 256 → (Fin 256 → EReal) → (Fin 256 → EReal) → Mat NN 256)
  (agg1 : Mat NN 1 → Mat NN 1) (aggH : Mat NN 256 → Mat NN 256) (P : Params)

def x1 : Mat NN 256 := ln (dense (add P.v (agg1 P.v)) P.w1 P.b1) P.g P.β
def x2 : Mat NN 256 := ln (dense (add (x1 ln agg1 P) (aggH (x1 ln agg1 P))) P.w2 P.b2) P.g P.β
def x3 : Mat NN 256 := ln (dense (add (x2 ln agg1 aggH P) (aggH (x2 ln agg1 aggH P))) P.w3 P.b3) P.g P.β
def p1 : Mat NN 512 :=
  dense4 P.v (x1 ln agg1 P) (x2 ln agg1 aggH P) (x3 ln agg1 aggH P)
    (rowsFrom 0 (by norm_num) P.wf1) (rowsFrom 1 (by norm_num) P.wf1) (rowsFrom 257 (by norm_num) P.wf1)
    (rowsFrom 513 (by norm_num) P.wf1) P.bf1
def h1 : Mat NN 512 := bn512 (p1 ln agg1 aggH P) P.g1 P.β1
def p2 : Mat NN 256 := dense (h1 ln bn512 agg1 aggH P) P.wf2 P.bf2
def h2 : Mat NN 256 := bn256 (p2 ln bn512 agg1 aggH P) P.g2 P.β2
def headA : Mat NN 1 := dense (h2 ln bn512 bn256 agg1 aggH P) P.wa P.ba
def headV : Mat NN 1 := dense (h2 ln bn512 bn256 agg1 aggH P) P.wv P.bv
end Net

end Cert.Spec

end
-- ==== Proof.KParams.lean ====
/-
  The network's inputs, read off the launch memory: the node values, every layer's weight matrix as an array, and every
  bias, gain and shift vector as a per-column family; and the two neighbour-sum maps over the launch memory's edge list.
-/
import proofs.«167845_j85727547228621_1_alg».proof.Proof.Gen.KernelIdeal
import proofs.«167845_j85727547228621_1_alg».proof.Proof.SpecNetDefs
import proofs.«167845_j85727547228621_1_alg».proof.Proof.KChainDefs

noncomputable section

namespace Cert.KernelIdeal.KValue

open Cert.KernelIdeal Cert.KernelIdeal.Gen Idealize.ShloMosaic Idealize.ShloMosaic.TcCoe Idealize.ShloMosaic.ValueIdx Cert

/-- The network's inputs as core c's launch memory holds them. -/
def params (m : (ℓ : Loc nD τ sig) → Buf (Elt Ideal) ℓ) (c : Dev nD) : Spec.Params where
  v := (m ((c : Thread nD τ).loc main_arg0) : S115200x1.Idx → EReal)
  w1 := (m ((c : Thread nD τ).loc main_arg3) : S1x256.Idx → EReal)
  b1 := fun q => (m ((c : Thread nD τ).loc main_arg4) : S256.Idx → EReal) (ix1 q)
  w2 := (m ((c : Thread nD τ).loc main_arg5) : S256x256.Idx → EReal)
  b2 := fun q => (m ((c : Thread nD τ).loc main_arg6) : S256.Idx → EReal) (ix1 q)
  w3 := (m ((c : Thread nD τ).loc main_arg7) : S256x256.Idx → EReal)
  b3 := fun q => (m ((c : Thread nD τ).loc main_arg8) : S256.Idx → EReal) (ix1 q)
  g := fun q => (m ((c : Thread nD τ).loc main_arg9) : S256.Idx → EReal) (ix1 q)
  β := fun q => (m ((c : Thread nD τ).loc main_arg10) : S256.Idx → EReal) (ix1 q)
  wf1 := (m ((c : Thread nD τ).loc main_arg11) : S769x512.Idx → EReal)
  bf1 := fun q => (m ((c : Thread nD τ).loc main_arg12) : S512.Idx → EReal) (ix1 q)
  wf2 := (m ((c : Thread nD τ).loc main_arg13) : S512x256.Idx → EReal)
  bf2 := fun q => (m ((c : Thread nD τ).loc main_arg14) : S256.Idx → EReal) (ix1 q)
  g1 := fun q => (m ((c : Thread nD τ).loc main_arg15) : S512.Idx → EReal) (ix1 q)
  β1 := fun q => (m ((c : Thread nD τ).loc main_arg16) : S512.Idx → EReal) (ix1 q)
  g2 := fun q => (m ((c : Thread nD τ).loc main_arg17) : S256.Idx → EReal) (ix1 q)
  β2 := fun q => (m ((c : Thread nD τ).loc main_arg18) : S256.Idx → EReal) (ix1 q)
  wa := (m ((c : Thread nD τ).loc main_arg19) : S256x1.Idx → EReal)
  ba := fun q => (m ((c : Thread nD τ).loc main_arg20) : S1.Idx → EReal) (ix1 q)
  wv := (m ((c : Thread nD τ).loc main_arg21) : S256x1.Idx → EReal)
  bv := fun q => (m ((c : Thread nD τ).loc main_arg22) : S1.Idx → EReal) (ix1 q)

/-- The neighbour sums of a one-column feature array over the launch memory's edge list. -/
abbrev A1 (m : (ℓ : Loc nD τ sig) → Buf (Elt Ideal) ℓ) (c : Dev nD) : Spec.Mat Spec.NN 1 → Spec.Mat Spec.NN 1 :=
  fun x => KChain.agg1 (F := Ideal) x (m ((c : Thread nD τ).loc main_arg1))

/-- The neighbour sums of a 256-column feature array over the launch memory's edge list. -/
abbrev AH (m : (ℓ : Loc nD τ sig) → Buf (Elt Ideal) ℓ) (c : Dev nD) : Spec.Mat Spec.NN 256 → Spec.Mat Spec.NN 256 :=
  fun x => KChain.aggH (F := Ideal) x (m ((c : Thread nD τ).loc main_arg1))

end Cert.KernelIdeal.KValue

end
-- ==== Proof.KValue0.lean ====
/-
  The first graph layer's result array as the network's first layer: the launch finds the node values, their neighbour
  sums, the weight row and the bias, gain and shift vectors laid as rows, and leaves the row normalisation of the dense
  layer of the values plus the neighbour sums.
-/
import proofs.«167845_j85727547228621_1_alg».proof.Proof.KReg0
import proofs.«167845_j85727547228621_1_alg».proof.Proof.KChain0
import proofs.«167845_j85727547228621_1_alg».proof.Proof.KRead
import proofs.«167845_j85727547228621_1_alg».proof.Proof.KParams

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The first graph layer's node features. -/
theorem X1_eq : KNames.X1 m ρ c = Spec.x1 Spec.lnK (A1 m c) (params m c) := by
  unfold KNames.X1
  rw [KReg0.out (V1 m ρ) c, KChain.in0_0 m ρ c, KChain.in0_1 m ρ c, KChain.in0_2 m ρ c, KChain.in0_3 m ρ c,
    KChain.in0_4 m ρ c, KChain.in0_5 m ρ c, row256_eq, row256_eq, row256_eq]
  rfl

end Cert.KernelIdeal.KValue

end
-- ==== Proof.KValue1.lean ====
/-
  The second graph layer's result array as the network's second layer: the launch finds the first layer's features,
  their neighbour sums, the weight matrix and the bias, gain and shift vectors laid as rows.
-/
import proofs.«167845_j85727547228621_1_alg».proof.Proof.KReg1
import proofs.«167845_j85727547228621_1_alg».proof.Proof.KChain1
import proofs.«167845_j85727547228621_1_alg».proof.Proof.KValue0

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The second graph layer's node features. -/
theorem X2_eq : KNames.X2 m ρ c = Spec.x2 Spec.lnK (A1 m c) (AH m c) (params m c) := by
  unfold KNames.X2
  rw [KReg1.out (V3 m ρ) c, KChain.in1_0 m ρ c, KChain.in1_1 m ρ c, KChain.in1_2 m ρ c, KChain.in1_3 m ρ c,
    KChain.in1_4 m ρ c, KChain.in1_5 m ρ c, row256_eq, row256_eq, row256_eq, X1_eq]
  rfl

end Cert.KernelIdeal.KValue

end
-- ==== Proof.KValue2.lean ====
/-
  The third graph layer's result array as the network's third layer: the launch finds the second layer's features,
  their neighbour sums, the weight matrix and the bias, gain and shift vectors laid as rows.
-/
import proofs.«167845_j85727547228621_1_alg».proof.Proof.KReg2
import proofs.«167845_j85727547228621_1_alg».proof.Proof.KChain2
import proofs.«167845_j85727547228621_1_alg».proof.Proof.KValue1

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The third graph layer's node features. -/
theorem X3_eq : KNames.X3 m ρ c = Spec.x3 Spec.lnK (A1 m c) (AH m c) (params m c) := by
  unfold KNames.X3
  rw [KReg2.out (V5 m ρ) c, KChain.in2_0 m ρ c, KChain.in2_1 m ρ c, KChain.in2_2 m ρ c, KChain.in2_3 m ρ c,
    KChain.in2_4 m ρ c, KChain.in2_5 m ρ c, row256_eq, row256_eq, row256_eq, X2_eq]
  rfl

end Cert.KernelIdeal.KValue

end
-- ==== Proof.KValue3.lean ====
/-
  The first dense layer over the four feature arrays, before its column normalisation, with its column sums and column
  sums of squares: the launch finds the node values and the three graph layers' features, the four row blocks of the
  stacked weight matrix and the bias row.
-/
import proofs.«167845_j85727547228621_1_alg».proof.Proof.KReg3
import proofs.«167845_j85727547228621_1_alg».proof.Proof.KChain3
import proofs.«167845_j85727547228621_1_alg».proof.Proof.KValue2

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The layer the launch computes, over what it finds, is the network's first dense layer. -/
theorem pre3_eq : KReg3.pre (V7 m ρ) c = Spec.p1 Spec.lnK (A1 m c) (AH m c) (params m c) := by
  unfold KReg3.pre
  rw [KChain.in3_0 m ρ c, KChain.in3_1 m ρ c, KChain.in3_2 m ρ c, KChain.in3_3 m ρ c, KChain.in3_4 m ρ c,
    KChain.in3_5 m ρ c, KChain.in3_6 m ρ c, KChain.in3_7 m ρ c, KChain.in3_8 m ρ c, slice0, slice1, slice257, slice513,
    row512_eq, X1_eq, X2_eq, X3_eq]
  rfl

/-- The first dense layer before normalisation. -/
theorem P1_eq : KNames.P1 m ρ c = Spec.p1 Spec.lnK (A1 m c) (AH m c) (params m c) := by
  unfold KNames.P1
  rw [KReg3.outPre (V7 m ρ) c, pre3_eq]

/-- Its column sums. -/
theorem S1_eq : KNames.S1 m ρ c = Spec.rowOf (Spec.colSum (Spec.p1 Spec.lnK (A1 m c) (AH m c) (params m c))) := by
  unfold KNames.S1
  rw [KReg3.outSum (V7 m ρ) c, pre3_eq]

/-- Its column sums of squares. -/
theorem Q1_eq : KNames.Q1 m ρ c = Spec.rowOf (Spec.colSumSq (Spec.p1 Spec.lnK (A1 m c) (AH m c) (params m c))) := by
  unfold KNames.Q1
  rw [KReg3.outSumSq (V7 m ρ) c, pre3_eq]

end Cert.KernelIdeal.KValue

end
-- ==== Proof.KValue4.lean ====
/-
  The first dense layer normalised column by column: the launch finds the layer, the row of its column means and the row
  of its column variances (each computed on the host from the column sums and the column sums of squares), and the gain
  and shift vectors laid as rows.
-/
import proofs.«167845_j85727547228621_1_alg».proof.Proof.KReg4
import proofs.«167845_j85727547228621_1_alg».proof.Proof.KChain4
import proofs.«167845_j85727547228621_1_alg».proof.Proof.KValue3

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The row of means the launch finds is the row of the first dense layer's column means. -/
theorem mean4_eq : (fun q : Fin 512 => (V9 m ρ c main_v53 : S1x512.Idx → EReal) (ix2 (0 : Fin 1) q))
    = Spec.colMean (Spec.p1 Spec.lnK (A1 m c) (AH m c) (params m c)) Spec.cN := by
  rw [KChain.in4_1 m ρ c, S1_eq]
  exact meanRow_colSum bcast_S_S1x512 _

/-- The row of variances the launch finds is the row of the first dense layer's column variances. -/
theorem var4_eq : (fun q : Fin 512 => (V9 m ρ c main_v57 : S1x512.Idx → EReal) (ix2 (0 : Fin 1) q))
    = Spec.colVarK (Spec.p1 Spec.lnK (A1 m c) (AH m c) (params m c)) Spec.cN := by
  rw [KChain.in4_2 m ρ c, S1_eq, Q1_eq]
  exact varRow_colSumSq bcast_S_S1x512 _

/-- The gain row the launch finds. -/
theorem gain4_eq : (fun q : Fin 512 => (V9 m ρ c main_v58 : S1x512.Idx → EReal) (ix2 (0 : Fin 1) q)) = (params m c).g1 := by
  rw [KChain.in4_3 m ρ c, row512_eq]
  rfl

/-- The shift row the launch finds. -/
theorem shift4_eq : (fun q : Fin 512 => (V9 m ρ c main_v59 : S1x512.Idx → EReal) (ix2 (0 : Fin 1) q)) = (params m c).β1 := by
  rw [KChain.in4_4 m ρ c, row512_eq]
  rfl

/-- The first dense layer normalised. -/
theorem H1_eq : KNames.H1 m ρ c = Spec.h1 Spec.lnK Spec.bnK (A1 m c) (AH m c) (params m c) := by
  unfold KNames.H1
  rw [KReg4.out (V9 m ρ) c, mean4_eq, var4_eq, gain4_eq, shift4_eq, KChain.in4_0 m ρ c, P1_eq]
  rfl

end Cert.KernelIdeal.KValue

end
-- ==== Proof.KValue5.lean ====
/-
  The second dense layer, before its column normalisation, with its column sums and column sums of squares: the launch
  finds the first dense layer normalised, the weight matrix and the bias row.
-/
import proofs.«167845_j85727547228621_1_alg».proof.Proof.KReg5
import proofs.«167845_j85727547228621_1_alg».proof.Proof.KChain4
import proofs.«167845_j85727547228621_1_alg».proof.Proof.KValue4

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The layer the launch computes, over what it finds, is the network's second dense layer. -/
theorem pre5_eq : KReg5.pre (V11 m ρ) c = Spec.p2 Spec.lnK Spec.bnK (A1 m c) (AH m c) (params m c) := by
  unfold KReg5.pre
  rw [KChain.in5_0 m ρ c, KChain.in5_1 m ρ c, KChain.in5_2 m ρ c, row256_eq, H1_eq]
  rfl

/-- The second dense layer before normalisation. -/
theorem P2_eq : KNames.P2 m ρ c = Spec.p2 Spec.lnK Spec.bnK (A1 m c) (AH m c) (params m c) := by
  unfold KNames.P2
  rw [KReg5.outPre (V11 m ρ) c, pre5_eq]

/-- Its column sums. -/
theorem S2_eq : KNames.S2 m ρ c = Spec.rowOf (Spec.colSum (Spec.p2 Spec.lnK Spec.bnK (A1 m c) (AH m c) (params m c))) := by
  unfold KNames.S2
  rw [KReg5.outSum (V11 m ρ) c, pre5_eq]

/-- Its column sums of squares. -/
theorem Q2_eq : KNames.Q2 m ρ c = Spec.rowOf (Spec.colSumSq (Spec.p2 Spec.lnK Spec.bnK (A1 m c) (AH m c) (params m c))) := by
  unfold KNames.Q2
  rw [KReg5.outSumSq (V11 m ρ) c, pre5_eq]

end Cert.KernelIdeal.KValue

end
-- ==== Proof.KValue6.lean ====
/-
  The second dense layer normalised column by column: the launch finds the layer, the row of its column means and the
  row of its column variances, and the gain and shift vectors laid as rows.
-/
import proofs.«167845_j85727547228621_1_alg».proof.Proof.KReg6
import proofs.«167845_j85727547228621_1_alg».proof.Proof.KChain6
import proofs.«167845_j85727547228621_1_alg».proof.Proof.KValue5

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The row of means the launch finds is the row of the second dense layer's column means. -/
theorem mean6_eq : (fun q : Fin 256 => (V13 m ρ c main_v64 : S1x256.Idx → EReal) (ix2 (0 : Fin 1) q))
    = Spec.colMean (Spec.p2 Spec.lnK Spec.bnK (A1 m c) (AH m c) (params m c)) Spec.cN := by
  rw [KChain.in6_1 m ρ c, S2_eq]
  exact meanRow_colSum bcast_S_S1x256 _

/-- The row of variances the launch finds is the row of the second dense layer's column variances. -/
theorem var6_eq : (fun q : Fin 256 => (V13 m ρ c main_v68 : S1x256.Idx → EReal) (ix2 (0 : Fin 1) q))
    = Spec.colVarK (Spec.p2 Spec.lnK Spec.bnK (A1 m c) (AH m c) (params m c)) Spec.cN := by
  rw [KChain.in6_2 m ρ c, S2_eq, Q2_eq]
  exact varRow_colSumSq bcast_S_S1x256 _

/-- The gain row the launch finds. -/
theorem gain6_eq : (fun q : Fin 256 => (V13 m ρ c main_v69 : S1x256.Idx → EReal) (ix2 (0 : Fin 1) q)) = (params m c).g2 := by
  rw [KChain.in6_3 m ρ c, row256_eq]
  rfl

/-- The shift row the launch finds. -/
theorem shift6_eq : (fun q : Fin 256 => (V13 m ρ c main_v70 : S1x256.Idx → EReal) (ix2 (0 : Fin 1) q)) = (params m c).β2 := by
  rw [KChain.in6_4 m ρ c, row256_eq]
  rfl

/-- The second dense layer normalised. -/
theorem H2_eq : KNames.H2 m ρ c = Spec.h2 Spec.lnK Spec.bnK Spec.bnK (A1 m c) (AH m c) (params m c) := by
  unfold KNames.H2
  rw [KReg6.out (V13 m ρ) c, mean6_eq, var6_eq, gain6_eq, shift6_eq, KChain.in6_0 m ρ c, P2_eq]
  rfl

end Cert.KernelIdeal.KValue

end
-- ==== Proof.KValue7.lean ====
/-
  The two heads: the launch finds the second dense layer normalised, the two weight columns and the two biases laid as
  one-by-one arrays, and leaves one dense layer per head.
-/
import proofs.«167845_j85727547228621_1_alg».proof.Proof.KReg7
import proofs.«167845_j85727547228621_1_alg».proof.Proof.KChain6
import proofs.«167845_j85727547228621_1_alg».proof.Proof.KValue6

noncomputable section

namespace Cert.KernelIdeal.KValue

open Cert.KernelIdeal Cert.KernelIdeal.Gen Idealize.ShloMosaic Idealize.ShloMosaic.TcCoe Idealize.ShloMosaic.ValueIdx Cert

variable (m : (ℓ : Loc nD τ sig) → Buf (Elt Ideal) ℓ) (ρ : Dev nD → PrngReg) (c : Dev nD)

/-- The first head. -/
theorem HA_eq : KNames.HA m ρ c = Spec.headA Spec.lnK Spec.bnK Spec.bnK (A1 m c) (AH m c) (params m c) := by
  unfold KNames.HA
  rw [KReg7.outA (V15 m ρ) c, KChain.in7_0 m ρ c, KChain.in7_1 m ρ c, KChain.in7_2 m ρ c, row1_eq, H2_eq]
  rfl

/-- The second head. -/
theorem HV_eq : KNames.HV m ρ c = Spec.headV Spec.lnK Spec.bnK Spec.bnK (A1 m c) (AH m c) (params m c) := by
  unfold KNames.HV
  rw [KReg7.outV (V15 m ρ) c, KChain.in7_0 m ρ c, KChain.in7_3 m ρ c, KChain.in7_4 m ρ c, row1_eq, H2_eq]
  rfl

end Cert.KernelIdeal.KValue

end
-- ==== Proof.RefStages.lean ====
/-
  The reference program's host operations, cut into stages between the arrays that matter: each definition lists,
  in program order and with the program's own operations and side conditions, the operations that lead from a
  stage's input arrays to its output array.  Nothing is proved here.
-/
import proofs.«167845_j85727547228621_1_alg».proof.Proof.Gen.ReferenceIdeal

noncomputable section

namespace Cert.ReferenceIdeal.RefStages

open Cert.ReferenceIdeal Cert.ReferenceIdeal.Gen Idealize.ShloMosaic Idealize.ShloMosaic.TcCoe

variable {F : FTy → Type} [FloatOps F]

/-- Neighbour sums of a one-column feature array: row i of the result is the sum of the rows src(e) of x over the edges e with dst(e) = i. -/
def agg1 (x : FVec F S115200x1 .f32) (ei : IVec S2x921600 32) : FVec F S115200x1 .f32 :=
  let v0 : IVec S1x921600 32 := ((extractStridedSlice S1x921600 ![0, 0] · slices_S2x921600_S1x921600_0_0)) ei
  let v1 : IVec S921600 32 := (shapeCast S921600 · shapeCasts_S1x921600_S921600) v0
  let v2 : IVec S1x921600 32 := ((extractStridedSlice S1x921600 ![1, 0] · slices_S2x921600_S1x921600_1_0)) ei
  let v3 : IVec S921600 32 := (shapeCast S921600 · shapeCasts_S1x921600_S921600) v2
  let c : IVec S_ 32 := (constantI S_ 32 0#32)
  let v4 : IVec S921600 32 := (broadcastInDim S921600 ![] bcast_S_S921600) c
  let v5 : IVec S921600 1 := (cmpi .slt) v1 v4
  let c_0 : IVec S_ 32 := (constantI S_ 32 115200#32)
  let v6 : IVec S921600 32 := (broadcastInDim S921600 ![] bcast_S_S921600) c_0
  let v7 : IVec S921600 32 := (addi) v1 v6
  let v8 : IVec S921600 32 := (select) v5 v7 v1
  let v9 : IVec S921600x1 32 := (broadcastInDim S921600x1 ![0] bcast_S921600_S921600x1_0) v8
  let v10 : FVec F S921600x1 .f32 := ((fun x i => Host.gather gather_S115200x1_S921600x1_S921600x1_1_0_n_n_0_1_11 x i)) x v9
  let cst : FVec F S_ .f32 := (constant S_ .f32 0x00000000#32)
  let v11 : FVec F S115200x1 .f32 := (broadcastInDim S115200x1 ![] bcast_S_S115200x1) cst
  let v12 : IVec S921600x1 32 := (broadcastInDim S921600x1 ![0] bcast_S921600_S921600x1_0) v3
  let v13 : FVec F S115200x1 .f32 := ((fun x i u => Host.scatterAdd scatter_S115200x1_S921600x1_S921600x1_1_0_0_1 x i u)) v11 v12 v10
  v13

/-- Neighbour sums of a 256-column feature array. -/
def aggH (x : FVec F S115200x256 .f32) (ei : IVec S2x921600 32) : FVec F S115200x256 .f32 :=
  let v0 : IVec S1x921600 32 := ((extractStridedSlice S1x921600 ![0, 0] · slices_S2x921600_S1x921600_0_0)) ei
  let v1 : IVec S921600 32 := (shapeCast S921600 · shapeCasts_S1x921600_S921600) v0
  let v2 : IVec S1x921600 32 := ((extractStridedSlice S1x921600 ![1, 0] · slices_S2x921600_S1x921600_1_0)) ei
  let v3 : IVec S921600 32 := (shapeCast S921600 · shapeCasts_S1x921600_S921600) v2
  let c_5 : IVec S_ 32 := (constantI S_ 32 0#32)
  let v38 : IVec S921600 32 := (broadcastInDim S921600 ![] bcast_S_S921600) c_5
  let v39 : IVec S921600 1 := (cmpi .slt) v1 v38
  let c_6 : IVec S_ 32 := (constantI S_ 32 115200#32)
  let v40 : IVec S921600 32 := (broadcastInDim S921600 ![] bcast_S_S921600) c_6
  let v41 : IVec S921600 32 := (addi) v1 v40
  let v42 : IVec S921600 32 := (select) v39 v41 v1
  let v43 : IVec S921600x1 32 := (broadcastInDim S921600x1 ![0] bcast_S921600_S921600x1_0) v42
  let v44 : FVec F S921600x256 .f32 := ((fun x i => Host.gather gather_S115200x256_S921600x1_S921600x256_1_0_n_n_0_1_1256 x i)) x v43
  let cst_7 : FVec F S_ .f32 := (constant S_ .f32 0x00000000#32)
  let v45 : FVec F S115200x256 .f32 := (broadcastInDim S115200x256 ![] bcast_S_S115200x256) cst_7
  let v46 : IVec S921600x1 32 := (broadcastInDim S921600x1 ![0] bcast_S921600_S921600x1_0) v3
  let v47 : FVec F S115200x256 .f32 := ((fun x i u => Host.scatterAdd scatter_S115200x256_S921600x1_S921600x256_1_0_0_1 x i u)) v45 v46 v44
  v47

/-- The first layer's dense map on x + agg: a [N,1] by [1,256] product plus the bias row. -/
def dense1 (x : FVec F S115200x1 .f32) (agg : FVec F S115200x1 .f32) (w : FVec F S1x256 .f32) (b : FVec F S256 .f32) : FVec F S115200x256 .f32 :=
  let v14 : FVec F S115200x1 .f32 := (addf) x agg
  let v15 : FVec F S115200x256 .f32 := ((fun l r => Host.dotGeneral dot_S115200x1_S1x256_S115200x256_1_0_0_1_n_n none l r)) v14 w
  let v16 : FVec F S1x256 .f32 := (broadcastInDim S1x256 ![1] bcast_S256_S1x256_1) b
  let v17 : FVec F S115200x256 .f32 := (broadcastInDim S115200x256 ![0, 1] bcast_S1x256_S115200x256_0_1) v16
  let v18 : FVec F S115200x256 .f32 := (addf) v15 v17
  v18

/-- A hidden layer's dense map on x + agg: a [N,256] by [256,256] product plus the bias row. -/
def denseH (x : FVec F S115200x256 .f32) (agg : FVec F S115200x256 .f32) (w : FVec F S256x256 .f32) (b : FVec F S256 .f32) : FVec F S115200x256 .f32 :=
  let v48 : FVec F S115200x256 .f32 := (addf) x agg
  let v49 : FVec F S115200x256 .f32 := ((fun l r => Host.dotGeneral dot_S115200x256_S256x256_S115200x256_1_0_0_1_n_n none l r)) v48 w
  let v50 : FVec F S1x256 .f32 := (broadcastInDim S1x256 ![1] bcast_S256_S1x256_1) b
  let v51 : FVec F S115200x256 .f32 := (broadcastInDim S115200x256 ![0, 1] bcast_S1x256_S115200x256_0_1) v50
  let v52 : FVec F S115200x256 .f32 := (addf) v49 v51
  v52

/-- The mean of every row over its 256 features, as a one-column array. -/
def lnMean (h : FVec F S115200x256 .f32) : FVec F S115200x1 .f32 :=
  let cst_1 : FVec F S_ .f32 := (constant S_ .f32 0x00000000#32)
  let v19 : FVec F S115200 .f32 := ((fun x v => Host.reduceAdd x v reducesTo_S115200x256_S115200_d1 h_S_)) h cst_1
  let v20 : FVec F S115200x1 .f32 := (broadcastInDim S115200x1 ![0] bcast_S115200_S115200x1_0) v19
  let cst_2 : FVec F S_ .f32 := (constant S_ .f32 0x43800000#32)
  let v21 : FVec F S115200x1 .f32 := (broadcastInDim S115200x1 ![] bcast_S_S115200x1) cst_2
  let v22 : FVec F S115200x1 .f32 := (Host.divf) v20 v21
  v22

/-- The variance of every row over its 256 features, as the mean of the squared deviations from the row's mean. -/
def lnVar (h : FVec F S115200x256 .f32) : FVec F S115200x1 .f32 :=
  let c_3 : IVec S_ 32 := (constantI S_ 32 0#32)
  let call0_cst : FVec F S_ .f32 := (constant S_ .f32 0x00000000#32)
  let call0_v0 : FVec F S115200 .f32 := (fun x v => Host.reduceAdd x v reducesTo_S115200x256_S115200_d1 h_S_) h call0_cst
  let call0_v1 : FVec F S115200x1 .f32 := (broadcastInDim S115200x1 ![0] bcast_S115200_S115200x1_0) call0_v0
  let call0_cst_0 : FVec F S_ .f32 := (constant S_ .f32 0x43800000#32)
  let call0_v2 : FVec F S115200x1 .f32 := (broadcastInDim S115200x1 ![] bcast_S_S115200x1) call0_cst_0
  let call0_v3 : FVec F S115200x1 .f32 := Host.divf call0_v1 call0_v2
  let call0_v4 : FVec F S115200x256 .f32 := (broadcastInDim S115200x256 ![0, 1] bcast_S115200x1_S115200x256_0_1) call0_v3
  let call0_v5 : FVec F S115200x256 .f32 := subf h call0_v4
  let call0_v6 : FVec F S115200x256 .f32 := mulf call0_v5 call0_v5
  let call0_v7 : FVec F S_ .f32 := (sitofp .f32) c_3
  let call0_cst_1 : FVec F S_ .f32 := (constant S_ .f32 0x43800000#32)
  let call0_v8 : FVec F S_ .f32 := subf call0_cst_1 call0_v7
  let call0_cst_2 : FVec F S_ .f32 := (constant S_ .f32 0x00000000#32)
  let call0_v9 : FVec F S115200 .f32 := (fun x v => Host.reduceAdd x v reducesTo_S115200x256_S115200_d1 h_S_) call0_v6 call0_cst_2
  let call0_v10 : FVec F S115200x1 .f32 := (broadcastInDim S115200x1 ![0] bcast_S115200_S115200x1_0) call0_v9
  let call0_v11 : FVec F S115200x1 .f32 := (broadcastInDim S115200x1 ![] bcast_S_S115200x1) call0_v8
  let call0_v12 : FVec F S115200x1 .f32 := Host.divf call0_v10 call0_v11
  let call0_cst_3 : FVec F S_ .f32 := (constant S_ .f32 0x00000000#32)
  let call0_v13 : IVec S_ 1 := (cmpf .ogt) call0_v8 call0_cst_3
  let call0_cst_4 : FVec F S_ .f32 := (constant S_ .f32 0x7FC00000#32)
  let call0_call0_v0 : FVec F S_ .f32 := id call0_cst_4
  let call0_call0_v1 : FVec F S115200x1 .f32 := (broadcastInDim S115200x1 ![] bcast_S_S115200x1) call0_call0_v0
  let v23 : FVec F S115200x1 .f32 := (fun p a b => select (broadcastInDim S115200x1 ![] bcast_S_S115200x1 p) a b) call0_v13 call0_v12 call0_call0_v1
  v23

/-- Subtract the row's mean, scale by the inverse square root of the row's variance plus the small constant, then gain, shift and positive part. -/
def lnNorm (h : FVec F S115200x256 .f32) (mean : FVec F S115200x1 .f32) (var : FVec F S115200x1 .f32) (g : FVec F S256 .f32) (beta : FVec F S256 .f32) : FVec F S115200x256 .f32 :=
  let v24 : FVec F S115200x256 .f32 := (broadcastInDim S115200x256 ![0, 1] bcast_S115200x1_S115200x256_0_1) mean
  let v25 : FVec F S115200x256 .f32 := (subf) h v24
  let cst_4 : FVec F S_ .f32 := (constant S_ .f32 0x3727C5AC#32)
  let v26 : FVec F S115200x1 .f32 := (broadcastInDim S115200x1 ![] bcast_S_S115200x1) cst_4
  let v27 : FVec F S115200x1 .f32 := (addf) var v26
  let v28 : FVec F S115200x1 .f32 := (Host.rsqrt) v27
  let v29 : FVec F S115200x256 .f32 := (broadcastInDim S115200x256 ![0, 1] bcast_S115200x1_S115200x256_0_1) v28
  let v30 : FVec F S115200x256 .f32 := (mulf) v25 v29
  let v31 : FVec F S1x256 .f32 := (broadcastInDim S1x256 ![1] bcast_S256_S1x256_1) g
  let v32 : FVec F S115200x256 .f32 := (broadcastInDim S115200x256 ![0, 1] bcast_S1x256_S115200x256_0_1) v31
  let v33 : FVec F S115200x256 .f32 := (mulf) v30 v32
  let v34 : FVec F S1x256 .f32 := (broadcastInDim S1x256 ![1] bcast_S256_S1x256_1) beta
  let v35 : FVec F S115200x256 .f32 := (broadcastInDim S115200x256 ![0, 1] bcast_S1x256_S115200x256_0_1) v34
  let v36 : FVec F S115200x256 .f32 := (addf) v33 v35
  let call1_cst : FVec F S_ .f32 := (constant S_ .f32 0x00000000#32)
  let call1_v0 : FVec F S115200x256 .f32 := (broadcastInDim S115200x256 ![] bcast_S_S115200x256) call1_cst
  let v37 : FVec F S115200x256 .f32 := maximumf v36 call1_v0
  v37

/-- Row normalisation with gain and shift, then the positive part. -/
def ln (h : FVec F S115200x256 .f32) (g : FVec F S256 .f32) (beta : FVec F S256 .f32) : FVec F S115200x256 .f32 :=
  lnNorm h (lnMean h) (lnVar h) g beta

/-- The four feature arrays side by side, times the [769,512] weights, plus the bias row. -/
def denseCat (v : FVec F S115200x1 .f32) (x : FVec F S115200x256 .f32) (y : FVec F S115200x256 .f32) (z : FVec F S115200x256 .f32) (w : FVec F S769x512 .f32) (b : FVec F S512 .f32) : FVec F S115200x512 .f32 :=
  let v106 : FVec F S115200x769 .f32 := concatenate S115200x769 1 [⟨S115200x1, v⟩, ⟨S115200x256, x⟩, ⟨S115200x256, y⟩, ⟨S115200x256, z⟩] concatenates_S115200x1_S115200x256_S115200x256_S115200x256_S115200x769_d1
  let v107 : FVec F S115200x512 .f32 := ((fun l r => Host.dotGeneral dot_S115200x769_S769x512_S115200x512_1_0_0_1_n_n none l r)) v106 w
  let v108 : FVec F S1x512 .f32 := (broadcastInDim S1x512 ![1] bcast_S512_S1x512_1) b
  let v109 : FVec F S115200x512 .f32 := (broadcastInDim S115200x512 ![0, 1] bcast_S1x512_S115200x512_0_1) v108
  let v110 : FVec F S115200x512 .f32 := (addf) v107 v109
  v110

/-- The mean of every column over all the nodes. -/
def bnMean512 (h : FVec F S115200x512 .f32) : FVec F S512 .f32 :=
  let cst_19 : FVec F S_ .f32 := (constant S_ .f32 0x00000000#32)
  let v111 : FVec F S512 .f32 := ((fun x v => Host.reduceAdd x v reducesTo_S115200x512_S512_d0 h_S_)) h cst_19
  let cst_20 : FVec F S_ .f32 := (constant S_ .f32 0x47E10000#32)
  let v112 : FVec F S512 .f32 := (broadcastInDim S512 ![] bcast_S_S512) cst_20
  let v113 : FVec F S512 .f32 := (Host.divf) v111 v112
  v113

/-- The variance of every column over all the nodes, as the mean of the squared deviations from the column's mean. -/
def bnVar512 (h : FVec F S115200x512 .f32) : FVec F S512 .f32 :=
  let c_21 : IVec S_ 32 := (constantI S_ 32 0#32)
  let call6_cst : FVec F S_ .f32 := (constant S_ .f32 0x00000000#32)
  let call6_v0 : FVec F S512 .f32 := (fun x v => Host.reduceAdd x v reducesTo_S115200x512_S512_d0 h_S_) h call6_cst
  let call6_v1 : FVec F S1x512 .f32 := (broadcastInDim S1x512 ![1] bcast_S512_S1x512_1) call6_v0
  let call6_cst_0 : FVec F S_ .f32 := (constant S_ .f32 0x47E10000#32)
  let call6_v2 : FVec F S1x512 .f32 := (broadcastInDim S1x512 ![] bcast_S_S1x512) call6_cst_0
  let call6_v3 : FVec F S1x512 .f32 := Host.divf call6_v1 call6_v2
  let call6_v4 : FVec F S115200x512 .f32 := (broadcastInDim S115200x512 ![0, 1] bcast_S1x512_S115200x512_0_1) call6_v3
  let call6_v5 : FVec F S115200x512 .f32 := subf h call6_v4
  let call6_v6 : FVec F S115200x512 .f32 := mulf call6_v5 call6_v5
  let call6_v7 : FVec F S_ .f32 := (sitofp .f32) c_21
  let call6_cst_1 : FVec F S_ .f32 := (constant S_ .f32 0x47E10000#32)
  let call6_v8 : FVec F S_ .f32 := subf call6_cst_1 call6_v7
  let call6_cst_2 : FVec F S_ .f32 := (constant S_ .f32 0x00000000#32)
  let call6_v9 : FVec F S512 .f32 := (fun x v => Host.reduceAdd x v reducesTo_S115200x512_S512_d0 h_S_) call6_v6 call6_cst_2
  let call6_v10 : FVec F S512 .f32 := (broadcastInDim S512 ![] bcast_S_S512) call6_v8
  let call6_v11 : FVec F S512 .f32 := Host.divf call6_v9 call6_v10
  let call6_cst_3 : FVec F S_ .f32 := (constant S_ .f32 0x00000000#32)
  let call6_v12 : IVec S_ 1 := (cmpf .ogt) call6_v8 call6_cst_3
  let call6_cst_4 : FVec F S_ .f32 := (constant S_ .f32 0x7FC00000#32)
  let call6_call0_v0 : FVec F S_ .f32 := id call6_cst_4
  let call6_call0_v1 : FVec F S512 .f32 := (broadcastInDim S512 ![] bcast_S_S512) call6_call0_v0
  let v114 : FVec F S512 .f32 := (fun p a b => select (broadcastInDim S512 ![] bcast_S_S512 p) a b) call6_v12 call6_v11 call6_call0_v1
  v114

/-- Subtract the column's mean, scale by the inverse square root of the column's variance plus the small constant, then gain, shift and positive part. -/
def bnNorm512 (h : FVec F S115200x512 .f32) (mean : FVec F S512 .f32) (var : FVec F S512 .f32) (g : FVec F S512 .f32) (beta : FVec F S512 .f32) : FVec F S115200x512 .f32 :=
  let v115 : FVec F S1x512 .f32 := (broadcastInDim S1x512 ![1] bcast_S512_S1x512_1) mean
  let v116 : FVec F S115200x512 .f32 := (broadcastInDim S115200x512 ![0, 1] bcast_S1x512_S115200x512_0_1) v115
  let v117 : FVec F S115200x512 .f32 := (subf) h v116
  let cst_22 : FVec F S_ .f32 := (constant S_ .f32 0x3727C5AC#32)
  let v118 : FVec F S512 .f32 := (broadcastInDim S512 ![] bcast_S_S512) cst_22
  let v119 : FVec F S512 .f32 := (addf) var v118
  let v120 : FVec F S512 .f32 := (Host.rsqrt) v119
  let v121 : FVec F S1x512 .f32 := (broadcastInDim S1x512 ![1] bcast_S512_S1x512_1) v120
  let v122 : FVec F S115200x512 .f32 := (broadcastInDim S115200x512 ![0, 1] bcast_S1x512_S115200x512_0_1) v121
  let v123 : FVec F S115200x512 .f32 := (mulf) v117 v122
  let v124 : FVec F S1x512 .f32 := (broadcastInDim S1x512 ![1] bcast_S512_S1x512_1) g
  let v125 : FVec F S115200x512 .f32 := (broadcastInDim S115200x512 ![0, 1] bcast_S1x512_S115200x512_0_1) v124
  let v126 : FVec F S115200x512 .f32 := (mulf) v123 v125
  let v127 : FVec F S1x512 .f32 := (broadcastInDim S1x512 ![1] bcast_S512_S1x512_1) beta
  let v128 : FVec F S115200x512 .f32 := (broadcastInDim S115200x512 ![0, 1] bcast_S1x512_S115200x512_0_1) v127
  let v129 : FVec F S115200x512 .f32 := (addf) v126 v128
  let call7_cst : FVec F S_ .f32 := (constant S_ .f32 0x00000000#32)
  let call7_v0 : FVec F S115200x512 .f32 := (broadcastInDim S115200x512 ![] bcast_S_S115200x512) call7_cst
  let v130 : FVec F S115200x512 .f32 := maximumf v129 call7_v0
  v130

/-- Column normalisation over all the nodes with gain and shift, then the positive part, 512 columns. -/
def bn512 (h : FVec F S115200x512 .f32) (g : FVec F S512 .f32) (beta : FVec F S512 .f32) : FVec F S115200x512 .f32 :=
  bnNorm512 h (bnMean512 h) (bnVar512 h) g beta

/-- A [N,512] by [512,256] product plus the bias row. -/
def dense512 (x : FVec F S115200x512 .f32) (w : FVec F S512x256 .f32) (b : FVec F S256 .f32) : FVec F S115200x256 .f32 :=
  let v131 : FVec F S115200x256 .f32 := ((fun l r => Host.dotGeneral dot_S115200x512_S512x256_S115200x256_1_0_0_1_n_n none l r)) x w
  let v132 : FVec F S1x256 .f32 := (broadcastInDim S1x256 ![1] bcast_S256_S1x256_1) b
  let v133 : FVec F S115200x256 .f32 := (broadcastInDim S115200x256 ![0, 1] bcast_S1x256_S115200x256_0_1) v132
  let v134 : FVec F S115200x256 .f32 := (addf) v131 v133
  v134

/-- The mean of every column over all the nodes. -/
def bnMean256 (h : FVec F S115200x256 .f32) : FVec F S256 .f32 :=
  let cst_23 : FVec F S_ .f32 := (constant S_ .f32 0x00000000#32)
  let v135 : FVec F S256 .f32 := ((fun x v => Host.reduceAdd x v reducesTo_S115200x256_S256_d0 h_S_)) h cst_23
  let cst_24 : FVec F S_ .f32 := (constant S_ .f32 0x47E10000#32)
  let v136 : FVec F S256 .f32 := (broadcastInDim S256 ![] bcast_S_S256) cst_24
  let v137 : FVec F S256 .f32 := (Host.divf) v135 v136
  v137

/-- The variance of every column over all the nodes, as the mean of the squared deviations from the column's mean. -/
def bnVar256 (h : FVec F S115200x256 .f32) : FVec F S256 .f32 :=
  let c_25 : IVec S_ 32 := (constantI S_ 32 0#32)
  let call8_cst : FVec F S_ .f32 := (constant S_ .f32 0x00000000#32)
  let call8_v0 : FVec F S256 .f32 := (fun x v => Host.reduceAdd x v reducesTo_S115200x256_S256_d0 h_S_) h call8_cst
  let call8_v1 : FVec F S1x256 .f32 := (broadcastInDim S1x256 ![1] bcast_S256_S1x256_1) call8_v0
  let call8_cst_0 : FVec F S_ .f32 := (constant S_ .f32 0x47E10000#32)
  let call8_v2 : FVec F S1x256 .f32 := (broadcastInDim S1x256 ![] bcast_S_S1x256) call8_cst_0
  let call8_v3 : FVec F S1x256 .f32 := Host.divf call8_v1 call8_v2
  let call8_v4 : FVec F S115200x256 .f32 := (broadcastInDim S115200x256 ![0, 1] bcast_S1x256_S115200x256_0_1) call8_v3
  let call8_v5 : FVec F S115200x256 .f32 := subf h call8_v4
  let call8_v6 : FVec F S115200x256 .f32 := mulf call8_v5 call8_v5
  let call8_v7 : FVec F S_ .f32 := (sitofp .f32) c_25
  let call8_cst_1 : FVec F S_ .f32 := (constant S_ .f32 0x47E10000#32)
  let call8_v8 : FVec F S_ .f32 := subf call8_cst_1 call8_v7
  let call8_cst_2 : FVec F S_ .f32 := (constant S_ .f32 0x00000000#32)
  let call8_v9 : FVec F S256 .f32 := (fun x v => Host.reduceAdd x v reducesTo_S115200x256_S256_d0 h_S_) call8_v6 call8_cst_2
  let call8_v10 : FVec F S256 .f32 := (broadcastInDim S256 ![] bcast_S_S256) call8_v8
  let call8_v11 : FVec F S256 .f32 := Host.divf call8_v9 call8_v10
  let call8_cst_3 : FVec F S_ .f32 := (constant S_ .f32 0x00000000#32)
  let call8_v12 : IVec S_ 1 := (cmpf .ogt) call8_v8 call8_cst_3
  let call8_cst_4 : FVec F S_ .f32 := (constant S_ .f32 0x7FC00000#32)
  let call8_call0_v0 : FVec F S_ .f32 := id call8_cst_4
  let call8_call0_v1 : FVec F S256 .f32 := (broadcastInDim S256 ![] bcast_S_S256) call8_call0_v0
  let v138 : FVec F S256 .f32 := (fun p a b => select (broadcastInDim S256 ![] bcast_S_S256 p) a b) call8_v12 call8_v11 call8_call0_v1
  v138

/-- Subtract the column's mean, scale by the inverse square root of the column's variance plus the small constant, then gain, shift and positive part. -/
def bnNorm256 (h : FVec F S115200x256 .f32) (mean : FVec F S256 .f32) (var : FVec F S256 .f32) (g : FVec F S256 .f32) (beta : FVec F S256 .f32) : FVec F S115200x256 .f32 :=
  let v139 : FVec F S1x256 .f32 := (broadcastInDim S1x256 ![1] bcast_S256_S1x256_1) mean
  let v140 : FVec F S115200x256 .f32 := (broadcastInDim S115200x256 ![0, 1] bcast_S1x256_S115200x256_0_1) v139
  let v141 : FVec F S115200x256 .f32 := (subf) h v140
  let cst_26 : FVec F S_ .f32 := (constant S_ .f32 0x3727C5AC#32)
  let v142 : FVec F S256 .f32 := (broadcastInDim S256 ![] bcast_S_S256) cst_26
  let v143 : FVec F S256 .f32 := (addf) var v142
  let v144 : FVec F S256 .f32 := (Host.rsqrt) v143
  let v145 : FVec F S1x256 .f32 := (broadcastInDim S1x256 ![1] bcast_S256_S1x256_1) v144
  let v146 : FVec F S115200x256 .f32 := (broadcastInDim S115200x256 ![0, 1] bcast_S1x256_S115200x256_0_1) v145
  let v147 : FVec F S115200x256 .f32 := (mulf) v141 v146
  let v148 : FVec F S1x256 .f32 := (broadcastInDim S1x256 ![1] bcast_S256_S1x256_1) g
  let v149 : FVec F S115200x256 .f32 := (broadcastInDim S115200x256 ![0, 1] bcast_S1x256_S115200x256_0_1) v148
  let v150 : FVec F S115200x256 .f32 := (mulf) v147 v149
  let v151 : FVec F S1x256 .f32 := (broadcastInDim S1x256 ![1] bcast_S256_S1x256_1) beta
  let v152 : FVec F S115200x256 .f32 := (broadcastInDim S115200x256 ![0, 1] bcast_S1x256_S115200x256_0_1) v151
  let v153 : FVec F S115200x256 .f32 := (addf) v150 v152
  let call9_cst : FVec F S_ .f32 := (constant S_ .f32 0x00000000#32)
  let call9_v0 : FVec F S115200x256 .f32 := (broadcastInDim S115200x256 ![] bcast_S_S115200x256) call9_cst
  let v154 : FVec F S115200x256 .f32 := maximumf v153 call9_v0
  v154

/-- Column normalisation over all the nodes with gain and shift, then the positive part, 256 columns. -/
def bn256 (h : FVec F S115200x256 .f32) (g : FVec F S256 .f32) (beta : FVec F S256 .f32) : FVec F S115200x256 .f32 :=
  bnNorm256 h (bnMean256 h) (bnVar256 h) g beta

/-- A one-column head: a [N,256] by [256,1] product plus the bias. -/
def head (x : FVec F S115200x256 .f32) (w : FVec F S256x1 .f32) (b : FVec F S1 .f32) : FVec F S115200x1 .f32 :=
  let v155 : FVec F S115200x1 .f32 := ((fun l r => Host.dotGeneral dot_S115200x256_S256x1_S115200x1_1_0_0_1_n_n none l r)) x w
  let v156 : FVec F S1x1 .f32 := (broadcastInDim S1x1 ![1] bcast_S1_S1x1_1) b
  let v157 : FVec F S115200x1 .f32 := (broadcastInDim S115200x1 ![0, 1] bcast_S1x1_S115200x1_0_1) v156
  let v158 : FVec F S115200x1 .f32 := (addf) v155 v157
  v158

/-- The logarithm of the softmax over all the nodes of a one-column array. -/
def tailAct (a : FVec F S115200x1 .f32) : FVec F S115200x1 .f32 :=
  let call10_cst : FVec F S_ .f32 := (constant S_ .f32 0xFF800000#32)
  let call10_v0 : FVec F S1 .f32 := (fun x v => Host.reduce FloatOps.maximumf x v reducesTo_S115200x1_S1_d0 h_S_) a call10_cst
  let call10_cst_0 : FVec F S_ .f32 := (constant S_ .f32 0xFF800000#32)
  let call10_v1 : FVec F S1 .f32 := (broadcastInDim S1 ![] bcast_S_S1) call10_cst_0
  let call10_v2 : FVec F S1 .f32 := maximumf call10_v1 call10_v0
  let call10_v3 : FVec F S1x1 .f32 := (broadcastInDim S1x1 ![1] bcast_S1_S1x1_1) call10_v2
  let call10_v4 : FVec F S115200x1 .f32 := (broadcastInDim S115200x1 ![0, 1] bcast_S1x1_S115200x1_0_1) call10_v3
  let call10_v5 : FVec F S115200x1 .f32 := subf a call10_v4
  let call10_v6 : FVec F S115200x1 .f32 := Host.exp call10_v5
  let call10_cst_1 : FVec F S_ .f32 := (constant S_ .f32 0x00000000#32)
  let call10_v7 : FVec F S1 .f32 := (fun x v => Host.reduceAdd x v reducesTo_S115200x1_S1_d0 h_S_) call10_v6 call10_cst_1
  let call10_v8 : FVec F S1x1 .f32 := (broadcastInDim S1x1 ![1] bcast_S1_S1x1_1) call10_v7
  let call10_v9 : FVec F S1x1 .f32 := Host.log call10_v8
  let call10_v10 : FVec F S115200x1 .f32 := (broadcastInDim S115200x1 ![0, 1] bcast_S1x1_S115200x1_0_1) call10_v9
  let v159 : FVec F S115200x1 .f32 := subf call10_v5 call10_v10
  v159

/-- Per graph: the hyperbolic tangent of the sum of the nodes' values over the larger of the node count and one. -/
def tailVal (v : FVec F S115200x1 .f32) (ids : IVec S115200 32) : FVec F S512x1 .f32 :=
  let cst_27 : FVec F S_ .f32 := (constant S_ .f32 0x00000000#32)
  let v164 : FVec F S512x1 .f32 := (broadcastInDim S512x1 ![] bcast_S_S512x1) cst_27
  let v165 : IVec S115200x1 32 := (broadcastInDim S115200x1 ![0] bcast_S115200_S115200x1_0) ids
  let v166 : FVec F S512x1 .f32 := ((fun x i u => Host.scatterAdd scatter_S512x1_S115200x1_S115200x1_1_0_0_1 x i u)) v164 v165 v
  let cst_28 : FVec F S_ .f32 := (constant S_ .f32 0x3F800000#32)
  let v167 : FVec F S115200x1 .f32 := (broadcastInDim S115200x1 ![] bcast_S_S115200x1) cst_28
  let cst_29 : FVec F S_ .f32 := (constant S_ .f32 0x00000000#32)
  let v168 : FVec F S512x1 .f32 := (broadcastInDim S512x1 ![] bcast_S_S512x1) cst_29
  let v169 : IVec S115200x1 32 := (broadcastInDim S115200x1 ![0] bcast_S115200_S115200x1_0) ids
  let v170 : FVec F S512x1 .f32 := ((fun x i u => Host.scatterAdd scatter_S512x1_S115200x1_S115200x1_1_0_0_1 x i u)) v168 v169 v167
  let cst_30 : FVec F S_ .f32 := (constant S_ .f32 0x3F800000#32)
  let v171 : FVec F S512x1 .f32 := (broadcastInDim S512x1 ![] bcast_S_S512x1) cst_30
  let v172 : FVec F S512x1 .f32 := (maximumf) v170 v171
  let v173 : FVec F S512x1 .f32 := (Host.divf) v166 v172
  let v174 : FVec F S512x1 .f32 := (Host.tanh) v173
  v174

end Cert.ReferenceIdeal.RefStages

end
-- ==== Proof.Glue.lean ====
/-
  The two programs' host-side chains are the same functions.

  Outside the launches both programs apply the same host operations with the same dimension numbers: the neighbour
  sums before each graph layer (the source rows gathered, then added into a zero array at the targets) and the two
  result tails (the logarithm of the softmax over the nodes; per graph, the hyperbolic tangent of the mean value).
  Each program names its shapes, slices and dimension records for itself; the names denote equal values, so each
  chain of the one program is, operation by operation, the chain of the other.
-/
import proofs.«167845_j85727547228621_1_alg».proof.Proof.KChainDefs
import proofs.«167845_j85727547228621_1_alg».proof.Proof.RefStages

noncomputable section

namespace Cert.Glue

open Idealize.ShloMosaic

variable {F : FTy → Type} [FloatOps F]

attribute [local irreducible] Host.gather Host.scatterAdd Host.reduce Host.reduceAdd

set_option maxHeartbeats 200000 in
/-- The neighbour sums of a one-column array. -/
theorem agg1_eq (x : FVec F Cert.ReferenceIdeal.S115200x1 .f32) (ei : IVec Cert.ReferenceIdeal.S2x921600 32) :
    Cert.KernelIdeal.KChain.agg1 x ei = Cert.ReferenceIdeal.RefStages.agg1 x ei := by
  unfold Cert.KernelIdeal.KChain.agg1 Cert.ReferenceIdeal.RefStages.agg1
  rfl

set_option maxHeartbeats 200000 in
/-- The neighbour sums of a 256-column array. -/
theorem aggH_eq (x : FVec F Cert.ReferenceIdeal.S115200x256 .f32) (ei : IVec Cert.ReferenceIdeal.S2x921600 32) :
    Cert.KernelIdeal.KChain.aggH x ei = Cert.ReferenceIdeal.RefStages.aggH x ei := by
  unfold Cert.KernelIdeal.KChain.aggH Cert.ReferenceIdeal.RefStages.aggH
  rfl

set_option maxHeartbeats 200000 in
/-- The logarithm of the softmax over the nodes. -/
theorem tailAct_eq (a : FVec F Cert.ReferenceIdeal.S115200x1 .f32) :
    Cert.KernelIdeal.KChain.tailAct a = Cert.ReferenceIdeal.RefStages.tailAct a := by
  unfold Cert.KernelIdeal.KChain.tailAct Cert.ReferenceIdeal.RefStages.tailAct
  rfl

set_option maxHeartbeats 200000 in
/-- Per graph, the hyperbolic tangent of the mean value. -/
theorem tailVal_eq (v : FVec F Cert.ReferenceIdeal.S115200x1 .f32) (ids : IVec Cert.ReferenceIdeal.S115200 32) :
    Cert.KernelIdeal.KChain.tailVal v ids = Cert.ReferenceIdeal.RefStages.tailVal v ids := by
  unfold Cert.KernelIdeal.KChain.tailVal Cert.ReferenceIdeal.RefStages.tailVal
  rfl

end Cert.Glue

end
-- ==== Proof.SpecVar.lean ====
/-
  The two spellings of a variance agree on finite data.

  For real numbers f_1 … f_c and d = c ≠ 0, with S the sum of the f_i and μ = S / d,
      (Σ f_i²) / d − μ²  =  (Σ (f_i − μ)²) / d ,
  because Σ (f_i − μ)² = Σ f_i² − 2 μ S + c μ² and c μ = S.  On the extended reals the sums, the quotients by a
  nonzero real and the differences of real numbers are the real ones, so the identity carries over to arrays
  all of whose entries are real; the common value is a real number, and it is not negative.
-/
import proofs.«167845_j85727547228621_1_alg».proof.Proof.Spec
import proofs.«167845_j85727547228621_1_alg».proof.Proof.SpecReal
import Mathlib.Algebra.BigOperators.Field
import Mathlib.Tactic.Ring
import Mathlib.Tactic.FieldSimp
import Mathlib.Tactic.Positivity

noncomputable section

open scoped BigOperators

namespace Cert.Spec

open Idealize.ShloMosaic Idealize.ShloMosaic.ValueIdx

/-- A finite sum of real numbers, taken on the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real, taken on the extended reals, is the real quotient. -/
theorem div_real (x y : ℝ) (hy : y ≠ 0) : Ideal.div (x : EReal) (y : EReal) = ((x / y : ℝ) : EReal) := by
  rw [Ideal.div_coe hy, ← EReal.coe_mul, one_div, div_eq_mul_inv]

/-- The identity over the reals. -/
theorem var_identity {ι : Type} [Fintype ι] (f : ι → ℝ) (d : ℝ) (hd : d = (Fintype.card ι : ℝ)) (hd0 : d ≠ 0) :
    (∑ i, f i * f i) / d - ((∑ i, f i) / d) * ((∑ i, f i) / d)
      = (∑ i, (f i - (∑ j, f j) / d) * (f i - (∑ j, f j) / d)) / d := by
  set S := ∑ i, f i with hS
  have e : ∀ i, (f i - S / d) * (f i - S / d) = f i * f i - 2 * (S / d) * f i + (S / d) * (S / d) := fun i => by ring
  simp only [e, Finset.sum_add_distrib, Finset.sum_sub_distrib, ← Finset.mul_sum, Finset.sum_const, Finset.card_univ,
    nsmul_eq_mul, ← hS, ← hd]
  field_simp
  ring

/-- The common value is not negative. -/
theorem var_nonneg {ι : Type} [Fintype ι] (f : ι → ℝ) (d : ℝ) (hd0 : 0 < d) (μ : ℝ) :
    0 ≤ (∑ i, (f i - μ) * (f i - μ)) / d :=
  div_nonneg (Finset.sum_nonneg fun i _ => mul_self_nonneg _) hd0.le

/-! ## Rows -/

section Rows
variable {n c : Nat} (h : Mat n c) (d : EReal) (dr : ℝ) (hd : d = (dr : EReal)) (hdc : dr = (c : ℝ)) (hd0 : dr ≠ 0)
  (f : Fin n → Fin c → ℝ) (hf : ∀ p q, h (ix2 p q) = (f p q : EReal))
include hd hd0 hf

theorem rowMean_real (p : Fin n) : rowMean h d p = (((∑ q, f p q) / dr : ℝ) : EReal) := by
  unfold rowMean rowSum
  simp only [hf, coe_sum, hd]
  exact div_real _ _ hd0

theorem rowVarR_real (p : Fin n) :
    rowVarR h d p = (((∑ q, (f p q - (∑ j, f p j) / dr) * (f p q - (∑ j, f p j) / dr)) / dr : ℝ) : EReal) := by
  unfold rowVarR
  rw [rowMean_real h d dr hd hd0 f hf p]
  simp only [hf, ← EReal.coe_sub, ← EReal.coe_mul, coe_sum, hd]
  exact div_real _ _ hd0

theorem rowVarK_real (p : Fin n) :
    rowVarK h d p = (((∑ q, f p q * f p q) / dr - ((∑ q, f p q) / dr) * ((∑ q, f p q) / dr) : ℝ) : EReal) := by
  unfold rowVarK
  rw [rowMean_real h d dr hd hd0 f hf p]
  simp only [hf, ← EReal.coe_mul, coe_sum, hd]
  rw [div_real _ _ hd0, ← EReal.coe_sub]

include hdc
theorem rowVarK_eq_rowVarR (p : Fin n) : rowVarK h d p = rowVarR h d p := by
  rw [rowVarK_real h d dr hd hd0 f hf p, rowVarR_real h d dr hd hd0 f hf p]
  exact congrArg _ (var_identity (f p) dr (by rw [hdc, Fintype.card_fin]) hd0)
end Rows

/-! ## Columns -/

section Cols
variable {n c : Nat} (h : Mat n c) (d : EReal) (dr : ℝ) (hd : d = (dr : EReal)) (hdn : dr = (n : ℝ)) (hd0 : dr ≠ 0)
  (f : Fin n → Fin c → ℝ) (hf : ∀ p q, h (ix2 p q) = (f p q : EReal))
include hd hd0 hf

theorem colMean_real (q : Fin c) : colMean h d q = (((∑ p, f p q) / dr : ℝ) : EReal) := by
  unfold colMean colSum
  simp only [hf, coe_sum, hd]
  exact div_real _ _ hd0

theorem colVarR_real (q : Fin c) :
    colVarR h d q = (((∑ p, (f p q - (∑ j, f j q) / dr) * (f p q - (∑ j, f j q) / dr)) / dr : ℝ) : EReal) := by
  unfold colVarR
  rw [colMean_real h d dr hd hd0 f hf q]
  simp only [hf, ← EReal.coe_sub, ← EReal.coe_mul, coe_sum, hd]
  exact div_real _ _ hd0

theorem colVarK_real (q : Fin c) :
    colVarK h d q = (((∑ p, f p q * f p q) / dr - ((∑ p, f p q) / dr) * ((∑ p, f p q) / dr) : ℝ) : EReal) := by
  unfold colVarK colSumSq
  rw [colMean_real h d dr hd hd0 f hf q]
  simp only [hf, ← EReal.coe_mul, coe_sum, hd]
  rw [div_real _ _ hd0, ← EReal.coe_sub]

include hdn
theorem colVarK_eq_colVarR (q : Fin c) : colVarK h d q = colVarR h d q := by
  rw [colVarK_real h d dr hd hd0 f hf q, colVarR_real h d dr hd hd0 f hf q]
  exact congrArg _ (var_identity (fun p => f p q) dr (by rw [hdn, Fintype.card_fin]) hd0)
end Cols

end Cert.Spec

end
-- ==== Proof.LibConsts.lean ====
/- The f32 words this proof evaluates at the ideal instance: the word 0x3727C5AC (the nearest f32 to 1e-5) denotes a
   positive real.  Stated once, so that no other module unfolds the decoding of a word. -/
import Idealize.ShloMosaic.PureOps.Ideal

noncomputable section

namespace Cert.LibConsts

open Idealize.ShloMosaic

/-- The f32 word 0x3727C5AC denotes the dyadic rational 10995116 / 2^40, a positive real. -/
theorem eps_word : Ideal.ofBits .f32 0x3727C5AC#32 = (((10995116 : ℝ) / 1099511627776 : ℝ) : EReal) := by
  simp [Ideal.ofBits, Ideal.ieee, -EReal.coe_mul]; norm_num

theorem eps_pos : ∃ e : ℝ, 0 < e ∧ Ideal.ofBits .f32 0x3727C5AC#32 = (e : EReal) :=
  ⟨(10995116 : ℝ) / 1099511627776, by norm_num, eps_word⟩

end Cert.LibConsts

end
-- ==== Proof.SpecFinite.lean ====
/-
  Finite data stays finite through every layer.

  Sums, products and differences of real numbers are real.  A row or column normalisation of a finite array is
  finite because the variance, spelt as the mean of the squared deviations, is a real number that is not
  negative: adding the positive constant makes it positive, and the inverse square root of a positive real is
  real.  On finite data the other spelling of the variance is the same number, so both normalisations are one
  function there.
-/
import proofs.«167845_j85727547228621_1_alg».proof.Proof.SpecVar
import proofs.«167845_j85727547228621_1_alg».proof.Proof.LibConsts

noncomputable section

open scoped BigOperators

namespace Cert.Spec

open Idealize.ShloMosaic Idealize.ShloMosaic.ValueIdx

/-! ## The printed words -/

theorem c256_eq : c256 = ((256 : ℝ) : EReal) := by
  unfold c256; simp [Ideal.ofBits, Ideal.ieee, -EReal.coe_mul]; norm_num

theorem cN_eq : cN = ((115200 : ℝ) : EReal) := by
  unfold cN; simp [Ideal.ofBits, Ideal.ieee, -EReal.coe_mul]; norm_num

theorem eps_pos : ∃ e : ℝ, 0 < e ∧ eps = (e : EReal) := Cert.LibConsts.eps_pos

/-! ## Scalars -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_max0 {x : EReal} (hx : ∃ r : ℝ, x = r) : ∃ r : ℝ, max x 0 = r := by
  obtain ⟨a, rfl⟩ := hx
  rcases le_total a 0 with h | h
  · exact ⟨0, by rw [max_eq_right (by exact_mod_cast h)]; rfl⟩
  · exact ⟨a, max_eq_left (by exact_mod_cast h)⟩
theorem real_sum {ι : Type} (s : Finset ι) (f : ι → EReal) (hf : ∀ i, ∃ r : ℝ, f i = r) : ∃ r : ℝ, ∑ i ∈ s, f i = r := by
  choose g hg using hf
  exact ⟨∑ i ∈ s, g i, by simp only [hg]; exact coe_sum s g⟩
/-- The inverse square root of a nonnegative real plus the positive constant is a real number. -/
theorem real_rsqrt_eps {v : ℝ} (hv : 0 ≤ v) : ∃ r : ℝ, Ideal.rsqrt ((v : EReal) + eps) = r := by
  obtain ⟨e, he, hee⟩ := eps_pos
  rw [hee, ← EReal.coe_add, Ideal.rsqrt_coe, if_neg (by linarith), if_neg (by linarith)]
  exact ⟨_, rfl⟩

/-! ## Arrays -/

theorem isReal_add {n c : Nat} {x y : Mat n c} (hx : IsReal x) (hy : IsReal y) : IsReal (add x y) :=
  fun i => real_add (hx i) (hy i)

theorem isReal_dense {n k c : Nat} {x : Mat n k} {w : Mat k c} {b : Fin c → EReal} (hx : IsReal x) (hw : IsReal w)
    (hb : IsRealF b) : IsReal (dense x w b) :=
  fun i => real_add (real_sum _ _ fun j => real_mul (hx _) (hw _)) (hb _)

theorem isReal_dense4 {n k0 k1 k2 k3 c : Nat} {x0 : Mat n k0} {x1 : Mat n k1} {x2 : Mat n k2} {x3 : Mat n k3}
    {w0 : Mat k0 c} {w1 : Mat k1 c} {w2 : Mat k2 c} {w3 : Mat k3 c} {b : Fin c → EReal}
    (h0 : IsReal x0) (h1 : IsReal x1) (h2 : IsReal x2) (h3 : IsReal x3) (g0 : IsReal w0) (g1 : IsReal w1) (g2 : IsReal w2)
    (g3 : IsReal w3) (hb : IsRealF b) : IsReal (dense4 x0 x1 x2 x3 w0 w1 w2 w3 b) :=
  fun i => real_add (real_add (real_add (real_add (real_sum _ _ fun j => real_mul (h0 _) (g0 _))
    (real_sum _ _ fun j => real_mul (h1 _) (g1 _))) (real_sum _ _ fun j => real_mul (h2 _) (g2 _)))
    (real_sum _ _ fun j => real_mul (h3 _) (g3 _))) (hb _)

/-- Entries of a finite array as a real-valued function of the two coordinates. -/
theorem IsReal.coords {n c : Nat} {h : Mat n c} (hh : IsReal h) : ∃ f : Fin n → Fin c → ℝ, ∀ p q, h (ix2 p q) = (f p q : EReal) := by
  obtain ⟨f, hf⟩ := hh.choose_spec'
  exact ⟨fun p q => f (ix2 p q), fun p q => hf _⟩

/-- On a finite array with 256 columns the two row normalisations are one function. -/
theorem lnK_eq_lnR {n : Nat} {h : Mat n 256} (hh : IsReal h) (g β : Fin 256 → EReal) : lnK h g β = lnR h g β := by
  obtain ⟨f, hf⟩ := hh.coords
  unfold lnK lnR
  refine congrArg (fun v => normRows h (rowMean h c256) v g β) (funext fun p => ?_)
  exact rowVarK_eq_rowVarR h c256 256 c256_eq (by norm_num) (by norm_num) f hf p

/-- On a finite array with 115200 rows the two column normalisations are one function. -/
theorem bnK_eq_bnR {c : Nat} {h : Mat 115200 c} (hh : IsReal h) (g β : Fin c → EReal) : bnK h g β = bnR h g β := by
  obtain ⟨f, hf⟩ := hh.coords
  unfold bnK bnR
  refine congrArg (fun v => normCols h (colMean h cN) v g β) (funext fun q => ?_)
  exact colVarK_eq_colVarR h cN 115200 cN_eq (by norm_num) (by norm_num) f hf q

/-- A row normalisation of a finite array, with finite gain and shift, is finite. -/
theorem isReal_lnR {n : Nat} {h : Mat n 256} (hh : IsReal h) {g β : Fin 256 → EReal} (hg : IsRealF g) (hβ : IsRealF β) :
    IsReal (lnR h g β) := by
  obtain ⟨f, hf⟩ := hh.coords
  intro i
  obtain ⟨p, q, rfl⟩ : ∃ (p : Fin n) (q : Fin 256), i = ix2 p q := ⟨i 0, i 1, eq_ix2 i⟩
  unfold lnR
  rw [normRows_apply, rowVarR_real h c256 256 c256_eq (by norm_num) f hf p, rowMean_real h c256 256 c256_eq (by norm_num) f hf p]
  exact real_max0 (real_add (real_mul (real_mul (real_sub (hh _) ⟨_, rfl⟩)
    (real_rsqrt_eps (var_nonneg (f p) 256 (by norm_num) _))) (hg q)) (hβ q))

/-- A column normalisation of a finite array, with finite gain and shift, is finite. -/
theorem isReal_bnR {c : Nat} {h : Mat 115200 c} (hh : IsReal h) {g β : Fin c → EReal} (hg : IsRealF g) (hβ : IsRealF β) :
    IsReal (bnR h g β) := by
  obtain ⟨f, hf⟩ := hh.coords
  intro i
  obtain ⟨p, q, rfl⟩ : ∃ (p : Fin 115200) (q : Fin c), i = ix2 p q := ⟨i 0, i 1, eq_ix2 i⟩
  unfold bnR
  rw [normCols_apply, colVarR_real h cN 115200 cN_eq (by norm_num) f hf q, colMean_real h cN 115200 cN_eq (by norm_num) f hf q]
  exact real_max0 (real_add (real_mul (real_mul (real_sub (hh _) ⟨_, rfl⟩)
    (real_rsqrt_eps (var_nonneg (fun p => f p q) 115200 (by norm_num) _))) (hg q)) (hβ q))

end Cert.Spec

end
-- ==== Proof.GlueReal.lean ====
/-
  Finite data stays finite through the neighbour sums.

  At the ideal values a gather only re-indexes its operand, the zero array holds the real number zero everywhere,
  and a scatter with an adding body leaves, at each index, the operand's entry plus a finite sum of update entries.
  So when every entry of the feature array is a real number, every entry of its neighbour sums is a real number
  plus a finite sum of real numbers: a real number.
-/
import proofs.«167845_j85727547228621_1_alg».proof.Proof.RefStages
import proofs.«167845_j85727547228621_1_alg».proof.Proof.SpecReal
import proofs.«167845_j85727547228621_1_alg».proof.Proof.SpecFinite
import proofs.«167845_j85727547228621_1_alg».proof.Proof.LibRowReads
import Idealize.ShloMosaic.PureOps.Ideal.Laws

noncomputable section

open scoped BigOperators

namespace Cert.Glue

open Idealize.ShloMosaic Idealize.ShloMosaic.ValueIdx

/-- A gather re-indexes its operand: finite stays finite. -/
theorem gather_real {s si t : Shape} {w : Nat} (d : GatherDims s si t) (x : s.Idx → EReal) (idx : IVec si w)
    (hx : Spec.IsReal x) : Spec.IsReal (Host.gather d x idx) := by
  intro j
  unfold Host.gather
  exact hx _

/-- The zero array is finite. -/
theorem zeros_real {t : Shape} (h : (⟨0, ![]⟩ : Shape).BroadcastsInDim t ![]) :
    Spec.IsReal (broadcastInDim t ![] h (constant (F := Ideal) ⟨0, ![]⟩ .f32 0x00000000#32)) := by
  intro i
  refine ⟨0, ?_⟩
  rw [Cert.LibRowReads.splat_read, constant_apply, Ideal.ofBits_zero_f32]
  rfl

/-- A scatter with an adding body of finite updates into a finite array is finite. -/
theorem scatterAdd_real {s si su : Shape} {w : Nat} (d : ScatterDims s si su) (x : FVec Ideal s .f32) (idx : IVec si w)
    (upd : FVec Ideal su .f32) (hx : Spec.IsReal x) (hu : Spec.IsReal upd) : Spec.IsReal (Host.scatterAdd d x idx upd) := by
  intro i
  show ∃ r : ℝ, Ideal.hostScatterAdd d x idx upd i = r
  unfold Ideal.hostScatterAdd
  exact Spec.real_add (hx i) (Spec.real_sum _ _ fun j => hu j)

/-- The neighbour sums of a finite one-column array are finite. -/
theorem agg1_real (x : FVec Ideal Cert.ReferenceIdeal.S115200x1 .f32) (ei : IVec Cert.ReferenceIdeal.S2x921600 32)
    (hx : Spec.IsReal x) : Spec.IsReal (Cert.ReferenceIdeal.RefStages.agg1 x ei) := by
  unfold Cert.ReferenceIdeal.RefStages.agg1
  exact scatterAdd_real _ _ _ _ (zeros_real _) (gather_real _ _ _ hx)

/-- The neighbour sums of a finite 256-column array are finite. -/
theorem aggH_real (x : FVec Ideal Cert.ReferenceIdeal.S115200x256 .f32) (ei : IVec Cert.ReferenceIdeal.S2x921600 32)
    (hx : Spec.IsReal x) : Spec.IsReal (Cert.ReferenceIdeal.RefStages.aggH x ei) := by
  unfold Cert.ReferenceIdeal.RefStages.aggH
  exact scatterAdd_real _ _ _ _ (zeros_real _) (gather_real _ _ _ hx)

end Cert.Glue

end
-- ==== Proof.RefTab0.lean ====
/- The operations of window 0 of the reference program's @main (main_part0), the functions it calls
   written out at their call sites over the calls' buffer records: entry k of the lists below is operation
   1 + k of the 340 the program runs in order. Tables only. -/
import proofs.«167845_j85727547228621_1_alg».proof.Proof.Gen.ReferenceIdeal
import Idealize.ShloMosaic.Lib.StableHlo.Run

set_option synthInstance.maxSize 4096
set_option maxHeartbeats 40000000

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F]

/-- Operations 1 … 17 (17 of them), in order. -/
abbrev ops0 : List (HloOp τ sig (Elt F)) :=
  [ StableHlo.unary main_arg1 main_v0 ((extractStridedSlice S1x921600 ![0, 0] · slices_S2x921600_S1x921600_0_0) : (⟨S2x921600, .i32⟩ : BufTy).Contents (Elt F) → (⟨S1x921600, .i32⟩ : BufTy).Contents (Elt F)),
    StableHlo.reshape main_v0 main_v1 rfl shapeCasts_S1x921600_S921600,
    StableHlo.unary main_arg1 main_v2 ((extractStridedSlice S1x921600 ![1, 0] · slices_S2x921600_S1x921600_1_0) : (⟨S2x921600, .i32⟩ : BufTy).Contents (Elt F) → (⟨S1x921600, .i32⟩ : BufTy).Contents (Elt F)),
    StableHlo.reshape main_v2 main_v3 rfl shapeCasts_S1x921600_S921600,
    StableHlo.nullary main_c (constantI S_ 32 0#32),
    StableHlo.unary main_c main_v4 (broadcastInDim S921600 ![] bcast_S_S921600 : (⟨S_, .i32⟩ : BufTy).Contents (Elt F) → (⟨S921600, .i32⟩ : BufTy).Contents (Elt F)),
    StableHlo.binary main_v1 main_v4 main_v5 (cmpi .slt : (⟨S921600, .i32⟩ : BufTy).Contents (Elt F) → (⟨S921600, .i32⟩ : BufTy).Contents (Elt F) → (⟨S921600, .i1⟩ : BufTy).Contents (Elt F)),
    StableHlo.nullary main_c_0 (constantI S_ 32 115200#32),
    StableHlo.unary main_c_0 main_v6 (broadcastInDim S921600 ![] bcast_S_S921600 : (⟨S_, .i32⟩ : BufTy).Contents (Elt F) → (⟨S921600, .i32⟩ : BufTy).Contents (Elt F)),
    StableHlo.binary main_v1 main_v6 main_v7 (addi : (⟨S921600, .i32⟩ : BufTy).Contents (Elt F) → (⟨S921600, .i32⟩ : BufTy).Contents (Elt F) → (⟨S921600, .i32⟩ : BufTy).Contents (Elt F)),
    StableHlo.ternary main_v5 main_v7 main_v1 main_v8 (select : (⟨S921600, .i1⟩ : BufTy).Contents (Elt F) → (⟨S921600, .i32⟩ : BufTy).Contents (Elt F) → (⟨S921600, .i32⟩ : BufTy).Contents (Elt F) → (⟨S921600, .i32⟩ : BufTy).Contents (Elt F)),
    StableHlo.unary main_v8 main_v9 (broadcastInDim S921600x1 ![0] bcast_S921600_S921600x1_0 : (⟨S921600, .i32⟩ : BufTy).Contents (Elt F) → (⟨S921600x1, .i32⟩ : BufTy).Contents (Elt F)),
    StableHlo.binary main_arg0 main_v9 main_v10 ((fun x i => Host.gather gather_S115200x1_S921600x1_S921600x1_1_0_n_n_0_1_11 x i) : (⟨S115200x1, .f32⟩ : BufTy).Contents (Elt F) → (⟨S921600x1, .i32⟩ : BufTy).Contents (Elt F) → (⟨S921600x1, .f32⟩ : BufTy).Contents (Elt F)),
    StableHlo.nullary main_cst (constant S_ .f32 0x00000000#32),
    StableHlo.unary main_cst main_v11 (broadcastInDim S115200x1 ![] bcast_S_S115200x1 : (⟨S_, .f32⟩ : BufTy).Contents (Elt F) → (⟨S115200x1, .f32⟩ : BufTy).Contents (Elt F)),
    StableHlo.unary main_v3 main_v12 (broadcastInDim S921600x1 ![0] bcast_S921600_S921600x1_0 : (⟨S921600, .i32⟩ : BufTy).Contents (Elt F) → (⟨S921600x1, .i32⟩ : BufTy).Contents (Elt F)),
    StableHlo.ternary main_v11 main_v12 main_v10 main_v13 ((fun x i u => Host.scatterAdd scatter_S115200x1_S921600x1_S921600x1_1_0_0_1 x i u) : (⟨S115200x1, .f32⟩ : BufTy).Contents (Elt F) → (⟨S921600x1, .i32⟩ : BufTy).Contents (Elt F) → (⟨S921600x1, .f32⟩ : BufTy).Contents (Elt F) → (⟨S115200x1, .f32⟩ : BufTy).Contents (Elt F)) ]

/-- Operations 18 … 22 (5 of them), in order. -/
abbrev ops1 : List (HloOp τ sig (Elt F)) :=
  [ StableHlo.binary main_arg0 main_v13 main_v14 (addf : (⟨S115200x1, .f32⟩ : BufTy).Contents (Elt F) → (⟨S115200x1, .f32⟩ : BufTy).Contents (Elt F) → (⟨S115200x1, .f32⟩ : BufTy).Contents (Elt F)),
    StableHlo.binary main_v14 main_arg3 main_v15 ((fun l r => Host.dotGeneral dot_S115200x1_S1x256_S115200x256_1_0_0_1_n_n none l r) : (⟨S115200x1, .f32⟩ : BufTy).Contents (Elt F) → (⟨S1x256, .f32⟩ : BufTy).Contents (Elt F) → (⟨S115200x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S115200x256 ![0, 1] bcast_S1x256_S115200x256_0_1 : (⟨S1x256, .f32⟩ : BufTy).Contents (Elt F) → (⟨S115200x256, .f32⟩ : BufTy).Contents (Elt F)),
    StableHlo.binary main_v15 main_v17 main_v18 (addf : (⟨S115200x256, .f32⟩ : BufTy).Contents (Elt F) → (⟨S115200x256, .f32⟩ : BufTy).Contents (Elt F) → (⟨S115200x256, .f32⟩ : BufTy).Contents (Elt F)) ]

/-- Operations 23 … 28 (6 of them), in order. -/
abbrev ops2 : List (HloOp τ sig (Elt F)) :=
  [ StableHlo.nullary main_cst_1 (constant S_ .f32 0x00000000#32),
    StableHlo.binary main_v18 main_cst_1 main_v19 ((fun x v => Host.reduceAdd x v reducesTo_S115200x256_S115200_d1 h_S_) : (⟨S115200x256, .f32⟩ : BufTy).Contents (Elt F) → (⟨S_, .f32⟩ : BufTy).Contents (Elt F) → (⟨S115200, .f32⟩ : BufTy).Contents (Elt F)),
    StableHlo.unary main_v19 main_v20 (broadcastInDim S115200x1 ![0] bcast_S115200_S115200x1_0 : (⟨S115200, .f32⟩ : BufTy).Contents (Elt F) → (⟨S115200x1, .f32⟩ : BufTy).Contents (Elt F)),
    StableHlo.nullary main_cst_2 (constant S_ .f32 0x43800000#32),
    StableHlo.unary main_cst_2 main_v21 (broadcastInDim S115200x1 ![] bcast_S_S115200x1 : (⟨S_, .f32⟩ : BufTy).Contents (Elt F) → (⟨S115200x1, .f32⟩ : BufTy).Contents (Elt F)),
    StableHlo.binary main_v20 main_v21 main_v22 (Host.divf : (⟨S115200x1, .f32⟩ : BufTy).Contents (Elt F) → (⟨S115200x1, .f32⟩ : BufTy).Contents (Elt F) → (⟨S115200x1, .f32⟩ : BufTy).Contents (Elt F)) ]

/-- Operations 29 … 52 (24 of them), in order. -/
abbrev ops3 : List (HloOp τ sig (Elt F)) :=
  [ StableHlo.nullary main_c_3 (constantI S_ 32 0#32),
    StableHlo.TRef.nullary main_call0.cst (constant S_ .f32 0x00000000#32),
    StableHlo.TRef.binary (.of main_v18 : StableHlo.TRef sig ⟨S115200x256, .f32⟩) main_call0.cst main_call0.v0 (fun x v => Host.reduceAdd x v reducesTo_S115200x256_S115200_d1 h_S_),
    StableHlo.TRef.unary main_call0.v0 main_call0.v1 (broadcastInDim S115200x1 ![0] bcast_S115200_S115200x1_0),
    StableHlo.TRef.nullary main_call0.cst_0 (constant S_ .f32 0x43800000#32),
    StableHlo.TRef.unary main_call0.cst_0 main_call0.v2 (broadcastInDim S115200x1 ![] bcast_S_S115200x1),
    StableHlo.TRef.binary main_call0.v1 main_call0.v2 main_call0.v3 Host.divf,
    StableHlo.TRef.unary main_call0.v3 main_call0.v4 (broadcastInDim S115200x256 ![0, 1] bcast_S115200x1_S115200x256_0_1),
    StableHlo.TRef.binary (.of main_v18 : StableHlo.TRef sig ⟨S115200x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S115200x256_S115200_d1 h_S_),
    StableHlo.TRef.unary main_call0.v9 main_call0.v10 (broadcastInDim S115200x1 ![0] bcast_S115200_S115200x1_0),
    StableHlo.TRef.unary main_call0.v8 main_call0.v11 (broadcastInDim S115200x1 ![] bcast_S_S115200x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S115200x1 ![] bcast_S_S115200x1),
    StableHlo.TRef.ternary main_call0.v13 main_call0.v12 main_call0.call0.v1 main_call0.call0.v2 (fun p a b => select (broadcastInDim S115200x1 ![] bcast_S_S115200x1 p) a b) ]

/-- Operations 53 … 69 (17 of them), in order. -/
abbrev ops4 : List (HloOp τ sig (Elt F)) :=
  [ StableHlo.unary main_v22 main_v24 (broadcastInDim S115200x256 ![0, 1] bcast_S115200x1_S115200x256_0_1 : (⟨S115200x1, .f32⟩ : BufTy).Contents (Elt F) → (⟨S115200x256, .f32⟩ : BufTy).Contents (Elt F)),
    StableHlo.binary main_v18 main_v24 main_v25 (subf : (⟨S115200x256, .f32⟩ : BufTy).Contents (Elt F) → (⟨S115200x256, .f32⟩ : BufTy).Contents (Elt F) → (⟨S115200x256, .f32⟩ : BufTy).Contents (Elt F)),
    StableHlo.nullary main_cst_4 (constant S_ .f32 0x3727C5AC#32),
    StableHlo.unary main_cst_4 main_v26 (broadcastInDim S115200x1 ![] bcast_S_S115200x1 : (⟨S_, .f32⟩ : BufTy).Contents (Elt F) → (⟨S115200x1, .f32⟩ : BufTy).Contents (Elt F)),
    StableHlo.binary main_v23 main_v26 main_v27 (addf : (⟨S115200x1, .f32⟩ : BufTy).Contents (Elt F) → (⟨S115200x1, .f32⟩ : BufTy).Contents (Elt F) → (⟨S115200x1, .f32⟩ : BufTy).Contents (Elt F)),
    StableHlo.unary main_v27 main_v28 (Host.rsqrt : (⟨S115200x1, .f32⟩ : BufTy).Contents (Elt F) → (⟨S115200x1, .f32⟩ : BufTy).Contents (Elt F)),
    StableHlo.unary main_v28 main_v29 (broadcastInDim S115200x256 ![0, 1] bcast_S115200x1_S115200x256_0_1 : (⟨S115200x1, .f32⟩ : BufTy).Contents (Elt F) → (⟨S115200x256, .f32⟩ : BufTy).Contents (Elt F)),
    StableHlo.binary main_v25 main_v29 main_v30 (mulf : (⟨S115200x256, .f32⟩ : BufTy).Contents (Elt F) → (⟨S115200x256, .f32⟩ : BufTy).Contents (Elt F) → (⟨S115200x256, .f32⟩ : BufTy).Contents (Elt F)),
    StableHlo.unary main_arg9 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S115200x256 ![0, 1] bcast_S1x256_S115200x256_0_1 : (⟨S1x256, .f32⟩ : BufTy).Contents (Elt F) → (⟨S115200x256, .f32⟩ : BufTy).Contents (Elt F)),
    StableHlo.binary main_v30 main_v32 main_v33 (mulf : (⟨S115200x256, .f32⟩ : BufTy).Contents (Elt F) → (⟨S115200x256, .f32⟩ : BufTy).Contents (Elt F) → (⟨S115200x256, .f32⟩ : BufTy).Contents (Elt F)),
    StableHlo.unary main_arg10 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S115200x256 ![0, 1] bcast_S1x256_S115200x256_0_1 : (⟨S1x256, .f32⟩ : BufTy).Contents (Elt F) → (⟨S115200x256, .f32⟩ : BufTy).Contents (Elt F)),
    StableHlo.binary main_v33 main_v35 main_v36 (addf : (⟨S115200x256, .f32⟩ : BufTy).Contents (Elt F) → (⟨S115200x256, .f32⟩ : BufTy).Contents (Elt F) → (⟨S115200x256, .f32⟩ : BufTy).Contents (Elt F)),
    StableHlo.TRef.nullary main_call1.cst (constant S_ .f32 0x00000000#32),
    StableHlo.TRef.unary main_call1.cst main_call1.v0 (broadcastInDim S115200x256 ![] bcast_S_S115200x256),
    StableHlo.TRef.binary (.of main_v36 : StableHlo.TRef sig ⟨S115200x256, .f32⟩) main_call1.v0 main_call1.v1 maximumf ]

/-- Operations 70 … 82 (13 of them), in order. -/
abbrev ops5 : List (HloOp τ sig (Elt F)) :=
  [ StableHlo.nullary main_c_5 (constantI S_ 32 0#32),
    StableHlo.unary main_c_5 main_v38 (broadcastInDim S921600 ![] bcast_S_S921600 : (⟨S_, .i32⟩ : BufTy).Contents (Elt F) → (⟨S921600, .i32⟩ : BufTy).Contents (Elt F)),
    StableHlo.binary main_v1 main_v38 main_v39 (cmpi .slt : (⟨S921600, .i32⟩ : BufTy).Contents (Elt F) → (⟨S921600, .i32⟩ : BufTy).Contents (Elt F) → (⟨S921600, .i1⟩ : BufTy).Contents (Elt F)),
    StableHlo.nullary main_c_6 (constantI S_ 32 115200#32),
    StableHlo.unary main_c_6 main_v40 (broadcastInDim S921600 ![] bcast_S_S921600 : (⟨S_, .i32⟩ : BufTy).Contents (Elt F) → (⟨S921600, .i32⟩ : BufTy).Contents (Elt F)),
    StableHlo.binary main_v1 main_v40 main_v41 (addi : (⟨S921600, .i32⟩ : BufTy).Contents (Elt F) → (⟨S921600, .i32⟩ : BufTy).Contents (Elt F) → (⟨S921600, .i32⟩ : BufTy).Contents (Elt F)),
    StableHlo.ternary main_v39 main_v41 main_v1 main_v42 (select : (⟨S921600, .i1⟩ : BufTy).Contents (Elt F) → (⟨S921600, .i32⟩ : BufTy).Contents (Elt F) → (⟨S921600, .i32⟩ : BufTy).Contents (Elt F) → (⟨S921600, .i32⟩ : BufTy).Contents (Elt F)),
    StableHlo.unary main_v42 main_v43 (broadcastInDim S921600x1 ![0] bcast_S921600_S921600x1_0 : (⟨S921600, .i32⟩ : BufTy).Contents (Elt F) → (⟨S921600x1, .i32⟩ : BufTy).Contents (Elt F)),
    StableHlo.binary main_v37 main_v43 main_v44 ((fun x i => Host.gather gather_S115200x256_S921600x1_S921600x256_1_0_n_n_0_1_1256 x i) : (⟨S115200x256, .f32⟩ : BufTy).Contents (Elt F) → (⟨S921600x1, .i32⟩ : BufTy).Contents (Elt F) → (⟨S921600x256, .f32⟩ : BufTy).Contents (Elt F)),
    StableHlo.nullary main_cst_7 (constant S_ .f32 0x00000000#32),
    StableHlo.unary main_cst_7 main_v45 (broadcastInDim S115200x256 ![] bcast_S_S115200x256 : (⟨S_, .f32⟩ : BufTy).Contents (Elt F) → (⟨S115200x256, .f32⟩ : BufTy).Contents (Elt F)),
    StableHlo.unary main_v3 main_v46 (broadcastInDim S921600x1 ![0] bcast_S921600_S921600x1_0 : (⟨S921600, .i32⟩ : BufTy).Contents (Elt F) → (⟨S921600x1, .i32⟩ : BufTy).Contents (Elt F)),
    StableHlo.ternary main_v45 main_v46 main_v44 main_v47 ((fun x i u => Host.scatterAdd scatter_S115200x256_S921600x1_S921600x256_1_0_0_1 x i u) : (⟨S115200x256, .f32⟩ : BufTy).Contents (Elt F) → (⟨S921600x1, .i32⟩ : BufTy).Contents (Elt F) → (⟨S921600x256, .f32⟩ : BufTy).Contents (Elt F) → (⟨S115200x256, .f32⟩ : BufTy).Contents (Elt F)) ]

/-- Operations 83 … 84 (2 of them), in order. -/
abbrev ops6 : List (HloOp τ sig (Elt F)) :=
  [ StableHlo.binary main_v37 main_v47 main_v48 (addf : (⟨S115200x256, .f32⟩ : BufTy).Contents (Elt F) → (⟨S115200x256, .f32⟩ : BufTy).Contents (Elt F) → (⟨S115200x256, .f32⟩ : BufTy).Contents (Elt F)),
    StableHlo.binary main_v48 main_arg5 main_v49 ((fun l r => Host.dotGeneral dot_S115200x256_S256x256_S115200x256_1_0_0_1_n_n none l r) : (⟨S115200x256, .f32⟩ : BufTy).Contents (Elt F) → (⟨S256x256, .f32⟩ : BufTy).Contents (Elt F) → (⟨S115200x256, .f32⟩ : BufTy).Contents (Elt F)) ]

end Cert.ReferenceIdeal.RefRun

end
-- ==== Proof.RefLemmas.lean ====
/- Facts about a straight line of host operations that the run of the reference program uses, none of them about
   this program in particular: what a line leaves alone, and how the side conditions of the run theorem pass to a
   concatenation of lines. -/
import Idealize.ShloMosaic.Lib.StableHlo.Run
import Idealize.ShloMosaic.Lib.Pipeline.Frame

noncomputable section

namespace Cert.RefLemmas

open Idealize.ShloMosaic Idealize.SL.Sem Idealize.ShloMosaic.StableHlo

variable {τ : Topo} {sig : RefSig} {Val : EltTy → Type}

/-- The operation writes exactly one TensorCore reference, and that reference's index `i` (within its memory
    space) satisfies `lo ≤ i < hi`. In a program that gives every tensor value a buffer of its own, numbered in
    program order, a stretch of consecutive operations writes a stretch of consecutive indices. -/
def WritesIn (lo hi : Nat) (op : HloOp τ sig Val) : Prop :=
  ∃ y : Ref sig .tc, op.writes = {Proc.devRef .tc y} ∧ lo ≤ y.idx.val ∧ y.idx.val < hi

/-- A reference whose index lies outside `[lo, hi)` is written by no operation of a line all of whose
    operations write inside it: the line leaves its contents as they were. -/
theorem after_of_writesIn {lo hi : Nat} {ops : List (HloOp τ sig Val)} (h : ops.Forall (WritesIn lo hi))
    (r : Ref sig .tc) (hr : r.idx.val < lo ∨ hi ≤ r.idx.val) (V : Valuation τ sig Val) :
    after ops V (Proc.devRef .tc r) = V (Proc.devRef .tc r) :=
  after_of_forall_not_mem ops V fun op hop hb => by
    obtain ⟨y, hw, hlo, hhi⟩ := List.forall_iff_forall_mem.mp h op hop
    rw [hw, Finset.mem_singleton] at hb
    have e : r = y := Proc.devRef_injective _ hb
    subst e
    omega

/-- Writing inside a narrower stretch of indices is writing inside a wider one. -/
theorem WritesIn.mono {lo hi lo' hi' : Nat} (hl : lo' ≤ lo) (hh : hi ≤ hi') {op : HloOp τ sig Val}
    (h : WritesIn lo hi op) : WritesIn lo' hi' op :=
  let ⟨y, hw, h1, h2⟩ := h
  ⟨y, hw, Nat.le_trans hl h1, Nat.lt_of_lt_of_le h2 hh⟩

theorem forall_writesIn_mono {lo hi lo' hi' : Nat} (hl : lo' ≤ lo) (hh : hi ≤ hi') {ops : List (HloOp τ sig Val)}
    (h : ops.Forall (WritesIn lo hi)) : ops.Forall (WritesIn lo' hi') :=
  List.forall_iff_forall_mem.mpr fun op hop => (List.forall_iff_forall_mem.mp h op hop).mono hl hh

/-- A property of every operation of two lines is one of every operation of their concatenation. -/
theorem forall_append {p : HloOp τ sig Val → Prop} {l₁ l₂ : List (HloOp τ sig Val)}
    (h₁ : l₁.Forall p) (h₂ : l₂.Forall p) : (l₁ ++ l₂).Forall p :=
  List.forall_append.mpr ⟨h₁, h₂⟩

/-- The same over membership, the form in which the run theorem asks that no operation leave a buffer's contents
    undetermined. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op :=
  fun op h => (List.mem_append.mp h).elim (h₁ op) (h₂ op)

/-! ### A line given as numbered pieces -/

/-- The contents after the first `j` pieces of a family of pieces, run in order. -/
def afterUpTo (piece : Nat → List (HloOp τ sig Val)) : Nat → Valuation τ sig Val → Valuation τ sig Val
  | 0, V => V
  | j + 1, V => after (piece j) (afterUpTo piece j V)

@[simp] theorem afterUpTo_zero (piece : Nat → List (HloOp τ sig Val)) (V : Valuation τ sig Val) :
    afterUpTo piece 0 V = V := rfl
theorem afterUpTo_succ (piece : Nat → List (HloOp τ sig Val)) (j : Nat) (V : Valuation τ sig Val) :
    afterUpTo piece (j + 1) V = after (piece j) (afterUpTo piece j V) := rfl

/-- Pieces that write consecutive stretches of indices, `bound k ≤ i < bound (k + 1)` for piece `k`, with the
    bounds nondecreasing: a reference whose index is below `bound k` holds after `j ≥ k` pieces what it held
    after `k` — the pieces from `k` on write at or above `bound k`. -/
theorem afterUpTo_keep {piece : Nat → List (HloOp τ sig Val)} {bound : Nat → Nat}
    (hw : ∀ k, (piece k).Forall (WritesIn (bound k) (bound (k + 1)))) (hb : ∀ k, bound k ≤ bound (k + 1))
    {k j : Nat} (hkj : k ≤ j) (r : Ref sig .tc) (hr : r.idx.val < bound k) (V : Valuation τ sig Val) :
    afterUpTo piece j V (Proc.devRef .tc r) = afterUpTo piece k V (Proc.devRef .tc r) := by
  induction j, hkj using Nat.le_induction with
  | base => rfl
  | succ j hkj ih =>
    rw [afterUpTo_succ, after_of_writesIn (hw j) r (Or.inl (Nat.lt_of_lt_of_le hr (monotone_nat_of_le_succ hb hkj))), ih]

end Cert.RefLemmas

end
-- ==== Proof.RefOps0.lean ====
/- Window 0 of the reference program's @main is the straight line of the operations listed for it, and what
   each piece of that line touches and writes. The window is a sequence of operation steps with the called
   functions' bodies standing at their call sites; unfolding the functions at their buffer records and
   re-associating the sequencing gives the list, step for step, so the two programs are equal by computation.
   The three facts about a piece are proved the same way for every piece: each operation is one of the
   builders, whose buffers, written buffer and determinacy are read off its definition. -/
import proofs.«167845_j85727547228621_1_alg».proof.Proof.RefTab0
import proofs.«167845_j85727547228621_1_alg».proof.Proof.RefLemmas

set_option synthInstance.maxSize 4096

noncomputable section

namespace Cert.ReferenceIdeal.RefRun

open Cert.RefLemmas Cert.ReferenceIdeal Cert.ReferenceIdeal.Gen Idealize.ShloMosaic Idealize.ShloMosaic.TcCoe Idealize.SL.Sem Idealize.ShloMosaic.StableHlo

variable {F : FTy → Type} [FloatOps F]

/-- Window 0 runs the operations of pieces 0 … 6, in order, and nothing else. -/
theorem part0_eq (c : Dev nD) : main_part0 (F := F) c = seq (ops0 ++ ops1 ++ ops2 ++ ops3 ++ ops4 ++ ops5 ++ ops6) := rfl

/-- Every operation of piece 0 touches TensorCore references only: each is one of the builders, whose buffers
    are its operands' and its result's. -/
theorem ops0_sub : (ops0 : List (HloOp τ sig (Elt F))).Forall fun op => op.bufs ⊆ tcRefs τ sig := by
  simp only [ops0, List.Forall, nullary_bufs_sub, unary_bufs_sub, binary_bufs_sub, ternary_bufs_sub,
    reshape_bufs_sub, nary_bufs_sub, and_self]

/-- Every operation of piece 0 determines the contents it writes (none allocates without writing). -/
theorem ops0_fresh : ∀ op ∈ (ops0 : List (HloOp τ sig (Elt F))), op.fresh = ∅ := by
  refine List.forall_iff_forall_mem.mp ?_
  repeat' apply And.intro
  all_goals rfl

/-- Every operation of piece 0 writes exactly one buffer, and these are the buffers numbered 23 … 39: each
    value of the program has a buffer of its own, numbered in program order. -/
theorem ops0_writes : (ops0 : List (HloOp τ sig (Elt F))).Forall (WritesIn 23 40) := by
  repeat' apply And.intro
  all_goals exact ⟨_, rfl, by decide, by decide⟩

/-- Every operation of piece 1 touches TensorCore references only: each is one of the builders, whose buffers
    are its operands' and its result's. -/
theorem ops1_sub : (ops1 : List (HloOp τ sig (Elt F))).Forall fun op => op.bufs ⊆ tcRefs τ sig := by
  simp only [ops1, List.Forall, nullary_bufs_sub, unary_bufs_sub, binary_bufs_sub, ternary_bufs_sub,
    reshape_bufs_sub, nary_bufs_sub, and_self]

/-- Every operation of piece 1 determines the contents it writes (none allocates without writing). -/
theorem ops1_fresh : ∀ op ∈ (ops1 : List (HloOp τ sig (Elt F))), op.fresh = ∅ := by
  refine List.forall_iff_forall_mem.mp ?_
  repeat' apply And.intro
  all_goals rfl

/-- Every operation of piece 1 writes exactly one buffer, and these are the buffers numbered 40 … 44: each
    value of the program has a buffer of its own, numbered in program order. -/
theorem ops1_writes : (ops1 : List (HloOp τ sig (Elt F))).Forall (WritesIn 40 45) := by
  repeat' apply And.intro
  all_goals exact ⟨_, rfl, by decide, by decide⟩

/-- Every operation of piece 2 touches TensorCore references only: each is one of the builders, whose buffers
    are its operands' and its result's. -/
theorem ops2_sub : (ops2 : List (HloOp τ sig (Elt F))).Forall fun op => op.bufs ⊆ tcRefs τ sig := by
  simp only [ops2, List.Forall, nullary_bufs_sub, unary_bufs_sub, binary_bufs_sub, ternary_bufs_sub,
    reshape_bufs_sub, nary_bufs_sub, and_self]

/-- Every operation of piece 2 determines the contents it writes (none allocates without writing). -/
theorem ops2_fresh : ∀ op ∈ (ops2 : List (HloOp τ sig (Elt F))), op.fresh = ∅ := by
  refine List.forall_iff_forall_mem.mp ?_
  repeat' apply And.intro
  all_goals rfl

/-- Every operation of piece 2 writes exactly one buffer, and these are the buffers numbered 45 … 50: each
    value of the program has a buffer of its own, numbered in program order. -/
theorem ops2_writes : (ops2 : List (HloOp τ sig (Elt F))).Forall (WritesIn 45 51) := by
  repeat' apply And.intro
  all_goals exact ⟨_, rfl, by decide, by decide⟩

/-- Every operation of piece 3 touches TensorCore references only: each is one of the builders, whose buffers
    are its operands' and its result's. -/
theorem ops3_sub : (ops3 : List (HloOp τ sig (Elt F))).Forall fun op => op.bufs ⊆ tcRefs τ sig := by
  simp only [ops3, List.Forall, nullary_bufs_sub, unary_bufs_sub, binary_bufs_sub, ternary_bufs_sub,
    reshape_bufs_sub, nary_bufs_sub, and_self]

/-- Every operation of piece 3 determines the contents it writes (none allocates without writing). -/
theorem ops3_fresh : ∀ op ∈ (ops3 : List (HloOp τ sig (Elt F))), op.fresh = ∅ := by
  refine List.forall_iff_forall_mem.mp ?_
  repeat' apply And.intro
  all_goals rfl

/-- Every operation of piece 3 writes exactly one buffer, and these are the buffers numbered 51 … 74: each
    value of the program has a buffer of its own, numbered in program order. -/
theorem ops3_writes : (ops3 : List (HloOp τ sig (Elt F))).Forall (WritesIn 51 75) := by
  repeat' apply And.intro
  all_goals exact ⟨_, rfl, by decide, by decide⟩

/-- Every operation of piece 4 touches TensorCore references only: each is one of the builders, whose buffers
    are its operands' and its result's. -/
theorem ops4_sub : (ops4 : List (HloOp τ sig (Elt F))).Forall fun op => op.bufs ⊆ tcRefs τ sig := by
  simp only [ops4, List.Forall, nullary_bufs_sub, unary_bufs_sub, binary_bufs_sub, ternary_bufs_sub,
    reshape_bufs_sub, nary_bufs_sub, and_self]

/-- Every operation of piece 4 determines the contents it writes (none allocates without writing). -/
theorem ops4_fresh : ∀ op ∈ (ops4 : List (HloOp τ sig (Elt F))), op.fresh = ∅ := by
  refine List.forall_iff_forall_mem.mp ?_
  repeat' apply And.intro
  all_goals rfl

/-- Every operation of piece 4 writes exactly one buffer, and these are the buffers numbered 75 … 91: each
    value of the program has a buffer of its own, numbered in program order. -/
theorem ops4_writes : (ops4 : List (HloOp τ sig (Elt F))).Forall (WritesIn 75 92) := by
  repeat' apply And.intro
  all_goals exact ⟨_, rfl, by decide, by decide⟩

/-- Every operation of piece 5 touches TensorCore references only: each is one of the builders, whose buffers
    are its operands' and its result's. -/
theorem ops5_sub : (ops5 : List (HloOp τ sig (Elt F))).Forall fun op => op.bufs ⊆ tcRefs τ sig := by
  simp only [ops5, List.Forall, nullary_bufs_sub, unary_bufs_sub, binary_bufs_sub, ternary_bufs_sub,
    reshape_bufs_sub, nary_bufs_sub, and_self]

/-- Every operation of piece 5 determines the contents it writes (none allocates without writing). -/
theorem ops5_fresh : ∀ op ∈ (ops5 : List (HloOp τ sig (Elt F))), op.fresh = ∅ := by
  refine List.forall_iff_forall_mem.mp ?_
  repeat' apply And.intro
  all_goals rfl

/-- Every operation of piece 5 writes exactly one buffer, and these are the buffers numbered 92 … 104: each
    value of the program has a buffer of its own, numbered in program order. -/
theorem ops5_writes : (ops5 : List (HloOp τ sig (Elt F))).Forall (WritesIn 92 105) := by
  repeat' apply And.intro
  all_goals exact ⟨_, rfl, by decide, by decide⟩

/-- Every operation of piece 6 touches TensorCore references only: each is one of the builders, whose buffers
    are its operands' and its result's. -/
theorem ops6_sub : (ops6 : List (HloOp τ sig (Elt F))).Forall fun op => op.bufs ⊆ tcRefs τ sig := by
  simp only [ops6, List.Forall, nullary_bufs_sub, unary_bufs_sub, binary_bufs_sub, ternary_bufs_sub,
    reshape_bufs_sub, nary_bufs_sub, and_self]

/-- Every operation of piece 6 determines the contents it writes (none allocates without writing). -/
theorem ops6_fresh : ∀ op ∈ (ops6 : List (HloOp τ sig (Elt F))), op.fresh = ∅ := by
  refine List.forall_iff_forall_mem.mp ?_
  repeat' apply And.intro
  all_goals rfl

/-- Every operation of piece 6 writes exactly one buffer, and these are the buffers numbered 105 … 106: each
    value of the program has a buffer of its own, numbered in program order. -/
theorem ops6_writes : (ops6 : List (HloOp τ sig (Elt F))).Forall (WritesIn 105 107) := by
  repeat' apply And.intro
  all_goals exact ⟨_, rfl, by decide, by decide⟩

end Cert.ReferenceIdeal.RefRun

end
-- ==== Proof.RefTab1.lean ====
/- The operations of window 1 of the reference program's @main (main_part1), the functions it calls
   written out at their call sites over the calls' buffer records: entry k of the lists below is operation
   85 + k of the 340 the program runs in order. Tables only. -/
import proofs.«167845_j85727547228621_1_alg».proof.Proof.Gen.ReferenceIdeal
import Idealize.ShloMosaic.Lib.StableHlo.Run

set_option synthInstance.maxSize 4096
set_option maxHeartbeats 40000000

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F]

/-- Operations 85 … 87 (3 of them), in order. -/
abbrev ops7 : List (HloOp τ sig (Elt F)) :=
  [ StableHlo.unary main_arg6 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S115200x256 ![0, 1] bcast_S1x256_S115200x256_0_1 : (⟨S1x256, .f32⟩ : BufTy).Contents (Elt F) → (⟨S115200x256, .f32⟩ : BufTy).Contents (Elt F)),
    StableHlo.binary main_v49 main_v51 main_v52 (addf : (⟨S115200x256, .f32⟩ : BufTy).Contents (Elt F) → (⟨S115200x256, .f32⟩ : BufTy).Contents (Elt F) → (⟨S115200x256, .f32⟩ : BufTy).Contents (Elt F)) ]

/-- Operations 88 … 93 (6 of them), in order. -/
abbrev ops8 : List (HloOp τ sig (Elt F)) :=
  [ StableHlo.nullary main_cst_8 (constant S_ .f32 0x00000000#32),
    StableHlo.binary main_v52 main_cst_8 main_v53 ((fun x v => Host.reduceAdd x v reducesTo_S115200x256_S115200_d1 h_S_) : (⟨S115200x256, .f32⟩ : BufTy).Contents (Elt F) → (⟨S_, .f32⟩ : BufTy).Contents (Elt F) → (⟨S115200, .f32⟩ : BufTy).Contents (Elt F)),
    StableHlo.unary main_v53 main_v54 (broadcastInDim S115200x1 ![0] bcast_S115200_S115200x1_0 : (⟨S115200, .f32⟩ : BufTy).Contents (Elt F) → (⟨S115200x1, .f32⟩ : BufTy).Contents (Elt F)),
    StableHlo.nullary main_cst_9 (constant S_ .f32 0x43800000#32),
    StableHlo.unary main_cst_9 main_v55 (broadcastInDim S115200x1 ![] bcast_S_S115200x1 : (⟨S_, .f32⟩ : BufTy).Contents (Elt F) → (⟨S115200x1, .f32⟩ : BufTy).Contents (Elt F)),
    StableHlo.binary main_v54 main_v55 main_v56 (Host.divf : (⟨S115200x1, .f32⟩ : BufTy).Contents (Elt F) → (⟨S115200x1, .f32⟩ : BufTy).Contents (Elt F) → (⟨S115200x1, .f32⟩ : BufTy).Contents (Elt F)) ]

/-- Operations 94 … 117 (24 of them), in order. -/
abbrev ops9 : List (HloOp τ sig (Elt F)) :=
  [ StableHlo.nullary main_c_10 (constantI S_ 32 0#32),
    StableHlo.TRef.nullary main_call2.cst (constant S_ .f32 0x00000000#32),
    StableHlo.TRef.binary (.of main_v52 : StableHlo.TRef sig ⟨S115200x256, .f32⟩) main_call2.cst main_call2.v0 (fun x v => Host.reduceAdd x v reducesTo_S115200x256_S115200_d1 h_S_),
    StableHlo.TRef.unary main_call2.v0 main_call2.v1 (broadcastInDim S115200x1 ![0] bcast_S115200_S115200x1_0),
    StableHlo.TRef.nullary main_call2.cst_0 (constant S_ .f32 0x43800000#32),
    StableHlo.TRef.unary main_call2.cst_0 main_call2.v2 (broadcastInDim S115200x1 ![] bcast_S_S115200x1),
    StableHlo.TRef.binary main_call2.v1 main_call2.v2 main_call2.v3 Host.divf,
    StableHlo.TRef.unary main_call2.v3 main_call2.v4 (broadcastInDim S115200x256 ![0, 1] bcast_S115200x1_S115200x256_0_1),
    StableHlo.TRef.binary (.of main_v52 : StableHlo.TRef sig ⟨S115200x256, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x43800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S115200x256_S115200_d1 h_S_),
    StableHlo.TRef.unary main_call2.v9 main_call2.v10 (broadcastInDim S115200x1 ![0] bcast_S115200_S115200x1_0),
    StableHlo.TRef.unary main_call2.v8 main_call2.v11 (broadcastInDim S115200x1 ![] bcast_S_S115200x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S115200x1 ![] bcast_S_S115200x1),
    StableHlo.TRef.ternary main_call2.v13 main_call2.v12 main_call2.call0.v1 main_call2.call0.v2 (fun p a b => select (broadcastInDim S115200x1 ![] bcast_S_S115200x1 p) a b) ]

/-- Operations 118 … 134 (17 of them), in order. -/
abbrev ops10 : List (HloOp τ sig (Elt F)) :=
  [ StableHlo.unary main_v56 main_v58 (broadcastInDim S115200x256 ![0, 1] bcast_S115200x1_S115200x256_0_1 : (⟨S115200x1, .f32⟩ : BufTy).Contents (Elt F) → (⟨S115200x256, .f32⟩ : BufTy).Contents (Elt F)),
    StableHlo.binary main_v52 main_v58 main_v59 (subf : (⟨S115200x256, .f32⟩ : BufTy).Contents (Elt F) → (⟨S115200x256, .f32⟩ : BufTy).Contents (Elt F) → (⟨S115200x256, .f32⟩ : BufTy).Contents (Elt F)),
    StableHlo.nullary main_cst_11 (constant S_ .f32 0x3727C5AC#32),
    StableHlo.unary main_cst_11 main_v60 (broadcastInDim S115200x1 ![] bcast_S_S115200x1 : (⟨S_, .f32⟩ : BufTy).Contents (Elt F) → (⟨S115200x1, .f32⟩ : BufTy).Contents (Elt F)),
    StableHlo.binary main_v57 main_v60 main_v61 (addf : (⟨S115200x1, .f32⟩ : BufTy).Contents (Elt F) → (⟨S115200x1, .f32⟩ : BufTy).Contents (Elt F) → (⟨S115200x1, .f32⟩ : BufTy).Contents (Elt F)),
    StableHlo.unary main_v61 main_v62 (Host.rsqrt : (⟨S115200x1, .f32⟩ : BufTy).Contents (Elt F) → (⟨S115200x1, .f32⟩ : BufTy).Contents (Elt F)),
    StableHlo.unary main_v62 main_v63 (broadcastInDim S115200x256 ![0, 1] bcast_S115200x1_S115200x256_0_1 : (⟨S115200x1, .f32⟩ : BufTy).Contents (Elt F) → (⟨S115200x256, .f32⟩ : BufTy).Contents (Elt F)),
    StableHlo.binary main_v59 main_v63 main_v64 (mulf : (⟨S115200x256, .f32⟩ : BufTy).Contents (Elt F) → (⟨S115200x256, .f32⟩ : BufTy).Contents (Elt F) → (⟨S115200x256, .f32⟩ : BufTy).Contents (Elt F)),
    StableHlo.unary main_arg9 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S115200x256 ![0, 1] bcast_S1x256_S115200x256_0_1 : (⟨S1x256, .f32⟩ : BufTy).Contents (Elt F) → (⟨S115200x256, .f32⟩ : BufTy).Contents (Elt F)),
    StableHlo.binary main_v64 main_v66 main_v67 (mulf : (⟨S115200x256, .f32⟩ : BufTy).Contents (Elt F) → (⟨S115200x256, .f32⟩ : BufTy).Contents (Elt F) → (⟨S115200x256, .f32⟩ : BufTy).Contents (Elt F)),
    StableHlo.unary main_arg10 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S115200x256 ![0, 1] bcast_S1x256_S115200x256_0_1 : (⟨S1x256, .f32⟩ : BufTy).Contents (Elt F) → (⟨S115200x256, .f32⟩ : BufTy).Contents (Elt F)),
    StableHlo.binary main_v67 main_v69 main_v70 (addf : (⟨S115200x256, .f32⟩ : BufTy).Contents (Elt F) → (⟨S115200x256, .f32⟩ : BufTy).Contents (Elt F) → (⟨S115200x256, .f32⟩ : BufTy).Contents (Elt F)),
    StableHlo.TRef.nullary main_call3.cst (constant S_ .f32 0x00000000#32),
    StableHlo.TRef.unary main_call3.cst main_call3.v0 (broadcastInDim S115200x256 ![] bcast_S_S115200x256),
    StableHlo.TRef.binary (.of main_v70 : StableHlo.TRef sig ⟨S115200x256, .f32⟩) main_call3.v0 main_call3.v1 maximumf ]

/-- Operations 135 … 147 (13 of them), in order. -/
abbrev ops11 : List (HloOp τ sig (Elt F)) :=
  [ StableHlo.nullary main_c_12 (constantI S_ 32 0#32),
    StableHlo.unary main_c_12 main_v72 (broadcastInDim S921600 ![] bcast_S_S921600 : (⟨S_, .i32⟩ : BufTy).Contents (Elt F) → (⟨S921600, .i32⟩ : BufTy).Contents (Elt F)),
    StableHlo.binary main_v1 main_v72 main_v73 (cmpi .slt : (⟨S921600, .i32⟩ : BufTy).Contents (Elt F) → (⟨S921600, .i32⟩ : BufTy).Contents (Elt F) → (⟨S921600, .i1⟩ : BufTy).Contents (Elt F)),
    StableHlo.nullary main_c_13 (constantI S_ 32 115200#32),
    StableHlo.unary main_c_13 main_v74 (broadcastInDim S921600 ![] bcast_S_S921600 : (⟨S_, .i32⟩ : BufTy).Contents (Elt F) → (⟨S921600, .i32⟩ : BufTy).Contents (Elt F)),
    StableHlo.binary main_v1 main_v74 main_v75 (addi : (⟨S921600, .i32⟩ : BufTy).Contents (Elt F) → (⟨S921600, .i32⟩ : BufTy).Contents (Elt F) → (⟨S921600, .i32⟩ : BufTy).Contents (Elt F)),
    StableHlo.ternary main_v73 main_v75 main_v1 main_v76 (select : (⟨S921600, .i1⟩ : BufTy).Contents (Elt F) → (⟨S921600, .i32⟩ : BufTy).Contents (Elt F) → (⟨S921600, .i32⟩ : BufTy).Contents (Elt F) → (⟨S921600, .i32⟩ : BufTy).Contents (Elt F)),
    StableHlo.unary main_v76 main_v77 (broadcastInDim S921600x1 ![0] bcast_S921600_S921600x1_0 : (⟨S921600, .i32⟩ : BufTy).Contents (Elt F) → (⟨S921600x1, .i32⟩ : BufTy).Contents (Elt F)),
    StableHlo.binary main_v71 main_v77 main_v78 ((fun x i => Host.gather gather_S115200x256_S921600x1_S921600x256_1_0_n_n_0_1_1256 x i) : (⟨S115200x256, .f32⟩ : BufTy).Contents (Elt F) → (⟨S921600x1, .i32⟩ : BufTy).Contents (Elt F) → (⟨S921600x256, .f32⟩ : BufTy).Contents (Elt F)),
    StableHlo.nullary main_cst_14 (constant S_ .f32 0x00000000#32),
    StableHlo.unary main_cst_14 main_v79 (broadcastInDim S115200x256 ![] bcast_S_S115200x256 : (⟨S_, .f32⟩ : BufTy).Contents (Elt F) → (⟨S115200x256, .f32⟩ : BufTy).Contents (Elt F)),
    StableHlo.unary main_v3 main_v80 (broadcastInDim S921600x1 ![0] bcast_S921600_S921600x1_0 : (⟨S921600, .i32⟩ : BufTy).Contents (Elt F) → (⟨S921600x1, .i32⟩ : BufTy).Contents (Elt F)),
    StableHlo.ternary main_v79 main_v80 main_v78 main_v81 ((fun x i u => Host.scatterAdd scatter_S115200x256_S921600x1_S921600x256_1_0_0_1 x i u) : (⟨S115200x256, .f32⟩ : BufTy).Contents (Elt F) → (⟨S921600x1, .i32⟩ : BufTy).Contents (Elt F) → (⟨S921600x256, .f32⟩ : BufTy).Contents (Elt F) → (⟨S115200x256, .f32⟩ : BufTy).Contents (Elt F)) ]

/-- Operations 148 … 152 (5 of them), in order. -/
abbrev ops12 : List (HloOp τ sig (Elt F)) :=
  [ StableHlo.binary main_v71 main_v81 main_v82 (addf : (⟨S115200x256, .f32⟩ : BufTy).Contents (Elt F) → (⟨S115200x256, .f32⟩ : BufTy).Contents (Elt F) → (⟨S115200x256, .f32⟩ : BufTy).Contents (Elt F)),
    StableHlo.binary main_v82 main_arg7 main_v83 ((fun l r => Host.dotGeneral dot_S115200x256_S256x256_S115200x256_1_0_0_1_n_n none l r) : (⟨S115200x256, .f32⟩ : BufTy).Contents (Elt F) → (⟨S256x256, .f32⟩ : BufTy).Contents (Elt F) → (⟨S115200x256, .f32⟩ : BufTy).Contents (Elt F)),
    StableHlo.unary main_arg8 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S115200x256 ![0, 1] bcast_S1x256_S115200x256_0_1 : (⟨S1x256, .f32⟩ : BufTy).Contents (Elt F) → (⟨S115200x256, .f32⟩ : BufTy).Contents (Elt F)),
    StableHlo.binary main_v83 main_v85 main_v86 (addf : (⟨S115200x256, .f32⟩ : BufTy).Contents (Elt F) → (⟨S115200x256, .f32⟩ : BufTy).Contents (Elt F) → (⟨S115200x256, .f32⟩ : BufTy).Contents (Elt F)) ]

/-- Operations 153 … 158 (6 of them), in order. -/
abbrev ops13 : List (HloOp τ sig (Elt F)) :=
  [ StableHlo.nullary main_cst_15 (constant S_ .f32 0x00000000#32),
    StableHlo.binary main_v86 main_cst_15 main_v87 ((fun x v => Host.reduceAdd x v reducesTo_S115200x256_S115200_d1 h_S_) : (⟨S115200x256, .f32⟩ : BufTy).Contents (Elt F) → (⟨S_, .f32⟩ : BufTy).Contents (Elt F) → (⟨S115200, .f32⟩ : BufTy).Contents (Elt F)),
    StableHlo.unary main_v87 main_v88 (broadcastInDim S115200x1 ![0] bcast_S115200_S115200x1_0 : (⟨S115200, .f32⟩ : BufTy).Contents (Elt F) → (⟨S115200x1, .f32⟩ : BufTy).Contents (Elt F)),
    StableHlo.nullary main_cst_16 (constant S_ .f32 0x43800000#32),
    StableHlo.unary main_cst_16 main_v89 (broadcastInDim S115200x1 ![] bcast_S_S115200x1 : (⟨S_, .f32⟩ : BufTy).Contents (Elt F) → (⟨S115200x1, .f32⟩ : BufTy).Contents (Elt F)),
    StableHlo.binary main_v88 main_v89 main_v90 (Host.divf : (⟨S115200x1, .f32⟩ : BufTy).Contents (Elt F) → (⟨S115200x1, .f32⟩ : BufTy).Contents (Elt F) → (⟨S115200x1, .f32⟩ : BufTy).Contents (Elt F)) ]

/-- Operations 159 … 182 (24 of them), in order. -/
abbrev ops14 : List (HloOp τ sig (Elt F)) :=
  [ StableHlo.nullary main_c_17 (constantI S_ 32 0#32),
    StableHlo.TRef.nullary main_call4.cst (constant S_ .f32 0x00000000#32),
    StableHlo.TRef.binary (.of main_v86 : StableHlo.TRef sig ⟨S115200x256, .f32⟩) main_call4.cst main_call4.v0 (fun x v => Host.reduceAdd x v reducesTo_S115200x256_S115200_d1 h_S_),
    StableHlo.TRef.unary main_call4.v0 main_call4.v1 (broadcastInDim S115200x1 ![0] bcast_S115200_S115200x1_0),
    StableHlo.TRef.nullary main_call4.cst_0 (constant S_ .f32 0x43800000#32),
    StableHlo.TRef.unary main_call4.cst_0 main_call4.v2 (broadcastInDim S115200x1 ![] bcast_S_S115200x1),
    StableHlo.TRef.binary main_call4.v1 main_call4.v2 main_call4.v3 Host.divf,
    StableHlo.TRef.unary main_call4.v3 main_call4.v4 (broadcastInDim S115200x256 ![0, 1] bcast_S115200x1_S115200x256_0_1),
    StableHlo.TRef.binary (.of main_v86 : StableHlo.TRef sig ⟨S115200x256, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x43800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S115200x256_S115200_d1 h_S_),
    StableHlo.TRef.unary main_call4.v9 main_call4.v10 (broadcastInDim S115200x1 ![0] bcast_S115200_S115200x1_0),
    StableHlo.TRef.unary main_call4.v8 main_call4.v11 (broadcastInDim S115200x1 ![] bcast_S_S115200x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S115200x1 ![] bcast_S_S115200x1),
    StableHlo.TRef.ternary main_call4.v13 main_call4.v12 main_call4.call0.v1 main_call4.call0.v2 (fun p a b => select (broadcastInDim S115200x1 ![] bcast_S_S115200x1 p) a b) ]

/-- Operations 183 … 190 (8 of them), in order. -/
abbrev ops15 : List (HloOp τ sig (Elt F)) :=
  [ StableHlo.unary main_v90 main_v92 (broadcastInDim S115200x256 ![0, 1] bcast_S115200x1_S115200x256_0_1 : (⟨S115200x1, .f32⟩ : BufTy).Contents (Elt F) → (⟨S115200x256, .f32⟩ : BufTy).Contents (Elt F)),
    StableHlo.binary main_v86 main_v92 main_v93 (subf : (⟨S115200x256, .f32⟩ : BufTy).Contents (Elt F) → (⟨S115200x256, .f32⟩ : BufTy).Contents (Elt F) → (⟨S115200x256, .f32⟩ : BufTy).Contents (Elt F)),
    StableHlo.nullary main_cst_18 (constant S_ .f32 0x3727C5AC#32),
    StableHlo.unary main_cst_18 main_v94 (broadcastInDim S115200x1 ![] bcast_S_S115200x1 : (⟨S_, .f32⟩ : BufTy).Contents (Elt F) → (⟨S115200x1, .f32⟩ : BufTy).Contents (Elt F)),
    StableHlo.binary main_v91 main_v94 main_v95 (addf : (⟨S115200x1, .f32⟩ : BufTy).Contents (Elt F) → (⟨S115200x1, .f32⟩ : BufTy).Contents (Elt F) → (⟨S115200x1, .f32⟩ : BufTy).Contents (Elt F)),
    StableHlo.unary main_v95 main_v96 (Host.rsqrt : (⟨S115200x1, .f32⟩ : BufTy).Contents (Elt F) → (⟨S115200x1, .f32⟩ : BufTy).Contents (Elt F)),
    StableHlo.unary main_v96 main_v97 (broadcastInDim S115200x256 ![0, 1] bcast_S115200x1_S115200x256_0_1 : (⟨S115200x1, .f32⟩ : BufTy).Contents (Elt F) → (⟨S115200x256, .f32⟩ : BufTy).Contents (Elt F)),
    StableHlo.binary main_v93 main_v97 main_v98 (mulf : (⟨S115200x256, .f32⟩ : BufTy).Contents (Elt F) → (⟨S115200x256, .f32⟩ : BufTy).Contents (Elt F) → (⟨S115200x256, .f32⟩ : BufTy).Contents (Elt F)) ]

end Cert.ReferenceIdeal.RefRun

end
-- ==== Proof.RefOps1.lean ====
/- Window 1 of the reference program's @main is the straight line of the operations listed for it, and what
   each piece of that line touches and writes. The window is a sequence of operation steps with the called
   functions' bodies standing at their call sites; unfolding the functions at their buffer records and
   re-associating the sequencing gives the list, step for step, so the two programs are equal by computation.
   The three facts about a piece are proved the same way for every piece: each operation is one of the
   builders, whose buffers, written buffer and determinacy are read off its definition. -/
import proofs.«167845_j85727547228621_1_alg».proof.Proof.RefTab1
import proofs.«167845_j85727547228621_1_alg».proof.Proof.RefLemmas

set_option synthInstance.maxSize 4096

noncomputable section

namespace Cert.ReferenceIdeal.RefRun

open Cert.RefLemmas Cert.ReferenceIdeal Cert.ReferenceIdeal.Gen Idealize.ShloMosaic Idealize.ShloMosaic.TcCoe Idealize.SL.Sem Idealize.ShloMosaic.StableHlo

variable {F : FTy → Type} [FloatOps F]

/-- Window 1 runs the operations of pieces 7 … 15, in order, and nothing else. -/
theorem part1_eq (c : Dev nD) : main_part1 (F := F) c = seq (ops7 ++ ops8 ++ ops9 ++ ops10 ++ ops11 ++ ops12 ++ ops13 ++ ops14 ++ ops15) := rfl

/-- Every operation of piece 7 touches TensorCore references only: each is one of the builders, whose buffers
    are its operands' and its result's. -/
theorem ops7_sub : (ops7 : List (HloOp τ sig (Elt F))).Forall fun op => op.bufs ⊆ tcRefs τ sig := by
  simp only [ops7, List.Forall, nullary_bufs_sub, unary_bufs_sub, binary_bufs_sub, ternary_bufs_sub,
    reshape_bufs_sub, nary_bufs_sub, and_self]

/-- Every operation of piece 7 determines the contents it writes (none allocates without writing). -/
theorem ops7_fresh : ∀ op ∈ (ops7 : List (HloOp τ sig (Elt F))), op.fresh = ∅ := by
  refine List.forall_iff_forall_mem.mp ?_
  repeat' apply And.intro
  all_goals rfl

/-- Every operation of piece 7 writes exactly one buffer, and these are the buffers numbered 107 … 109: each
    value of the program has a buffer of its own, numbered in program order. -/
theorem ops7_writes : (ops7 : List (HloOp τ sig (Elt F))).Forall (WritesIn 107 110) := by
  repeat' apply And.intro
  all_goals exact ⟨_, rfl, by decide, by decide⟩

/-- Every operation of piece 8 touches TensorCore references only: each is one of the builders, whose buffers
    are its operands' and its result's. -/
theorem ops8_sub : (ops8 : List (HloOp τ sig (Elt F))).Forall fun op => op.bufs ⊆ tcRefs τ sig := by
  simp only [ops8, List.Forall, nullary_bufs_sub, unary_bufs_sub, binary_bufs_sub, ternary_bufs_sub,
    reshape_bufs_sub, nary_bufs_sub, and_self]

/-- Every operation of piece 8 determines the contents it writes (none allocates without writing). -/
theorem ops8_fresh : ∀ op ∈ (ops8 : List (HloOp τ sig (Elt F))), op.fresh = ∅ := by
  refine List.forall_iff_forall_mem.mp ?_
  repeat' apply And.intro
  all_goals rfl

/-- Every operation of piece 8 writes exactly one buffer, and these are the buffers numbered 110 … 115: each
    value of the program has a buffer of its own, numbered in program order. -/
theorem ops8_writes : (ops8 : List (HloOp τ sig (Elt F))).Forall (WritesIn 110 116) := by
  repeat' apply And.intro
  all_goals exact ⟨_, rfl, by decide, by decide⟩

/-- Every operation of piece 9 touches TensorCore references only: each is one of the builders, whose buffers
    are its operands' and its result's. -/
theorem ops9_sub : (ops9 : List (HloOp τ sig (Elt F))).Forall fun op => op.bufs ⊆ tcRefs τ sig := by
  simp only [ops9, List.Forall, nullary_bufs_sub, unary_bufs_sub, binary_bufs_sub, ternary_bufs_sub,
    reshape_bufs_sub, nary_bufs_sub, and_self]

/-- Every operation of piece 9 determines the contents it writes (none allocates without writing). -/
theorem ops9_fresh : ∀ op ∈ (ops9 : List (HloOp τ sig (Elt F))), op.fresh = ∅ := by
  refine List.forall_iff_forall_mem.mp ?_
  repeat' apply And.intro
  all_goals rfl

/-- Every operation of piece 9 writes exactly one buffer, and these are the buffers numbered 116 … 139: each
    value of the program has a buffer of its own, numbered in program order. -/
theorem ops9_writes : (ops9 : List (HloOp τ sig (Elt F))).Forall (WritesIn 116 140) := by
  repeat' apply And.intro
  all_goals exact ⟨_, rfl, by decide, by decide⟩

/-- Every operation of piece 10 touches TensorCore references only: each is one of the builders, whose buffers
    are its operands' and its result's. -/
theorem ops10_sub : (ops10 : List (HloOp τ sig (Elt F))).Forall fun op => op.bufs ⊆ tcRefs τ sig := by
  simp only [ops10, List.Forall, nullary_bufs_sub, unary_bufs_sub, binary_bufs_sub, ternary_bufs_sub,
    reshape_bufs_sub, nary_bufs_sub, and_self]

/-- Every operation of piece 10 determines the contents it writes (none allocates without writing). -/
theorem ops10_fresh : ∀ op ∈ (ops10 : List (HloOp τ sig (Elt F))), op.fresh = ∅ := by
  refine List.forall_iff_forall_mem.mp ?_
  repeat' apply And.intro
  all_goals rfl

/-- Every operation of piece 10 writes exactly one buffer, and these are the buffers numbered 140 … 156: each
    value of the program has a buffer of its own, numbered in program order. -/
theorem ops10_writes : (ops10 : List (HloOp τ sig (Elt F))).Forall (WritesIn 140 157) := by
  repeat' apply And.intro
  all_goals exact ⟨_, rfl, by decide, by decide⟩

/-- Every operation of piece 11 touches TensorCore references only: each is one of the builders, whose buffers
    are its operands' and its result's. -/
theorem ops11_sub : (ops11 : List (HloOp τ sig (Elt F))).Forall fun op => op.bufs ⊆ tcRefs τ sig := by
  simp only [ops11, List.Forall, nullary_bufs_sub, unary_bufs_sub, binary_bufs_sub, ternary_bufs_sub,
    reshape_bufs_sub, nary_bufs_sub, and_self]

/-- Every operation of piece 11 determines the contents it writes (none allocates without writing). -/
theorem ops11_fresh : ∀ op ∈ (ops11 : List (HloOp τ sig (Elt F))), op.fresh = ∅ := by
  refine List.forall_iff_forall_mem.mp ?_
  repeat' apply And.intro
  all_goals rfl

/-- Every operation of piece 11 writes exactly one buffer, and these are the buffers numbered 157 … 169: each
    value of the program has a buffer of its own, numbered in program order. -/
theorem ops11_writes : (ops11 : List (HloOp τ sig (Elt F))).Forall (WritesIn 157 170) := by
  repeat' apply And.intro
  all_goals exact ⟨_, rfl, by decide, by decide⟩

/-- Every operation of piece 12 touches TensorCore references only: each is one of the builders, whose buffers
    are its operands' and its result's. -/
theorem ops12_sub : (ops12 : List (HloOp τ sig (Elt F))).Forall fun op => op.bufs ⊆ tcRefs τ sig := by
  simp only [ops12, List.Forall, nullary_bufs_sub, unary_bufs_sub, binary_bufs_sub, ternary_bufs_sub,
    reshape_bufs_sub, nary_bufs_sub, and_self]

/-- Every operation of piece 12 determines the contents it writes (none allocates without writing). -/
theorem ops12_fresh : ∀ op ∈ (ops12 : List (HloOp τ sig (Elt F))), op.fresh = ∅ := by
  refine List.forall_iff_forall_mem.mp ?_
  repeat' apply And.intro
  all_goals rfl

/-- Every operation of piece 12 writes exactly one buffer, and these are the buffers numbered 170 … 174: each
    value of the program has a buffer of its own, numbered in program order. -/
theorem ops12_writes : (ops12 : List (HloOp τ sig (Elt F))).Forall (WritesIn 170 175) := by
  repeat' apply And.intro
  all_goals exact ⟨_, rfl, by decide, by decide⟩

/-- Every operation of piece 13 touches TensorCore references only: each is one of the builders, whose buffers
    are its operands' and its result's. -/
theorem ops13_sub : (ops13 : List (HloOp τ sig (Elt F))).Forall fun op => op.bufs ⊆ tcRefs τ sig := by
  simp only [ops13, List.Forall, nullary_bufs_sub, unary_bufs_sub, binary_bufs_sub, ternary_bufs_sub,
    reshape_bufs_sub, nary_bufs_sub, and_self]

/-- Every operation of piece 13 determines the contents it writes (none allocates without writing). -/
theorem ops13_fresh : ∀ op ∈ (ops13 : List (HloOp τ sig (Elt F))), op.fresh = ∅ := by
  refine List.forall_iff_forall_mem.mp ?_
  repeat' apply And.intro
  all_goals rfl

/-- Every operation of piece 13 writes exactly one buffer, and these are the buffers numbered 175 … 180: each
    value of the program has a buffer of its own, numbered in program order. -/
theorem ops13_writes : (ops13 : List (HloOp τ sig (Elt F))).Forall (WritesIn 175 181) := by
  repeat' apply And.intro
  all_goals exact ⟨_, rfl, by decide, by decide⟩

/-- Every operation of piece 14 touches TensorCore references only: each is one of the builders, whose buffers
    are its operands' and its result's. -/
theorem ops14_sub : (ops14 : List (HloOp τ sig (Elt F))).Forall fun op => op.bufs ⊆ tcRefs τ sig := by
  simp only [ops14, List.Forall, nullary_bufs_sub, unary_bufs_sub, binary_bufs_sub, ternary_bufs_sub,
    reshape_bufs_sub, nary_bufs_sub, and_self]

/-- Every operation of piece 14 determines the contents it writes (none allocates without writing). -/
theorem ops14_fresh : ∀ op ∈ (ops14 : List (HloOp τ sig (Elt F))), op.fresh = ∅ := by
  refine List.forall_iff_forall_mem.mp ?_
  repeat' apply And.intro
  all_goals rfl

/-- Every operation of piece 14 writes exactly one buffer, and these are the buffers numbered 181 … 204: each
    value of the program has a buffer of its own, numbered in program order. -/
theorem ops14_writes : (ops14 : List (HloOp τ sig (Elt F))).Forall (WritesIn 181 205) := by
  repeat' apply And.intro
  all_goals exact ⟨_, rfl, by decide, by decide⟩

/-- Every operation of piece 15 touches TensorCore references only: each is one of the builders, whose buffers
    are its operands' and its result's. -/
theorem ops15_sub : (ops15 : List (HloOp τ sig (Elt F))).Forall fun op => op.bufs ⊆ tcRefs τ sig := by
  simp only [ops15, List.Forall, nullary_bufs_sub, unary_bufs_sub, binary_bufs_sub, ternary_bufs_sub,
    reshape_bufs_sub, nary_bufs_sub, and_self]

/-- Every operation of piece 15 determines the contents it writes (none allocates without writing). -/
theorem ops15_fresh : ∀ op ∈ (ops15 : List (HloOp τ sig (Elt F))), op.fresh = ∅ := by
  refine List.forall_iff_forall_mem.mp ?_
  repeat' apply And.intro
  all_goals rfl

/-- Every operation of piece 15 writes exactly one buffer, and these are the buffers numbered 205 … 212: each
    value of the program has a buffer of its own, numbered in program order. -/
theorem ops15_writes : (ops15 : List (HloOp τ sig (Elt F))).Forall (WritesIn 205 213) := by
  repeat' apply And.intro
  all_goals exact ⟨_, rfl, by decide, by decide⟩

end Cert.ReferenceIdeal.RefRun

end
-- ==== Proof.RefTab2.lean ====
/- The operations of window 2 of the reference program's @main (main_part2), the functions it calls
   written out at their call sites over the calls' buffer records: entry k of the lists below is operation
   191 + k of the 340 the program runs in order. Tables only. -/
import proofs.«167845_j85727547228621_1_alg».proof.Proof.Gen.ReferenceIdeal
import Idealize.ShloMosaic.Lib.StableHlo.Run

set_option synthInstance.maxSize 4096
set_option maxHeartbeats 40000000

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F]

/-- Operations 191 … 199 (9 of them), in order. -/
abbrev ops16 : List (HloOp τ sig (Elt F)) :=
  [ StableHlo.unary main_arg9 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S115200x256 ![0, 1] bcast_S1x256_S115200x256_0_1 : (⟨S1x256, .f32⟩ : BufTy).Contents (Elt F) → (⟨S115200x256, .f32⟩ : BufTy).Contents (Elt F)),
    StableHlo.binary main_v98 main_v100 main_v101 (mulf : (⟨S115200x256, .f32⟩ : BufTy).Contents (Elt F) → (⟨S115200x256, .f32⟩ : BufTy).Contents (Elt F) → (⟨S115200x256, .f32⟩ : BufTy).Contents (Elt F)),
    StableHlo.unary main_arg10 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S115200x256 ![0, 1] bcast_S1x256_S115200x256_0_1 : (⟨S1x256, .f32⟩ : BufTy).Contents (Elt F) → (⟨S115200x256, .f32⟩ : BufTy).Contents (Elt F)),
    StableHlo.binary main_v101 main_v103 main_v104 (addf : (⟨S115200x256, .f32⟩ : BufTy).Contents (Elt F) → (⟨S115200x256, .f32⟩ : BufTy).Contents (Elt F) → (⟨S115200x256, .f32⟩ : BufTy).Contents (Elt F)),
    StableHlo.TRef.nullary main_call5.cst (constant S_ .f32 0x00000000#32),
    StableHlo.TRef.unary main_call5.cst main_call5.v0 (broadcastInDim S115200x256 ![] bcast_S_S115200x256),
    StableHlo.TRef.binary (.of main_v104 : StableHlo.TRef sig ⟨S115200x256, .f32⟩) main_call5.v0 main_call5.v1 maximumf ]

/-- Operations 200 … 204 (5 of them), in order. -/
abbrev ops17 : List (HloOp τ sig (Elt F)) :=
  [ StableHlo.nary ![main_arg0, main_v37, main_v71, main_v105] main_v106 (fun u => concatenate S115200x769 1 [⟨S115200x1, u 0⟩, ⟨S115200x256, u 1⟩, ⟨S115200x256, u 2⟩, ⟨S115200x256, u 3⟩] concatenates_S115200x1_S115200x256_S115200x256_S115200x256_S115200x769_d1),
    StableHlo.binary main_v106 main_arg11 main_v107 ((fun l r => Host.dotGeneral dot_S115200x769_S769x512_S115200x512_1_0_0_1_n_n none l r) : (⟨S115200x769, .f32⟩ : BufTy).Contents (Elt F) → (⟨S769x512, .f32⟩ : BufTy).Contents (Elt F) → (⟨S115200x512, .f32⟩ : BufTy).Contents (Elt F)),
    StableHlo.unary main_arg12 main_v108 (broadcastInDim S1x512 ![1] bcast_S512_S1x512_1 : (⟨S512, .f32⟩ : BufTy).Contents (Elt F) → (⟨S1x512, .f32⟩ : BufTy).Contents (Elt F)),
    StableHlo.unary main_v108 main_v109 (broadcastInDim S115200x512 ![0, 1] bcast_S1x512_S115200x512_0_1 : (⟨S1x512, .f32⟩ : BufTy).Contents (Elt F) → (⟨S115200x512, .f32⟩ : BufTy).Contents (Elt F)),
    StableHlo.binary main_v107 main_v109 main_v110 (addf : (⟨S115200x512, .f32⟩ : BufTy).Contents (Elt F) → (⟨S115200x512, .f32⟩ : BufTy).Contents (Elt F) → (⟨S115200x512, .f32⟩ : BufTy).Contents (Elt F)) ]

/-- Operations 205 … 209 (5 of them), in order. -/
abbrev ops18 : List (HloOp τ sig (Elt F)) :=
  [ StableHlo.nullary main_cst_19 (constant S_ .f32 0x00000000#32),
    StableHlo.binary main_v110 main_cst_19 main_v111 ((fun x v => Host.reduceAdd x v reducesTo_S115200x512_S512_d0 h_S_) : (⟨S115200x512, .f32⟩ : BufTy).Contents (Elt F) → (⟨S_, .f32⟩ : BufTy).Contents (Elt F) → (⟨S512, .f32⟩ : BufTy).Contents (Elt F)),
    StableHlo.nullary main_cst_20 (constant S_ .f32 0x47E10000#32),
    StableHlo.unary main_cst_20 main_v112 (broadcastInDim S512 ![] bcast_S_S512 : (⟨S_, .f32⟩ : BufTy).Contents (Elt F) → (⟨S512, .f32⟩ : BufTy).Contents (Elt F)),
    StableHlo.binary main_v111 main_v112 main_v113 (Host.divf : (⟨S512, .f32⟩ : BufTy).Contents (Elt F) → (⟨S512, .f32⟩ : BufTy).Contents (Elt F) → (⟨S512, .f32⟩ : BufTy).Contents (Elt F)) ]

/-- Operations 210 … 232 (23 of them), in order. -/
abbrev ops19 : List (HloOp τ sig (Elt F)) :=
  [ StableHlo.nullary main_c_21 (constantI S_ 32 0#32),
    StableHlo.TRef.nullary main_call6.cst (constant S_ .f32 0x00000000#32),
    StableHlo.TRef.binary (.of main_v110 : StableHlo.TRef sig ⟨S115200x512, .f32⟩) main_call6.cst main_call6.v0 (fun x v => Host.reduceAdd x v reducesTo_S115200x512_S512_d0 h_S_),
    StableHlo.TRef.unary main_call6.v0 main_call6.v1 (broadcastInDim S1x512 ![1] bcast_S512_S1x512_1),
    StableHlo.TRef.nullary main_call6.cst_0 (constant S_ .f32 0x47E10000#32),
    StableHlo.TRef.unary main_call6.cst_0 main_call6.v2 (broadcastInDim S1x512 ![] bcast_S_S1x512),
    StableHlo.TRef.binary main_call6.v1 main_call6.v2 main_call6.v3 Host.divf,
    StableHlo.TRef.unary main_call6.v3 main_call6.v4 (broadcastInDim S115200x512 ![0, 1] bcast_S1x512_S115200x512_0_1),
    StableHlo.TRef.binary (.of main_v110 : StableHlo.TRef sig ⟨S115200x512, .f32⟩) main_call6.v4 main_call6.v5 subf,
    StableHlo.TRef.binary main_call6.v5 main_call6.v5 main_call6.v6 mulf,
    StableHlo.TRef.unary (.of main_c_21 : StableHlo.TRef sig ⟨S_, .i32⟩) main_call6.v7 (sitofp .f32),
    StableHlo.TRef.nullary main_call6.cst_1 (constant S_ .f32 0x47E10000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S115200x512_S512_d0 h_S_),
    StableHlo.TRef.unary main_call6.v8 main_call6.v10 (broadcastInDim S512 ![] bcast_S_S512),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S512 ![] bcast_S_S512),
    StableHlo.TRef.ternary main_call6.v12 main_call6.v11 main_call6.call0.v1 main_call6.call0.v2 (fun p a b => select (broadcastInDim S512 ![] bcast_S_S512 p) a b) ]

/-- Operations 233 … 251 (19 of them), in order. -/
abbrev ops20 : List (HloOp τ sig (Elt F)) :=
  [ StableHlo.unary main_v113 main_v115 (broadcastInDim S1x512 ![1] bcast_S512_S1x512_1 : (⟨S512, .f32⟩ : BufTy).Contents (Elt F) → (⟨S1x512, .f32⟩ : BufTy).Contents (Elt F)),
    StableHlo.unary main_v115 main_v116 (broadcastInDim S115200x512 ![0, 1] bcast_S1x512_S115200x512_0_1 : (⟨S1x512, .f32⟩ : BufTy).Contents (Elt F) → (⟨S115200x512, .f32⟩ : BufTy).Contents (Elt F)),
    StableHlo.binary main_v110 main_v116 main_v117 (subf : (⟨S115200x512, .f32⟩ : BufTy).Contents (Elt F) → (⟨S115200x512, .f32⟩ : BufTy).Contents (Elt F) → (⟨S115200x512, .f32⟩ : BufTy).Contents (Elt F)),
    StableHlo.nullary main_cst_22 (constant S_ .f32 0x3727C5AC#32),
    StableHlo.unary main_cst_22 main_v118 (broadcastInDim S512 ![] bcast_S_S512 : (⟨S_, .f32⟩ : BufTy).Contents (Elt F) → (⟨S512, .f32⟩ : BufTy).Contents (Elt F)),
    StableHlo.binary main_v114 main_v118 main_v119 (addf : (⟨S512, .f32⟩ : BufTy).Contents (Elt F) → (⟨S512, .f32⟩ : BufTy).Contents (Elt F) → (⟨S512, .f32⟩ : BufTy).Contents (Elt F)),
    StableHlo.unary main_v119 main_v120 (Host.rsqrt : (⟨S512, .f32⟩ : BufTy).Contents (Elt F) → (⟨S512, .f32⟩ : BufTy).Contents (Elt F)),
    StableHlo.unary main_v120 main_v121 (broadcastInDim S1x512 ![1] bcast_S512_S1x512_1 : (⟨S512, .f32⟩ : BufTy).Contents (Elt F) → (⟨S1x512, .f32⟩ : BufTy).Contents (Elt F)),
    StableHlo.unary main_v121 main_v122 (broadcastInDim S115200x512 ![0, 1] bcast_S1x512_S115200x512_0_1 : (⟨S1x512, .f32⟩ : BufTy).Contents (Elt F) → (⟨S115200x512, .f32⟩ : BufTy).Contents (Elt F)),
    StableHlo.binary main_v117 main_v122 main_v123 (mulf : (⟨S115200x512, .f32⟩ : BufTy).Contents (Elt F) → (⟨S115200x512, .f32⟩ : BufTy).Contents (Elt F) → (⟨S115200x512, .f32⟩ : BufTy).Contents (Elt F)),
    StableHlo.unary main_arg15 main_v124 (broadcastInDim S1x512 ![1] bcast_S512_S1x512_1 : (⟨S512, .f32⟩ : BufTy).Contents (Elt F) → (⟨S1x512, .f32⟩ : BufTy).Contents (Elt F)),
    StableHlo.unary main_v124 main_v125 (broadcastInDim S115200x512 ![0, 1] bcast_S1x512_S115200x512_0_1 : (⟨S1x512, .f32⟩ : BufTy).Contents (Elt F) → (⟨S115200x512, .f32⟩ : BufTy).Contents (Elt F)),
    StableHlo.binary main_v123 main_v125 main_v126 (mulf : (⟨S115200x512, .f32⟩ : BufTy).Contents (Elt F) → (⟨S115200x512, .f32⟩ : BufTy).Contents (Elt F) → (⟨S115200x512, .f32⟩ : BufTy).Contents (Elt F)),
    StableHlo.unary main_arg16 main_v127 (broadcastInDim S1x512 ![1] bcast_S512_S1x512_1 : (⟨S512, .f32⟩ : BufTy).Contents (Elt F) → (⟨S1x512, .f32⟩ : BufTy).Contents (Elt F)),
    StableHlo.unary main_v127 main_v128 (broadcastInDim S115200x512 ![0, 1] bcast_S1x512_S115200x512_0_1 : (⟨S1x512, .f32⟩ : BufTy).Contents (Elt F) → (⟨S115200x512, .f32⟩ : BufTy).Contents (Elt F)),
    StableHlo.binary main_v126 main_v128 main_v129 (addf : (⟨S115200x512, .f32⟩ : BufTy).Contents (Elt F) → (⟨S115200x512, .f32⟩ : BufTy).Contents (Elt F) → (⟨S115200x512, .f32⟩ : BufTy).Contents (Elt F)),
    StableHlo.TRef.nullary main_call7.cst (constant S_ .f32 0x00000000#32),
    StableHlo.TRef.unary main_call7.cst main_call7.v0 (broadcastInDim S115200x512 ![] bcast_S_S115200x512),
    StableHlo.TRef.binary (.of main_v129 : StableHlo.TRef sig ⟨S115200x512, .f32⟩) main_call7.v0 main_call7.v1 maximumf ]

/-- Operations 252 … 255 (4 of them), in order. -/
abbrev ops21 : List (HloOp τ sig (Elt F)) :=
  [ StableHlo.binary main_v130 main_arg13 main_v131 ((fun l r => Host.dotGeneral dot_S115200x512_S512x256_S115200x256_1_0_0_1_n_n none l r) : (⟨S115200x512, .f32⟩ : BufTy).Contents (Elt F) → (⟨S512x256, .f32⟩ : BufTy).Contents (Elt F) → (⟨S115200x256, .f32⟩ : BufTy).Contents (Elt F)),
    StableHlo.unary main_arg14 main_v132 (broadcastInDim S1x256 ![1] bcast_S256_S1x256_1 : (⟨S256, .f32⟩ : BufTy).Contents (Elt F) → (⟨S1x256, .f32⟩ : BufTy).Contents (Elt F)),
    StableHlo.unary main_v132 main_v133 (broadcastInDim S115200x256 ![0, 1] bcast_S1x256_S115200x256_0_1 : (⟨S1x256, .f32⟩ : BufTy).Contents (Elt F) → (⟨S115200x256, .f32⟩ : BufTy).Contents (Elt F)),
    StableHlo.binary main_v131 main_v133 main_v134 (addf : (⟨S115200x256, .f32⟩ : BufTy).Contents (Elt F) → (⟨S115200x256, .f32⟩ : BufTy).Contents (Elt F) → (⟨S115200x256, .f32⟩ : BufTy).Contents (Elt F)) ]

/-- Operations 256 … 260 (5 of them), in order. -/
abbrev ops22 : List (HloOp τ sig (Elt F)) :=
  [ StableHlo.nullary main_cst_23 (constant S_ .f32 0x00000000#32),
    StableHlo.binary main_v134 main_cst_23 main_v135 ((fun x v => Host.reduceAdd x v reducesTo_S115200x256_S256_d0 h_S_) : (⟨S115200x256, .f32⟩ : BufTy).Contents (Elt F) → (⟨S_, .f32⟩ : BufTy).Contents (Elt F) → (⟨S256, .f32⟩ : BufTy).Contents (Elt F)),
    StableHlo.nullary main_cst_24 (constant S_ .f32 0x47E10000#32),
    StableHlo.unary main_cst_24 main_v136 (broadcastInDim S256 ![] bcast_S_S256 : (⟨S_, .f32⟩ : BufTy).Contents (Elt F) → (⟨S256, .f32⟩ : BufTy).Contents (Elt F)),
    StableHlo.binary main_v135 main_v136 main_v137 (Host.divf : (⟨S256, .f32⟩ : BufTy).Contents (Elt F) → (⟨S256, .f32⟩ : BufTy).Contents (Elt F) → (⟨S256, .f32⟩ : BufTy).Contents (Elt F)) ]

/-- Operations 261 … 283 (23 of them), in order. -/
abbrev ops23 : List (HloOp τ sig (Elt F)) :=
  [ StableHlo.nullary main_c_25 (constantI S_ 32 0#32),
    StableHlo.TRef.nullary main_call8.cst (constant S_ .f32 0x00000000#32),
    StableHlo.TRef.binary (.of main_v134 : StableHlo.TRef sig ⟨S115200x256, .f32⟩) main_call8.cst main_call8.v0 (fun x v => Host.reduceAdd x v reducesTo_S115200x256_S256_d0 h_S_),
    StableHlo.TRef.unary main_call8.v0 main_call8.v1 (broadcastInDim S1x256 ![1] bcast_S256_S1x256_1),
    StableHlo.TRef.nullary main_call8.cst_0 (constant S_ .f32 0x47E10000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S115200x256 ![0, 1] bcast_S1x256_S115200x256_0_1),
    StableHlo.TRef.binary (.of main_v134 : StableHlo.TRef sig ⟨S115200x256, .f32⟩) main_call8.v4 main_call8.v5 subf,
    StableHlo.TRef.binary main_call8.v5 main_call8.v5 main_call8.v6 mulf,
    StableHlo.TRef.unary (.of main_c_25 : StableHlo.TRef sig ⟨S_, .i32⟩) main_call8.v7 (sitofp .f32),
    StableHlo.TRef.nullary main_call8.cst_1 (constant S_ .f32 0x47E10000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S115200x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b) ]

/-- Operations 284 … 296 (13 of them), in order. -/
abbrev ops24 : List (HloOp τ sig (Elt F)) :=
  [ StableHlo.unary main_v137 main_v139 (broadcastInDim S1x256 ![1] bcast_S256_S1x256_1 : (⟨S256, .f32⟩ : BufTy).Contents (Elt F) → (⟨S1x256, .f32⟩ : BufTy).Contents (Elt F)),
    StableHlo.unary main_v139 main_v140 (broadcastInDim S115200x256 ![0, 1] bcast_S1x256_S115200x256_0_1 : (⟨S1x256, .f32⟩ : BufTy).Contents (Elt F) → (⟨S115200x256, .f32⟩ : BufTy).Contents (Elt F)),
    StableHlo.binary main_v134 main_v140 main_v141 (subf : (⟨S115200x256, .f32⟩ : BufTy).Contents (Elt F) → (⟨S115200x256, .f32⟩ : BufTy).Contents (Elt F) → (⟨S115200x256, .f32⟩ : BufTy).Contents (Elt F)),
    StableHlo.nullary main_cst_26 (constant S_ .f32 0x3727C5AC#32),
    StableHlo.unary main_cst_26 main_v142 (broadcastInDim S256 ![] bcast_S_S256 : (⟨S_, .f32⟩ : BufTy).Contents (Elt F) → (⟨S256, .f32⟩ : BufTy).Contents (Elt F)),
    StableHlo.binary main_v138 main_v142 main_v143 (addf : (⟨S256, .f32⟩ : BufTy).Contents (Elt F) → (⟨S256, .f32⟩ : BufTy).Contents (Elt F) → (⟨S256, .f32⟩ : BufTy).Contents (Elt F)),
    StableHlo.unary main_v143 main_v144 (Host.rsqrt : (⟨S256, .f32⟩ : BufTy).Contents (Elt F) → (⟨S256, .f32⟩ : BufTy).Contents (Elt F)),
    StableHlo.unary main_v144 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S115200x256 ![0, 1] bcast_S1x256_S115200x256_0_1 : (⟨S1x256, .f32⟩ : BufTy).Contents (Elt F) → (⟨S115200x256, .f32⟩ : BufTy).Contents (Elt F)),
    StableHlo.binary main_v141 main_v146 main_v147 (mulf : (⟨S115200x256, .f32⟩ : BufTy).Contents (Elt F) → (⟨S115200x256, .f32⟩ : BufTy).Contents (Elt F) → (⟨S115200x256, .f32⟩ : BufTy).Contents (Elt F)),
    StableHlo.unary main_arg17 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S115200x256 ![0, 1] bcast_S1x256_S115200x256_0_1 : (⟨S1x256, .f32⟩ : BufTy).Contents (Elt F) → (⟨S115200x256, .f32⟩ : BufTy).Contents (Elt F)),
    StableHlo.binary main_v147 main_v149 main_v150 (mulf : (⟨S115200x256, .f32⟩ : BufTy).Contents (Elt F) → (⟨S115200x256, .f32⟩ : BufTy).Contents (Elt F) → (⟨S115200x256, .f32⟩ : BufTy).Contents (Elt F)) ]

end Cert.ReferenceIdeal.RefRun

end
-- ==== Proof.RefOps2.lean ====
/- Window 2 of the reference program's @main is the straight line of the operations listed for it, and what
   each piece of that line touches and writes. The window is a sequence of operation steps with the called
   functions' bodies standing at their call sites; unfolding the functions at their buffer records and
   re-associating the sequencing gives the list, step for step, so the two programs are equal by computation.
   The three facts about a piece are proved the same way for every piece: each operation is one of the
   builders, whose buffers, written buffer and determinacy are read off its definition. -/
import proofs.«167845_j85727547228621_1_alg».proof.Proof.RefTab2
import proofs.«167845_j85727547228621_1_alg».proof.Proof.RefLemmas

set_option synthInstance.maxSize 4096

noncomputable section

namespace Cert.ReferenceIdeal.RefRun

open Cert.RefLemmas Cert.ReferenceIdeal Cert.ReferenceIdeal.Gen Idealize.ShloMosaic Idealize.ShloMosaic.TcCoe Idealize.SL.Sem Idealize.ShloMosaic.StableHlo

variable {F : FTy → Type} [FloatOps F]

/-- Window 2 runs the operations of pieces 16 … 24, in order, and nothing else. -/
theorem part2_eq (c : Dev nD) : main_part2 (F := F) c = seq (ops16 ++ ops17 ++ ops18 ++ ops19 ++ ops20 ++ ops21 ++ ops22 ++ ops23 ++ ops24) := rfl

/-- Every operation of piece 16 touches TensorCore references only: each is one of the builders, whose buffers
    are its operands' and its result's. -/
theorem ops16_sub : (ops16 : List (HloOp τ sig (Elt F))).Forall fun op => op.bufs ⊆ tcRefs τ sig := by
  simp only [ops16, List.Forall, nullary_bufs_sub, unary_bufs_sub, binary_bufs_sub, ternary_bufs_sub,
    reshape_bufs_sub, nary_bufs_sub, and_self]

/-- Every operation of piece 16 determines the contents it writes (none allocates without writing). -/
theorem ops16_fresh : ∀ op ∈ (ops16 : List (HloOp τ sig (Elt F))), op.fresh = ∅ := by
  refine List.forall_iff_forall_mem.mp ?_
  repeat' apply And.intro
  all_goals rfl

/-- Every operation of piece 16 writes exactly one buffer, and these are the buffers numbered 213 … 221: each
    value of the program has a buffer of its own, numbered in program order. -/
theorem ops16_writes : (ops16 : List (HloOp τ sig (Elt F))).Forall (WritesIn 213 222) := by
  repeat' apply And.intro
  all_goals exact ⟨_, rfl, by decide, by decide⟩

/-- Every operation of piece 17 touches TensorCore references only: each is one of the builders, whose buffers
    are its operands' and its result's. -/
theorem ops17_sub : (ops17 : List (HloOp τ sig (Elt F))).Forall fun op => op.bufs ⊆ tcRefs τ sig := by
  simp only [ops17, List.Forall, nullary_bufs_sub, unary_bufs_sub, binary_bufs_sub, ternary_bufs_sub,
    reshape_bufs_sub, nary_bufs_sub, and_self]

/-- Every operation of piece 17 determines the contents it writes (none allocates without writing). -/
theorem ops17_fresh : ∀ op ∈ (ops17 : List (HloOp τ sig (Elt F))), op.fresh = ∅ := by
  refine List.forall_iff_forall_mem.mp ?_
  repeat' apply And.intro
  all_goals rfl

/-- Every operation of piece 17 writes exactly one buffer, and these are the buffers numbered 222 … 226: each
    value of the program has a buffer of its own, numbered in program order. -/
theorem ops17_writes : (ops17 : List (HloOp τ sig (Elt F))).Forall (WritesIn 222 227) := by
  repeat' apply And.intro
  all_goals exact ⟨_, rfl, by decide, by decide⟩

/-- Every operation of piece 18 touches TensorCore references only: each is one of the builders, whose buffers
    are its operands' and its result's. -/
theorem ops18_sub : (ops18 : List (HloOp τ sig (Elt F))).Forall fun op => op.bufs ⊆ tcRefs τ sig := by
  simp only [ops18, List.Forall, nullary_bufs_sub, unary_bufs_sub, binary_bufs_sub, ternary_bufs_sub,
    reshape_bufs_sub, nary_bufs_sub, and_self]

/-- Every operation of piece 18 determines the contents it writes (none allocates without writing). -/
theorem ops18_fresh : ∀ op ∈ (ops18 : List (HloOp τ sig (Elt F))), op.fresh = ∅ := by
  refine List.forall_iff_forall_mem.mp ?_
  repeat' apply And.intro
  all_goals rfl

/-- Every operation of piece 18 writes exactly one buffer, and these are the buffers numbered 227 … 231: each
    value of the program has a buffer of its own, numbered in program order. -/
theorem ops18_writes : (ops18 : List (HloOp τ sig (Elt F))).Forall (WritesIn 227 232) := by
  repeat' apply And.intro
  all_goals exact ⟨_, rfl, by decide, by decide⟩

/-- Every operation of piece 19 touches TensorCore references only: each is one of the builders, whose buffers
    are its operands' and its result's. -/
theorem ops19_sub : (ops19 : List (HloOp τ sig (Elt F))).Forall fun op => op.bufs ⊆ tcRefs τ sig := by
  simp only [ops19, List.Forall, nullary_bufs_sub, unary_bufs_sub, binary_bufs_sub, ternary_bufs_sub,
    reshape_bufs_sub, nary_bufs_sub, and_self]

/-- Every operation of piece 19 determines the contents it writes (none allocates without writing). -/
theorem ops19_fresh : ∀ op ∈ (ops19 : List (HloOp τ sig (Elt F))), op.fresh = ∅ := by
  refine List.forall_iff_forall_mem.mp ?_
  repeat' apply And.intro
  all_goals rfl

/-- Every operation of piece 19 writes exactly one buffer, and these are the buffers numbered 232 … 254: each
    value of the program has a buffer of its own, numbered in program order. -/
theorem ops19_writes : (ops19 : List (HloOp τ sig (Elt F))).Forall (WritesIn 232 255) := by
  repeat' apply And.intro
  all_goals exact ⟨_, rfl, by decide, by decide⟩

/-- Every operation of piece 20 touches TensorCore references only: each is one of the builders, whose buffers
    are its operands' and its result's. -/
theorem ops20_sub : (ops20 : List (HloOp τ sig (Elt F))).Forall fun op => op.bufs ⊆ tcRefs τ sig := by
  simp only [ops20, List.Forall, nullary_bufs_sub, unary_bufs_sub, binary_bufs_sub, ternary_bufs_sub,
    reshape_bufs_sub, nary_bufs_sub, and_self]

/-- Every operation of piece 20 determines the contents it writes (none allocates without writing). -/
theorem ops20_fresh : ∀ op ∈ (ops20 : List (HloOp τ sig (Elt F))), op.fresh = ∅ := by
  refine List.forall_iff_forall_mem.mp ?_
  repeat' apply And.intro
  all_goals rfl

/-- Every operation of piece 20 writes exactly one buffer, and these are the buffers numbered 255 … 273: each
    value of the program has a buffer of its own, numbered in program order. -/
theorem ops20_writes : (ops20 : List (HloOp τ sig (Elt F))).Forall (WritesIn 255 274) := by
  repeat' apply And.intro
  all_goals exact ⟨_, rfl, by decide, by decide⟩

/-- Every operation of piece 21 touches TensorCore references only: each is one of the builders, whose buffers
    are its operands' and its result's. -/
theorem ops21_sub : (ops21 : List (HloOp τ sig (Elt F))).Forall fun op => op.bufs ⊆ tcRefs τ sig := by
  simp only [ops21, List.Forall, nullary_bufs_sub, unary_bufs_sub, binary_bufs_sub, ternary_bufs_sub,
    reshape_bufs_sub, nary_bufs_sub, and_self]

/-- Every operation of piece 21 determines the contents it writes (none allocates without writing). -/
theorem ops21_fresh : ∀ op ∈ (ops21 : List (HloOp τ sig (Elt F))), op.fresh = ∅ := by
  refine List.forall_iff_forall_mem.mp ?_
  repeat' apply And.intro
  all_goals rfl

/-- Every operation of piece 21 writes exactly one buffer, and these are the buffers numbered 274 … 277: each
    value of the program has a buffer of its own, numbered in program order. -/
theorem ops21_writes : (ops21 : List (HloOp τ sig (Elt F))).Forall (WritesIn 274 278) := by
  repeat' apply And.intro
  all_goals exact ⟨_, rfl, by decide, by decide⟩

/-- Every operation of piece 22 touches TensorCore references only: each is one of the builders, whose buffers
    are its operands' and its result's. -/
theorem ops22_sub : (ops22 : List (HloOp τ sig (Elt F))).Forall fun op => op.bufs ⊆ tcRefs τ sig := by
  simp only [ops22, List.Forall, nullary_bufs_sub, unary_bufs_sub, binary_bufs_sub, ternary_bufs_sub,
    reshape_bufs_sub, nary_bufs_sub, and_self]

/-- Every operation of piece 22 determines the contents it writes (none allocates without writing). -/
theorem ops22_fresh : ∀ op ∈ (ops22 : List (HloOp τ sig (Elt F))), op.fresh = ∅ := by
  refine List.forall_iff_forall_mem.mp ?_
  repeat' apply And.intro
  all_goals rfl

/-- Every operation of piece 22 writes exactly one buffer, and these are the buffers numbered 278 … 282: each
    value of the program has a buffer of its own, numbered in program order. -/
theorem ops22_writes : (ops22 : List (HloOp τ sig (Elt F))).Forall (WritesIn 278 283) := by
  repeat' apply And.intro
  all_goals exact ⟨_, rfl, by decide, by decide⟩

/-- Every operation of piece 23 touches TensorCore references only: each is one of the builders, whose buffers
    are its operands' and its result's. -/
theorem ops23_sub : (ops23 : List (HloOp τ sig (Elt F))).Forall fun op => op.bufs ⊆ tcRefs τ sig := by
  simp only [ops23, List.Forall, nullary_bufs_sub, unary_bufs_sub, binary_bufs_sub, ternary_bufs_sub,
    reshape_bufs_sub, nary_bufs_sub, and_self]

/-- Every operation of piece 23 determines the contents it writes (none allocates without writing). -/
theorem ops23_fresh : ∀ op ∈ (ops23 : List (HloOp τ sig (Elt F))), op.fresh = ∅ := by
  refine List.forall_iff_forall_mem.mp ?_
  repeat' apply And.intro
  all_goals rfl

/-- Every operation of piece 23 writes exactly one buffer, and these are the buffers numbered 283 … 305: each
    value of the program has a buffer of its own, numbered in program order. -/
theorem ops23_writes : (ops23 : List (HloOp τ sig (Elt F))).Forall (WritesIn 283 306) := by
  repeat' apply And.intro
  all_goals exact ⟨_, rfl, by decide, by decide⟩

/-- Every operation of piece 24 touches TensorCore references only: each is one of the builders, whose buffers
    are its operands' and its result's. -/
theorem ops24_sub : (ops24 : List (HloOp τ sig (Elt F))).Forall fun op => op.bufs ⊆ tcRefs τ sig := by
  simp only [ops24, List.Forall, nullary_bufs_sub, unary_bufs_sub, binary_bufs_sub, ternary_bufs_sub,
    reshape_bufs_sub, nary_bufs_sub, and_self]

/-- Every operation of piece 24 determines the contents it writes (none allocates without writing). -/
theorem ops24_fresh : ∀ op ∈ (ops24 : List (HloOp τ sig (Elt F))), op.fresh = ∅ := by
  refine List.forall_iff_forall_mem.mp ?_
  repeat' apply And.intro
  all_goals rfl

/-- Every operation of piece 24 writes exactly one buffer, and these are the buffers numbered 306 … 318: each
    value of the program has a buffer of its own, numbered in program order. -/
theorem ops24_writes : (ops24 : List (HloOp τ sig (Elt F))).Forall (WritesIn 306 319) := by
  repeat' apply And.intro
  all_goals exact ⟨_, rfl, by decide, by decide⟩

end Cert.ReferenceIdeal.RefRun

end
-- ==== Proof.RefTab3.lean ====
/- The operations of window 3 of the reference program's @main (main_part3), the functions it calls
   written out at their call sites over the calls' buffer records: entry k of the lists below is operation
   297 + k of the 340 the program runs in order. Tables only. -/
import proofs.«167845_j85727547228621_1_alg».proof.Proof.Gen.ReferenceIdeal
import Idealize.ShloMosaic.Lib.StableHlo.Run

set_option synthInstance.maxSize 4096
set_option maxHeartbeats 40000000

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F]

/-- Operations 297 … 302 (6 of them), in order. -/
abbrev ops25 : List (HloOp τ sig (Elt F)) :=
  [ StableHlo.unary main_arg18 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S115200x256 ![0, 1] bcast_S1x256_S115200x256_0_1 : (⟨S1x256, .f32⟩ : BufTy).Contents (Elt F) → (⟨S115200x256, .f32⟩ : BufTy).Contents (Elt F)),
    StableHlo.binary main_v150 main_v152 main_v153 (addf : (⟨S115200x256, .f32⟩ : BufTy).Contents (Elt F) → (⟨S115200x256, .f32⟩ : BufTy).Contents (Elt F) → (⟨S115200x256, .f32⟩ : BufTy).Contents (Elt F)),
    StableHlo.TRef.nullary main_call9.cst (constant S_ .f32 0x00000000#32),
    StableHlo.TRef.unary main_call9.cst main_call9.v0 (broadcastInDim S115200x256 ![] bcast_S_S115200x256),
    StableHlo.TRef.binary (.of main_v153 : StableHlo.TRef sig ⟨S115200x256, .f32⟩) main_call9.v0 main_call9.v1 maximumf ]

/-- Operations 303 … 306 (4 of them), in order. -/
abbrev ops26 : List (HloOp τ sig (Elt F)) :=
  [ StableHlo.binary main_v154 main_arg19 main_v155 ((fun l r => Host.dotGeneral dot_S115200x256_S256x1_S115200x1_1_0_0_1_n_n none l r) : (⟨S115200x256, .f32⟩ : BufTy).Contents (Elt F) → (⟨S256x1, .f32⟩ : BufTy).Contents (Elt F) → (⟨S115200x1, .f32⟩ : BufTy).Contents (Elt F)),
    StableHlo.unary main_arg20 main_v156 (broadcastInDim S1x1 ![1] bcast_S1_S1x1_1 : (⟨S1, .f32⟩ : BufTy).Contents (Elt F) → (⟨S1x1, .f32⟩ : BufTy).Contents (Elt F)),
    StableHlo.unary main_v156 main_v157 (broadcastInDim S115200x1 ![0, 1] bcast_S1x1_S115200x1_0_1 : (⟨S1x1, .f32⟩ : BufTy).Contents (Elt F) → (⟨S115200x1, .f32⟩ : BufTy).Contents (Elt F)),
    StableHlo.binary main_v155 main_v157 main_v158 (addf : (⟨S115200x1, .f32⟩ : BufTy).Contents (Elt F) → (⟨S115200x1, .f32⟩ : BufTy).Contents (Elt F) → (⟨S115200x1, .f32⟩ : BufTy).Contents (Elt F)) ]

/-- Operations 307 … 321 (15 of them), in order. -/
abbrev ops27 : List (HloOp τ sig (Elt F)) :=
  [ StableHlo.TRef.nullary main_call10.cst (constant S_ .f32 0xFF800000#32),
    StableHlo.TRef.binary (.of main_v158 : StableHlo.TRef sig ⟨S115200x1, .f32⟩) main_call10.cst main_call10.v0 (fun x v => Host.reduce FloatOps.maximumf x v reducesTo_S115200x1_S1_d0 h_S_),
    StableHlo.TRef.nullary main_call10.cst_0 (constant S_ .f32 0xFF800000#32),
    StableHlo.TRef.unary main_call10.cst_0 main_call10.v1 (broadcastInDim S1 ![] bcast_S_S1),
    StableHlo.TRef.binary main_call10.v1 main_call10.v0 main_call10.v2 maximumf,
    StableHlo.TRef.unary main_call10.v2 main_call10.v3 (broadcastInDim S1x1 ![1] bcast_S1_S1x1_1),
    StableHlo.TRef.unary main_call10.v3 main_call10.v4 (broadcastInDim S115200x1 ![0, 1] bcast_S1x1_S115200x1_0_1),
    StableHlo.TRef.binary (.of main_v158 : StableHlo.TRef sig ⟨S115200x1, .f32⟩) main_call10.v4 main_call10.v5 subf,
    StableHlo.TRef.unary main_call10.v5 main_call10.v6 Host.exp,
    StableHlo.TRef.nullary main_call10.cst_1 (constant S_ .f32 0x00000000#32),
    StableHlo.TRef.binary main_call10.v6 main_call10.cst_1 main_call10.v7 (fun x v => Host.reduceAdd x v reducesTo_S115200x1_S1_d0 h_S_),
    StableHlo.TRef.unary main_call10.v7 main_call10.v8 (broadcastInDim S1x1 ![1] bcast_S1_S1x1_1),
    StableHlo.TRef.unary main_call10.v8 main_call10.v9 Host.log,
    StableHlo.TRef.unary main_call10.v9 main_call10.v10 (broadcastInDim S115200x1 ![0, 1] bcast_S1x1_S115200x1_0_1),
    StableHlo.TRef.binary main_call10.v5 main_call10.v10 main_call10.v11 subf ]

/-- Operations 322 … 325 (4 of them), in order. -/
abbrev ops28 : List (HloOp τ sig (Elt F)) :=
  [ StableHlo.binary main_v154 main_arg21 main_v160 ((fun l r => Host.dotGeneral dot_S115200x256_S256x1_S115200x1_1_0_0_1_n_n none l r) : (⟨S115200x256, .f32⟩ : BufTy).Contents (Elt F) → (⟨S256x1, .f32⟩ : BufTy).Contents (Elt F) → (⟨S115200x1, .f32⟩ : BufTy).Contents (Elt F)),
    StableHlo.unary main_arg22 main_v161 (broadcastInDim S1x1 ![1] bcast_S1_S1x1_1 : (⟨S1, .f32⟩ : BufTy).Contents (Elt F) → (⟨S1x1, .f32⟩ : BufTy).Contents (Elt F)),
    StableHlo.unary main_v161 main_v162 (broadcastInDim S115200x1 ![0, 1] bcast_S1x1_S115200x1_0_1 : (⟨S1x1, .f32⟩ : BufTy).Contents (Elt F) → (⟨S115200x1, .f32⟩ : BufTy).Contents (Elt F)),
    StableHlo.binary main_v160 main_v162 main_v163 (addf : (⟨S115200x1, .f32⟩ : BufTy).Contents (Elt F) → (⟨S115200x1, .f32⟩ : BufTy).Contents (Elt F) → (⟨S115200x1, .f32⟩ : BufTy).Contents (Elt F)) ]

/-- Operations 326 … 340 (15 of them), in order. -/
abbrev ops29 : List (HloOp τ sig (Elt F)) :=
  [ StableHlo.nullary main_cst_27 (constant S_ .f32 0x00000000#32),
    StableHlo.unary main_cst_27 main_v164 (broadcastInDim S512x1 ![] bcast_S_S512x1 : (⟨S_, .f32⟩ : BufTy).Contents (Elt F) → (⟨S512x1, .f32⟩ : BufTy).Contents (Elt F)),
    StableHlo.unary main_arg2 main_v165 (broadcastInDim S115200x1 ![0] bcast_S115200_S115200x1_0 : (⟨S115200, .i32⟩ : BufTy).Contents (Elt F) → (⟨S115200x1, .i32⟩ : BufTy).Contents (Elt F)),
    StableHlo.ternary main_v164 main_v165 main_v163 main_v166 ((fun x i u => Host.scatterAdd scatter_S512x1_S115200x1_S115200x1_1_0_0_1 x i u) : (⟨S512x1, .f32⟩ : BufTy).Contents (Elt F) → (⟨S115200x1, .i32⟩ : BufTy).Contents (Elt F) → (⟨S115200x1, .f32⟩ : BufTy).Contents (Elt F) → (⟨S512x1, .f32⟩ : BufTy).Contents (Elt F)),
    StableHlo.nullary main_cst_28 (constant S_ .f32 0x3F800000#32),
    StableHlo.unary main_cst_28 main_v167 (broadcastInDim S115200x1 ![] bcast_S_S115200x1 : (⟨S_, .f32⟩ : BufTy).Contents (Elt F) → (⟨S115200x1, .f32⟩ : BufTy).Contents (Elt F)),
    StableHlo.nullary main_cst_29 (constant S_ .f32 0x00000000#32),
    StableHlo.unary main_cst_29 main_v168 (broadcastInDim S512x1 ![] bcast_S_S512x1 : (⟨S_, .f32⟩ : BufTy).Contents (Elt F) → (⟨S512x1, .f32⟩ : BufTy).Contents (Elt F)),
    StableHlo.unary main_arg2 main_v169 (broadcastInDim S115200x1 ![0] bcast_S115200_S115200x1_0 : (⟨S115200, .i32⟩ : BufTy).Contents (Elt F) → (⟨S115200x1, .i32⟩ : BufTy).Contents (Elt F)),
    StableHlo.ternary main_v168 main_v169 main_v167 main_v170 ((fun x i u => Host.scatterAdd scatter_S512x1_S115200x1_S115200x1_1_0_0_1 x i u) : (⟨S512x1, .f32⟩ : BufTy).Contents (Elt F) → (⟨S115200x1, .i32⟩ : BufTy).Contents (Elt F) → (⟨S115200x1, .f32⟩ : BufTy).Contents (Elt F) → (⟨S512x1, .f32⟩ : BufTy).Contents (Elt F)),
    StableHlo.nullary main_cst_30 (constant S_ .f32 0x3F800000#32),
    StableHlo.unary main_cst_30 main_v171 (broadcastInDim S512x1 ![] bcast_S_S512x1 : (⟨S_, .f32⟩ : BufTy).Contents (Elt F) → (⟨S512x1, .f32⟩ : BufTy).Contents (Elt F)),
    StableHlo.binary main_v170 main_v171 main_v172 (maximumf : (⟨S512x1, .f32⟩ : BufTy).Contents (Elt F) → (⟨S512x1, .f32⟩ : BufTy).Contents (Elt F) → (⟨S512x1, .f32⟩ : BufTy).Contents (Elt F)),
    StableHlo.binary main_v166 main_v172 main_v173 (Host.divf : (⟨S512x1, .f32⟩ : BufTy).Contents (Elt F) → (⟨S512x1, .f32⟩ : BufTy).Contents (Elt F) → (⟨S512x1, .f32⟩ : BufTy).Contents (Elt F)),
    StableHlo.unary main_v173 main_v174 (Host.tanh : (⟨S512x1, .f32⟩ : BufTy).Contents (Elt F) → (⟨S512x1, .f32⟩ : BufTy).Contents (Elt F)) ]

end Cert.ReferenceIdeal.RefRun

end
-- ==== Proof.RefOps3.lean ====
/- Window 3 of the reference program's @main is the straight line of the operations listed for it, and what
   each piece of that line touches and writes. The window is a sequence of operation steps with the called
   functions' bodies standing at their call sites; unfolding the functions at their buffer records and
   re-associating the sequencing gives the list, step for step, so the two programs are equal by computation.
   The three facts about a piece are proved the same way for every piece: each operation is one of the
   builders, whose buffers, written buffer and determinacy are read off its definition. -/
import proofs.«167845_j85727547228621_1_alg».proof.Proof.RefTab3
import proofs.«167845_j85727547228621_1_alg».proof.Proof.RefLemmas

set_option synthInstance.maxSize 4096

noncomputable section

namespace Cert.ReferenceIdeal.RefRun

open Cert.RefLemmas Cert.ReferenceIdeal Cert.ReferenceIdeal.Gen Idealize.ShloMosaic Idealize.ShloMosaic.TcCoe Idealize.SL.Sem Idealize.ShloMosaic.StableHlo

variable {F : FTy → Type} [FloatOps F]

/-- Window 3 runs the operations of pieces 25 … 29, in order, and nothing else. -/
theorem part3_eq (c : Dev nD) : main_part3 (F := F) c = seq (ops25 ++ ops26 ++ ops27 ++ ops28 ++ ops29) := rfl

/-- Every operation of piece 25 touches TensorCore references only: each is one of the builders, whose buffers
    are its operands' and its result's. -/
theorem ops25_sub : (ops25 : List (HloOp τ sig (Elt F))).Forall fun op => op.bufs ⊆ tcRefs τ sig := by
  simp only [ops25, List.Forall, nullary_bufs_sub, unary_bufs_sub, binary_bufs_sub, ternary_bufs_sub,
    reshape_bufs_sub, nary_bufs_sub, and_self]

/-- Every operation of piece 25 determines the contents it writes (none allocates without writing). -/
theorem ops25_fresh : ∀ op ∈ (ops25 : List (HloOp τ sig (Elt F))), op.fresh = ∅ := by
  refine List.forall_iff_forall_mem.mp ?_
  repeat' apply And.intro
  all_goals rfl

/-- Every operation of piece 25 writes exactly one buffer, and these are the buffers numbered 319 … 324: each
    value of the program has a buffer of its own, numbered in program order. -/
theorem ops25_writes : (ops25 : List (HloOp τ sig (Elt F))).Forall (WritesIn 319 325) := by
  repeat' apply And.intro
  all_goals exact ⟨_, rfl, by decide, by decide⟩

/-- Every operation of piece 26 touches TensorCore references only: each is one of the builders, whose buffers
    are its operands' and its result's. -/
theorem ops26_sub : (ops26 : List (HloOp τ sig (Elt F))).Forall fun op => op.bufs ⊆ tcRefs τ sig := by
  simp only [ops26, List.Forall, nullary_bufs_sub, unary_bufs_sub, binary_bufs_sub, ternary_bufs_sub,
    reshape_bufs_sub, nary_bufs_sub, and_self]

/-- Every operation of piece 26 determines the contents it writes (none allocates without writing). -/
theorem ops26_fresh : ∀ op ∈ (ops26 : List (HloOp τ sig (Elt F))), op.fresh = ∅ := by
  refine List.forall_iff_forall_mem.mp ?_
  repeat' apply And.intro
  all_goals rfl

/-- Every operation of piece 26 writes exactly one buffer, and these are the buffers numbered 325 … 328: each
    value of the program has a buffer of its own, numbered in program order. -/
theorem ops26_writes : (ops26 : List (HloOp τ sig (Elt F))).Forall (WritesIn 325 329) := by
  repeat' apply And.intro
  all_goals exact ⟨_, rfl, by decide, by decide⟩

/-- Every operation of piece 27 touches TensorCore references only: each is one of the builders, whose buffers
    are its operands' and its result's. -/
theorem ops27_sub : (ops27 : List (HloOp τ sig (Elt F))).Forall fun op => op.bufs ⊆ tcRefs τ sig := by
  simp only [ops27, List.Forall, nullary_bufs_sub, unary_bufs_sub, binary_bufs_sub, ternary_bufs_sub,
    reshape_bufs_sub, nary_bufs_sub, and_self]

/-- Every operation of piece 27 determines the contents it writes (none allocates without writing). -/
theorem ops27_fresh : ∀ op ∈ (ops27 : List (HloOp τ sig (Elt F))), op.fresh = ∅ := by
  refine List.forall_iff_forall_mem.mp ?_
  repeat' apply And.intro
  all_goals rfl

/-- Every operation of piece 27 writes exactly one buffer, and these are the buffers numbered 329 … 343: each
    value of the program has a buffer of its own, numbered in program order. -/
theorem ops27_writes : (ops27 : List (HloOp τ sig (Elt F))).Forall (WritesIn 329 344) := by
  repeat' apply And.intro
  all_goals exact ⟨_, rfl, by decide, by decide⟩

/-- Every operation of piece 28 touches TensorCore references only: each is one of the builders, whose buffers
    are its operands' and its result's. -/
theorem ops28_sub : (ops28 : List (HloOp τ sig (Elt F))).Forall fun op => op.bufs ⊆ tcRefs τ sig := by
  simp only [ops28, List.Forall, nullary_bufs_sub, unary_bufs_sub, binary_bufs_sub, ternary_bufs_sub,
    reshape_bufs_sub, nary_bufs_sub, and_self]

/-- Every operation of piece 28 determines the contents it writes (none allocates without writing). -/
theorem ops28_fresh : ∀ op ∈ (ops28 : List (HloOp τ sig (Elt F))), op.fresh = ∅ := by
  refine List.forall_iff_forall_mem.mp ?_
  repeat' apply And.intro
  all_goals rfl

/-- Every operation of piece 28 writes exactly one buffer, and these are the buffers numbered 344 … 347: each
    value of the program has a buffer of its own, numbered in program order. -/
theorem ops28_writes : (ops28 : List (HloOp τ sig (Elt F))).Forall (WritesIn 344 348) := by
  repeat' apply And.intro
  all_goals exact ⟨_, rfl, by decide, by decide⟩

/-- Every operation of piece 29 touches TensorCore references only: each is one of the builders, whose buffers
    are its operands' and its result's. -/
theorem ops29_sub : (ops29 : List (HloOp τ sig (Elt F))).Forall fun op => op.bufs ⊆ tcRefs τ sig := by
  simp only [ops29, List.Forall, nullary_bufs_sub, unary_bufs_sub, binary_bufs_sub, ternary_bufs_sub,
    reshape_bufs_sub, nary_bufs_sub, and_self]

/-- Every operation of piece 29 determines the contents it writes (none allocates without writing). -/
theorem ops29_fresh : ∀ op ∈ (ops29 : List (HloOp τ sig (Elt F))), op.fresh = ∅ := by
  refine List.forall_iff_forall_mem.mp ?_
  repeat' apply And.intro
  all_goals rfl

/-- Every operation of piece 29 writes exactly one buffer, and these are the buffers numbered 348 … 362: each
    value of the program has a buffer of its own, numbered in program order. -/
theorem ops29_writes : (ops29 : List (HloOp τ sig (Elt F))).Forall (WritesIn 348 363) := by
  repeat' apply And.intro
  all_goals exact ⟨_, rfl, by decide, by decide⟩

end Cert.ReferenceIdeal.RefRun

end
-- ==== Proof.RefRun.lean ====
/- The run of the reference program. Its @main is four windows run in order; each window is the straight line of
   its operations (the modules imported below), so @main is the straight line `ops` of all 340, and the run theorem
   for a straight line of host operations gives: every weakly fair execution terminates, and each TensorCore buffer
   ends at the fold of the operations over the launch contents. The operations write the buffers numbered 23 … 362,
   one each and in order, so the 23 arguments (numbered 0 … 22) end as launched, and each of the 30 pieces leaves alone
   every buffer outside its own stretch of numbers: piece k writes the numbers `bound k ≤ i < bound (k + 1)`. -/
import proofs.«167845_j85727547228621_1_alg».proof.Proof.RefOps0
import proofs.«167845_j85727547228621_1_alg».proof.Proof.RefOps1
import proofs.«167845_j85727547228621_1_alg».proof.Proof.RefOps2
import proofs.«167845_j85727547228621_1_alg».proof.Proof.RefOps3

set_option synthInstance.maxSize 4096

noncomputable section

namespace Cert.ReferenceIdeal.RefRun

open Cert.RefLemmas Cert.ReferenceIdeal Cert.ReferenceIdeal.Gen Idealize.ShloMosaic Idealize.ShloMosaic.TcCoe Idealize.SL.Sem Idealize.ShloMosaic.StableHlo

variable {F : FTy → Type} [FloatOps F]

/-- The 340 operations of the program, in order: the 30 pieces, grouped by window. -/
abbrev ops : List (HloOp τ sig (Elt F)) :=
  (ops0 ++ ops1 ++ ops2 ++ ops3 ++ ops4 ++ ops5 ++ ops6) ++ ((ops7 ++ ops8 ++ ops9 ++ ops10 ++ ops11 ++ ops12 ++ ops13 ++ ops14 ++ ops15) ++ ((ops16 ++ ops17 ++ ops18 ++ ops19 ++ ops20 ++ ops21 ++ ops22 ++ ops23 ++ ops24) ++ (ops25 ++ ops26 ++ ops27 ++ ops28 ++ ops29)))

/-- @main is that straight line: its four windows are the lines of their pieces, and lines run one after the
    other are their concatenation run as one. -/
theorem main_eq (c : Dev nD) : main (F := F) c = seq ops := by
  show (main_part0 (F := F) c >>= fun _ => main_part1 (F := F) c >>= fun _ => main_part2 (F := F) c >>= fun _ => main_part3 (F := F) c) = _
  rw [part0_eq, part1_eq, part2_eq, part3_eq, ← seq_append, ← seq_append, ← seq_append]

/-- The pieces as a family, and the first buffer number each writes (`bound 30` closes the last). -/
def piece : Nat → List (HloOp τ sig (Elt F))
  | 0 => ops0
  | 1 => ops1
  | 2 => ops2
  | 3 => ops3
  | 4 => ops4
  | 5 => ops5
  | 6 => ops6
  | 7 => ops7
  | 8 => ops8
  | 9 => ops9
  | 10 => ops10
  | 11 => ops11
  | 12 => ops12
  | 13 => ops13
  | 14 => ops14
  | 15 => ops15
  | 16 => ops16
  | 17 => ops17
  | 18 => ops18
  | 19 => ops19
  | 20 => ops20
  | 21 => ops21
  | 22 => ops22
  | 23 => ops23
  | 24 => ops24
  | 25 => ops25
  | 26 => ops26
  | 27 => ops27
  | 28 => ops28
  | 29 => ops29
  | _ => []

def bound : Nat → Nat
  | 0 => 23
  | 1 => 40
  | 2 => 45
  | 3 => 51
  | 4 => 75
  | 5 => 92
  | 6 => 105
  | 7 => 107
  | 8 => 110
  | 9 => 116
  | 10 => 140
  | 11 => 157
  | 12 => 170
  | 13 => 175
  | 14 => 181
  | 15 => 205
  | 16 => 213
  | 17 => 222
  | 18 => 227
  | 19 => 232
  | 20 => 255
  | 21 => 274
  | 22 => 278
  | 23 => 283
  | 24 => 306
  | 25 => 319
  | 26 => 325
  | 27 => 329
  | 28 => 344
  | 29 => 348
  | _ => 363

theorem piece_writes : ∀ k, (piece (F := F) k).Forall (WritesIn (bound k) (bound (k + 1)))
  | 0 => ops0_writes
  | 1 => ops1_writes
  | 2 => ops2_writes
  | 3 => ops3_writes
  | 4 => ops4_writes
  | 5 => ops5_writes
  | 6 => ops6_writes
  | 7 => ops7_writes
  | 8 => ops8_writes
  | 9 => ops9_writes
  | 10 => ops10_writes
  | 11 => ops11_writes
  | 12 => ops12_writes
  | 13 => ops13_writes
  | 14 => ops14_writes
  | 15 => ops15_writes
  | 16 => ops16_writes
  | 17 => ops17_writes
  | 18 => ops18_writes
  | 19 => ops19_writes
  | 20 => ops20_writes
  | 21 => ops21_writes
  | 22 => ops22_writes
  | 23 => ops23_writes
  | 24 => ops24_writes
  | 25 => ops25_writes
  | 26 => ops26_writes
  | 27 => ops27_writes
  | 28 => ops28_writes
  | 29 => ops29_writes
  | _ + 30 => trivial

theorem bound_le_succ : ∀ k, bound k ≤ bound (k + 1)
  | 0 => by decide
  | 1 => by decide
  | 2 => by decide
  | 3 => by decide
  | 4 => by decide
  | 5 => by decide
  | 6 => by decide
  | 7 => by decide
  | 8 => by decide
  | 9 => by decide
  | 10 => by decide
  | 11 => by decide
  | 12 => by decide
  | 13 => by decide
  | 14 => by decide
  | 15 => by decide
  | 16 => by decide
  | 17 => by decide
  | 18 => by decide
  | 19 => by decide
  | 20 => by decide
  | 21 => by decide
  | 22 => by decide
  | 23 => by decide
  | 24 => by decide
  | 25 => by decide
  | 26 => by decide
  | 27 => by decide
  | 28 => by decide
  | 29 => by decide
  | _ + 30 => Nat.le_refl _

/-- The fold over the whole line is the folds over the pieces, one after the other. -/
theorem after_ops (V : Valuation τ sig (Elt F)) : after ops V = afterUpTo piece 30 V := by
  show after ((ops0 ++ ops1 ++ ops2 ++ ops3 ++ ops4 ++ ops5 ++ ops6) ++ ((ops7 ++ ops8 ++ ops9 ++ ops10 ++ ops11 ++ ops12 ++ ops13 ++ ops14 ++ ops15) ++ ((ops16 ++ ops17 ++ ops18 ++ ops19 ++ ops20 ++ ops21 ++ ops22 ++ ops23 ++ ops24) ++ (ops25 ++ ops26 ++ ops27 ++ ops28 ++ ops29)))) V
    = after ops29 (after ops28 (after ops27 (after ops26 (after ops25 (after ops24 (after ops23 (after ops22 (after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 V)))))))))))))))))))))))))))))
  repeat rw [after_append]

/-- The signature scopes no TensorCore buffer and no semaphore: every buffer is a tensor value's. -/
theorem scopedRefs_eq : (Finset.univ.filter fun b : Ref sig .tc => b.isScoped) = ∅ := by decide +kernel
theorem scopedSems_eq : (Finset.univ.filter fun sm : SemLoc sig => sm.isScoped .tc) = ∅ := by decide +kernel

theorem ops_sub : (ops : List (HloOp τ sig (Elt F))).Forall fun op => op.bufs ⊆ tcRefs τ sig :=
  forall_append (forall_append (forall_append (forall_append (forall_append (forall_append (forall_append (ops0_sub) ops1_sub) ops2_sub) ops3_sub) ops4_sub) ops5_sub) ops6_sub)
    (forall_append (forall_append (forall_append (forall_append (forall_append (forall_append (forall_append (forall_append (forall_append (ops7_sub) ops8_sub) ops9_sub) ops10_sub) ops11_sub) ops12_sub) ops13_sub) ops14_sub) ops15_sub)
      (forall_append (forall_append (forall_append (forall_append (forall_append (forall_append (forall_append (forall_append (forall_append (ops16_sub) ops17_sub) ops18_sub) ops19_sub) ops20_sub) ops21_sub) ops22_sub) ops23_sub) ops24_sub)
        (forall_append (forall_append (forall_append (forall_append (ops25_sub) ops26_sub) ops27_sub) ops28_sub) ops29_sub)))

theorem ops_fresh : ∀ op ∈ (ops : List (HloOp τ sig (Elt F))), op.fresh = ∅ :=
  forall_mem_append (forall_mem_append (forall_mem_append (forall_mem_append (forall_mem_append (forall_mem_append (forall_mem_append (ops0_fresh) ops1_fresh) ops2_fresh) ops3_fresh) ops4_fresh) ops5_fresh) ops6_fresh)
    (forall_mem_append (forall_mem_append (forall_mem_append (forall_mem_append (forall_mem_append (forall_mem_append (forall_mem_append (forall_mem_append (forall_mem_append (ops7_fresh) ops8_fresh) ops9_fresh) ops10_fresh) ops11_fresh) ops12_fresh) ops13_fresh) ops14_fresh) ops15_fresh)
      (forall_mem_append (forall_mem_append (forall_mem_append (forall_mem_append (forall_mem_append (forall_mem_append (forall_mem_append (forall_mem_append (forall_mem_append (ops16_fresh) ops17_fresh) ops18_fresh) ops19_fresh) ops20_fresh) ops21_fresh) ops22_fresh) ops23_fresh) ops24_fresh)
        (forall_mem_append (forall_mem_append (forall_mem_append (forall_mem_append (ops25_fresh) ops26_fresh) ops27_fresh) ops28_fresh) ops29_fresh)))

/-- Every operation writes one buffer, among those numbered 23 … 362. -/
theorem ops_writes : (ops : List (HloOp τ sig (Elt F))).Forall (WritesIn 23 363) :=
  forall_append (forall_append (forall_append (forall_append (forall_append (forall_append (forall_append ((forall_writesIn_mono (by decide) (by decide) ops0_writes)) (forall_writesIn_mono (by decide) (by decide) ops1_writes)) (forall_writesIn_mono (by decide) (by decide) ops2_writes)) (forall_writesIn_mono (by decide) (by decide) ops3_writes)) (forall_writesIn_mono (by decide) (by decide) ops4_writes)) (forall_writesIn_mono (by decide) (by decide) ops5_writes)) (forall_writesIn_mono (by decide) (by decide) ops6_writes))
    (forall_append (forall_append (forall_append (forall_append (forall_append (forall_append (forall_append (forall_append (forall_append ((forall_writesIn_mono (by decide) (by decide) ops7_writes)) (forall_writesIn_mono (by decide) (by decide) ops8_writes)) (forall_writesIn_mono (by decide) (by decide) ops9_writes)) (forall_writesIn_mono (by decide) (by decide) ops10_writes)) (forall_writesIn_mono (by decide) (by decide) ops11_writes)) (forall_writesIn_mono (by decide) (by decide) ops12_writes)) (forall_writesIn_mono (by decide) (by decide) ops13_writes)) (forall_writesIn_mono (by decide) (by decide) ops14_writes)) (forall_writesIn_mono (by decide) (by decide) ops15_writes))
      (forall_append (forall_append (forall_append (forall_append (forall_append (forall_append (forall_append (forall_append (forall_append ((forall_writesIn_mono (by decide) (by decide) ops16_writes)) (forall_writesIn_mono (by decide) (by decide) ops17_writes)) (forall_writesIn_mono (by decide) (by decide) ops18_writes)) (forall_writesIn_mono (by decide) (by decide) ops19_writes)) (forall_writesIn_mono (by decide) (by decide) ops20_writes)) (forall_writesIn_mono (by decide) (by decide) ops21_writes)) (forall_writesIn_mono (by decide) (by decide) ops22_writes)) (forall_writesIn_mono (by decide) (by decide) ops23_writes)) (forall_writesIn_mono (by decide) (by decide) ops24_writes))
        (forall_append (forall_append (forall_append (forall_append ((forall_writesIn_mono (by decide) (by decide) ops25_writes)) (forall_writesIn_mono (by decide) (by decide) ops26_writes)) (forall_writesIn_mono (by decide) (by decide) ops27_writes)) (forall_writesIn_mono (by decide) (by decide) ops28_writes)) (forall_writesIn_mono (by decide) (by decide) ops29_writes))))

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A buffer numbered below 23 — an argument — is written by no operation: the line leaves it as it was. -/
theorem kept_below (r : Ref sig .tc) (hr : r.idx.val < 23) (V : Valuation τ sig (Elt F)) :
    after ops V (r : DevRef τ sig) = V (r : DevRef τ sig) :=
  after_of_writesIn ops_writes r (Or.inl hr) V

theorem arg0_kept (V : Valuation τ sig (Elt F)) : after ops V (main_arg0 : DevRef τ sig) = V (main_arg0 : DevRef τ sig) :=
  kept_below main_arg0 (by decide) V
theorem arg1_kept (V : Valuation τ sig (Elt F)) : after ops V (main_arg1 : DevRef τ sig) = V (main_arg1 : DevRef τ sig) :=
  kept_below main_arg1 (by decide) V
theorem arg2_kept (V : Valuation τ sig (Elt F)) : after ops V (main_arg2 : DevRef τ sig) = V (main_arg2 : DevRef τ sig) :=
  kept_below main_arg2 (by decide) V
theorem arg3_kept (V : Valuation τ sig (Elt F)) : after ops V (main_arg3 : DevRef τ sig) = V (main_arg3 : DevRef τ sig) :=
  kept_below main_arg3 (by decide) V
theorem arg4_kept (V : Valuation τ sig (Elt F)) : after ops V (main_arg4 : DevRef τ sig) = V (main_arg4 : DevRef τ sig) :=
  kept_below main_arg4 (by decide) V
theorem arg5_kept (V : Valuation τ sig (Elt F)) : after ops V (main_arg5 : DevRef τ sig) = V (main_arg5 : DevRef τ sig) :=
  kept_below main_arg5 (by decide) V
theorem arg6_kept (V : Valuation τ sig (Elt F)) : after ops V (main_arg6 : DevRef τ sig) = V (main_arg6 : DevRef τ sig) :=
  kept_below main_arg6 (by decide) V
theorem arg7_kept (V : Valuation τ sig (Elt F)) : after ops V (main_arg7 : DevRef τ sig) = V (main_arg7 : DevRef τ sig) :=
  kept_below main_arg7 (by decide) V
theorem arg8_kept (V : Valuation τ sig (Elt F)) : after ops V (main_arg8 : DevRef τ sig) = V (main_arg8 : DevRef τ sig) :=
  kept_below main_arg8 (by decide) V
theorem arg9_kept (V : Valuation τ sig (Elt F)) : after ops V (main_arg9 : DevRef τ sig) = V (main_arg9 : DevRef τ sig) :=
  kept_below main_arg9 (by decide) V
theorem arg10_kept (V : Valuation τ sig (Elt F)) : after ops V (main_arg10 : DevRef τ sig) = V (main_arg10 : DevRef τ sig) :=
  kept_below main_arg10 (by decide) V
theorem arg11_kept (V : Valuation τ sig (Elt F)) : after ops V (main_arg11 : DevRef τ sig) = V (main_arg11 : DevRef τ sig) :=
  kept_below main_arg11 (by decide) V
theorem arg12_kept (V : Valuation τ sig (Elt F)) : after ops V (main_arg12 : DevRef τ sig) = V (main_arg12 : DevRef τ sig) :=
  kept_below main_arg12 (by decide) V
theorem arg13_kept (V : Valuation τ sig (Elt F)) : after ops V (main_arg13 : DevRef τ sig) = V (main_arg13 : DevRef τ sig) :=
  kept_below main_arg13 (by decide) V
theorem arg14_kept (V : Valuation τ sig (Elt F)) : after ops V (main_arg14 : DevRef τ sig) = V (main_arg14 : DevRef τ sig) :=
  kept_below main_arg14 (by decide) V
theorem arg15_kept (V : Valuation τ sig (Elt F)) : after ops V (main_arg15 : DevRef τ sig) = V (main_arg15 : DevRef τ sig) :=
  kept_below main_arg15 (by decide) V
theorem arg16_kept (V : Valuation τ sig (Elt F)) : after ops V (main_arg16 : DevRef τ sig) = V (main_arg16 : DevRef τ sig) :=
  kept_below main_arg16 (by decide) V
theorem arg17_kept (V : Valuation τ sig (Elt F)) : after ops V (main_arg17 : DevRef τ sig) = V (main_arg17 : DevRef τ sig) :=
  kept_below main_arg17 (by decide) V
theorem arg18_kept (V : Valuation τ sig (Elt F)) : after ops V (main_arg18 : DevRef τ sig) = V (main_arg18 : DevRef τ sig) :=
  kept_below main_arg18 (by decide) V
theorem arg19_kept (V : Valuation τ sig (Elt F)) : after ops V (main_arg19 : DevRef τ sig) = V (main_arg19 : DevRef τ sig) :=
  kept_below main_arg19 (by decide) V
theorem arg20_kept (V : Valuation τ sig (Elt F)) : after ops V (main_arg20 : DevRef τ sig) = V (main_arg20 : DevRef τ sig) :=
  kept_below main_arg20 (by decide) V
theorem arg21_kept (V : Valuation τ sig (Elt F)) : after ops V (main_arg21 : DevRef τ sig) = V (main_arg21 : DevRef τ sig) :=
  kept_below main_arg21 (by decide) V
theorem arg22_kept (V : Valuation τ sig (Elt F)) : after ops V (main_arg22 : DevRef τ sig) = V (main_arg22 : DevRef τ sig) :=
  kept_below main_arg22 (by decide) V

/-- After any number of pieces an argument is as launched. -/
theorem upTo_arg (j : Nat) (r : Ref sig .tc) (hr : r.idx.val < 23) (V : Valuation τ sig (Elt F)) :
    afterUpTo piece j V (r : DevRef τ sig) = V (r : DevRef τ sig) :=
  afterUpTo_keep piece_writes bound_le_succ (Nat.zero_le j) r hr V

/-- A buffer numbered below piece `k`'s first holds after `j ≥ k` pieces what it held after `k`. -/
theorem upTo_keep {k j : Nat} (hkj : k ≤ j) (r : Ref sig .tc) (hr : r.idx.val < bound k) (V : Valuation τ sig (Elt F)) :
    afterUpTo piece j V (r : DevRef τ sig) = afterUpTo piece k V (r : DevRef τ sig) :=
  afterUpTo_keep piece_writes bound_le_succ hkj r hr V

end Cert.ReferenceIdeal.RefRun

end
-- ==== Proof.RefValue0.lean ====
/- What the pieces of window 0 of the reference program compute: for each piece, the contents of the buffer that
   closes a stage of the network after the piece's operations, from ANY contents before them, is the stage's
   definition applied to the contents of the buffers the stage reads. Each is read off the fold over the piece:
   an operation's result at its own buffer is its function of its operands' contents, at any other buffer what
   was there; the composed term is the stage's definition with its local names written out. -/
import proofs.«167845_j85727547228621_1_alg».proof.Proof.RefTab0
import proofs.«167845_j85727547228621_1_alg».proof.Proof.RefStages
import Idealize.ShloMosaic.Lib.StableHlo.Run

set_option synthInstance.maxSize 4096

noncomputable section

namespace Cert.ReferenceIdeal.RefValue

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

variable {F : FTy → Type} [FloatOps F]

/-- The edges' source nodes: row 0 of the edge table, as a vector. -/
def srcIdx (ei : IVec S2x921600 32) : IVec S921600 32 :=
  (shapeCast S921600 · shapeCasts_S1x921600_S921600) ((extractStridedSlice S1x921600 ![0, 0] · slices_S2x921600_S1x921600_0_0) ei)

/-- The edges' destination nodes: row 1 of the edge table, as a vector. -/
def dstIdx (ei : IVec S2x921600 32) : IVec S921600 32 :=
  (shapeCast S921600 · shapeCasts_S1x921600_S921600) ((extractStridedSlice S1x921600 ![1, 0] · slices_S2x921600_S1x921600_1_0) ei)

/-- Piece 0 leaves the source nodes in their buffer. -/
theorem p0_v1 (W : Valuation τ sig (Elt F)) :
    after ops0 W (main_v1 : DevRef τ sig) = srcIdx (W (main_arg1 : DevRef τ sig)) := by
  after_results_simp
  try simp only [cast_eq]
  rfl

/-- And the destination nodes in theirs. -/
theorem p0_v3 (W : Valuation τ sig (Elt F)) :
    after ops0 W (main_v3 : DevRef τ sig) = dstIdx (W (main_arg1 : DevRef τ sig)) := by
  after_results_simp
  try simp only [cast_eq]
  rfl

/-- Piece 0: the neighbour sums of the input feature. -/
theorem p0_v13 (W : Valuation τ sig (Elt F)) :
    after ops0 W (main_v13 : DevRef τ sig) = agg1 (W (main_arg0 : DevRef τ sig)) (W (main_arg1 : DevRef τ sig)) := by
  after_results_simp
  try simp only [cast_eq]
  rfl

/-- Piece 1: the first layer's dense map. -/
theorem p1_v18 (W : Valuation τ sig (Elt F)) :
    after ops1 W (main_v18 : DevRef τ sig) = dense1 (W (main_arg0 : DevRef τ sig)) (W (main_v13 : DevRef τ sig)) (W (main_arg3 : DevRef τ sig)) (W (main_arg4 : DevRef τ sig)) := by
  after_results_simp
  try simp only [cast_eq]
  rfl

/-- Piece 2: the rows' means. -/
theorem p2_v22 (W : Valuation τ sig (Elt F)) :
    after ops2 W (main_v22 : DevRef τ sig) = lnMean (W (main_v18 : DevRef τ sig)) := by
  after_results_simp
  try simp only [cast_eq]
  rfl

/-- Piece 3: the rows' variances. -/
theorem p3_v23 (W : Valuation τ sig (Elt F)) :
    after ops3 W (main_v23 : DevRef τ sig) = lnVar (W (main_v18 : DevRef τ sig)) := by
  after_results_simp
  try simp only [cast_eq]
  rfl

/-- Piece 4: the normalised rows, gained, shifted, positive part. -/
theorem p4_v37 (W : Valuation τ sig (Elt F)) :
    after ops4 W (main_v37 : DevRef τ sig) = lnNorm (W (main_v18 : DevRef τ sig)) (W (main_v22 : DevRef τ sig)) (W (main_v23 : DevRef τ sig)) (W (main_arg9 : DevRef τ sig)) (W (main_arg10 : DevRef τ sig)) := by
  after_results_simp
  try simp only [cast_eq]
  rfl

/-- Piece 5: the neighbour sums of the first layer's output, the edges' ends read from the buffers piece 0 left them in. -/
theorem p5_v47 (W : Valuation τ sig (Elt F)) (ei : IVec S2x921600 32)
    (h1 : W (main_v1 : DevRef τ sig) = srcIdx ei) (h3 : W (main_v3 : DevRef τ sig) = dstIdx ei) :
    after ops5 W (main_v47 : DevRef τ sig) = aggH (W (main_v37 : DevRef τ sig)) ei := by
  after_results_simp
  try simp only [cast_eq]
  rw [h1, h3]
  rfl

end Cert.ReferenceIdeal.RefValue

end
-- ==== Proof.RefValue1.lean ====
/- What the pieces of window 1 of the reference program compute (see the module for window 0); the second layer's
   dense map runs across the end of window 0, so its statement folds over the two pieces it spans. -/
import proofs.«167845_j85727547228621_1_alg».proof.Proof.RefTab0
import proofs.«167845_j85727547228621_1_alg».proof.Proof.RefTab1
import proofs.«167845_j85727547228621_1_alg».proof.Proof.RefValue0
import Idealize.ShloMosaic.Lib.StableHlo.Run

set_option synthInstance.maxSize 4096

noncomputable section

namespace Cert.ReferenceIdeal.RefValue

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

variable {F : FTy → Type} [FloatOps F]

/-- Pieces 6 and 7: the second layer's dense map. -/
theorem p67_v52 (W : Valuation τ sig (Elt F)) :
    after ops7 (after ops6 W) (main_v52 : DevRef τ sig) = denseH (W (main_v37 : DevRef τ sig)) (W (main_v47 : DevRef τ sig)) (W (main_arg5 : DevRef τ sig)) (W (main_arg6 : DevRef τ sig)) := by
  after_results_simp
  try simp only [cast_eq]
  rfl

theorem p8_v56 (W : Valuation τ sig (Elt F)) :
    after ops8 W (main_v56 : DevRef τ sig) = lnMean (W (main_v52 : DevRef τ sig)) := by
  after_results_simp
  try simp only [cast_eq]
  rfl

theorem p9_v57 (W : Valuation τ sig (Elt F)) :
    after ops9 W (main_v57 : DevRef τ sig) = lnVar (W (main_v52 : DevRef τ sig)) := by
  after_results_simp
  try simp only [cast_eq]
  rfl

theorem p10_v71 (W : Valuation τ sig (Elt F)) :
    after ops10 W (main_v71 : DevRef τ sig) = lnNorm (W (main_v52 : DevRef τ sig)) (W (main_v56 : DevRef τ sig)) (W (main_v57 : DevRef τ sig)) (W (main_arg9 : DevRef τ sig)) (W (main_arg10 : DevRef τ sig)) := by
  after_results_simp
  try simp only [cast_eq]
  rfl

theorem p11_v81 (W : Valuation τ sig (Elt F)) (ei : IVec S2x921600 32)
    (h1 : W (main_v1 : DevRef τ sig) = srcIdx ei) (h3 : W (main_v3 : DevRef τ sig) = dstIdx ei) :
    after ops11 W (main_v81 : DevRef τ sig) = aggH (W (main_v71 : DevRef τ sig)) ei := by
  after_results_simp
  try simp only [cast_eq]
  rw [h1, h3]
  rfl

theorem p12_v86 (W : Valuation τ sig (Elt F)) :
    after ops12 W (main_v86 : DevRef τ sig) = denseH (W (main_v71 : DevRef τ sig)) (W (main_v81 : DevRef τ sig)) (W (main_arg7 : DevRef τ sig)) (W (main_arg8 : DevRef τ sig)) := by
  after_results_simp
  try simp only [cast_eq]
  rfl

theorem p13_v90 (W : Valuation τ sig (Elt F)) :
    after ops13 W (main_v90 : DevRef τ sig) = lnMean (W (main_v86 : DevRef τ sig)) := by
  after_results_simp
  try simp only [cast_eq]
  rfl

theorem p14_v91 (W : Valuation τ sig (Elt F)) :
    after ops14 W (main_v91 : DevRef τ sig) = lnVar (W (main_v86 : DevRef τ sig)) := by
  after_results_simp
  try simp only [cast_eq]
  rfl

end Cert.ReferenceIdeal.RefValue

end
-- ==== Proof.RefValue2.lean ====
/- What the pieces of window 2 of the reference program compute (see the module for window 0); the third layer's
   normalisation runs across the end of window 1, so its statement folds over the two pieces it spans. -/
import proofs.«167845_j85727547228621_1_alg».proof.Proof.RefTab1
import proofs.«167845_j85727547228621_1_alg».proof.Proof.RefTab2
import proofs.«167845_j85727547228621_1_alg».proof.Proof.RefStages
import Idealize.ShloMosaic.Lib.StableHlo.Run

set_option synthInstance.maxSize 4096

noncomputable section

namespace Cert.ReferenceIdeal.RefValue

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

variable {F : FTy → Type} [FloatOps F]

/-- Pieces 15 and 16: the third layer's normalisation. -/
theorem p1516_v105 (W : Valuation τ sig (Elt F)) :
    after ops16 (after ops15 W) (main_v105 : DevRef τ sig) = lnNorm (W (main_v86 : DevRef τ sig)) (W (main_v90 : DevRef τ sig)) (W (main_v91 : DevRef τ sig)) (W (main_arg9 : DevRef τ sig)) (W (main_arg10 : DevRef τ sig)) := by
  after_results_simp
  try simp only [cast_eq]
  rfl

theorem p17_v110 (W : Valuation τ sig (Elt F)) :
    after ops17 W (main_v110 : DevRef τ sig) = denseCat (W (main_arg0 : DevRef τ sig)) (W (main_v37 : DevRef τ sig)) (W (main_v71 : DevRef τ sig)) (W (main_v105 : DevRef τ sig)) (W (main_arg11 : DevRef τ sig)) (W (main_arg12 : DevRef τ sig)) := by
  after_results_simp
  try simp only [cast_eq]
  rfl

theorem p18_v113 (W : Valuation τ sig (Elt F)) :
    after ops18 W (main_v113 : DevRef τ sig) = bnMean512 (W (main_v110 : DevRef τ sig)) := by
  after_results_simp
  try simp only [cast_eq]
  rfl

theorem p19_v114 (W : Valuation τ sig (Elt F)) :
    after ops19 W (main_v114 : DevRef τ sig) = bnVar512 (W (main_v110 : DevRef τ sig)) := by
  after_results_simp
  try simp only [cast_eq]
  rfl

theorem p20_v130 (W : Valuation τ sig (Elt F)) :
    after ops20 W (main_v130 : DevRef τ sig) = bnNorm512 (W (main_v110 : DevRef τ sig)) (W (main_v113 : DevRef τ sig)) (W (main_v114 : DevRef τ sig)) (W (main_arg15 : DevRef τ sig)) (W (main_arg16 : DevRef τ sig)) := by
  after_results_simp
  try simp only [cast_eq]
  rfl

theorem p21_v134 (W : Valuation τ sig (Elt F)) :
    after ops21 W (main_v134 : DevRef τ sig) = dense512 (W (main_v130 : DevRef τ sig)) (W (main_arg13 : DevRef τ sig)) (W (main_arg14 : DevRef τ sig)) := by
  after_results_simp
  try simp only [cast_eq]
  rfl

theorem p22_v137 (W : Valuation τ sig (Elt F)) :
    after ops22 W (main_v137 : DevRef τ sig) = bnMean256 (W (main_v134 : DevRef τ sig)) := by
  after_results_simp
  try simp only [cast_eq]
  rfl

theorem p23_v138 (W : Valuation τ sig (Elt F)) :
    after ops23 W (main_v138 : DevRef τ sig) = bnVar256 (W (main_v134 : DevRef τ sig)) := by
  after_results_simp
  try simp only [cast_eq]
  rfl

end Cert.ReferenceIdeal.RefValue

end
-- ==== Proof.RefValue3.lean ====
/- What the pieces of window 3 of the reference program compute (see the module for window 0); the second column
   normalisation runs across the end of window 2, so its statement folds over the two pieces it spans. -/
import proofs.«167845_j85727547228621_1_alg».proof.Proof.RefTab2
import proofs.«167845_j85727547228621_1_alg».proof.Proof.RefTab3
import proofs.«167845_j85727547228621_1_alg».proof.Proof.RefStages
import Idealize.ShloMosaic.Lib.StableHlo.Run

set_option synthInstance.maxSize 4096

noncomputable section

namespace Cert.ReferenceIdeal.RefValue

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

variable {F : FTy → Type} [FloatOps F]

/-- Pieces 24 and 25: the second column normalisation. -/
theorem p2425_v154 (W : Valuation τ sig (Elt F)) :
    after ops25 (after ops24 W) (main_v154 : DevRef τ sig) = bnNorm256 (W (main_v134 : DevRef τ sig)) (W (main_v137 : DevRef τ sig)) (W (main_v138 : DevRef τ sig)) (W (main_arg17 : DevRef τ sig)) (W (main_arg18 : DevRef τ sig)) := by
  after_results_simp
  try simp only [cast_eq]
  rfl

theorem p26_v158 (W : Valuation τ sig (Elt F)) :
    after ops26 W (main_v158 : DevRef τ sig) = head (W (main_v154 : DevRef τ sig)) (W (main_arg19 : DevRef τ sig)) (W (main_arg20 : DevRef τ sig)) := by
  after_results_simp
  try simp only [cast_eq]
  rfl

/-- Contents carried to a typed reference's own buffer type and back are the contents. -/
theorem ofBuf_toBuf {Val : EltTy → Type} {T : BufTy} (x : StableHlo.TRef sig T) (v : T.Contents Val) :
    x.ofBuf (x.toBuf v) = v := by
  obtain ⟨r, h, hd, hu⟩ := x
  subst h
  rfl

/-- Contents carried to a typed reference's own buffer type are what, carried back, gives them. -/
theorem toBuf_eq {Val : EltTy → Type} {T : BufTy} (x : StableHlo.TRef sig T) (v : T.Contents Val)
    (w : x.ref.ty.Contents Val) (h : v = x.ofBuf w) : x.toBuf v = w := by
  obtain ⟨r, e, hd, hu⟩ := x
  subst e
  exact h

-- the reductions over the 115200 rows, the exponential and the logarithm stay closed: the two sides apply them to
-- the same arguments, and the equation never looks inside them
set_option maxHeartbeats 200000 in
attribute [local irreducible] Host.reduce Host.reduceAdd Host.exp Host.log in
/-- Piece 27: the logarithm of the softmax over the nodes of the first head. -/
theorem p27_v159 (W : Valuation τ sig (Elt F)) :
    after ops27 W (main_v159 : DevRef τ sig) = tailAct (W (main_v158 : DevRef τ sig)) := by
  after_results_simp
  simp only [ofBuf_toBuf]
  refine toBuf_eq _ _ _ ?_
  rfl

theorem p28_v163 (W : Valuation τ sig (Elt F)) :
    after ops28 W (main_v163 : DevRef τ sig) = head (W (main_v154 : DevRef τ sig)) (W (main_arg21 : DevRef τ sig)) (W (main_arg22 : DevRef τ sig)) := by
  after_results_simp
  try simp only [cast_eq]
  rfl

theorem p29_v174 (W : Valuation τ sig (Elt F)) :
    after ops29 W (main_v174 : DevRef τ sig) = tailVal (W (main_v163 : DevRef τ sig)) (W (main_arg2 : DevRef τ sig)) := by
  after_results_simp
  try simp only [cast_eq]
  rfl

end Cert.ReferenceIdeal.RefValue

end
-- ==== Proof.RefNet.lean ====
/-
  The reference network as the composition of its stages: three graph layers, the dense layer over the four
  feature arrays side by side, two column normalisations with a dense layer between them, and the two heads,
  each followed by its closing chain (the logarithm of the softmax over the nodes; the per-graph mean's
  hyperbolic tangent).  The arguments are the program's twenty-three inputs in order.
-/
import proofs.«167845_j85727547228621_1_alg».proof.Proof.RefStages

noncomputable section

namespace Cert.ReferenceIdeal.RefNet

open Cert.ReferenceIdeal Cert.ReferenceIdeal.Gen Cert.ReferenceIdeal.RefStages Idealize.ShloMosaic Idealize.ShloMosaic.TcCoe

variable {F : FTy → Type} [FloatOps F]

section
variable (a0 : FVec F S115200x1 .f32) (a1 : IVec S2x921600 32) (a2 : IVec S115200 32) (a3 : FVec F S1x256 .f32)
  (a4 : FVec F S256 .f32) (a5 : FVec F S256x256 .f32) (a6 : FVec F S256 .f32) (a7 : FVec F S256x256 .f32)
  (a8 : FVec F S256 .f32) (a9 : FVec F S256 .f32) (a10 : FVec F S256 .f32) (a11 : FVec F S769x512 .f32)
  (a12 : FVec F S512 .f32) (a13 : FVec F S512x256 .f32) (a14 : FVec F S256 .f32) (a15 : FVec F S512 .f32)
  (a16 : FVec F S512 .f32) (a17 : FVec F S256 .f32) (a18 : FVec F S256 .f32) (a19 : FVec F S256x1 .f32)
  (a20 : FVec F S1 .f32) (a21 : FVec F S256x1 .f32) (a22 : FVec F S1 .f32)

/-- The node features after the first graph layer. -/
def x1 : FVec F S115200x256 .f32 := ln (dense1 a0 (agg1 a0 a1) a3 a4) a9 a10
/-- After the second. -/
def x2 : FVec F S115200x256 .f32 := ln (denseH (x1 a0 a1 a3 a4 a9 a10) (aggH (x1 a0 a1 a3 a4 a9 a10) a1) a5 a6) a9 a10
/-- After the third. -/
def x3 : FVec F S115200x256 .f32 :=
  ln (denseH (x2 a0 a1 a3 a4 a5 a6 a9 a10) (aggH (x2 a0 a1 a3 a4 a5 a6 a9 a10) a1) a7 a8) a9 a10
/-- The first dense layer of the read-out, normalised over the nodes. -/
def h1 : FVec F S115200x512 .f32 :=
  bn512 (denseCat a0 (x1 a0 a1 a3 a4 a9 a10) (x2 a0 a1 a3 a4 a5 a6 a9 a10) (x3 a0 a1 a3 a4 a5 a6 a7 a8 a9 a10) a11 a12) a15 a16
/-- The second. -/
def h2 : FVec F S115200x256 .f32 :=
  bn256 (dense512 (h1 a0 a1 a3 a4 a5 a6 a7 a8 a9 a10 a11 a12 a15 a16) a13 a14) a17 a18
/-- The first result: the logarithm of the softmax over the nodes of the first head. -/
def act : FVec F S115200x1 .f32 :=
  tailAct (head (h2 a0 a1 a3 a4 a5 a6 a7 a8 a9 a10 a11 a12 a13 a14 a15 a16 a17 a18) a19 a20)
/-- The second result: per graph, from the second head. -/
def val : FVec F S512x1 .f32 :=
  tailVal (head (h2 a0 a1 a3 a4 a5 a6 a7 a8 a9 a10 a11 a12 a13 a14 a15 a16 a17 a18) a21 a22) a2
end

end Cert.ReferenceIdeal.RefNet

end
-- ==== Proof.RefValue.lean ====
/- The two results of the reference program as the network's two outputs of its arguments. The program's line of
   operations is run piece by piece; after the piece that closes a stage the stage's buffer holds the stage's
   definition applied to what the buffers it reads held, these hold what earlier stages left there (no later piece
   writes them), and the arguments hold what was launched. Followed from the first piece to the last this gives
   each stage's buffer as the composition of the stages before it, and at the end the two results. -/
import proofs.«167845_j85727547228621_1_alg».proof.Proof.RefRun
import proofs.«167845_j85727547228621_1_alg».proof.Proof.RefValue0
import proofs.«167845_j85727547228621_1_alg».proof.Proof.RefValue1
import proofs.«167845_j85727547228621_1_alg».proof.Proof.RefValue2
import proofs.«167845_j85727547228621_1_alg».proof.Proof.RefValue3
import proofs.«167845_j85727547228621_1_alg».proof.Proof.RefNet

set_option synthInstance.maxSize 4096

noncomputable section

namespace Cert.ReferenceIdeal.RefValue

open Cert.RefLemmas Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

variable {F : FTy → Type} [FloatOps F]

section Chain

variable {V : Valuation τ sig (Elt F)}

local notation "U" => afterUpTo piece
local notation "A0" => V (main_arg0 : DevRef τ sig)
local notation "A1" => V (main_arg1 : DevRef τ sig)
local notation "A2" => V (main_arg2 : DevRef τ sig)
local notation "A3" => V (main_arg3 : DevRef τ sig)
local notation "A4" => V (main_arg4 : DevRef τ sig)
local notation "A5" => V (main_arg5 : DevRef τ sig)
local notation "A6" => V (main_arg6 : DevRef τ sig)
local notation "A7" => V (main_arg7 : DevRef τ sig)
local notation "A8" => V (main_arg8 : DevRef τ sig)
local notation "A9" => V (main_arg9 : DevRef τ sig)
local notation "A10" => V (main_arg10 : DevRef τ sig)
local notation "A11" => V (main_arg11 : DevRef τ sig)
local notation "A12" => V (main_arg12 : DevRef τ sig)
local notation "A13" => V (main_arg13 : DevRef τ sig)
local notation "A14" => V (main_arg14 : DevRef τ sig)
local notation "A15" => V (main_arg15 : DevRef τ sig)
local notation "A16" => V (main_arg16 : DevRef τ sig)
local notation "A17" => V (main_arg17 : DevRef τ sig)
local notation "A18" => V (main_arg18 : DevRef τ sig)
local notation "A19" => V (main_arg19 : DevRef τ sig)
local notation "A20" => V (main_arg20 : DevRef τ sig)
local notation "A21" => V (main_arg21 : DevRef τ sig)
local notation "A22" => V (main_arg22 : DevRef τ sig)
local notation "X1" => RefNet.x1 A0 A1 A3 A4 A9 A10
local notation "X2" => RefNet.x2 A0 A1 A3 A4 A5 A6 A9 A10
local notation "X3" => RefNet.x3 A0 A1 A3 A4 A5 A6 A7 A8 A9 A10
local notation "H1" => RefNet.h1 A0 A1 A3 A4 A5 A6 A7 A8 A9 A10 A11 A12 A15 A16
local notation "H2" => RefNet.h2 A0 A1 A3 A4 A5 A6 A7 A8 A9 A10 A11 A12 A13 A14 A15 A16 A17 A18
local notation "D1" => dense1 A0 (agg1 A0 A1) A3 A4
local notation "D2" => denseH X1 (aggH X1 A1) A5 A6
local notation "D3" => denseH X2 (aggH X2 A1) A7 A8
local notation "C4" => denseCat A0 X1 X2 X3 A11 A12
local notation "E5" => dense512 H1 A13 A14

/-! ### The arguments, after any number of pieces -/

theorem u_a0 (j : Nat) : U j V (main_arg0 : DevRef τ sig) = A0 := upTo_arg j main_arg0 (by decide) V
theorem u_a1 (j : Nat) : U j V (main_arg1 : DevRef τ sig) = A1 := upTo_arg j main_arg1 (by decide) V
theorem u_a2 (j : Nat) : U j V (main_arg2 : DevRef τ sig) = A2 := upTo_arg j main_arg2 (by decide) V
theorem u_a3 (j : Nat) : U j V (main_arg3 : DevRef τ sig) = A3 := upTo_arg j main_arg3 (by decide) V
theorem u_a4 (j : Nat) : U j V (main_arg4 : DevRef τ sig) = A4 := upTo_arg j main_arg4 (by decide) V
theorem u_a5 (j : Nat) : U j V (main_arg5 : DevRef τ sig) = A5 := upTo_arg j main_arg5 (by decide) V
theorem u_a6 (j : Nat) : U j V (main_arg6 : DevRef τ sig) = A6 := upTo_arg j main_arg6 (by decide) V
theorem u_a7 (j : Nat) : U j V (main_arg7 : DevRef τ sig) = A7 := upTo_arg j main_arg7 (by decide) V
theorem u_a8 (j : Nat) : U j V (main_arg8 : DevRef τ sig) = A8 := upTo_arg j main_arg8 (by decide) V
theorem u_a9 (j : Nat) : U j V (main_arg9 : DevRef τ sig) = A9 := upTo_arg j main_arg9 (by decide) V
theorem u_a10 (j : Nat) : U j V (main_arg10 : DevRef τ sig) = A10 := upTo_arg j main_arg10 (by decide) V
theorem u_a11 (j : Nat) : U j V (main_arg11 : DevRef τ sig) = A11 := upTo_arg j main_arg11 (by decide) V
theorem u_a12 (j : Nat) : U j V (main_arg12 : DevRef τ sig) = A12 := upTo_arg j main_arg12 (by decide) V
theorem u_a13 (j : Nat) : U j V (main_arg13 : DevRef τ sig) = A13 := upTo_arg j main_arg13 (by decide) V
theorem u_a14 (j : Nat) : U j V (main_arg14 : DevRef τ sig) = A14 := upTo_arg j main_arg14 (by decide) V
theorem u_a15 (j : Nat) : U j V (main_arg15 : DevRef τ sig) = A15 := upTo_arg j main_arg15 (by decide) V
theorem u_a16 (j : Nat) : U j V (main_arg16 : DevRef τ sig) = A16 := upTo_arg j main_arg16 (by decide) V
theorem u_a17 (j : Nat) : U j V (main_arg17 : DevRef τ sig) = A17 := upTo_arg j main_arg17 (by decide) V
theorem u_a18 (j : Nat) : U j V (main_arg18 : DevRef τ sig) = A18 := upTo_arg j main_arg18 (by decide) V
theorem u_a19 (j : Nat) : U j V (main_arg19 : DevRef τ sig) = A19 := upTo_arg j main_arg19 (by decide) V
theorem u_a20 (j : Nat) : U j V (main_arg20 : DevRef τ sig) = A20 := upTo_arg j main_arg20 (by decide) V
theorem u_a21 (j : Nat) : U j V (main_arg21 : DevRef τ sig) = A21 := upTo_arg j main_arg21 (by decide) V
theorem u_a22 (j : Nat) : U j V (main_arg22 : DevRef τ sig) = A22 := upTo_arg j main_arg22 (by decide) V

/-! ### The stages' buffers, from the piece that closes the stage on -/

theorem v1_at (j : Nat) (h : 1 ≤ j) : U j V (main_v1 : DevRef τ sig) = srcIdx A1 :=
  (upTo_keep h main_v1 (by decide) V).trans <| by
    show after ops0 V (main_v1 : DevRef τ sig) = _
    rw [p0_v1]

theorem v3_at (j : Nat) (h : 1 ≤ j) : U j V (main_v3 : DevRef τ sig) = dstIdx A1 :=
  (upTo_keep h main_v3 (by decide) V).trans <| by
    show after ops0 V (main_v3 : DevRef τ sig) = _
    rw [p0_v3]

theorem v13_at (j : Nat) (h : 1 ≤ j) : U j V (main_v13 : DevRef τ sig) = agg1 A0 A1 :=
  (upTo_keep h main_v13 (by decide) V).trans <| by
    show after ops0 V (main_v13 : DevRef τ sig) = _
    rw [p0_v13]

theorem v18_at (j : Nat) (h : 2 ≤ j) : U j V (main_v18 : DevRef τ sig) = D1 :=
  (upTo_keep h main_v18 (by decide) V).trans <| by
    show after ops1 (U 1 V) (main_v18 : DevRef τ sig) = _
    rw [p1_v18, u_a0, v13_at 1 (by decide), u_a3, u_a4]

theorem v22_at (j : Nat) (h : 3 ≤ j) : U j V (main_v22 : DevRef τ sig) = lnMean D1 :=
  (upTo_keep h main_v22 (by decide) V).trans <| by
    show after ops2 (U 2 V) (main_v22 : DevRef τ sig) = _
    rw [p2_v22, v18_at 2 (by decide)]

theorem v23_at (j : Nat) (h : 4 ≤ j) : U j V (main_v23 : DevRef τ sig) = lnVar D1 :=
  (upTo_keep h main_v23 (by decide) V).trans <| by
    show after ops3 (U 3 V) (main_v23 : DevRef τ sig) = _
    rw [p3_v23, v18_at 3 (by decide)]

/-- The first layer's output. -/
theorem v37_at (j : Nat) (h : 5 ≤ j) : U j V (main_v37 : DevRef τ sig) = X1 :=
  (upTo_keep h main_v37 (by decide) V).trans <| by
    show after ops4 (U 4 V) (main_v37 : DevRef τ sig) = _
    rw [p4_v37, v18_at 4 (by decide), v22_at 4 (by decide), v23_at 4 (by decide), u_a9, u_a10]
    rfl

theorem v47_at (j : Nat) (h : 6 ≤ j) : U j V (main_v47 : DevRef τ sig) = aggH X1 A1 :=
  (upTo_keep h main_v47 (by decide) V).trans <| by
    show after ops5 (U 5 V) (main_v47 : DevRef τ sig) = _
    rw [p5_v47 (U 5 V) A1 (v1_at 5 (by decide)) (v3_at 5 (by decide)), v37_at 5 (by decide)]

theorem v52_at (j : Nat) (h : 8 ≤ j) : U j V (main_v52 : DevRef τ sig) = D2 :=
  (upTo_keep h main_v52 (by decide) V).trans <| by
    show after ops7 (after ops6 (U 6 V)) (main_v52 : DevRef τ sig) = _
    rw [p67_v52, v37_at 6 (by decide), v47_at 6 (by decide), u_a5, u_a6]

theorem v56_at (j : Nat) (h : 9 ≤ j) : U j V (main_v56 : DevRef τ sig) = lnMean D2 :=
  (upTo_keep h main_v56 (by decide) V).trans <| by
    show after ops8 (U 8 V) (main_v56 : DevRef τ sig) = _
    rw [p8_v56, v52_at 8 (by decide)]

theorem v57_at (j : Nat) (h : 10 ≤ j) : U j V (main_v57 : DevRef τ sig) = lnVar D2 :=
  (upTo_keep h main_v57 (by decide) V).trans <| by
    show after ops9 (U 9 V) (main_v57 : DevRef τ sig) = _
    rw [p9_v57, v52_at 9 (by decide)]

/-- The second layer's output. -/
theorem v71_at (j : Nat) (h : 11 ≤ j) : U j V (main_v71 : DevRef τ sig) = X2 :=
  (upTo_keep h main_v71 (by decide) V).trans <| by
    show after ops10 (U 10 V) (main_v71 : DevRef τ sig) = _
    rw [p10_v71, v52_at 10 (by decide), v56_at 10 (by decide), v57_at 10 (by decide), u_a9, u_a10]
    rfl

theorem v81_at (j : Nat) (h : 12 ≤ j) : U j V (main_v81 : DevRef τ sig) = aggH X2 A1 :=
  (upTo_keep h main_v81 (by decide) V).trans <| by
    show after ops11 (U 11 V) (main_v81 : DevRef τ sig) = _
    rw [p11_v81 (U 11 V) A1 (v1_at 11 (by decide)) (v3_at 11 (by decide)), v71_at 11 (by decide)]

theorem v86_at (j : Nat) (h : 13 ≤ j) : U j V (main_v86 : DevRef τ sig) = D3 :=
  (upTo_keep h main_v86 (by decide) V).trans <| by
    show after ops12 (U 12 V) (main_v86 : DevRef τ sig) = _
    rw [p12_v86, v71_at 12 (by decide), v81_at 12 (by decide), u_a7, u_a8]

theorem v90_at (j : Nat) (h : 14 ≤ j) : U j V (main_v90 : DevRef τ sig) = lnMean D3 :=
  (upTo_keep h main_v90 (by decide) V).trans <| by
    show after ops13 (U 13 V) (main_v90 : DevRef τ sig) = _
    rw [p13_v90, v86_at 13 (by decide)]

theorem v91_at (j : Nat) (h : 15 ≤ j) : U j V (main_v91 : DevRef τ sig) = lnVar D3 :=
  (upTo_keep h main_v91 (by decide) V).trans <| by
    show after ops14 (U 14 V) (main_v91 : DevRef τ sig) = _
    rw [p14_v91, v86_at 14 (by decide)]

/-- The third layer's output. -/
theorem v105_at (j : Nat) (h : 17 ≤ j) : U j V (main_v105 : DevRef τ sig) = X3 :=
  (upTo_keep h main_v105 (by decide) V).trans <| by
    show after ops16 (after ops15 (U 15 V)) (main_v105 : DevRef τ sig) = _
    rw [p1516_v105, v86_at 15 (by decide), v90_at 15 (by decide), v91_at 15 (by decide), u_a9, u_a10]
    rfl

theorem v110_at (j : Nat) (h : 18 ≤ j) : U j V (main_v110 : DevRef τ sig) = C4 :=
  (upTo_keep h main_v110 (by decide) V).trans <| by
    show after ops17 (U 17 V) (main_v110 : DevRef τ sig) = _
    rw [p17_v110, u_a0, v37_at 17 (by decide), v71_at 17 (by decide), v105_at 17 (by decide), u_a11, u_a12]

theorem v113_at (j : Nat) (h : 19 ≤ j) : U j V (main_v113 : DevRef τ sig) = bnMean512 C4 :=
  (upTo_keep h main_v113 (by decide) V).trans <| by
    show after ops18 (U 18 V) (main_v113 : DevRef τ sig) = _
    rw [p18_v113, v110_at 18 (by decide)]

theorem v114_at (j : Nat) (h : 20 ≤ j) : U j V (main_v114 : DevRef τ sig) = bnVar512 C4 :=
  (upTo_keep h main_v114 (by decide) V).trans <| by
    show after ops19 (U 19 V) (main_v114 : DevRef τ sig) = _
    rw [p19_v114, v110_at 19 (by decide)]

/-- The read-out's first normalised dense layer. -/
theorem v130_at (j : Nat) (h : 21 ≤ j) : U j V (main_v130 : DevRef τ sig) = H1 :=
  (upTo_keep h main_v130 (by decide) V).trans <| by
    show after ops20 (U 20 V) (main_v130 : DevRef τ sig) = _
    rw [p20_v130, v110_at 20 (by decide), v113_at 20 (by decide), v114_at 20 (by decide), u_a15, u_a16]
    rfl

theorem v134_at (j : Nat) (h : 22 ≤ j) : U j V (main_v134 : DevRef τ sig) = E5 :=
  (upTo_keep h main_v134 (by decide) V).trans <| by
    show after ops21 (U 21 V) (main_v134 : DevRef τ sig) = _
    rw [p21_v134, v130_at 21 (by decide), u_a13, u_a14]

theorem v137_at (j : Nat) (h : 23 ≤ j) : U j V (main_v137 : DevRef τ sig) = bnMean256 E5 :=
  (upTo_keep h main_v137 (by decide) V).trans <| by
    show after ops22 (U 22 V) (main_v137 : DevRef τ sig) = _
    rw [p22_v137, v134_at 22 (by decide)]

theorem v138_at (j : Nat) (h : 24 ≤ j) : U j V (main_v138 : DevRef τ sig) = bnVar256 E5 :=
  (upTo_keep h main_v138 (by decide) V).trans <| by
    show after ops23 (U 23 V) (main_v138 : DevRef τ sig) = _
    rw [p23_v138, v134_at 23 (by decide)]

/-- The read-out's second normalised dense layer. -/
theorem v154_at (j : Nat) (h : 26 ≤ j) : U j V (main_v154 : DevRef τ sig) = H2 :=
  (upTo_keep h main_v154 (by decide) V).trans <| by
    show after ops25 (after ops24 (U 24 V)) (main_v154 : DevRef τ sig) = _
    rw [p2425_v154, v134_at 24 (by decide), v137_at 24 (by decide), v138_at 24 (by decide), u_a17, u_a18]
    rfl

theorem v158_at (j : Nat) (h : 27 ≤ j) : U j V (main_v158 : DevRef τ sig) = head H2 A19 A20 :=
  (upTo_keep h main_v158 (by decide) V).trans <| by
    show after ops26 (U 26 V) (main_v158 : DevRef τ sig) = _
    rw [p26_v158, v154_at 26 (by decide), u_a19, u_a20]

/-- The first result. -/
theorem v159_at (j : Nat) (h : 28 ≤ j) : U j V (main_v159 : DevRef τ sig) = RefNet.act A0 A1 A3 A4 A5 A6 A7 A8 A9 A10 A11 A12 A13 A14 A15 A16 A17 A18 A19 A20 :=
  (upTo_keep h main_v159 (by decide) V).trans <| by
    show after ops27 (U 27 V) (main_v159 : DevRef τ sig) = _
    rw [p27_v159, v158_at 27 (by decide)]
    rfl

theorem v163_at (j : Nat) (h : 29 ≤ j) : U j V (main_v163 : DevRef τ sig) = head H2 A21 A22 :=
  (upTo_keep h main_v163 (by decide) V).trans <| by
    show after ops28 (U 28 V) (main_v163 : DevRef τ sig) = _
    rw [p28_v163, v154_at 28 (by decide), u_a21, u_a22]

/-- The second result. -/
theorem v174_at (j : Nat) (h : 30 ≤ j) : U j V (main_v174 : DevRef τ sig) = RefNet.val A0 A1 A2 A3 A4 A5 A6 A7 A8 A9 A10 A11 A12 A13 A14 A15 A16 A17 A18 A21 A22 :=
  (upTo_keep h main_v174 (by decide) V).trans <| by
    show after ops29 (U 29 V) (main_v174 : DevRef τ sig) = _
    rw [p29_v174, v163_at 29 (by decide), u_a2]
    rfl

end Chain

/-- After the whole line the first result's buffer holds the network's first output of the arguments' contents. -/
theorem act_eq (V : Valuation τ sig (Elt F)) :
    after ops V (main_v159 : DevRef τ sig) = RefNet.act (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) := by
  rw [after_ops]; exact v159_at 30 (by decide)

/-- And the second result's buffer the second output. -/
theorem val_eq (V : Valuation τ sig (Elt F)) :
    after ops V (main_v174 : DevRef τ sig) = RefNet.val (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg21 : DevRef τ sig)) (V (main_arg22 : DevRef τ sig)) := by
  rw [after_ops]; exact v174_at 30 (by decide)

/-- At the compiled mesh, for any float values, from any memory with zero counters: every weakly fair execution of
    @main terminates with the two results at the network's two outputs of the launched arguments, and the arguments
    as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = RefNet.act (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v174) = RefNet.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c =>
    ⟨(h c main_v159).trans (act_eq _), (h c main_v174).trans (val_eq _),
     (h c main_arg0).trans (arg0_kept _),
     (h c main_arg1).trans (arg1_kept _),
     (h c main_arg2).trans (arg2_kept _),
     (h c main_arg3).trans (arg3_kept _),
     (h c main_arg4).trans (arg4_kept _),
     (h c main_arg5).trans (arg5_kept _),
     (h c main_arg6).trans (arg6_kept _),
     (h c main_arg7).trans (arg7_kept _),
     (h c main_arg8).trans (arg8_kept _),
     (h c main_arg9).trans (arg9_kept _),
     (h c main_arg10).trans (arg10_kept _),
     (h c main_arg11).trans (arg11_kept _),
     (h c main_arg12).trans (arg12_kept _),
     (h c main_arg13).trans (arg13_kept _),
     (h c main_arg14).trans (arg14_kept _),
     (h c main_arg15).trans (arg15_kept _),
     (h c main_arg16).trans (arg16_kept _),
     (h c main_arg17).trans (arg17_kept _),
     (h c main_arg18).trans (arg18_kept _),
     (h c main_arg19).trans (arg19_kept _),
     (h c main_arg20).trans (arg20_kept _),
     (h c main_arg21).trans (arg21_kept _),
     (h c main_arg22).trans (arg22_kept _)⟩)
    (run_main m ρ)

end Cert.ReferenceIdeal.RefValue

end
-- ==== Proof.RefParams.lean ====
/-
  The program's inputs as the specification takes them: the arrays as they are, each vector as the family of its
  entries.
-/
import proofs.«167845_j85727547228621_1_alg».proof.Proof.RefStages
import proofs.«167845_j85727547228621_1_alg».proof.Proof.SpecNetDefs

noncomputable section

namespace Cert.ReferenceIdeal.RefToSpec

open Cert.ReferenceIdeal Cert.ReferenceIdeal.Gen Idealize.ShloMosaic Idealize.ShloMosaic.ValueIdx

variable (a0 : FVec Ideal S115200x1 .f32) (a1 : IVec S2x921600 32) (a2 : IVec S115200 32) (a3 : FVec Ideal S1x256 .f32)
  (a4 : FVec Ideal S256 .f32) (a5 : FVec Ideal S256x256 .f32) (a6 : FVec Ideal S256 .f32) (a7 : FVec Ideal S256x256 .f32)
  (a8 : FVec Ideal S256 .f32) (a9 : FVec Ideal S256 .f32) (a10 : FVec Ideal S256 .f32) (a11 : FVec Ideal S769x512 .f32)
  (a12 : FVec Ideal S512 .f32) (a13 : FVec Ideal S512x256 .f32) (a14 : FVec Ideal S256 .f32) (a15 : FVec Ideal S512 .f32)
  (a16 : FVec Ideal S512 .f32) (a17 : FVec Ideal S256 .f32) (a18 : FVec Ideal S256 .f32) (a19 : FVec Ideal S256x1 .f32)
  (a20 : FVec Ideal S1 .f32) (a21 : FVec Ideal S256x1 .f32) (a22 : FVec Ideal S1 .f32)

/-- The inputs as the specification takes them: arrays as they are, vectors as per-column families. -/
def params : Spec.Params where
  v := a0
  w1 := a3
  b1 := fun q => a4 (ix1 q)
  w2 := a5
  b2 := fun q => a6 (ix1 q)
  w3 := a7
  b3 := fun q => a8 (ix1 q)
  g := fun q => a9 (ix1 q)
  β := fun q => a10 (ix1 q)
  wf1 := a11
  bf1 := fun q => a12 (ix1 q)
  wf2 := a13
  bf2 := fun q => a14 (ix1 q)
  g1 := fun q => a15 (ix1 q)
  β1 := fun q => a16 (ix1 q)
  g2 := fun q => a17 (ix1 q)
  β2 := fun q => a18 (ix1 q)
  wa := a19
  ba := fun q => a20 (ix1 q)
  wv := a21
  bv := fun q => a22 (ix1 q)

end Cert.ReferenceIdeal.RefToSpec

end
-- ==== Proof.RefReadBase.lean ====
/-
  Host operations of a row-per-node network, read at an index, over literal shapes whose extents are parameters.

  * a plain product of an [M, K] array by a [K, N] array at (p, q) is the sum over k of left (p, k) times right (k, q);
  * a [N] vector laid as a [N, 1] column reads, at (p, 0), the vector at p; a [N, 1] column spread over C columns reads,
    at (p, q), the column at (p, 0); a [C] vector laid as a [1, C] row reads, at (0, j), the vector at j; a [1, C] row
    repeated down N rows reads, at (n, j), the row at (0, j); a [1] vector repeated down N rows of one column reads its
    one entry;
  * the sum of a [N, C] array over its columns, started from the zero word, reads at p the sum over q of the array at
    (p, q); the sum over its rows reads at q the sum over p;
  * the words 0x43800000 and 0x47E10000 denote the reals 256 and 115200; the integer word 0 converts to the real 0, so a
    count less the converted zero is the count, and the comparison "count > 0" is the bit 1.
  The side conditions of the operations are hypotheses, so the lemmas apply under any proofs of them.
-/
import Idealize.ShloMosaic.Lib.Pipeline.Value
import Idealize.ShloMosaic.Lib.ValueIdx
import Idealize.ShloMosaic.PureOps.Ideal.Laws
import proofs.«167845_j85727547228621_1_alg».proof.Proof.LibMatmulRows
import proofs.«167845_j85727547228621_1_alg».proof.Proof.LibRowReads

noncomputable section

open scoped BigOperators

namespace Cert.ReferenceIdeal.RefRead

open Idealize.ShloMosaic Idealize.ShloMosaic.ValueIdx

/-! ## Products -/

/-- The host's product under a record that is the plain one, at (p, q). -/
theorem dot_read {M K N : Nat} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (p : Fin M) (q : Fin N) :
    Host.dotGeneral d none x w (ix2 p q) = ∑ k : Fin K, x (ix2 p k) * w (ix2 k q) := by
  subst hd
  exact Cert.Bridge.dotGeneral_plain_apply M K N none .single x w p q

/-! ## Layout -/

section Layout
variable {α : Type}

/-- A [N] vector laid as a [N, 1] column, at (p, z). -/
theorem col_read {N : Nat} (hN : N ≠ 1) (hb : (⟨1, ![N]⟩ : Shape).BroadcastsInDim ⟨2, ![N, 1]⟩ ![0])
    (v : (⟨1, ![N]⟩ : Shape).Idx → α) (p : Fin N) (z : Fin 1) :
    broadcastInDim ⟨2, ![N, 1]⟩ ![0] hb v (ix2 p z) = v (ix1 p) := by
  refine broadcastInDim_apply ![0] hb v (ix2 p z) (ix1 p) (fun ax => ?_)
  match ax with
  | ⟨0, _⟩ => show p.val = if N = 1 then 0 else p.val; rw [if_neg hN]

/-- A [N, 1] column spread over C columns, at (p, q). -/
theorem spread_read {N C : Nat} (hN : N ≠ 1) (hb : (⟨2, ![N, 1]⟩ : Shape).BroadcastsInDim ⟨2, ![N, C]⟩ ![0, 1])
    (v : (⟨2, ![N, 1]⟩ : Shape).Idx → α) (p : Fin N) (q : Fin C) :
    broadcastInDim ⟨2, ![N, C]⟩ ![0, 1] hb v (ix2 p q) = v (ix2 p (0 : Fin 1)) := by
  refine broadcastInDim_apply ![0, 1] hb v (ix2 p q) (ix2 p (0 : Fin 1)) (fun ax => ?_)
  match ax with
  | ⟨0, _⟩ => show p.val = if N = 1 then 0 else p.val; rw [if_neg hN]
  | ⟨1, _⟩ => show (0 : Nat) = if (1 : Nat) = 1 then 0 else q.val; simp

/-- A [C] vector laid as a [1, C] row, at (z, j). -/
theorem lay_read {C : Nat} (hC : C ≠ 1) (hb : (⟨1, ![C]⟩ : Shape).BroadcastsInDim ⟨2, ![1, C]⟩ ![1])
    (v : (⟨1, ![C]⟩ : Shape).Idx → α) (z : Fin 1) (j : Fin C) :
    broadcastInDim ⟨2, ![1, C]⟩ ![1] hb v (ix2 z j) = v (ix1 j) := by
  refine broadcastInDim_apply ![1] hb v (ix2 z j) (ix1 j) (fun ax => ?_)
  match ax with
  | ⟨0, _⟩ => show j.val = if C = 1 then 0 else j.val; rw [if_neg hC]

/-- A [1, C] row repeated down N rows, at (n, j). -/
theorem drop_read {N C : Nat} (hC : C ≠ 1) (hb : (⟨2, ![1, C]⟩ : Shape).BroadcastsInDim ⟨2, ![N, C]⟩ ![0, 1])
    (u : (⟨2, ![1, C]⟩ : Shape).Idx → α) (n : Fin N) (j : Fin C) :
    broadcastInDim ⟨2, ![N, C]⟩ ![0, 1] hb u (ix2 n j) = u (ix2 (0 : Fin 1) j) := by
  refine broadcastInDim_apply ![0, 1] hb u (ix2 n j) (ix2 (0 : Fin 1) j) (fun ax => ?_)
  match ax with
  | ⟨0, _⟩ => show (0 : Nat) = if (1 : Nat) = 1 then 0 else n.val; simp
  | ⟨1, _⟩ => show j.val = if C = 1 then 0 else j.val; rw [if_neg hC]

/-- A [1] vector laid as a [1, 1] array and repeated down N rows, at (n, z): its one entry. -/
theorem down_one_read {N : Nat} (h1 : (⟨1, ![1]⟩ : Shape).BroadcastsInDim ⟨2, ![1, 1]⟩ ![1])
    (h2 : (⟨2, ![1, 1]⟩ : Shape).BroadcastsInDim ⟨2, ![N, 1]⟩ ![0, 1]) (v : (⟨1, ![1]⟩ : Shape).Idx → α) (n : Fin N) (z : Fin 1) :
    broadcastInDim ⟨2, ![N, 1]⟩ ![0, 1] h2 (broadcastInDim ⟨2, ![1, 1]⟩ ![1] h1 v) (ix2 n z) = v (ix1 z) := by
  have hz : z = 0 := Subsingleton.elim _ _
  subst hz
  refine (broadcastInDim_apply ![0, 1] h2 _ (ix2 n (0 : Fin 1)) (ix2 (0 : Fin 1) (0 : Fin 1)) (fun ax => ?_)).trans ?_
  · match ax with
    | ⟨0, _⟩ => show (0 : Nat) = if (1 : Nat) = 1 then 0 else n.val; simp
    | ⟨1, _⟩ => show (0 : Nat) = if (1 : Nat) = 1 then 0 else 0; simp
  · refine broadcastInDim_apply ![1] h1 v (ix2 (0 : Fin 1) (0 : Fin 1)) (ix1 (0 : Fin 1)) (fun ax => ?_)
    match ax with
    | ⟨0, _⟩ => show (0 : Nat) = if (1 : Nat) = 1 then 0 else 0; simp

end Layout

/-! ## Sums -/

/-- The sum of a [N, C] array over its columns from the zero word, at p. -/
theorem rowSum_read {N C : Nat} (rt : (⟨2, ![N, C]⟩ : Shape).ReducesTo [1] ⟨1, ![N]⟩) (hu : 0 < (⟨0, ![]⟩ : Shape).numel)
    (h : FVec Ideal ⟨2, ![N, C]⟩ .f32) (p : Fin N) :
    Host.reduceAdd h (constant ⟨0, ![]⟩ .f32 0x00000000#32) rt hu (ix1 p) = ∑ q : Fin C, h (ix2 p q) := by
  have r : (⟨2, ![N, C]⟩ : Shape).Reduces [1] ⟨1, ![N]⟩ := ⟨rt.1, Nat.one_pos, rt.2⟩
  refine (Ideal.hostReduceAdd_single rt r h _ (ix1 p)).trans ?_
  rw [constant_apply, Ideal.ofBits_zero_f32, zero_add]
  refine Finset.sum_congr rfl fun k _ => congrArg h (funext fun c => Fin.ext ?_)
  match c with
  | ⟨0, _⟩ => rfl
  | ⟨1, _⟩ => rfl

/-- The sum of a [N, C] array over its rows from the zero word, at q. -/
theorem colSum_read {N C : Nat} (rt : (⟨2, ![N, C]⟩ : Shape).ReducesTo [0] ⟨1, ![C]⟩) (hu : 0 < (⟨0, ![]⟩ : Shape).numel)
    (h : FVec Ideal ⟨2, ![N, C]⟩ .f32) (q : Fin C) :
    Host.reduceAdd h (constant ⟨0, ![]⟩ .f32 0x00000000#32) rt hu (ix1 q) = ∑ p : Fin N, h (ix2 p q) := by
  have r : (⟨2, ![N, C]⟩ : Shape).Reduces [0] ⟨1, ![C]⟩ := ⟨rt.1, Nat.one_pos, rt.2⟩
  refine (Ideal.hostReduceAdd_single rt r h _ (ix1 q)).trans ?_
  rw [constant_apply, Ideal.ofBits_zero_f32, zero_add]
  refine Finset.sum_congr rfl fun k _ => congrArg h (funext fun c => Fin.ext ?_)
  match c with
  | ⟨0, _⟩ => rfl
  | ⟨1, _⟩ => rfl

/-! ## The two counts, and the guard of a variance -/

/-- The f32 word 0x43800000 denotes 256. -/
theorem c256_word : Ideal.ofBits .f32 0x43800000#32 = ((256 : ℝ) : EReal) := by
  simp [Ideal.ofBits, Ideal.ieee, -EReal.coe_mul]; norm_num

/-- The f32 word 0x47E10000 denotes 115200. -/
theorem cN_word : Ideal.ofBits .f32 0x47E10000#32 = ((115200 : ℝ) : EReal) := by
  simp [Ideal.ofBits, Ideal.ieee, -EReal.coe_mul]; norm_num

/-- The integer word 0 converts to the real 0. -/
theorem sitofp_zero : FloatOps.sitofp (F := Ideal) .f32 (0#32 : BitVec 32) = (0 : EReal) := by
  show (((0#32 : BitVec 32).toInt : ℝ) : EReal) = 0
  rw [BitVec.toInt_zero]; simp

/-- A positive real count is greater than zero: the comparison's bit is 1. -/
theorem cmp_ogt_zero {c : EReal} {r : ℝ} (hc : c = (r : EReal)) (hr : 0 < r) : Ideal.cmp .ogt c 0 = 1#1 := by
  subst hc
  have : (0 : EReal) < (r : EReal) := by exact_mod_cast hr
  simp [Ideal.cmp, this]

end Cert.ReferenceIdeal.RefRead

end
-- ==== Proof.RefReadDense.lean ====
/-
  The reference's dense layers are the dense layer of the specification.

  Each dense stage is a plain product followed by the bias vector laid as a row and repeated down the rows, added entry
  by entry. At (p, q) the product is the sum over k of left (p, k) times right (k, q) and the repeated bias is the bias
  at q, which is the specification's dense layer at (p, q). Where the stage first adds the neighbour sums to the features,
  the left factor at (p, k) is the sum of the two arrays there.
-/
import proofs.«167845_j85727547228621_1_alg».proof.Proof.RefStages
import proofs.«167845_j85727547228621_1_alg».proof.Proof.Spec
import proofs.«167845_j85727547228621_1_alg».proof.Proof.RefReadBase

noncomputable section

open scoped BigOperators

namespace Cert.ReferenceIdeal.RefRead

open Cert.ReferenceIdeal Cert.ReferenceIdeal.Gen Cert.ReferenceIdeal.RefStages Idealize.ShloMosaic Idealize.ShloMosaic.ValueIdx

/-! ## The printed dimension-number records are the plain ones -/

theorem dot1_plain : dot_S115200x1_S1x256_S115200x256_1_0_0_1_n_n = DotDims.plain 115200 1 256 := rfl
theorem dotH_plain : dot_S115200x256_S256x256_S115200x256_1_0_0_1_n_n = DotDims.plain 115200 256 256 := rfl
theorem dot512_plain : dot_S115200x512_S512x256_S115200x256_1_0_0_1_n_n = DotDims.plain 115200 512 256 := rfl
theorem dotHead_plain : dot_S115200x256_S256x1_S115200x1_1_0_0_1_n_n = DotDims.plain 115200 256 1 := rfl

/-! ## The four dense stages -/

theorem dense512_eq (x : FVec Ideal S115200x512 .f32) (w : FVec Ideal S512x256 .f32) (b : FVec Ideal S256 .f32) :
    RefStages.dense512 x w b = Spec.dense x w (fun q => b (ix1 q)) := by
  funext i
  obtain ⟨p, q, rfl⟩ : ∃ (p : Fin 115200) (q : Fin 256), i = ix2 p q := ⟨i 0, i 1, eq_ix2 i⟩
  unfold RefStages.dense512
  dsimp only
  refine (addf_apply _ _ _).trans ?_
  rw [Spec.dense_apply]
  congr 1
  · exact dot_read _ dot512_plain x w p q
  · exact Cert.LibRowReads.down_read (by decide) _ _ b p q

theorem denseH_eq (x agg : FVec Ideal S115200x256 .f32) (w : FVec Ideal S256x256 .f32) (b : FVec Ideal S256 .f32) :
    RefStages.denseH x agg w b = Spec.dense (Spec.add x agg) w (fun q => b (ix1 q)) := by
  funext i
  obtain ⟨p, q, rfl⟩ : ∃ (p : Fin 115200) (q : Fin 256), i = ix2 p q := ⟨i 0, i 1, eq_ix2 i⟩
  unfold RefStages.denseH
  dsimp only
  refine (addf_apply _ _ _).trans ?_
  rw [Spec.dense_apply]
  congr 1
  · exact dot_read _ dotH_plain (addf x agg) w p q
  · exact Cert.LibRowReads.down_read (by decide) _ _ b p q

theorem dense1_eq (x agg : FVec Ideal S115200x1 .f32) (w : FVec Ideal S1x256 .f32) (b : FVec Ideal S256 .f32) :
    RefStages.dense1 x agg w b = Spec.dense (Spec.add x agg) w (fun q => b (ix1 q)) := by
  funext i
  obtain ⟨p, q, rfl⟩ : ∃ (p : Fin 115200) (q : Fin 256), i = ix2 p q := ⟨i 0, i 1, eq_ix2 i⟩
  unfold RefStages.dense1
  dsimp only
  refine (addf_apply _ _ _).trans ?_
  rw [Spec.dense_apply]
  congr 1
  · exact dot_read _ dot1_plain (addf x agg) w p q
  · exact Cert.LibRowReads.down_read (by decide) _ _ b p q

theorem head_eq (x : FVec Ideal S115200x256 .f32) (w : FVec Ideal S256x1 .f32) (b : FVec Ideal S1 .f32) :
    RefStages.head x w b = Spec.dense x w (fun q => b (ix1 q)) := by
  funext i
  obtain ⟨p, q, rfl⟩ : ∃ (p : Fin 115200) (q : Fin 1), i = ix2 p q := ⟨i 0, i 1, eq_ix2 i⟩
  unfold RefStages.head
  dsimp only
  refine (addf_apply _ _ _).trans ?_
  rw [Spec.dense_apply]
  congr 1
  · exact dot_read _ dotHead_plain x w p q
  · exact down_one_read _ _ b p q

end Cert.ReferenceIdeal.RefRead

end
-- ==== Proof.RefReadGuard.lean ====
/-
  The guard of a variance, read at an index.

  A variance over n entries with no correction divides by n less the integer 0 converted to a float, and is replaced by a
  fill value unless that difference is greater than zero. The integer word 0 converts to the real 0, so the difference is
  the count itself; the count is a positive real, so the comparison's bit is 1 and the selection takes the quotient. Both
  the difference and the bit are scalars spread to the shape of the result, so they read the same at every index.
-/
import proofs.«167845_j85727547228621_1_alg».proof.Proof.RefReadBase

noncomputable section

namespace Cert.ReferenceIdeal.RefRead

open Idealize.ShloMosaic Idealize.ShloMosaic.ValueIdx

/-- The host's quotient at an index. -/
theorem hostDivf_read {s : Shape} (a b : FVec Ideal s .f32) (i : s.Idx) : Host.divf a b i = Ideal.div (a i) (b i) := rfl

/-- The host's inverse square root at an index. -/
theorem hostRsqrt_read {s : Shape} (a : FVec Ideal s .f32) (i : s.Idx) : Host.rsqrt a i = Ideal.rsqrt (a i) := rfl

/-- The count less the converted integer zero, spread to any shape, is the count everywhere. -/
theorem count_read {T : Shape} (hs : (⟨0, ![]⟩ : Shape).BroadcastsInDim T ![]) (w : BitVec 32) (i : T.Idx) :
    broadcastInDim T ![] hs (subf (constant (F := Ideal) ⟨0, ![]⟩ .f32 w) (sitofp .f32 (constantI ⟨0, ![]⟩ 32 0#32))) i
      = Ideal.ofBits .f32 w := by
  rw [Cert.LibRowReads.splat_read]
  show Ideal.ofBits .f32 w - FloatOps.sitofp (F := Ideal) .f32 (0#32 : BitVec 32) = _
  rw [sitofp_zero, sub_zero]

/-- The comparison "count less the converted zero is greater than zero", spread to any shape, is the bit 1 everywhere when the
    count's word denotes a positive real. -/
theorem guard_read {T : Shape} (hs : (⟨0, ![]⟩ : Shape).BroadcastsInDim T ![]) (w : BitVec 32) (r : ℝ)
    (hw : Ideal.ofBits .f32 w = (r : EReal)) (hr : 0 < r) (i : T.Idx) :
    broadcastInDim T ![] hs
        (cmpf .ogt (subf (constant (F := Ideal) ⟨0, ![]⟩ .f32 w) (sitofp .f32 (constantI ⟨0, ![]⟩ 32 0#32)))
          (constant (F := Ideal) ⟨0, ![]⟩ .f32 0x00000000#32)) i = 1#1 := by
  rw [Cert.LibRowReads.splat_read]
  show Ideal.cmp .ogt (Ideal.ofBits .f32 w - FloatOps.sitofp (F := Ideal) .f32 (0#32 : BitVec 32)) (Ideal.ofBits .f32 0x00000000#32) = 1#1
  rw [sitofp_zero, sub_zero, Ideal.ofBits_zero_f32]
  exact cmp_ogt_zero hw hr

end Cert.ReferenceIdeal.RefRead

end
-- ==== Proof.RefReadLn.lean ====
/-
  The reference's row normalisation is the specification's, with the variance spelt as the mean of the squared deviations.

  The stage is three parts. The mean column: the sum of each row over its 256 features from the zero word, laid as a
  column, divided by the word of 256. The variance column: the same mean spread back over the columns and subtracted,
  the squares summed over each row, divided by the count less a converted integer zero (which is the count), under a guard
  that the count is greater than zero (which it is). The normalisation: the entry less its row's mean, times the inverse
  square root of the row's variance plus the small constant, times the gain at its column, plus the shift at its column,
  and the larger of that and zero.
-/
import proofs.«167845_j85727547228621_1_alg».proof.Proof.RefStages
import proofs.«167845_j85727547228621_1_alg».proof.Proof.Spec
import proofs.«167845_j85727547228621_1_alg».proof.Proof.RefReadBase
import proofs.«167845_j85727547228621_1_alg».proof.Proof.RefReadGuard

noncomputable section

open scoped BigOperators

namespace Cert.ReferenceIdeal.RefRead

open Cert.ReferenceIdeal Cert.ReferenceIdeal.Gen Cert.ReferenceIdeal.RefStages Idealize.ShloMosaic Idealize.ShloMosaic.ValueIdx

/-- The mean column at (p, 0) is the mean of row p over 256. -/
theorem lnMean_read (h : FVec Ideal S115200x256 .f32) (p : Fin 115200) (z : Fin 1) :
    RefStages.lnMean h (ix2 p z) = Spec.rowMean h Spec.c256 p := by
  unfold RefStages.lnMean
  dsimp only
  refine (hostDivf_read _ _ _).trans ?_
  rw [col_read (N := 115200) (by decide), Cert.LibRowReads.splat_read, rowSum_read, constant_apply]
  rfl

/-- The variance column at (p, 0) is the mean over 256 of the squared deviations of row p from its mean. -/
theorem lnVar_read (h : FVec Ideal S115200x256 .f32) (p : Fin 115200) (z : Fin 1) :
    RefStages.lnVar h (ix2 p z) = Spec.rowVarR h Spec.c256 p := by
  have hm := lnMean_read h p (0 : Fin 1)
  unfold RefStages.lnMean at hm
  dsimp only at hm
  unfold RefStages.lnVar
  dsimp only
  refine (select_apply _ _ _ _).trans ?_
  rw [guard_read _ 0x43800000#32 256 c256_word (by norm_num), select_one]
  refine (hostDivf_read _ _ _).trans ?_
  rw [count_read, col_read (N := 115200) (by decide), rowSum_read]
  unfold Spec.rowVarR Spec.c256
  refine congrArg (fun s => Ideal.div s (Ideal.ofBits .f32 0x43800000#32)) ?_
  refine Finset.sum_congr rfl fun q _ => ?_
  refine (mulf_apply _ _ _).trans ?_
  rw [subf_apply, spread_read (N := 115200) (by decide), hm]
  rfl

/-- The normalisation at (p, q), for any mean and variance columns. -/
theorem lnNorm_read (h : FVec Ideal S115200x256 .f32) (mean var : FVec Ideal S115200x1 .f32) (g beta : FVec Ideal S256 .f32)
    (p : Fin 115200) (q : Fin 256) :
    RefStages.lnNorm h mean var g beta (ix2 p q)
      = max ((((h (ix2 p q) - mean (ix2 p (0 : Fin 1))) * Ideal.rsqrt (var (ix2 p (0 : Fin 1)) + Spec.eps)) * g (ix1 q)) + beta (ix1 q)) 0 := by
  unfold RefStages.lnNorm
  dsimp only
  refine (maximumf_apply _ _ _).trans ?_
  rw [Cert.LibRowReads.splat_read, constant_apply, Ideal.ofBits_zero_f32]
  congr 1
  refine (addf_apply _ _ _).trans ?_
  rw [Cert.LibRowReads.down_read (C := 256) (by decide)]
  congr 1
  refine (mulf_apply _ _ _).trans ?_
  rw [Cert.LibRowReads.down_read (C := 256) (by decide)]
  congr 1
  refine (mulf_apply _ _ _).trans ?_
  rw [subf_apply, spread_read (N := 115200) (by decide), spread_read (N := 115200) (by decide)]
  congr 1

theorem ln_eq (h : FVec Ideal S115200x256 .f32) (g beta : FVec Ideal S256 .f32) :
    RefStages.ln h g beta = Spec.lnR h (fun q => g (ix1 q)) (fun q => beta (ix1 q)) := by
  funext i
  obtain ⟨p, q, rfl⟩ : ∃ (p : Fin 115200) (q : Fin 256), i = ix2 p q := ⟨i 0, i 1, eq_ix2 i⟩
  show RefStages.lnNorm h (RefStages.lnMean h) (RefStages.lnVar h) g beta (ix2 p q) = _
  rw [lnNorm_read, lnMean_read, lnVar_read]
  rfl

end Cert.ReferenceIdeal.RefRead

end
-- ==== Proof.RefReadBn.lean ====
/-
  The reference's column normalisations, read as the specification's.

  The reference normalises every column over all 115200 nodes: the column's mean is its sum divided by the count; the
  variance is the mean of the squared deviations from that mean, divided by the count less a converted integer zero
  and guarded by "that divisor is greater than zero", which holds, so the guarded value is the quotient; then every
  entry less its column's mean is scaled by the inverse square root of the variance plus the small constant, by the
  gain, shifted, and its positive part taken.  Entry by entry this is the specification's column normalisation with
  the variance spelt as the mean of the squared deviations.
-/
import proofs.«167845_j85727547228621_1_alg».proof.Proof.RefStages
import proofs.«167845_j85727547228621_1_alg».proof.Proof.RefReadBase
import proofs.«167845_j85727547228621_1_alg».proof.Proof.Spec
import Idealize.ShloMosaic.Lib.IdealHost

noncomputable section

open scoped BigOperators

namespace Cert.ReferenceIdeal.RefRead

open Cert.ReferenceIdeal Cert.ReferenceIdeal.Gen Cert.ReferenceIdeal.RefStages Idealize.ShloMosaic Idealize.ShloMosaic.ValueIdx

/-! ## The count and the guard -/

/-- The count less the converted integer zero is the count. -/
theorem bnCount_read :
    (subf (constant (F := Ideal) S_ .f32 0x47E10000#32) (sitofp .f32 (constantI S_ 32 0#32)) : FVec Ideal S_ .f32) ix0
      = Spec.cN := by
  show Ideal.ofBits .f32 0x47E10000#32 - FloatOps.sitofp (F := Ideal) .f32 (0#32 : BitVec 32) = Spec.cN
  rw [sitofp_zero, sub_zero]
  rfl

/-- The guard "the count is greater than zero" is the bit 1. -/
theorem bnGuard_read :
    (cmpf .ogt (subf (constant (F := Ideal) S_ .f32 0x47E10000#32) (sitofp .f32 (constantI S_ 32 0#32)))
      (constant (F := Ideal) S_ .f32 0x00000000#32) : IVec S_ 1) ix0 = 1#1 := by
  refine (cmpf_apply _ _ _ ix0).trans ?_
  rw [bnCount_read, constant_apply, Ideal.ofBits_zero_f32]
  exact cmp_ogt_zero cN_word (by norm_num)

/-! ## 512 columns -/

/-- The column sums from the zero word, as the specification's column sums. -/
theorem bnColSum512_read (h : FVec Ideal S115200x512 .f32) (q : Fin 512) :
    Host.reduceAdd h (constant (F := Ideal) S_ .f32 0x00000000#32) reducesTo_S115200x512_S512_d0 h_S_ (ix1 q)
      = Spec.colSum h q :=
  colSum_read reducesTo_S115200x512_S512_d0 h_S_ h q

/-- The column means. -/
theorem bnMean512_apply (h : FVec Ideal S115200x512 .f32) (q : Fin 512) :
    RefStages.bnMean512 h (ix1 q) = Spec.colMean h Spec.cN q := by
  unfold RefStages.bnMean512
  dsimp only
  refine (hostDivf_apply _ _ (ix1 q)).trans ?_
  refine congrArg₂ Ideal.div ?_ ?_
  · exact bnColSum512_read h q
  · exact Cert.LibRowReads.splat_read bcast_S_S512 _ (ix1 q)

/-- An entry less its column's mean, the mean spelt as the variance's own operations spell it: the column sums laid as
    a row, divided by the count, repeated down the rows. -/
theorem bnDev512_apply (h : FVec Ideal S115200x512 .f32) (p : Fin 115200) (q : Fin 512) :
    subf h (broadcastInDim S115200x512 ![0, 1] bcast_S1x512_S115200x512_0_1
        (Host.divf (broadcastInDim S1x512 ![1] bcast_S512_S1x512_1
            (Host.reduceAdd h (constant (F := Ideal) S_ .f32 0x00000000#32) reducesTo_S115200x512_S512_d0 h_S_))
          (broadcastInDim S1x512 ![] bcast_S_S1x512 (constant (F := Ideal) S_ .f32 0x47E10000#32)))) (ix2 p q)
      = h (ix2 p q) - Spec.colMean h Spec.cN q := by
  refine congrArg₂ (· - ·) rfl ?_
  refine (drop_read (by norm_num) _ _ p q).trans ?_
  refine (hostDivf_apply _ _ _).trans ?_
  refine congrArg₂ Ideal.div ?_ ?_
  · refine (lay_read (by norm_num) _ _ (0 : Fin 1) q).trans ?_
    exact bnColSum512_read h q
  · exact Cert.LibRowReads.splat_read bcast_S_S1x512 _ _

/-- The column variances: the guard "count greater than zero" holds, so the mean of the squared deviations is taken. -/
theorem bnVar512_apply (h : FVec Ideal S115200x512 .f32) (q : Fin 512) :
    RefStages.bnVar512 h (ix1 q) = Spec.colVarR h Spec.cN q := by
  unfold RefStages.bnVar512
  dsimp only
  refine (select_apply _ _ _ (ix1 q)).trans ?_
  rw [Cert.LibRowReads.splat_read bcast_S_S512 _ (ix1 q), bnGuard_read, select_one]
  refine (hostDivf_apply _ _ (ix1 q)).trans ?_
  refine congrArg₂ Ideal.div ?_ ?_
  · refine (colSum_read reducesTo_S115200x512_S512_d0 h_S_ _ q).trans ?_
    refine Finset.sum_congr rfl fun p _ => ?_
    exact congrArg₂ (· * ·) (bnDev512_apply h p q) (bnDev512_apply h p q)
  · exact (Cert.LibRowReads.splat_read bcast_S_S512 _ (ix1 q)).trans bnCount_read

/-- The normalisation at an entry, for any mean and variance vectors. -/
theorem bnNorm512_apply (h : FVec Ideal S115200x512 .f32) (mean var g beta : FVec Ideal S512 .f32) (p : Fin 115200)
    (q : Fin 512) :
    RefStages.bnNorm512 h mean var g beta (ix2 p q)
      = max ((((h (ix2 p q) - mean (ix1 q)) * Ideal.rsqrt (var (ix1 q) + Spec.eps)) * g (ix1 q)) + beta (ix1 q)) 0 := by
  unfold RefStages.bnNorm512
  dsimp only
  refine congrArg₂ max ?_ ?_
  · refine congrArg₂ (· + ·) (congrArg₂ (· * ·) (congrArg₂ (· * ·) (congrArg₂ (· - ·) rfl ?_) ?_) ?_) ?_
    · exact Cert.LibRowReads.down_read (by norm_num) _ _ mean p q
    · refine (Cert.LibRowReads.down_read (by norm_num) _ _ _ p q).trans ?_
      refine congrArg Ideal.rsqrt (congrArg₂ (· + ·) rfl ?_)
      exact Cert.LibRowReads.splat_read bcast_S_S512 _ _
    · exact Cert.LibRowReads.down_read (by norm_num) _ _ g p q
    · exact Cert.LibRowReads.down_read (by norm_num) _ _ beta p q
  · exact (Cert.LibRowReads.splat_read bcast_S_S115200x512 _ _).trans Ideal.ofBits_zero_f32

/-- The column normalisation of the reference is the specification's, the variance as the mean of the squared
    deviations. -/
theorem bn512_eq (h : FVec Ideal S115200x512 .f32) (g beta : FVec Ideal S512 .f32) :
    RefStages.bn512 h g beta = Spec.bnR h (fun q => g (ix1 q)) (fun q => beta (ix1 q)) := by
  funext i
  obtain ⟨p, q, rfl⟩ : ∃ (p : Fin 115200) (q : Fin 512), i = ix2 p q := ⟨i 0, i 1, eq_ix2 i⟩
  unfold RefStages.bn512
  rw [bnNorm512_apply, bnMean512_apply, bnVar512_apply]
  rfl

/-! ## 256 columns -/

/-- The column sums from the zero word, as the specification's column sums. -/
theorem bnColSum256_read (h : FVec Ideal S115200x256 .f32) (q : Fin 256) :
    Host.reduceAdd h (constant (F := Ideal) S_ .f32 0x00000000#32) reducesTo_S115200x256_S256_d0 h_S_ (ix1 q)
      = Spec.colSum h q :=
  colSum_read reducesTo_S115200x256_S256_d0 h_S_ h q

/-- The column means. -/
theorem bnMean256_apply (h : FVec Ideal S115200x256 .f32) (q : Fin 256) :
    RefStages.bnMean256 h (ix1 q) = Spec.colMean h Spec.cN q := by
  unfold RefStages.bnMean256
  dsimp only
  refine (hostDivf_apply _ _ (ix1 q)).trans ?_
  refine congrArg₂ Ideal.div ?_ ?_
  · exact bnColSum256_read h q
  · exact Cert.LibRowReads.splat_read bcast_S_S256 _ (ix1 q)

/-- An entry less its column's mean, the mean spelt as the variance's own operations spell it: the column sums laid as
    a row, divided by the count, repeated down the rows. -/
theorem bnDev256_apply (h : FVec Ideal S115200x256 .f32) (p : Fin 115200) (q : Fin 256) :
    subf h (broadcastInDim S115200x256 ![0, 1] bcast_S1x256_S115200x256_0_1
        (Host.divf (broadcastInDim S1x256 ![1] bcast_S256_S1x256_1
            (Host.reduceAdd h (constant (F := Ideal) S_ .f32 0x00000000#32) reducesTo_S115200x256_S256_d0 h_S_))
          (broadcastInDim S1x256 ![] bcast_S_S1x256 (constant (F := Ideal) S_ .f32 0x47E10000#32)))) (ix2 p q)
      = h (ix2 p q) - Spec.colMean h Spec.cN q := by
  refine congrArg₂ (· - ·) rfl ?_
  refine (drop_read (by norm_num) _ _ p q).trans ?_
  refine (hostDivf_apply _ _ _).trans ?_
  refine congrArg₂ Ideal.div ?_ ?_
  · refine (lay_read (by norm_num) _ _ (0 : Fin 1) q).trans ?_
    exact bnColSum256_read h q
  · exact Cert.LibRowReads.splat_read bcast_S_S1x256 _ _

/-- The column variances: the guard "count greater than zero" holds, so the mean of the squared deviations is taken. -/
theorem bnVar256_apply (h : FVec Ideal S115200x256 .f32) (q : Fin 256) :
    RefStages.bnVar256 h (ix1 q) = Spec.colVarR h Spec.cN q := by
  unfold RefStages.bnVar256
  dsimp only
  refine (select_apply _ _ _ (ix1 q)).trans ?_
  rw [Cert.LibRowReads.splat_read bcast_S_S256 _ (ix1 q), bnGuard_read, select_one]
  refine (hostDivf_apply _ _ (ix1 q)).trans ?_
  refine congrArg₂ Ideal.div ?_ ?_
  · refine (colSum_read reducesTo_S115200x256_S256_d0 h_S_ _ q).trans ?_
    refine Finset.sum_congr rfl fun p _ => ?_
    exact congrArg₂ (· * ·) (bnDev256_apply h p q) (bnDev256_apply h p q)
  · exact (Cert.LibRowReads.splat_read bcast_S_S256 _ (ix1 q)).trans bnCount_read

/-- The normalisation at an entry, for any mean and variance vectors. -/
theorem bnNorm256_apply (h : FVec Ideal S115200x256 .f32) (mean var g beta : FVec Ideal S256 .f32) (p : Fin 115200)
    (q : Fin 256) :
    RefStages.bnNorm256 h mean var g beta (ix2 p q)
      = max ((((h (ix2 p q) - mean (ix1 q)) * Ideal.rsqrt (var (ix1 q) + Spec.eps)) * g (ix1 q)) + beta (ix1 q)) 0 := by
  unfold RefStages.bnNorm256
  dsimp only
  refine congrArg₂ max ?_ ?_
  · refine congrArg₂ (· + ·) (congrArg₂ (· * ·) (congrArg₂ (· * ·) (congrArg₂ (· - ·) rfl ?_) ?_) ?_) ?_
    · exact Cert.LibRowReads.down_read (by norm_num) _ _ mean p q
    · refine (Cert.LibRowReads.down_read (by norm_num) _ _ _ p q).trans ?_
      refine congrArg Ideal.rsqrt (congrArg₂ (· + ·) rfl ?_)
      exact Cert.LibRowReads.splat_read bcast_S_S256 _ _
    · exact Cert.LibRowReads.down_read (by norm_num) _ _ g p q
    · exact Cert.LibRowReads.down_read (by norm_num) _ _ beta p q
  · exact (Cert.LibRowReads.splat_read bcast_S_S115200x256 _ _).trans Ideal.ofBits_zero_f32

/-- The column normalisation of the reference is the specification's, the variance as the mean of the squared
    deviations. -/
theorem bn256_eq (h : FVec Ideal S115200x256 .f32) (g beta : FVec Ideal S256 .f32) :
    RefStages.bn256 h g beta = Spec.bnR h (fun q => g (ix1 q)) (fun q => beta (ix1 q)) := by
  funext i
  obtain ⟨p, q, rfl⟩ : ∃ (p : Fin 115200) (q : Fin 256), i = ix2 p q := ⟨i 0, i 1, eq_ix2 i⟩
  unfold RefStages.bn256
  rw [bnNorm256_apply, bnMean256_apply, bnVar256_apply]
  rfl

end Cert.ReferenceIdeal.RefRead

end
-- ==== Proof.RefReadCat.lean ====
/-
  The reference's first dense layer, read as the specification's dense layer over four groups of input columns.

  The reference lays the four feature arrays side by side as one array of 1 + 256 + 256 + 256 = 769 columns and
  multiplies it by the 769 by 512 weights, then adds the bias row.  Entry (p, q) of the product is the sum over the 769
  columns k of (the arrays side by side) (p, k) times weights (k, q); columns 0, 1 … 256, 257 … 512 and 513 … 768 are
  the columns of the first, second, third and fourth array, so the sum is the sum of four partial products, each
  array against its own block of rows of the weights, added left to right.  Only the associativity of addition is
  used.
-/
import proofs.«167845_j85727547228621_1_alg».proof.Proof.RefStages
import proofs.«167845_j85727547228621_1_alg».proof.Proof.RefReadBase
import proofs.«167845_j85727547228621_1_alg».proof.Proof.Spec

noncomputable section

open scoped BigOperators

namespace Cert.ReferenceIdeal.RefRead

open Cert.ReferenceIdeal Cert.ReferenceIdeal.Gen Cert.ReferenceIdeal.RefStages Idealize.ShloMosaic Idealize.ShloMosaic.ValueIdx

/-! ## Sums over 769 = 1 + 256 + 256 + 256 positions -/

/-- A sum over the positions below 769, cut at 1, 257 and 513, the four parts added left to right. -/
theorem sum_range_769 (T : ℕ → EReal) :
    ∑ k ∈ Finset.range 769, T k
      = ((∑ k ∈ Finset.range 1, T (0 + k) + ∑ k ∈ Finset.range 256, T (1 + k)) + ∑ k ∈ Finset.range 256, T (257 + k))
        + ∑ k ∈ Finset.range 256, T (513 + k) := by
  have h0 : ∑ k ∈ Finset.range 1, T k = ∑ k ∈ Finset.range 1, T (0 + k) :=
    Finset.sum_congr rfl fun k _ => by rw [Nat.zero_add]
  have h1 : ∑ k ∈ Finset.range 257, T k = ∑ k ∈ Finset.range 1, T k + ∑ k ∈ Finset.range 256, T (1 + k) :=
    Finset.sum_range_add T 1 256
  have h2 : ∑ k ∈ Finset.range 513, T k = ∑ k ∈ Finset.range 257, T k + ∑ k ∈ Finset.range 256, T (257 + k) :=
    Finset.sum_range_add T 257 256
  have h3 : ∑ k ∈ Finset.range 769, T k = ∑ k ∈ Finset.range 513, T k + ∑ k ∈ Finset.range 256, T (513 + k) :=
    Finset.sum_range_add T 513 256
  rw [h3, h2, h1, h0]

/-- A run of n positions from `off`, as a sum over Fin n. -/
theorem sum_run (T : ℕ → EReal) (off n : ℕ) (f : Fin n → EReal) (hf : ∀ j : Fin n, T (off + j.val) = f j) :
    ∑ k ∈ Finset.range n, T (off + k) = ∑ j : Fin n, f j := by
  rw [Finset.sum_range (fun k => T (off + k))]
  exact Finset.sum_congr rfl fun j _ => hf j

/-! ## The four arrays side by side, column by column -/

/-- Column 0 + j of the four arrays side by side is column j of the first. -/
theorem catRead_v (v : FVec Ideal S115200x1 .f32) (x y z : FVec Ideal S115200x256 .f32)
    (H : Shape.Concatenates [S115200x1, S115200x256, S115200x256, S115200x256] S115200x769 1) (p : Fin 115200) (j : Fin 1) (hj : 0 + j.val < 769) :
    concatenate S115200x769 1 [⟨S115200x1, v⟩, ⟨S115200x256, x⟩, ⟨S115200x256, y⟩, ⟨S115200x256, z⟩] H (ix2 p ⟨0 + j.val, hj⟩) = v (ix2 p j) := by
  refine concatenate_apply_piece (t := S115200x769) (1 : Fin 2)
    [⟨S115200x1, v⟩, ⟨S115200x256, x⟩, ⟨S115200x256, y⟩, ⟨S115200x256, z⟩] H (ix2 p ⟨0 + j.val, hj⟩) 0
    (by show 0 < 4; omega) S115200x1 v rfl rfl 0 rfl (ix2 p j) (fun b hb => ?_) rfl
  match b with
  | ⟨0, _⟩ => rfl
  | ⟨1, _⟩ => exact absurd rfl hb

/-- Column 1 + j of the four arrays side by side is column j of the second. -/
theorem catRead_x (v : FVec Ideal S115200x1 .f32) (x y z : FVec Ideal S115200x256 .f32)
    (H : Shape.Concatenates [S115200x1, S115200x256, S115200x256, S115200x256] S115200x769 1) (p : Fin 115200) (j : Fin 256) (hj : 1 + j.val < 769) :
    concatenate S115200x769 1 [⟨S115200x1, v⟩, ⟨S115200x256, x⟩, ⟨S115200x256, y⟩, ⟨S115200x256, z⟩] H (ix2 p ⟨1 + j.val, hj⟩) = x (ix2 p j) := by
  refine concatenate_apply_piece (t := S115200x769) (1 : Fin 2)
    [⟨S115200x1, v⟩, ⟨S115200x256, x⟩, ⟨S115200x256, y⟩, ⟨S115200x256, z⟩] H (ix2 p ⟨1 + j.val, hj⟩) 1
    (by show 1 < 4; omega) S115200x256 x rfl rfl 1 rfl (ix2 p j) (fun b hb => ?_) rfl
  match b with
  | ⟨0, _⟩ => rfl
  | ⟨1, _⟩ => exact absurd rfl hb

/-- Column 257 + j of the four arrays side by side is column j of the third. -/
theorem catRead_y (v : FVec Ideal S115200x1 .f32) (x y z : FVec Ideal S115200x256 .f32)
    (H : Shape.Concatenates [S115200x1, S115200x256, S115200x256, S115200x256] S115200x769 1) (p : Fin 115200) (j : Fin 256) (hj : 257 + j.val < 769) :
    concatenate S115200x769 1 [⟨S115200x1, v⟩, ⟨S115200x256, x⟩, ⟨S115200x256, y⟩, ⟨S115200x256, z⟩] H (ix2 p ⟨257 + j.val, hj⟩) = y (ix2 p j) := by
  refine concatenate_apply_piece (t := S115200x769) (1 : Fin 2)
    [⟨S115200x1, v⟩, ⟨S115200x256, x⟩, ⟨S115200x256, y⟩, ⟨S115200x256, z⟩] H (ix2 p ⟨257 + j.val, hj⟩) 2
    (by show 2 < 4; omega) S115200x256 y rfl rfl 257 rfl (ix2 p j) (fun b hb => ?_) rfl
  match b with
  | ⟨0, _⟩ => rfl
  | ⟨1, _⟩ => exact absurd rfl hb

/-- Column 513 + j of the four arrays side by side is column j of the fourth. -/
theorem catRead_z (v : FVec Ideal S115200x1 .f32) (x y z : FVec Ideal S115200x256 .f32)
    (H : Shape.Concatenates [S115200x1, S115200x256, S115200x256, S115200x256] S115200x769 1) (p : Fin 115200) (j : Fin 256) (hj : 513 + j.val < 769) :
    concatenate S115200x769 1 [⟨S115200x1, v⟩, ⟨S115200x256, x⟩, ⟨S115200x256, y⟩, ⟨S115200x256, z⟩] H (ix2 p ⟨513 + j.val, hj⟩) = z (ix2 p j) := by
  refine concatenate_apply_piece (t := S115200x769) (1 : Fin 2)
    [⟨S115200x1, v⟩, ⟨S115200x256, x⟩, ⟨S115200x256, y⟩, ⟨S115200x256, z⟩] H (ix2 p ⟨513 + j.val, hj⟩) 3
    (by show 3 < 4; omega) S115200x256 z rfl rfl 513 rfl (ix2 p j) (fun b hb => ?_) rfl
  match b with
  | ⟨0, _⟩ => rfl
  | ⟨1, _⟩ => exact absurd rfl hb

/-! ## The product -/

/-- The printed dimension numbers of the product are the plain ones. -/
theorem catDot_plain : dot_S115200x769_S769x512_S115200x512_1_0_0_1_n_n = DotDims.plain 115200 769 512 := rfl

/-- Position k of the sum for entry (p, q): the arrays side by side at (p, k) times the weights at (k, q); zero past
    the last column. -/
def catTerm (cat : FVec Ideal S115200x769 .f32) (w : FVec Ideal S769x512 .f32) (p : Fin 115200) (q : Fin 512) (k : ℕ) :
    EReal :=
  if h : k < 769 then cat (ix2 p ⟨k, h⟩) * w (ix2 ⟨k, h⟩ q) else 0

theorem catTerm_of_lt (cat : FVec Ideal S115200x769 .f32) (w : FVec Ideal S769x512 .f32) (p : Fin 115200) (q : Fin 512)
    (k : ℕ) (h : k < 769) : catTerm cat w p q k = cat (ix2 p ⟨k, h⟩) * w (ix2 ⟨k, h⟩ q) := dif_pos h

theorem sum_catTerm (cat : FVec Ideal S115200x769 .f32) (w : FVec Ideal S769x512 .f32) (p : Fin 115200) (q : Fin 512) :
    ∑ k : Fin 769, cat (ix2 p k) * w (ix2 k q) = ∑ k ∈ Finset.range 769, catTerm cat w p q k := by
  rw [Finset.sum_range]
  exact Finset.sum_congr rfl fun k _ => (catTerm_of_lt cat w p q k.val k.isLt).symm

/-- The product of the arrays side by side with the weights, at (p, q): four partial products added left to right. -/
theorem catProduct_apply (v : FVec Ideal S115200x1 .f32) (x y z : FVec Ideal S115200x256 .f32)
    (H : Shape.Concatenates [S115200x1, S115200x256, S115200x256, S115200x256] S115200x769 1) (w : FVec Ideal S769x512 .f32) (p : Fin 115200) (q : Fin 512) :
    Host.dotGeneral dot_S115200x769_S769x512_S115200x512_1_0_0_1_n_n none (concatenate S115200x769 1 [⟨S115200x1, v⟩, ⟨S115200x256, x⟩, ⟨S115200x256, y⟩, ⟨S115200x256, z⟩] H) w (ix2 p q)
      = (((∑ j : Fin 1, v (ix2 p j) * Spec.rowsFrom 0 (by norm_num) w (ix2 j q))
          + ∑ j : Fin 256, x (ix2 p j) * Spec.rowsFrom 1 (by norm_num) w (ix2 j q))
          + ∑ j : Fin 256, y (ix2 p j) * Spec.rowsFrom 257 (by norm_num) w (ix2 j q))
        + ∑ j : Fin 256, z (ix2 p j) * Spec.rowsFrom 513 (by norm_num) w (ix2 j q) := by
  refine (dot_read _ catDot_plain _ w p q).trans ?_
  refine (sum_catTerm _ w p q).trans ?_
  refine (sum_range_769 _).trans ?_
  refine congrArg₂ (· + ·) (congrArg₂ (· + ·) (congrArg₂ (· + ·) ?_ ?_) ?_) ?_
  · refine sum_run _ 0 1 _ fun j => ?_
    have hj : 0 + j.val < 769 := by have := j.isLt; omega
    exact (catTerm_of_lt _ w p q _ hj).trans (congrArg₂ (· * ·) (catRead_v v x y z H p j hj) rfl)
  · refine sum_run _ 1 256 _ fun j => ?_
    have hj : 1 + j.val < 769 := by have := j.isLt; omega
    exact (catTerm_of_lt _ w p q _ hj).trans (congrArg₂ (· * ·) (catRead_x v x y z H p j hj) rfl)
  · refine sum_run _ 257 256 _ fun j => ?_
    have hj : 257 + j.val < 769 := by have := j.isLt; omega
    exact (catTerm_of_lt _ w p q _ hj).trans (congrArg₂ (· * ·) (catRead_y v x y z H p j hj) rfl)
  · refine sum_run _ 513 256 _ fun j => ?_
    have hj : 513 + j.val < 769 := by have := j.isLt; omega
    exact (catTerm_of_lt _ w p q _ hj).trans (congrArg₂ (· * ·) (catRead_z v x y z H p j hj) rfl)

/-- The reference's first dense layer is the specification's dense layer over the four groups of columns. -/
theorem denseCat_eq (v : FVec Ideal S115200x1 .f32) (x y z : FVec Ideal S115200x256 .f32) (w : FVec Ideal S769x512 .f32)
    (b : FVec Ideal S512 .f32) :
    RefStages.denseCat v x y z w b
      = Spec.dense4 v x y z (Spec.rowsFrom 0 (by norm_num) w) (Spec.rowsFrom 1 (by norm_num) w)
          (Spec.rowsFrom 257 (by norm_num) w) (Spec.rowsFrom 513 (by norm_num) w) (fun q => b (ix1 q)) := by
  funext i
  obtain ⟨p, q, rfl⟩ : ∃ (p : Fin 115200) (q : Fin 512), i = ix2 p q := ⟨i 0, i 1, eq_ix2 i⟩
  unfold RefStages.denseCat
  dsimp only
  refine Eq.trans ?_ (Spec.dense4_apply _ _ _ _ _ _ _ _ _ p q).symm
  refine congrArg₂ (· + ·) ?_ ?_
  · exact catProduct_apply v x y z _ w p q
  · exact Cert.LibRowReads.down_read (by norm_num) _ _ b p q

end Cert.ReferenceIdeal.RefRead

end
-- ==== Proof.RefToSpec.lean ====
/-
  The reference network is the network function at the reference's spelling of the variance.

  Stage by stage: each dense stage of the reference is the dense layer of the specification, each normalisation
  stage is the row or column normalisation whose variance is the mean of the squared deviations, and the dense
  stage over the four feature arrays side by side is the dense layer with the weights in four row blocks.  The
  neighbour sums are carried as the reference's own two chains.
-/
import proofs.«167845_j85727547228621_1_alg».proof.Proof.RefNet
import proofs.«167845_j85727547228621_1_alg».proof.Proof.SpecNetDefs
import proofs.«167845_j85727547228621_1_alg».proof.Proof.RefParams
import proofs.«167845_j85727547228621_1_alg».proof.Proof.RefReadDense
import proofs.«167845_j85727547228621_1_alg».proof.Proof.RefReadLn
import proofs.«167845_j85727547228621_1_alg».proof.Proof.RefReadBn
import proofs.«167845_j85727547228621_1_alg».proof.Proof.RefReadCat

noncomputable section

namespace Cert.ReferenceIdeal.RefToSpec

open Cert.ReferenceIdeal Cert.ReferenceIdeal.Gen Cert.ReferenceIdeal.RefStages Idealize.ShloMosaic Idealize.ShloMosaic.ValueIdx

variable (a0 : FVec Ideal S115200x1 .f32) (a1 : IVec S2x921600 32) (a2 : IVec S115200 32) (a3 : FVec Ideal S1x256 .f32)
  (a4 : FVec Ideal S256 .f32) (a5 : FVec Ideal S256x256 .f32) (a6 : FVec Ideal S256 .f32) (a7 : FVec Ideal S256x256 .f32)
  (a8 : FVec Ideal S256 .f32) (a9 : FVec Ideal S256 .f32) (a10 : FVec Ideal S256 .f32) (a11 : FVec Ideal S769x512 .f32)
  (a12 : FVec Ideal S512 .f32) (a13 : FVec Ideal S512x256 .f32) (a14 : FVec Ideal S256 .f32) (a15 : FVec Ideal S512 .f32)
  (a16 : FVec Ideal S512 .f32) (a17 : FVec Ideal S256 .f32) (a18 : FVec Ideal S256 .f32) (a19 : FVec Ideal S256x1 .f32)
  (a20 : FVec Ideal S1 .f32) (a21 : FVec Ideal S256x1 .f32) (a22 : FVec Ideal S1 .f32)

local notation "PP" => params a0 a3 a4 a5 a6 a7 a8 a9 a10 a11 a12 a13 a14 a15 a16 a17 a18 a19 a20 a21 a22
local notation "A1" => (fun x : Spec.Mat Spec.NN 1 => RefStages.agg1 (F := Ideal) x a1)
local notation "AH" => (fun x : Spec.Mat Spec.NN 256 => RefStages.aggH (F := Ideal) x a1)

theorem x1_eq : RefNet.x1 a0 a1 a3 a4 a9 a10 = Spec.x1 Spec.lnR A1 PP := by
  unfold RefNet.x1 Spec.x1
  rw [RefRead.ln_eq, RefRead.dense1_eq]
  rfl

theorem x2_eq : RefNet.x2 a0 a1 a3 a4 a5 a6 a9 a10 = Spec.x2 Spec.lnR A1 AH PP := by
  unfold RefNet.x2 Spec.x2
  rw [RefRead.ln_eq, RefRead.denseH_eq, x1_eq a0 a1 a3 a4 a5 a6 a7 a8 a9 a10 a11 a12 a13 a14 a15 a16 a17 a18 a19 a20 a21 a22]
  rfl

theorem x3_eq : RefNet.x3 a0 a1 a3 a4 a5 a6 a7 a8 a9 a10 = Spec.x3 Spec.lnR A1 AH PP := by
  unfold RefNet.x3 Spec.x3
  rw [RefRead.ln_eq, RefRead.denseH_eq, x2_eq a0 a1 a3 a4 a5 a6 a7 a8 a9 a10 a11 a12 a13 a14 a15 a16 a17 a18 a19 a20 a21 a22]
  rfl

theorem h1_eq : RefNet.h1 a0 a1 a3 a4 a5 a6 a7 a8 a9 a10 a11 a12 a15 a16 = Spec.h1 Spec.lnR Spec.bnR A1 AH PP := by
  unfold RefNet.h1 Spec.h1 Spec.p1
  rw [RefRead.bn512_eq, RefRead.denseCat_eq,
    x1_eq a0 a1 a3 a4 a5 a6 a7 a8 a9 a10 a11 a12 a13 a14 a15 a16 a17 a18 a19 a20 a21 a22,
    x2_eq a0 a1 a3 a4 a5 a6 a7 a8 a9 a10 a11 a12 a13 a14 a15 a16 a17 a18 a19 a20 a21 a22,
    x3_eq a0 a1 a3 a4 a5 a6 a7 a8 a9 a10 a11 a12 a13 a14 a15 a16 a17 a18 a19 a20 a21 a22]
  rfl

theorem h2_eq : RefNet.h2 a0 a1 a3 a4 a5 a6 a7 a8 a9 a10 a11 a12 a13 a14 a15 a16 a17 a18 = Spec.h2 Spec.lnR Spec.bnR Spec.bnR A1 AH PP := by
  unfold RefNet.h2 Spec.h2 Spec.p2
  rw [RefRead.bn256_eq, RefRead.dense512_eq,
    h1_eq a0 a1 a3 a4 a5 a6 a7 a8 a9 a10 a11 a12 a13 a14 a15 a16 a17 a18 a19 a20 a21 a22]
  rfl

/-- The reference's first head, before its closing chain. -/
theorem headA_eq :
    RefStages.head (RefNet.h2 a0 a1 a3 a4 a5 a6 a7 a8 a9 a10 a11 a12 a13 a14 a15 a16 a17 a18) a19 a20
      = Spec.headA Spec.lnR Spec.bnR Spec.bnR A1 AH PP := by
  unfold Spec.headA
  rw [RefRead.head_eq, h2_eq a0 a1 a3 a4 a5 a6 a7 a8 a9 a10 a11 a12 a13 a14 a15 a16 a17 a18 a19 a20 a21 a22]
  rfl

/-- The reference's second head, before its closing chain. -/
theorem headV_eq :
    RefStages.head (RefNet.h2 a0 a1 a3 a4 a5 a6 a7 a8 a9 a10 a11 a12 a13 a14 a15 a16 a17 a18) a21 a22
      = Spec.headV Spec.lnR Spec.bnR Spec.bnR A1 AH PP := by
  unfold Spec.headV
  rw [RefRead.head_eq, h2_eq a0 a1 a3 a4 a5 a6 a7 a8 a9 a10 a11 a12 a13 a14 a15 a16 a17 a18 a19 a20 a21 a22]
  rfl

end Cert.ReferenceIdeal.RefToSpec

end
-- ==== Proof.PreFiniteArray.lean ====
/-
  Finiteness read back from a comparison with +infinity.

  The word 0x7F800000 is the binary32 pattern of +infinity, so at the extended reals it denotes ⊤.  For an extended real x,
  |x| = max x (-x) is below ⊤ exactly when x is neither ⊤ nor ⊥, that is, when x is a real number.  An array whose
  entrywise test  |a i| < +infinity  reduces by "and" over all axes to 1 has passed the test at every index, hence every
  entry of it is a real number.
-/
import Idealize.ShloMosaic.PureOps.Ideal
import Idealize.ShloMosaic.Lib.ReduceAll
import proofs.«167845_j85727547228621_1_alg».proof.Proof.SpecReal

open Idealize.ShloMosaic

namespace Cert.PreFinite

/-- The binary32 pattern with all exponent bits set and a zero mantissa denotes +infinity. -/
theorem top_word : Ideal.ofBits .f32 0x7F800000#32 = (⊤ : EReal) := by
  simp [Ideal.ofBits, Ideal.ieee]

/-- An extended real whose absolute value is strictly below +infinity is a real number: at ⊥ and at ⊤ the absolute
    value is ⊤, which is not below itself. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- An array, of any shape, whose entrywise test  |a i| < +infinity  (the bound broadcast from a constant) reduces by
    "and" to 1 in a result of one index has only real entries. -/
theorem isReal_of_all {s t u v : Shape} [Subsingleton t.Idx] {axes : List (Fin s.rank)}
    (dims : Fin u.rank → Fin s.rank) (hb : u.BroadcastsInDim s dims) (hr : s.ReducesTo axes t) (hv : 0 < v.numel)
    (a : FVec Ideal s .f32) (init : IVec v 1) (j : t.Idx)
    (e : Host.reduce IntOp.andi
          (cmpf .olt (Host.absf a) (broadcastInDim s dims hb (constant (F := Ideal) u .f32 0x7F800000#32))) init hr hv j
          = 1#1) :
    Cert.Spec.IsReal a := by
  intro i
  have h1 := Host.reduce_andi_all _ init hr hv j e i
  apply real_of_abs_lt_top
  rw [← top_word]
  exact h1

end Cert.PreFinite
-- ==== Proof.PreFinite.lean ====
/-
  The precondition decoded.

  The printed predicate tests, for each of the twenty-one floating-point arguments,  |x| < +infinity  at every entry,
  reduces each test by "and" over all axes, and joins the twenty-one bits by "and".  If the result is 1 then each of the
  twenty-one bits is 1 (an "and" of two bits is 1 only when both are), so every test passed at every entry, and an entry
  with  |x| < +infinity  is a real number.  The two integer arguments are not tested and nothing is said of them.
-/
import proofs.«167845_j85727547228621_1_alg».proof.Pre_finite_inputs
import proofs.«167845_j85727547228621_1_alg».proof.Proof.PreFiniteArray
import Idealize.ShloMosaic.Lib.ValueIdx

open Idealize.ShloMosaic Cert.Pre_finite_inputs

namespace Cert.PreFinite

/-- The result shape of each reduction has rank zero, hence a single index. -/
instance : Subsingleton S_.Idx := ⟨fun a b => funext fun d => d.elim0⟩

/-- If the printed predicate is 1 on the twenty-three argument arrays, every entry of every floating-point argument
    is a real number. -/
theorem of_pre [Cert.Pre_finite_inputs.Facts]
    (a0 : FVec Ideal S115200x1 .f32) (a1 : IVec S2x921600 32) (a2 : IVec S115200 32) (a3 : FVec Ideal S1x256 .f32)
    (a4 : FVec Ideal S256 .f32) (a5 : FVec Ideal S256x256 .f32) (a6 : FVec Ideal S256 .f32)
    (a7 : FVec Ideal S256x256 .f32) (a8 : FVec Ideal S256 .f32) (a9 : FVec Ideal S256 .f32)
    (a10 : FVec Ideal S256 .f32) (a11 : FVec Ideal S769x512 .f32) (a12 : FVec Ideal S512 .f32)
    (a13 : FVec Ideal S512x256 .f32) (a14 : FVec Ideal S256 .f32) (a15 : FVec Ideal S512 .f32)
    (a16 : FVec Ideal S512 .f32) (a17 : FVec Ideal S256 .f32) (a18 : FVec Ideal S256 .f32)
    (a19 : FVec Ideal S256x1 .f32) (a20 : FVec Ideal S1 .f32) (a21 : FVec Ideal S256x1 .f32)
    (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) :
      Spec.IsReal a0 ∧ Spec.IsReal a3 ∧ Spec.IsReal a4 ∧ Spec.IsReal a5 ∧ Spec.IsReal a6 ∧ Spec.IsReal a7 ∧
      Spec.IsReal a8 ∧ Spec.IsReal a9 ∧ Spec.IsReal a10 ∧ Spec.IsReal a11 ∧ Spec.IsReal a12 ∧ Spec.IsReal a13 ∧
      Spec.IsReal a14 ∧ Spec.IsReal a15 ∧ Spec.IsReal a16 ∧ Spec.IsReal a17 ∧ Spec.IsReal a18 ∧ Spec.IsReal a19 ∧
      Spec.IsReal a20 ∧ Spec.IsReal a21 ∧ Spec.IsReal a22 := by
  have h' := congrFun h ValueIdx.ix0
  dsimp only [fn, fn_part1, fn_part2, fn_part3, fn_part4, fn_part5, fn_part6] at h'
  simp only [andi, IntOp.andi_eq_one] at h'
  obtain ⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩ := h'
  exact ⟨isReal_of_all _ _ _ _ a0 _ _ h0,
    isReal_of_all _ _ _ _ a3 _ _ h3,
    isReal_of_all _ _ _ _ a4 _ _ h4,
    isReal_of_all _ _ _ _ a5 _ _ h5,
    isReal_of_all _ _ _ _ a6 _ _ h6,
    isReal_of_all _ _ _ _ a7 _ _ h7,
    isReal_of_all _ _ _ _ a8 _ _ h8,
    isReal_of_all _ _ _ _ a9 _ _ h9,
    isReal_of_all _ _ _ _ a10 _ _ h10,
    isReal_of_all _ _ _ _ a11 _ _ h11,
    isReal_of_all _ _ _ _ a12 _ _ h12,
    isReal_of_all _ _ _ _ a13 _ _ h13,
    isReal_of_all _ _ _ _ a14 _ _ h14,
    isReal_of_all _ _ _ _ a15 _ _ h15,
    isReal_of_all _ _ _ _ a16 _ _ h16,
    isReal_of_all _ _ _ _ a17 _ _ h17,
    isReal_of_all _ _ _ _ a18 _ _ h18,
    isReal_of_all _ _ _ _ a19 _ _ h19,
    isReal_of_all _ _ _ _ a20 _ _ h20,
    isReal_of_all _ _ _ _ a21 _ _ h21,
    isReal_of_all _ _ _ _ a22 _ _ h22⟩

end Cert.PreFinite
-- ==== Proof.PreParams.lean ====
/-
  The precondition gives finite parameters.

  The printed predicate is 1 only when every entry of each of the twenty-one floating-point arguments is a real
  number.  The specification takes the arrays among them as they are and each vector as the family of its entries,
  so under the precondition every array and every family of the parameters is finite.
-/
import proofs.«167845_j85727547228621_1_alg».proof.Proof.PreFinite
import proofs.«167845_j85727547228621_1_alg».proof.Proof.RefParams
import proofs.«167845_j85727547228621_1_alg».proof.Proof.SpecNetDefs
import proofs.«167845_j85727547228621_1_alg».proof.Proof.Gen.Pre_finite_inputs

noncomputable section

namespace Cert.PreParams

open Idealize.ShloMosaic Idealize.ShloMosaic.ValueIdx

/-- Under the precondition every parameter of the network is finite. -/
theorem finite [Cert.Pre_finite_inputs.Facts]
    (a0 : FVec Ideal Cert.ReferenceIdeal.S115200x1 .f32) (a1 : IVec Cert.ReferenceIdeal.S2x921600 32)
    (a2 : IVec Cert.ReferenceIdeal.S115200 32) (a3 : FVec Ideal Cert.ReferenceIdeal.S1x256 .f32)
    (a4 : FVec Ideal Cert.ReferenceIdeal.S256 .f32) (a5 : FVec Ideal Cert.ReferenceIdeal.S256x256 .f32)
    (a6 : FVec Ideal Cert.ReferenceIdeal.S256 .f32) (a7 : FVec Ideal Cert.ReferenceIdeal.S256x256 .f32)
    (a8 : FVec Ideal Cert.ReferenceIdeal.S256 .f32) (a9 : FVec Ideal Cert.ReferenceIdeal.S256 .f32)
    (a10 : FVec Ideal Cert.ReferenceIdeal.S256 .f32) (a11 : FVec Ideal Cert.ReferenceIdeal.S769x512 .f32)
    (a12 : FVec Ideal Cert.ReferenceIdeal.S512 .f32) (a13 : FVec Ideal Cert.ReferenceIdeal.S512x256 .f32)
    (a14 : FVec Ideal Cert.ReferenceIdeal.S256 .f32) (a15 : FVec Ideal Cert.ReferenceIdeal.S512 .f32)
    (a16 : FVec Ideal Cert.ReferenceIdeal.S512 .f32) (a17 : FVec Ideal Cert.ReferenceIdeal.S256 .f32)
    (a18 : FVec Ideal Cert.ReferenceIdeal.S256 .f32) (a19 : FVec Ideal Cert.ReferenceIdeal.S256x1 .f32)
    (a20 : FVec Ideal Cert.ReferenceIdeal.S1 .f32) (a21 : FVec Ideal Cert.ReferenceIdeal.S256x1 .f32)
    (a22 : FVec Ideal Cert.ReferenceIdeal.S1 .f32)
    (h : Cert.Pre_finite_inputs.fn (F := Ideal) a0 a1 a2 a3 a4 a5 a6 a7 a8 a9 a10 a11 a12 a13 a14 a15 a16 a17 a18 a19 a20 a21 a22 = fun _ => 1#1) :
    (Cert.ReferenceIdeal.RefToSpec.params a0 a3 a4 a5 a6 a7 a8 a9 a10 a11 a12 a13 a14 a15 a16 a17 a18 a19 a20 a21 a22).Finite := by
  obtain ⟨h0, h3, h4, h5, h6, h7, h8, h9, h10, h11, h12, h13, h14, h15, h16, h17, h18, h19, h20, h21, h22⟩ :=
    Cert.PreFinite.of_pre a0 a1 a2 a3 a4 a5 a6 a7 a8 a9 a10 a11 a12 a13 a14 a15 a16 a17 a18 a19 a20 a21 a22 h
  exact
    { v := h0, w1 := h3, b1 := fun q => h4 (ix1 q), w2 := h5, b2 := fun q => h6 (ix1 q), w3 := h7,
      b3 := fun q => h8 (ix1 q), g := fun q => h9 (ix1 q), β := fun q => h10 (ix1 q), wf1 := h11,
      bf1 := fun q => h12 (ix1 q), wf2 := h13, bf2 := fun q => h14 (ix1 q), g1 := fun q => h15 (ix1 q),
      β1 := fun q => h16 (ix1 q), g2 := fun q => h17 (ix1 q), β2 := fun q => h18 (ix1 q), wa := h19,
      ba := fun q => h20 (ix1 q), wv := h21, bv := fun q => h22 (ix1 q) }

end Cert.PreParams

end
-- ==== Proof.SpecNet.lean ====
/-
  The two spellings of the network agree on finite inputs.

  The neighbour sums are any two maps that keep finite arrays finite.  On finite inputs every intermediate array
  is finite, layer after layer, so at every normalisation the two spellings of the variance are the same number,
  and the two networks have the same heads.
-/
import proofs.«167845_j85727547228621_1_alg».proof.Proof.SpecNetDefs
import proofs.«167845_j85727547228621_1_alg».proof.Proof.SpecFinite

noncomputable section

open scoped BigOperators

namespace Cert.Spec

open Idealize.ShloMosaic Idealize.ShloMosaic.ValueIdx

theorem isReal_rowsFrom {k K c : Nat} (off : Nat) (h : off + k ≤ K) {w : Mat K c} (hw : IsReal w) : IsReal (rowsFrom off h w) :=
  fun _ => hw _

section Compare
variable (agg1 : Mat NN 1 → Mat NN 1) (aggH : Mat NN 256 → Mat NN 256)
  (hagg1 : ∀ x, IsReal x → IsReal (agg1 x)) (haggH : ∀ x, IsReal x → IsReal (aggH x))
  (P : Params) (hP : P.Finite)
include hagg1 haggH hP

theorem pre1_real : IsReal (dense (add P.v (agg1 P.v)) P.w1 P.b1) :=
  isReal_dense (isReal_add hP.v (hagg1 _ hP.v)) hP.w1 hP.b1

theorem x1_eq : x1 lnK agg1 P = x1 lnR agg1 P := lnK_eq_lnR (pre1_real agg1 aggH hagg1 haggH P hP) _ _

theorem x1_real : IsReal (x1 lnR agg1 P) := isReal_lnR (pre1_real agg1 aggH hagg1 haggH P hP) hP.g hP.β

theorem pre2_real : IsReal (dense (add (x1 lnR agg1 P) (aggH (x1 lnR agg1 P))) P.w2 P.b2) :=
  isReal_dense (isReal_add (x1_real agg1 aggH hagg1 haggH P hP) (haggH _ (x1_real agg1 aggH hagg1 haggH P hP))) hP.w2 hP.b2

theorem x2_eq : x2 lnK agg1 aggH P = x2 lnR agg1 aggH P := by
  unfold x2
  rw [x1_eq agg1 aggH hagg1 haggH P hP]
  exact lnK_eq_lnR (pre2_real agg1 aggH hagg1 haggH P hP) _ _

theorem x2_real : IsReal (x2 lnR agg1 aggH P) := isReal_lnR (pre2_real agg1 aggH hagg1 haggH P hP) hP.g hP.β

theorem pre3_real : IsReal (dense (add (x2 lnR agg1 aggH P) (aggH (x2 lnR agg1 aggH P))) P.w3 P.b3) :=
  isReal_dense (isReal_add (x2_real agg1 aggH hagg1 haggH P hP) (haggH _ (x2_real agg1 aggH hagg1 haggH P hP))) hP.w3 hP.b3

theorem x3_eq : x3 lnK agg1 aggH P = x3 lnR agg1 aggH P := by
  unfold x3
  rw [x2_eq agg1 aggH hagg1 haggH P hP]
  exact lnK_eq_lnR (pre3_real agg1 aggH hagg1 haggH P hP) _ _

theorem x3_real : IsReal (x3 lnR agg1 aggH P) := isReal_lnR (pre3_real agg1 aggH hagg1 haggH P hP) hP.g hP.β

theorem p1_eq : p1 lnK agg1 aggH P = p1 lnR agg1 aggH P := by
  unfold p1
  rw [x1_eq agg1 aggH hagg1 haggH P hP, x2_eq agg1 aggH hagg1 haggH P hP, x3_eq agg1 aggH hagg1 haggH P hP]

theorem p1_real : IsReal (p1 lnR agg1 aggH P) :=
  isReal_dense4 hP.v (x1_real agg1 aggH hagg1 haggH P hP) (x2_real agg1 aggH hagg1 haggH P hP)
    (x3_real agg1 aggH hagg1 haggH P hP) (isReal_rowsFrom _ _ hP.wf1) (isReal_rowsFrom _ _ hP.wf1)
    (isReal_rowsFrom _ _ hP.wf1) (isReal_rowsFrom _ _ hP.wf1) hP.bf1

theorem h1_eq : h1 lnK bnK agg1 aggH P = h1 lnR bnR agg1 aggH P := by
  unfold h1
  rw [p1_eq agg1 aggH hagg1 haggH P hP]
  exact bnK_eq_bnR (p1_real agg1 aggH hagg1 haggH P hP) _ _

theorem h1_real : IsReal (h1 lnR bnR agg1 aggH P) := isReal_bnR (p1_real agg1 aggH hagg1 haggH P hP) hP.g1 hP.β1

theorem p2_eq : p2 lnK bnK agg1 aggH P = p2 lnR bnR agg1 aggH P := by
  unfold p2
  rw [h1_eq agg1 aggH hagg1 haggH P hP]

theorem p2_real : IsReal (p2 lnR bnR agg1 aggH P) := isReal_dense (h1_real agg1 aggH hagg1 haggH P hP) hP.wf2 hP.bf2

theorem h2_eq : h2 lnK bnK bnK agg1 aggH P = h2 lnR bnR bnR agg1 aggH P := by
  unfold h2
  rw [p2_eq agg1 aggH hagg1 haggH P hP]
  exact bnK_eq_bnR (p2_real agg1 aggH hagg1 haggH P hP) _ _

/-- On finite inputs the two spellings of the network have the same first head. -/
theorem headA_eq : headA lnK bnK bnK agg1 aggH P = headA lnR bnR bnR agg1 aggH P := by
  unfold headA
  rw [h2_eq agg1 aggH hagg1 haggH P hP]

/-- On finite inputs the two spellings of the network have the same second head. -/
theorem headV_eq : headV lnK bnK bnK agg1 aggH P = headV lnR bnR bnR agg1 aggH P := by
  unfold headV
  rw [h2_eq agg1 aggH hagg1 haggH P hP]
end Compare

end Cert.Spec

end
-- ==== Proof.Final.lean ====
/-
  The two programs end with equal results.

  The idealized kernel's two result arrays are the closing chains applied to the two heads of the network in the
  kernel's spelling (variance as the mean of the squares minus the square of the mean); the reference's are the
  same closing chains applied to the heads of the network in the reference's spelling (variance as the mean of the
  squared deviations).  The precondition makes every float input finite; the neighbour sums keep finite arrays
  finite; so every intermediate array is finite and the two spellings agree, layer after layer.
-/
import proofs.«167845_j85727547228621_1_alg».proof.Defs
import proofs.«167845_j85727547228621_1_alg».proof.Proof.Gen.Kernel.Frame
import proofs.«167845_j85727547228621_1_alg».proof.Proof.Gen.KernelIdeal.Frame
import proofs.«167845_j85727547228621_1_alg».proof.Proof.Gen.ReferenceIdeal
import proofs.«167845_j85727547228621_1_alg».proof.Proof.Gen.Pre_finite_inputs
import proofs.«167845_j85727547228621_1_alg».proof.Proof.KRun
import proofs.«167845_j85727547228621_1_alg».proof.Proof.KChainOut
import proofs.«167845_j85727547228621_1_alg».proof.Proof.KValue7
import proofs.«167845_j85727547228621_1_alg».proof.Proof.Glue
import proofs.«167845_j85727547228621_1_alg».proof.Proof.GlueReal
import proofs.«167845_j85727547228621_1_alg».proof.Proof.RefValue
import proofs.«167845_j85727547228621_1_alg».proof.Proof.RefToSpec
import proofs.«167845_j85727547228621_1_alg».proof.Proof.PreParams
import proofs.«167845_j85727547228621_1_alg».proof.Proof.SpecNet

noncomputable section

namespace Cert.Proof.Final

open Idealize.ShloMosaic Idealize.ShloMosaic.TcCoe Idealize.SL.Sem Idealize.ShloMosaic.ValueIdx

section Heads
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option maxRecDepth 65536 in
/-- The kernel program's parameters are the reference's at the same arrays. -/
theorem params_eq : Cert.KernelIdeal.KValue.params m c
    = Cert.ReferenceIdeal.RefToSpec.params (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  unfold Cert.KernelIdeal.KValue.params Cert.ReferenceIdeal.RefToSpec.params
  rfl

theorem agg1_eq : Cert.KernelIdeal.KValue.A1 m c = fun x => Cert.ReferenceIdeal.RefStages.agg1 (F := Ideal) x (m ((c.tc : Thread Cert.KernelIdeal.nD Cert.KernelIdeal.τ).loc Cert.KernelIdeal.main_arg1)) :=
  funext fun x => Cert.Glue.agg1_eq (F := Ideal) x (m ((c.tc : Thread Cert.KernelIdeal.nD Cert.KernelIdeal.τ).loc Cert.KernelIdeal.main_arg1))

theorem aggH_eq : Cert.KernelIdeal.KValue.AH m c = fun x => Cert.ReferenceIdeal.RefStages.aggH (F := Ideal) x (m ((c.tc : Thread Cert.KernelIdeal.nD Cert.KernelIdeal.τ).loc Cert.KernelIdeal.main_arg1)) :=
  funext fun x => Cert.Glue.aggH_eq (F := Ideal) x (m ((c.tc : Thread Cert.KernelIdeal.nD Cert.KernelIdeal.τ).loc Cert.KernelIdeal.main_arg1))

variable (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) = fun _ => 1#1)
include hpre

/-- Under the precondition the kernel's first head, in its own spelling of the variances, is the reference's. -/
theorem headA_eq : (Cert.KernelIdeal.KNames.HA m ρ c : Cert.KernelIdeal.S115200x1.Idx → EReal)
    = Cert.ReferenceIdeal.RefStages.head (F := Ideal) (Cert.ReferenceIdeal.RefNet.h2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  have hfin := Cert.PreParams.finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) hpre
  rw [Cert.KernelIdeal.KValue.HA_eq m ρ c, Cert.ReferenceIdeal.RefToSpec.headA_eq, params_eq m c, agg1_eq m c, aggH_eq m c]
  exact Cert.Spec.headA_eq _ _ (fun x hx => Cert.Glue.agg1_real x _ hx) (fun x hx => Cert.Glue.aggH_real x _ hx) _ hfin

/-- And the second head. -/
theorem headV_eq : (Cert.KernelIdeal.KNames.HV m ρ c : Cert.KernelIdeal.S115200x1.Idx → EReal)
    = Cert.ReferenceIdeal.RefStages.head (F := Ideal) (Cert.ReferenceIdeal.RefNet.h2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  have hfin := Cert.PreParams.finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) hpre
  rw [Cert.KernelIdeal.KValue.HV_eq m ρ c, Cert.ReferenceIdeal.RefToSpec.headV_eq, params_eq m c, agg1_eq m c, aggH_eq m c]
  exact Cert.Spec.headV_eq _ _ (fun x hx => Cert.Glue.agg1_real x _ hx) (fun x hx => Cert.Glue.aggH_real x _ hx) _ hfin

/-- The first results agree: the same closing chain on equal heads. -/
theorem act_eq : Cert.ReferenceIdeal.RefNet.act (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) = Cert.KernelIdeal.KChain.tailAct (F := Ideal) (Cert.KernelIdeal.KNames.HA m ρ c : Cert.KernelIdeal.S115200x1.Idx → EReal) := by
  unfold Cert.ReferenceIdeal.RefNet.act
  rw [headA_eq m ρ c hpre, Cert.Glue.tailAct_eq]

/-- The second results agree. -/
theorem val_eq : Cert.ReferenceIdeal.RefNet.val (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) = Cert.KernelIdeal.KChain.tailVal (F := Ideal) (Cert.KernelIdeal.KNames.HV m ρ c : Cert.KernelIdeal.S115200x1.Idx → EReal) (m ((c.tc : Thread Cert.KernelIdeal.nD Cert.KernelIdeal.τ).loc Cert.KernelIdeal.main_arg2)) := by
  unfold Cert.ReferenceIdeal.RefNet.val
  rw [headV_eq m ρ c hpre, Cert.Glue.tailVal_eq]

/-- The same, for any arrays equal to the kernel program's inputs. -/
theorem act_eq' (b0 : FVec Ideal Cert.ReferenceIdeal.S115200x1 .f32) (b1 : IVec Cert.ReferenceIdeal.S2x921600 32) (b3 : FVec Ideal Cert.ReferenceIdeal.S1x256 .f32) (b4 : FVec Ideal Cert.ReferenceIdeal.S256 .f32) (b5 : FVec Ideal Cert.ReferenceIdeal.S256x256 .f32) (b6 : FVec Ideal Cert.ReferenceIdeal.S256 .f32) (b7 : FVec Ideal Cert.ReferenceIdeal.S256x256 .f32) (b8 : FVec Ideal Cert.ReferenceIdeal.S256 .f32) (b9 : FVec Ideal Cert.ReferenceIdeal.S256 .f32) (b10 : FVec Ideal Cert.ReferenceIdeal.S256 .f32) (b11 : FVec Ideal Cert.ReferenceIdeal.S769x512 .f32) (b12 : FVec Ideal Cert.ReferenceIdeal.S512 .f32) (b13 : FVec Ideal Cert.ReferenceIdeal.S512x256 .f32) (b14 : FVec Ideal Cert.ReferenceIdeal.S256 .f32) (b15 : FVec Ideal Cert.ReferenceIdeal.S512 .f32) (b16 : FVec Ideal Cert.ReferenceIdeal.S512 .f32) (b17 : FVec Ideal Cert.ReferenceIdeal.S256 .f32) (b18 : FVec Ideal Cert.ReferenceIdeal.S256 .f32) (b19 : FVec Ideal Cert.ReferenceIdeal.S256x1 .f32) (b20 : FVec Ideal Cert.ReferenceIdeal.S1 .f32)
    (h0 : b0 = (m ((c.tc : Thread Cert.KernelIdeal.nD Cert.KernelIdeal.τ).loc Cert.KernelIdeal.main_arg0))) (h1 : b1 = (m ((c.tc : Thread Cert.KernelIdeal.nD Cert.KernelIdeal.τ).loc Cert.KernelIdeal.main_arg1))) (h3 : b3 = (m ((c.tc : Thread Cert.KernelIdeal.nD Cert.KernelIdeal.τ).loc Cert.KernelIdeal.main_arg3))) (h4 : b4 = (m ((c.tc : Thread Cert.KernelIdeal.nD Cert.KernelIdeal.τ).loc Cert.KernelIdeal.main_arg4))) (h5 : b5 = (m ((c.tc : Thread Cert.KernelIdeal.nD Cert.KernelIdeal.τ).loc Cert.KernelIdeal.main_arg5))) (h6 : b6 = (m ((c.tc : Thread Cert.KernelIdeal.nD Cert.KernelIdeal.τ).loc Cert.KernelIdeal.main_arg6))) (h7 : b7 = (m ((c.tc : Thread Cert.KernelIdeal.nD Cert.KernelIdeal.τ).loc Cert.KernelIdeal.main_arg7))) (h8 : b8 = (m ((c.tc : Thread Cert.KernelIdeal.nD Cert.KernelIdeal.τ).loc Cert.KernelIdeal.main_arg8))) (h9 : b9 = (m ((c.tc : Thread Cert.KernelIdeal.nD Cert.KernelIdeal.τ).loc Cert.KernelIdeal.main_arg9))) (h10 : b10 = (m ((c.tc : Thread Cert.KernelIdeal.nD Cert.KernelIdeal.τ).loc Cert.KernelIdeal.main_arg10))) (h11 : b11 = (m ((c.tc : Thread Cert.KernelIdeal.nD Cert.KernelIdeal.τ).loc Cert.KernelIdeal.main_arg11))) (h12 : b12 = (m ((c.tc : Thread Cert.KernelIdeal.nD Cert.KernelIdeal.τ).loc Cert.KernelIdeal.main_arg12))) (h13 : b13 = (m ((c.tc : Thread Cert.KernelIdeal.nD Cert.KernelIdeal.τ).loc Cert.KernelIdeal.main_arg13))) (h14 : b14 = (m ((c.tc : Thread Cert.KernelIdeal.nD Cert.KernelIdeal.τ).loc Cert.KernelIdeal.main_arg14))) (h15 : b15 = (m ((c.tc : Thread Cert.KernelIdeal.nD Cert.KernelIdeal.τ).loc Cert.KernelIdeal.main_arg15))) (h16 : b16 = (m ((c.tc : Thread Cert.KernelIdeal.nD Cert.KernelIdeal.τ).loc Cert.KernelIdeal.main_arg16))) (h17 : b17 = (m ((c.tc : Thread Cert.KernelIdeal.nD Cert.KernelIdeal.τ).loc Cert.KernelIdeal.main_arg17))) (h18 : b18 = (m ((c.tc : Thread Cert.KernelIdeal.nD Cert.KernelIdeal.τ).loc Cert.KernelIdeal.main_arg18))) (h19 : b19 = (m ((c.tc : Thread Cert.KernelIdeal.nD Cert.KernelIdeal.τ).loc Cert.KernelIdeal.main_arg19))) (h20 : b20 = (m ((c.tc : Thread Cert.KernelIdeal.nD Cert.KernelIdeal.τ).loc Cert.KernelIdeal.main_arg20))) :
    Cert.ReferenceIdeal.RefNet.act (F := Ideal) b0 b1 b3 b4 b5 b6 b7 b8 b9 b10 b11 b12 b13 b14 b15 b16 b17 b18 b19 b20 = Cert.KernelIdeal.KChain.tailAct (F := Ideal) (Cert.KernelIdeal.KNames.HA m ρ c : Cert.KernelIdeal.S115200x1.Idx → EReal) := by
  subst h0 h1 h3 h4 h5 h6 h7 h8 h9 h10 h11 h12 h13 h14 h15 h16 h17 h18 h19 h20
  exact act_eq m ρ c hpre

/-- The same, for any arrays equal to the kernel program's inputs. -/
theorem val_eq' (b0 : FVec Ideal Cert.ReferenceIdeal.S115200x1 .f32) (b1 : IVec Cert.ReferenceIdeal.S2x921600 32) (b2 : IVec Cert.ReferenceIdeal.S115200 32) (b3 : FVec Ideal Cert.ReferenceIdeal.S1x256 .f32) (b4 : FVec Ideal Cert.ReferenceIdeal.S256 .f32) (b5 : FVec Ideal Cert.ReferenceIdeal.S256x256 .f32) (b6 : FVec Ideal Cert.ReferenceIdeal.S256 .f32) (b7 : FVec Ideal Cert.ReferenceIdeal.S256x256 .f32) (b8 : FVec Ideal Cert.ReferenceIdeal.S256 .f32) (b9 : FVec Ideal Cert.ReferenceIdeal.S256 .f32) (b10 : FVec Ideal Cert.ReferenceIdeal.S256 .f32) (b11 : FVec Ideal Cert.ReferenceIdeal.S769x512 .f32) (b12 : FVec Ideal Cert.ReferenceIdeal.S512 .f32) (b13 : FVec Ideal Cert.ReferenceIdeal.S512x256 .f32) (b14 : FVec Ideal Cert.ReferenceIdeal.S256 .f32) (b15 : FVec Ideal Cert.ReferenceIdeal.S512 .f32) (b16 : FVec Ideal Cert.ReferenceIdeal.S512 .f32) (b17 : FVec Ideal Cert.ReferenceIdeal.S256 .f32) (b18 : FVec Ideal Cert.ReferenceIdeal.S256 .f32) (b21 : FVec Ideal Cert.ReferenceIdeal.S256x1 .f32) (b22 : FVec Ideal Cert.ReferenceIdeal.S1 .f32)
    (h0 : b0 = (m ((c.tc : Thread Cert.KernelIdeal.nD Cert.KernelIdeal.τ).loc Cert.KernelIdeal.main_arg0))) (h1 : b1 = (m ((c.tc : Thread Cert.KernelIdeal.nD Cert.KernelIdeal.τ).loc Cert.KernelIdeal.main_arg1))) (h2 : b2 = (m ((c.tc : Thread Cert.KernelIdeal.nD Cert.KernelIdeal.τ).loc Cert.KernelIdeal.main_arg2))) (h3 : b3 = (m ((c.tc : Thread Cert.KernelIdeal.nD Cert.KernelIdeal.τ).loc Cert.KernelIdeal.main_arg3))) (h4 : b4 = (m ((c.tc : Thread Cert.KernelIdeal.nD Cert.KernelIdeal.τ).loc Cert.KernelIdeal.main_arg4))) (h5 : b5 = (m ((c.tc : Thread Cert.KernelIdeal.nD Cert.KernelIdeal.τ).loc Cert.KernelIdeal.main_arg5))) (h6 : b6 = (m ((c.tc : Thread Cert.KernelIdeal.nD Cert.KernelIdeal.τ).loc Cert.KernelIdeal.main_arg6))) (h7 : b7 = (m ((c.tc : Thread Cert.KernelIdeal.nD Cert.KernelIdeal.τ).loc Cert.KernelIdeal.main_arg7))) (h8 : b8 = (m ((c.tc : Thread Cert.KernelIdeal.nD Cert.KernelIdeal.τ).loc Cert.KernelIdeal.main_arg8))) (h9 : b9 = (m ((c.tc : Thread Cert.KernelIdeal.nD Cert.KernelIdeal.τ).loc Cert.KernelIdeal.main_arg9))) (h10 : b10 = (m ((c.tc : Thread Cert.KernelIdeal.nD Cert.KernelIdeal.τ).loc Cert.KernelIdeal.main_arg10))) (h11 : b11 = (m ((c.tc : Thread Cert.KernelIdeal.nD Cert.KernelIdeal.τ).loc Cert.KernelIdeal.main_arg11))) (h12 : b12 = (m ((c.tc : Thread Cert.KernelIdeal.nD Cert.KernelIdeal.τ).loc Cert.KernelIdeal.main_arg12))) (h13 : b13 = (m ((c.tc : Thread Cert.KernelIdeal.nD Cert.KernelIdeal.τ).loc Cert.KernelIdeal.main_arg13))) (h14 : b14 = (m ((c.tc : Thread Cert.KernelIdeal.nD Cert.KernelIdeal.τ).loc Cert.KernelIdeal.main_arg14))) (h15 : b15 = (m ((c.tc : Thread Cert.KernelIdeal.nD Cert.KernelIdeal.τ).loc Cert.KernelIdeal.main_arg15))) (h16 : b16 = (m ((c.tc : Thread Cert.KernelIdeal.nD Cert.KernelIdeal.τ).loc Cert.KernelIdeal.main_arg16))) (h17 : b17 = (m ((c.tc : Thread Cert.KernelIdeal.nD Cert.KernelIdeal.τ).loc Cert.KernelIdeal.main_arg17))) (h18 : b18 = (m ((c.tc : Thread Cert.KernelIdeal.nD Cert.KernelIdeal.τ).loc Cert.KernelIdeal.main_arg18))) (h21 : b21 = (m ((c.tc : Thread Cert.KernelIdeal.nD Cert.KernelIdeal.τ).loc Cert.KernelIdeal.main_arg21))) (h22 : b22 = (m ((c.tc : Thread Cert.KernelIdeal.nD Cert.KernelIdeal.τ).loc Cert.KernelIdeal.main_arg22))) :
    Cert.ReferenceIdeal.RefNet.val (F := Ideal) b0 b1 b2 b3 b4 b5 b6 b7 b8 b9 b10 b11 b12 b13 b14 b15 b16 b17 b18 b21 b22 = Cert.KernelIdeal.KChain.tailVal (F := Ideal) (Cert.KernelIdeal.KNames.HV m ρ c : Cert.KernelIdeal.S115200x1.Idx → EReal) (m ((c.tc : Thread Cert.KernelIdeal.nD Cert.KernelIdeal.τ).loc Cert.KernelIdeal.main_arg2)) := by
  subst h0 h1 h2 h3 h4 h5 h6 h7 h8 h9 h10 h11 h12 h13 h14 h15 h16 h17 h18 h21 h22
  exact val_eq m ρ c hpre
end Heads

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.run (F := Ideal) m ρ)

set_option maxHeartbeats 1000000 in
/-- Both idealized programs run; the kernel's results are named, and the reference's are shown equal to them. -/
theorem algebraic : Cert.algebraic_KernelIdeal_ReferenceIdeal := by
  intro m ρ m' ρ' hpre hagree
  refine ⟨fun c => Cert.KernelIdeal.KChain.tailAct (F := Ideal) (Cert.KernelIdeal.KNames.HA m ρ c : Cert.KernelIdeal.S115200x1.Idx → EReal),
    fun c => Cert.KernelIdeal.KChain.tailVal (F := Ideal) (Cert.KernelIdeal.KNames.HV m ρ c : Cert.KernelIdeal.S115200x1.Idx → EReal) (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KChain.outA m ρ c), (h c).2.1.trans (Cert.KernelIdeal.KChain.outV m ρ c), (h c).2.2⟩)
      (Cert.KernelIdeal.KRun.run (F := Ideal) m ρ)
  · refine (θ_run Cert.ReferenceIdeal.defs _ _).mono (fun _ h c => ⟨(h c).1.trans ?_, (h c).2.1.trans ?_, (h c).2.2⟩)
      (Cert.ReferenceIdeal.RefValue.run (F := Ideal) m' ρ')
    · obtain ⟨e0, e1, e2, e3, e4, e5, e6, e7, e8, e9, e10, e11, e12, e13, e14, e15, e16, e17, e18, e19, e20, e21, e22⟩ := hagree c
      exact act_eq' m ρ c (hpre c) _ _ _ _ _ _ _ _ _ _ _ _ _ _ _ _ _ _ _ _ e0 e1 e3 e4 e5 e6 e7 e8 e9 e10 e11 e12 e13 e14 e15 e16 e17 e18 e19 e20
    · obtain ⟨e0, e1, e2, e3, e4, e5, e6, e7, e8, e9, e10, e11, e12, e13, e14, e15, e16, e17, e18, e19, e20, e21, e22⟩ := hagree c
      exact val_eq' m ρ c (hpre c) _ _ _ _ _ _ _ _ _ _ _ _ _ _ _ _ _ _ _ _ _ e0 e1 e2 e3 e4 e5 e6 e7 e8 e9 e10 e11 e12 e13 e14 e15 e16 e17 e18 e21 e22

end Cert.Proof.Final

end
-- ==== Proof.lean ====
/-
  The certificate: a network of three graph layers, two dense layers normalised over the nodes and two heads, computed
  by eight tiled launches with host operations between them, against the same network written with plain array
  operations.  Every launch's frame is the generated one; the reference's frame is its run.  The idealization rewrote
  nothing.  The two idealized programs end with equal results because they differ only in how a variance is spelt and
  in how sums are grouped, and on finite inputs neither matters.
-/
import proofs.«167845_j85727547228621_1_alg».proof.Defs
import proofs.«167845_j85727547228621_1_alg».proof.Proof.Gen.Kernel
import proofs.«167845_j85727547228621_1_alg».proof.Proof.Gen.Kernel.Skeleton
import proofs.«167845_j85727547228621_1_alg».proof.Proof.Gen.Kernel.Launch
import proofs.«167845_j85727547228621_1_alg».proof.Proof.Gen.Kernel.Points
import proofs.«167845_j85727547228621_1_alg».proof.Proof.Gen.Kernel.Frame
import proofs.«167845_j85727547228621_1_alg».proof.Proof.Gen.KernelIdeal
import proofs.«167845_j85727547228621_1_alg».proof.Proof.Gen.KernelIdeal.Skeleton
import proofs.«167845_j85727547228621_1_alg».proof.Proof.Gen.KernelIdeal.Launch
import proofs.«167845_j85727547228621_1_alg».proof.Proof.Gen.KernelIdeal.Points
import proofs.«167845_j85727547228621_1_alg».proof.Proof.Gen.KernelIdeal.Frame
import proofs.«167845_j85727547228621_1_alg».proof.Proof.Gen.ReferenceIdeal
import proofs.«167845_j85727547228621_1_alg».proof.Proof.Gen.Pre_finite_inputs
import proofs.«167845_j85727547228621_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Final.frame_k, Final.frame_ki, Final.frame_ri, trivial, Final.algebraic⟩

end Cert.Proof

end
